-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x1024x1024 : Shape := ⟨3, ![8, 1024, 1024]⟩
abbrev S8x1024 : Shape := ⟨2, ![8, 1024]⟩
abbrev S4x16 : Shape := ⟨2, ![4, 16]⟩
abbrev S16 : Shape := ⟨1, ![16]⟩
abbrev S16x8 : Shape := ⟨2, ![16, 8]⟩
abbrev S8 : Shape := ⟨1, ![8]⟩
abbrev S_ : Shape := ⟨0, ![]⟩

class Facts : Prop where
  bcast_S_S8x1024x1024 : S_.BroadcastsInDim S8x1024x1024 (![] : Fin 0 → Fin S8x1024x1024.rank)
  reducesTo_S8x1024x1024_S_d0_1_2 : S8x1024x1024.ReducesTo [0, 1, 2] S_
  h_S_ : 0 < S_.numel
  bcast_S_S4x16 : S_.BroadcastsInDim S4x16 (![] : Fin 0 → Fin S4x16.rank)
  reducesTo_S4x16_S_d0_1 : S4x16.ReducesTo [0, 1] S_
  bcast_S_S16 : S_.BroadcastsInDim S16 (![] : Fin 0 → Fin S16.rank)
  reducesTo_S16_S_d0 : S16.ReducesTo [0] S_
  bcast_S_S16x8 : S_.BroadcastsInDim S16x8 (![] : Fin 0 → Fin S16x8.rank)
  reducesTo_S16x8_S_d0_1 : S16x8.ReducesTo [0, 1] S_
  bcast_S_S8 : S_.BroadcastsInDim S8 (![] : Fin 0 → Fin S8.rank)
  reducesTo_S8_S_d0 : S8.ReducesTo [0] S_

variable [Facts]

def fn_part1 {F : FTy → Type} [FloatOps F] (main_arg5 : FVec F S8 .f32) (main_v13 : IVec S_ 1) (main_v16 : IVec S16x8 1) : IVec S_ 1 :=
  let main_c_5 : IVec S_ 1 := constantI S_ 1 1#1
  let main_v17 : IVec S_ 1 := (fun x v => Host.reduce IntOp.andi x v reducesTo_S16x8_S_d0_1 h_S_) main_v16 main_c_5
  let main_v18 : IVec S_ 1 := andi main_v13 main_v17
  let main_v19 : FVec F S8 .f32 := Host.absf main_arg5
  let main_cst_6 : FVec F S_ .f32 := constant S_ .f32 0x7F800000#32
  let main_v20 : FVec F S8 .f32 := broadcastInDim S8 ![] bcast_S_S8 main_cst_6
  let main_v21 : IVec S8 1 := cmpf .olt main_v19 main_v20
  let main_c_7 : IVec S_ 1 := constantI S_ 1 1#1
  let main_v22 : IVec S_ 1 := (fun x v => Host.reduce IntOp.andi x v reducesTo_S8_S_d0 h_S_) main_v21 main_c_7
  let main_v23 : IVec S_ 1 := andi main_v18 main_v22
  main_v23

def fn {F : FTy → Type} [FloatOps F] (main_arg0 : FVec F S8x1024x1024 .f32) (main_arg1 : IVec S8x1024 1) (main_arg2 : FVec F S4x16 .f32) (main_arg3 : FVec F S16 .f32) (main_arg4 : FVec F S16x8 .f32) (main_arg5 : FVec F S8 .f32) : IVec S_ 1 :=
  let main_v0 : FVec F S8x1024x1024 .f32 := Host.absf main_arg0
  let main_cst : FVec F S_ .f32 := constant S_ .f32 0x7F800000#32
  let main_v1 : FVec F S8x1024x1024 .f32 := broadcastInDim S8x1024x1024 ![] bcast_S_S8x1024x1024 main_cst
  let main_v2 : IVec S8x1024x1024 1 := cmpf .olt main_v0 main_v1
  let main_c : IVec S_ 1 := constantI S_ 1 1#1
  let main_v3 : IVec S_ 1 := (fun x v => Host.reduce IntOp.andi x v reducesTo_S8x1024x1024_S_d0_1_2 h_S_) main_v2 main_c
  let main_v4 : FVec F S4x16 .f32 := Host.absf main_arg2
  let main_cst_0 : FVec F S_ .f32 := constant S_ .f32 0x7F800000#32
  let main_v5 : FVec F S4x16 .f32 := broadcastInDim S4x16 ![] bcast_S_S4x16 main_cst_0
  let main_v6 : IVec S4x16 1 := cmpf .olt main_v4 main_v5
  let main_c_1 : IVec S_ 1 := constantI S_ 1 1#1
  let main_v7 : IVec S_ 1 := (fun x v => Host.reduce IntOp.andi x v reducesTo_S4x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x8 .f32 := Host.absf main_arg4
  let main_cst_4 : FVec F S_ .f32 := constant S_ .f32 0x7F800000#32
  let main_v15 : FVec F S16x8 .f32 := broadcastInDim S16x8 ![] bcast_S_S16x8 main_cst_4
  let main_v16 : IVec S16x8 1 := cmpf .olt main_v14 main_v15
  fn_part1 (F := F) main_arg5 main_v13 main_v16
-- ==== Kernel.lean ====
abbrev S8x1024x1024 : Shape := ⟨3, ![8, 1024, 1024]⟩
abbrev S8x1024 : Shape := ⟨2, ![8, 1024]⟩
abbrev S4x16 : Shape := ⟨2, ![4, 16]⟩
abbrev S16 : Shape := ⟨1, ![16]⟩
abbrev S16x8 : Shape := ⟨2, ![16, 8]⟩
abbrev S8 : Shape := ⟨1, ![8]⟩
abbrev S8x1024x1 : Shape := ⟨3, ![8, 1024, 1]⟩
abbrev S8x1x1024 : Shape := ⟨3, ![8, 1, 1024]⟩
abbrev S1x512x1024 : Shape := ⟨3, ![1, 512, 1024]⟩
abbrev S1x512x1 : Shape := ⟨3, ![1, 512, 1]⟩
abbrev S1x1x1024 : Shape := ⟨3, ![1, 1, 1024]⟩
abbrev S512x1024 : Shape := ⟨2, ![512, 1024]⟩
abbrev S512 : Shape := ⟨1, ![512]⟩
abbrev S1024 : Shape := ⟨1, ![1024]⟩
abbrev S512x1 : Shape := ⟨2, ![512, 1]⟩
abbrev S1x1024 : Shape := ⟨2, ![1, 1024]⟩
abbrev S1x1024x1024 : Shape := ⟨3, ![1, 1024, 1024]⟩
abbrev S1024x1024 : Shape := ⟨2, ![1024, 1024]⟩
abbrev S8x8x1024x1024 : Shape := ⟨4, ![8, 8, 1024, 1024]⟩
abbrev S1x8x512x1024 : Shape := ⟨4, ![1, 8, 512, 1024]⟩
abbrev S1x1 : Shape := ⟨2, ![1, 1]⟩
abbrev S1 : Shape := ⟨1, ![1]⟩
abbrev S8x512x1024 : Shape := ⟨3, ![8, 512, 1024]⟩
abbrev S8x1024x1024x8 : Shape := ⟨4, ![8, 1024, 1024, 8]⟩

abbrev nBuf : Space → Nat
  | .hbm => 14
  | .vmem => 36
  | .smem => 0
  | _ => 0

abbrev bufTy : (tb : Table) → Fin (tcTables nBuf tb) → BufTy
  | .hbm, ⟨0, _⟩ => ⟨S8x1024x1024, .f32⟩
  | .hbm, ⟨1, _⟩ => ⟨S8x1024, .i1⟩
  | .hbm, ⟨2, _⟩ => ⟨S4x16, .f32⟩
  | .hbm, ⟨3, _⟩ => ⟨S16, .f32⟩
  | .hbm, ⟨4, _⟩ => ⟨S16x8, .f32⟩
  | .hbm, ⟨5, _⟩ => ⟨S8, .f32⟩
  | .hbm, ⟨6, _⟩ => ⟨S8x1024, .f32⟩
  | .hbm, ⟨7, _⟩ => ⟨S8x1024x1, .f32⟩
  | .hbm, ⟨8, _⟩ => ⟨S8x1x1024, .f32⟩
  | .hbm, ⟨9, _⟩ => ⟨S8x1024x1024, .f32⟩
  | .hbm, ⟨10, _⟩ => ⟨S8x1024x1024, .f32⟩
  | .hbm, ⟨11, _⟩ => ⟨S8x1024x1024, .f32⟩
  | .hbm, ⟨12, _⟩ => ⟨S8x8x1024x1024, .f32⟩
  | .hbm, ⟨13, _⟩ => ⟨S8x1024x1024x8, .f32⟩
  | .local _ .vmem, ⟨0, _⟩ => ⟨S1x512x1024, .f32⟩
  | .local _ .vmem, ⟨1, _⟩ => ⟨S1x512x1024, .f32⟩
  | .local _ .vmem, ⟨2, _⟩ => ⟨S1x512x1, .f32⟩
  | .local _ .vmem, ⟨3, _⟩ => ⟨S1x512x1, .f32⟩
  | .local _ .vmem, ⟨4, _⟩ => ⟨S1x1x1024, .f32⟩
  | .local _ .vmem, ⟨5, _⟩ => ⟨S1x1x1024, .f32⟩
  | .local _ .vmem, ⟨6, _⟩ => ⟨S1x512x1024, .f32⟩
  | .local _ .vmem, ⟨7, _⟩ => ⟨S1x512x1024, .f32⟩
  | .local _ .vmem, ⟨8, _⟩ => ⟨S1x1024x1024, .f32⟩
  | .local _ .vmem, ⟨9, _⟩ => ⟨S1x1024x1024, .f32⟩
  | .local _ .vmem, ⟨10, _⟩ => ⟨S1x1024x1024, .f32⟩
  | .local _ .vmem, ⟨11, _⟩ => ⟨S1x1024x1024, .f32⟩
  | .local _ .vmem, ⟨12, _⟩ => ⟨S1x1024x1024, .f32⟩
  | .local _ .vmem, ⟨13, _⟩ => ⟨S1x1024x1024, .f32⟩
  | .local _ .vmem, ⟨14, _⟩ => ⟨S1x1024x1024, .f32⟩
  | .local _ .vmem, ⟨15, _⟩ => ⟨S1x1024x1024, .f32⟩
  | .local _ .vmem, ⟨16, _⟩ => ⟨S1x1024x1024, .f32⟩
  | .local _ .vmem, ⟨17, _⟩ => ⟨S1x1024x1024, .f32⟩
  | .local _ .vmem, ⟨18, _⟩ => ⟨S1x1024x1024, .f32⟩
  | .local _ .vmem, ⟨19, _⟩ => ⟨S1x1024x1024, .f32⟩
  | .local _ .vmem, ⟨20, _⟩ => ⟨S1x512x1024, .f32⟩
  | .local _ .vmem, ⟨21, _⟩ => ⟨S1x512x1024, .f32⟩
  | .local _ .vmem, ⟨22, _⟩ => ⟨S1x512x1024, .f32⟩
  | .local _ .vmem, ⟨23, _⟩ => ⟨S1x512x1024, .f32⟩
  | .local _ .vmem, ⟨24, _⟩ => ⟨S1x512x1024, .f32⟩
  | .local _ .vmem, ⟨25, _⟩ => ⟨S1x512x1024, .f32⟩
  | .local _ .vmem, ⟨26, _⟩ => ⟨S1x512x1, .f32⟩
  | .local _ .vmem, ⟨27, _⟩ => ⟨S1x512x1, .f32⟩
  | .local _ .vmem, ⟨28, _⟩ => ⟨S1x1x1024, .f32⟩
  | .local _ .vmem, ⟨29, _⟩ => ⟨S1x1x1024, .f32⟩
  | .local _ .vmem, ⟨30, _⟩ => ⟨S4x16, .f32⟩
  | .local _ .vmem, ⟨31, _⟩ => ⟨S16, .f32⟩
  | .local _ .vmem, ⟨32, _⟩ => ⟨S16x8, .f32⟩
  | .local _ .vmem, ⟨33, _⟩ => ⟨S8, .f32⟩
  | .local _ .vmem, ⟨34, _⟩ => ⟨S1x8x512x1024, .f32⟩
  | .local _ .vmem, ⟨35, _⟩ => ⟨S1x8x512x1024, .f32⟩
  | _, _ => ⟨S8x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg1_1 : Ref sig .tc := ⟨.vmem, 23, rfl⟩
abbrev cc3_stg2_0 : Ref sig .tc := ⟨.vmem, 24, rfl⟩
abbrev cc3_stg2_1 : Ref sig .tc := ⟨.vmem, 25, rfl⟩
abbrev cc3_stg3_0 : Ref sig .tc := ⟨.vmem, 26, rfl⟩
abbrev cc3_stg3_1 : Ref sig .tc := ⟨.vmem, 27, rfl⟩
abbrev cc3_stg4_0 : Ref sig .tc := ⟨.vmem, 28, rfl⟩
abbrev cc3_stg4_1 : Ref sig .tc := ⟨.vmem, 29, rfl⟩
abbrev cc3_stg5_0 : Ref sig .tc := ⟨.vmem, 30, rfl⟩
abbrev cc3_stg6_0 : Ref sig .tc := ⟨.vmem, 31, rfl⟩
abbrev cc3_stg7_0 : Ref sig .tc := ⟨.vmem, 32, rfl⟩
abbrev cc3_stg8_0 : Ref sig .tc := ⟨.vmem, 33, rfl⟩
abbrev cc3_stg9_0 : Ref sig .tc := ⟨.vmem, 34, rfl⟩
abbrev cc3_stg9_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem2_1 : DmaSem sig := 19
abbrev cc3_sem0_0 : DmaSem sig := 20
abbrev cc3_sem0_1 : DmaSem sig := 21
abbrev cc3_sem1_0 : DmaSem sig := 22
abbrev cc3_sem1_1 : DmaSem sig := 23
abbrev cc3_sem2_0 : DmaSem sig := 24
abbrev cc3_sem2_1 : DmaSem sig := 25
abbrev cc3_sem3_0 : DmaSem sig := 26
abbrev cc3_sem3_1 : DmaSem sig := 27
abbrev cc3_sem4_0 : DmaSem sig := 28
abbrev cc3_sem4_1 : DmaSem sig := 29
abbrev cc3_sem5_0 : DmaSem sig := 30
abbrev cc3_sem6_0 : DmaSem sig := 31
abbrev cc3_sem7_0 : DmaSem sig := 32
abbrev cc3_sem8_0 : DmaSem sig := 33
abbrev cc3_sem9_0 : DmaSem sig := 34
abbrev cc3_sem9_1 : DmaSem sig := 35

abbrev nD : Nat := 1
abbrev τ : Topo := Topo.v7x

variable {F : FTy → Type} [FloatOps F]

abbrev grid0 : Pipeline.Grid := ⟨2, ![8, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨1, ![8], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x1024x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![8], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1x1024x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1x1024x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1x1024x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨2, ![8, 2], ![false, false]⟩

def cc3_transform_0 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_1 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_2 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_3 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_4 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc3_transform_5 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc3_transform_7 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc3_transform_9 (i : grid3.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage3_0 : Fin 2 → Memref sig .tc .vmem S1x512x1024 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S1x512x1024 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, true]

abbrev stage3_2 : Fin 2 → Memref sig .tc .vmem S1x512x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev stage3_3 : Fin 2 → Memref sig .tc .vmem S1x512x1 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true]

abbrev stage3_4 : Fin 2 → Memref sig .tc .vmem S1x1x1024 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, false]

abbrev stage3_5 : Fin 1 → Memref sig .tc .vmem S4x16 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false, false]

abbrev stage3_6 : Fin 1 → Memref sig .tc .vmem S16 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false, false]

abbrev stage3_7 : Fin 1 → Memref sig .tc .vmem S16x8 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false, false]

abbrev stage3_8 : Fin 1 → Memref sig .tc .vmem S8 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false, false]

abbrev stage3_9 : Fin 2 → Memref sig .tc .vmem S1x8x512x1024 .f32 := fun | 0 => Memref.whole cc3_stg9_0 | 1 => Memref.whole cc3_stg9_1 | ⟨_ + 2, h⟩ => absurd h (Nat.not_lt.2 (Nat.le_add_left _ _))
abbrev sem3_9 : Fin 2 → DmaSem sig := fun | 0 => cc3_sem9_0 | 1 => cc3_sem9_1 | ⟨_ + 2, h⟩ => absurd h (Nat.not_lt.2 (Nat.le_add_left _ _))
abbrev reads3_9 : Fin grid3.rank → Bool := ![true, true]

class Facts₀ : Prop where
  shapeCasts_S8x1024_S8x1024x1 : S8x1024.ShapeCasts S8x1024x1
  shapeCasts_S8x1024_S8x1x1024 : S8x1024.ShapeCasts S8x1x1024
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  inb_S1x512x1_S1x512x1_0_0_0 : ∀ a, (![0, 0, 0] : Fin 3 → Nat) a + S1x512x1.size a ≤ S1x512x1.size a
  h_S1x512x1 : 0 < S1x512x1.numel
  shapeCasts_S1x512x1_S1x512x1 : S1x512x1.ShapeCasts S1x512x1
  shapeCasts_S1x512x1_S512 : S1x512x1.ShapeCasts S512
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1x1024 : S1x1x1024.ShapeCasts S1x1x1024
  shapeCasts_S1x1x1024_S1024 : S1x1x1024.ShapeCasts S1024
  shapeCasts_S512_S512x1 : S512.ShapeCasts S512x1
  shapeCasts_S1024_S1x1024 : S1024.ShapeCasts S1x1024
  broadcasts_S512x1_S512x1024 : S512x1.Broadcasts S512x1024
  broadcasts_S1x1024_S512x1024 : S1x1024.Broadcasts S512x1024
  reduces_S512x1024_S512 : S512x1024.Reduces [1] S512
  shapeCasts_S512x1024_S1x512x1024 : S512x1024.ShapeCasts S1x512x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  shapeCasts_S1024x1024_S1x1024x1024 : S1024x1024.ShapeCasts S1x1024x1024
  iota_S512x1024_d0_w32 : S512x1024.Iotas .tc 32 [0]
  iota_S512x1024_d1_w32 : S512x1024.Iotas .tc 32 [1]
  shapeCasts_S512x1_S512x1 : S512x1.ShapeCasts S512x1
  inb_S4x16_S4x16_0_0 : ∀ a, (![0, 0] : Fin 2 → Nat) a + S4x16.size a ≤ S4x16.size a
  h_S4x16 : 0 < S4x16.numel
  inb_S16_S16_0 : ∀ a, (![0] : Fin 1 → Nat) a + S16.size a ≤ S16.size a
  h_S16 : 0 < S16.numel
  inb_S16x8_S16x8_0_0 : ∀ a, (![0, 0] : Fin 2 → Nat) a + S16x8.size a ≤ S16x8.size a
  h_S16x8 : 0 < S16x8.numel
  inb_S8_S8_0 : ∀ a, (![0] : Fin 1 → Nat) a + S8.size a ≤ S8.size a
  h_S8 : 0 < S8.numel
  slices_S4x16_o0_0_S1x1 : S4x16.Slices ![0, 0] S1x1
  inpos_S1x1_p0_0 : ∀ a, (![0, 0] : Fin 2 → Nat) a < S1x1.size a
  slices_S4x16_o1_0_S1x1 : S4x16.Slices ![1, 0] S1x1
  slices_S4x16_o2_0_S1x1 : S4x16.Slices ![2, 0] S1x1
  slices_S4x16_o3_0_S1x1 : S4x16.Slices ![3, 0] S1x1
  slices_S16_o0_S1 : S16.Slices ![0] S1
  inpos_S1_p0 : ∀ a, (![0] : Fin 1 → Nat) a < S1.size a
  slices_S4x16_o0_1_S1x1 : S4x16.Slices ![0, 1] S1x1
  slices_S4x16_o1_1_S1x1 : S4x16.Slices ![1, 1] S1x1
  slices_S4x16_o2_1_S1x1 : S4x16.Slices ![2, 1] S1x1
  slices_S4x16_o3_1_S1x1 : S4x16.Slices ![3, 1] S1x1
  slices_S16_o1_S1 : S16.Slices ![1] S1
  slices_S4x16_o0_2_S1x1 : S4x16.Slices ![0, 2] S1x1
  slices_S4x16_o1_2_S1x1 : S4x16.Slices ![1, 2] S1x1
  slices_S4x16_o2_2_S1x1 : S4x16.Slices ![2, 2] S1x1
  slices_S4x16_o3_2_S1x1 : S4x16.Slices ![3, 2] S1x1
  slices_S16_o2_S1 : S16.Slices ![2] S1
  slices_S4x16_o0_3_S1x1 : S4x16.Slices ![0, 3] S1x1
  slices_S4x16_o1_3_S1x1 : S4x16.Slices ![1, 3] S1x1
  slices_S4x16_o2_3_S1x1 : S4x16.Slices ![2, 3] S1x1
  slices_S4x16_o3_3_S1x1 : S4x16.Slices ![3, 3] S1x1
  slices_S16_o3_S1 : S16.Slices ![3] S1
  slices_S4x16_o0_4_S1x1 : S4x16.Slices ![0, 4] S1x1
  slices_S4x16_o1_4_S1x1 : S4x16.Slices ![1, 4] S1x1
  slices_S4x16_o2_4_S1x1 : S4x16.Slices ![2, 4] S1x1
  slices_S4x16_o3_4_S1x1 : S4x16.Slices ![3, 4] S1x1
  slices_S16_o4_S1 : S16.Slices ![4] S1
  slices_S4x16_o0_5_S1x1 : S4x16.Slices ![0, 5] S1x1
  slices_S4x16_o1_5_S1x1 : S4x16.Slices ![1, 5] S1x1
  slices_S4x16_o2_5_S1x1 : S4x16.Slices ![2, 5] S1x1
  slices_S4x16_o3_5_S1x1 : S4x16.Slices ![3, 5] S1x1
  slices_S16_o5_S1 : S16.Slices ![5] S1
  slices_S4x16_o0_6_S1x1 : S4x16.Slices ![0, 6] S1x1
  slices_S4x16_o1_6_S1x1 : S4x16.Slices ![1, 6] S1x1
  slices_S4x16_o2_6_S1x1 : S4x16.Slices ![2, 6] S1x1
  slices_S4x16_o3_6_S1x1 : S4x16.Slices ![3, 6] S1x1
  slices_S16_o6_S1 : S16.Slices ![6] S1
  slices_S4x16_o0_7_S1x1 : S4x16.Slices ![0, 7] S1x1
  slices_S4x16_o1_7_S1x1 : S4x16.Slices ![1, 7] S1x1
  slices_S4x16_o2_7_S1x1 : S4x16.Slices ![2, 7] S1x1
  slices_S4x16_o3_7_S1x1 : S4x16.Slices ![3, 7] S1x1
  slices_S16_o7_S1 : S16.Slices ![7] S1
  slices_S4x16_o0_8_S1x1 : S4x16.Slices ![0, 8] S1x1
  slices_S4x16_o1_8_S1x1 : S4x16.Slices ![1, 8] S1x1
  slices_S4x16_o2_8_S1x1 : S4x16.Slices ![2, 8] S1x1
  slices_S4x16_o3_8_S1x1 : S4x16.Slices ![3, 8] S1x1
  slices_S16_o8_S1 : S16.Slices ![8] S1
  slices_S4x16_o0_9_S1x1 : S4x16.Slices ![0, 9] S1x1
  slices_S4x16_o1_9_S1x1 : S4x16.Slices ![1, 9] S1x1
  slices_S4x16_o2_9_S1x1 : S4x16.Slices ![2, 9] S1x1
  slices_S4x16_o3_9_S1x1 : S4x16.Slices ![3, 9] S1x1
  slices_S16_o9_S1 : S16.Slices ![9] S1
  slices_S4x16_o0_10_S1x1 : S4x16.Slices ![0, 10] S1x1
  slices_S4x16_o1_10_S1x1 : S4x16.Slices ![1, 10] S1x1
  slices_S4x16_o2_10_S1x1 : S4x16.Slices ![2, 10] S1x1
  slices_S4x16_o3_10_S1x1 : S4x16.Slices ![3, 10] S1x1
  slices_S16_o10_S1 : S16.Slices ![10] S1
  slices_S4x16_o0_11_S1x1 : S4x16.Slices ![0, 11] S1x1
  slices_S4x16_o1_11_S1x1 : S4x16.Slices ![1, 11] S1x1
  slices_S4x16_o2_11_S1x1 : S4x16.Slices ![2, 11] S1x1
  slices_S4x16_o3_11_S1x1 : S4x16.Slices ![3, 11] S1x1
  slices_S16_o11_S1 : S16.Slices ![11] S1
  slices_S4x16_o0_12_S1x1 : S4x16.Slices ![0, 12] S1x1
  slices_S4x16_o1_12_S1x1 : S4x16.Slices ![1, 12] S1x1
  slices_S4x16_o2_12_S1x1 : S4x16.Slices ![2, 12] S1x1
  slices_S4x16_o3_12_S1x1 : S4x16.Slices ![3, 12] S1x1
  slices_S16_o12_S1 : S16.Slices ![12] S1
  slices_S4x16_o0_13_S1x1 : S4x16.Slices ![0, 13] S1x1
  slices_S4x16_o1_13_S1x1 : S4x16.Slices ![1, 13] S1x1
  slices_S4x16_o2_13_S1x1 : S4x16.Slices ![2, 13] S1x1
  slices_S4x16_o3_13_S1x1 : S4x16.Slices ![3, 13] S1x1
  slices_S16_o13_S1 : S16.Slices ![13] S1
  slices_S4x16_o0_14_S1x1 : S4x16.Slices ![0, 14] S1x1
  slices_S4x16_o1_14_S1x1 : S4x16.Slices ![1, 14] S1x1
  slices_S4x16_o2_14_S1x1 : S4x16.Slices ![2, 14] S1x1
  slices_S4x16_o3_14_S1x1 : S4x16.Slices ![3, 14] S1x1
  slices_S16_o14_S1 : S16.Slices ![14] S1
  slices_S4x16_o0_15_S1x1 : S4x16.Slices ![0, 15] S1x1
  slices_S4x16_o1_15_S1x1 : S4x16.Slices ![1, 15] S1x1
  slices_S4x16_o2_15_S1x1 : S4x16.Slices ![2, 15] S1x1
  slices_S4x16_o3_15_S1x1 : S4x16.Slices ![3, 15] S1x1
  slices_S16_o15_S1 : S16.Slices ![15] S1
  slices_S16x8_o0_0_S1x1 : S16x8.Slices ![0, 0] S1x1
  slices_S16x8_o1_0_S1x1 : S16x8.Slices ![1, 0] S1x1
  slices_S16x8_o2_0_S1x1 : S16x8.Slices ![2, 0] S1x1
  slices_S16x8_o3_0_S1x1 : S16x8.Slices ![3, 0] S1x1
  slices_S16x8_o4_0_S1x1 : S16x8.Slices ![4, 0] S1x1
  slices_S16x8_o5_0_S1x1 : S16x8.Slices ![5, 0] S1x1
  slices_S16x8_o6_0_S1x1 : S16x8.Slices ![6, 0] S1x1
  slices_S16x8_o7_0_S1x1 : S16x8.Slices ![7, 0] S1x1
  slices_S16x8_o8_0_S1x1 : S16x8.Slices ![8, 0] S1x1
  slices_S16x8_o9_0_S1x1 : S16x8.Slices ![9, 0] S1x1
  slices_S16x8_o10_0_S1x1 : S16x8.Slices ![10, 0] S1x1
  slices_S16x8_o11_0_S1x1 : S16x8.Slices ![11, 0] S1x1
  slices_S16x8_o12_0_S1x1 : S16x8.Slices ![12, 0] S1x1
  slices_S16x8_o13_0_S1x1 : S16x8.Slices ![13, 0] S1x1
  slices_S16x8_o14_0_S1x1 : S16x8.Slices ![14, 0] S1x1
  slices_S16x8_o15_0_S1x1 : S16x8.Slices ![15, 0] S1x1
  slices_S8_o0_S1 : S8.Slices ![0] S1
  slices_S16x8_o0_1_S1x1 : S16x8.Slices ![0, 1] S1x1
  slices_S16x8_o1_1_S1x1 : S16x8.Slices ![1, 1] S1x1
  slices_S16x8_o2_1_S1x1 : S16x8.Slices ![2, 1] S1x1
  slices_S16x8_o3_1_S1x1 : S16x8.Slices ![3, 1] S1x1
  slices_S16x8_o4_1_S1x1 : S16x8.Slices ![4, 1] S1x1
  slices_S16x8_o5_1_S1x1 : S16x8.Slices ![5, 1] S1x1
  slices_S16x8_o6_1_S1x1 : S16x8.Slices ![6, 1] S1x1
  slices_S16x8_o7_1_S1x1 : S16x8.Slices ![7, 1] S1x1
  slices_S16x8_o8_1_S1x1 : S16x8.Slices ![8, 1] S1x1
  slices_S16x8_o9_1_S1x1 : S16x8.Slices ![9, 1] S1x1
  slices_S16x8_o10_1_S1x1 : S16x8.Slices ![10, 1] S1x1
  slices_S16x8_o11_1_S1x1 : S16x8.Slices ![11, 1] S1x1
  slices_S16x8_o12_1_S1x1 : S16x8.Slices ![12, 1] S1x1
  slices_S16x8_o13_1_S1x1 : S16x8.Slices ![13, 1] S1x1
  slices_S16x8_o14_1_S1x1 : S16x8.Slices ![14, 1] S1x1
  slices_S16x8_o15_1_S1x1 : S16x8.Slices ![15, 1] S1x1
  slices_S8_o1_S1 : S8.Slices ![1] S1
  slices_S16x8_o0_2_S1x1 : S16x8.Slices ![0, 2] S1x1
  slices_S16x8_o1_2_S1x1 : S16x8.Slices ![1, 2] S1x1
  slices_S16x8_o2_2_S1x1 : S16x8.Slices ![2, 2] S1x1
  slices_S16x8_o3_2_S1x1 : S16x8.Slices ![3, 2] S1x1
  slices_S16x8_o4_2_S1x1 : S16x8.Slices ![4, 2] S1x1
  slices_S16x8_o5_2_S1x1 : S16x8.Slices ![5, 2] S1x1
  slices_S16x8_o6_2_S1x1 : S16x8.Slices ![6, 2] S1x1
  slices_S16x8_o7_2_S1x1 : S16x8.Slices ![7, 2] S1x1
  slices_S16x8_o8_2_S1x1 : S16x8.Slices ![8, 2] S1x1
  slices_S16x8_o9_2_S1x1 : S16x8.Slices ![9, 2] S1x1
  slices_S16x8_o10_2_S1x1 : S16x8.Slices ![10, 2] S1x1
  slices_S16x8_o11_2_S1x1 : S16x8.Slices ![11, 2] S1x1
  slices_S16x8_o12_2_S1x1 : S16x8.Slices ![12, 2] S1x1
  slices_S16x8_o13_2_S1x1 : S16x8.Slices ![13, 2] S1x1
  slices_S16x8_o14_2_S1x1 : S16x8.Slices ![14, 2] S1x1
  slices_S16x8_o15_2_S1x1 : S16x8.Slices ![15, 2] S1x1
  slices_S8_o2_S1 : S8.Slices ![2] S1
  slices_S16x8_o0_3_S1x1 : S16x8.Slices ![0, 3] S1x1
  slices_S16x8_o1_3_S1x1 : S16x8.Slices ![1, 3] S1x1
  slices_S16x8_o2_3_S1x1 : S16x8.Slices ![2, 3] S1x1
  slices_S16x8_o3_3_S1x1 : S16x8.Slices ![3, 3] S1x1
  slices_S16x8_o4_3_S1x1 : S16x8.Slices ![4, 3] S1x1
  slices_S16x8_o5_3_S1x1 : S16x8.Slices ![5, 3] S1x1
  slices_S16x8_o6_3_S1x1 : S16x8.Slices ![6, 3] S1x1
  slices_S16x8_o7_3_S1x1 : S16x8.Slices ![7, 3] S1x1
  slices_S16x8_o8_3_S1x1 : S16x8.Slices ![8, 3] S1x1
  slices_S16x8_o9_3_S1x1 : S16x8.Slices ![9, 3] S1x1
  slices_S16x8_o10_3_S1x1 : S16x8.Slices ![10, 3] S1x1
  slices_S16x8_o11_3_S1x1 : S16x8.Slices ![11, 3] S1x1
  slices_S16x8_o12_3_S1x1 : S16x8.Slices ![12, 3] S1x1
  slices_S16x8_o13_3_S1x1 : S16x8.Slices ![13, 3] S1x1
  slices_S16x8_o14_3_S1x1 : S16x8.Slices ![14, 3] S1x1
  slices_S16x8_o15_3_S1x1 : S16x8.Slices ![15, 3] S1x1
  slices_S8_o3_S1 : S8.Slices ![3] S1
  slices_S16x8_o0_4_S1x1 : S16x8.Slices ![0, 4] S1x1
  slices_S16x8_o1_4_S1x1 : S16x8.Slices ![1, 4] S1x1
  slices_S16x8_o2_4_S1x1 : S16x8.Slices ![2, 4] S1x1
  slices_S16x8_o3_4_S1x1 : S16x8.Slices ![3, 4] S1x1
  slices_S16x8_o4_4_S1x1 : S16x8.Slices ![4, 4] S1x1
  slices_S16x8_o5_4_S1x1 : S16x8.Slices ![5, 4] S1x1
  slices_S16x8_o6_4_S1x1 : S16x8.Slices ![6, 4] S1x1
  slices_S16x8_o7_4_S1x1 : S16x8.Slices ![7, 4] S1x1
  slices_S16x8_o8_4_S1x1 : S16x8.Slices ![8, 4] S1x1
  slices_S16x8_o9_4_S1x1 : S16x8.Slices ![9, 4] S1x1
  slices_S16x8_o10_4_S1x1 : S16x8.Slices ![10, 4] S1x1
  slices_S16x8_o11_4_S1x1 : S16x8.Slices ![11, 4] S1x1
  slices_S16x8_o12_4_S1x1 : S16x8.Slices ![12, 4] S1x1
  slices_S16x8_o13_4_S1x1 : S16x8.Slices ![13, 4] S1x1
  slices_S16x8_o14_4_S1x1 : S16x8.Slices ![14, 4] S1x1
  slices_S16x8_o15_4_S1x1 : S16x8.Slices ![15, 4] S1x1
  slices_S8_o4_S1 : S8.Slices ![4] S1
  slices_S16x8_o0_5_S1x1 : S16x8.Slices ![0, 5] S1x1
  slices_S16x8_o1_5_S1x1 : S16x8.Slices ![1, 5] S1x1
  slices_S16x8_o2_5_S1x1 : S16x8.Slices ![2, 5] S1x1
  slices_S16x8_o3_5_S1x1 : S16x8.Slices ![3, 5] S1x1
  slices_S16x8_o4_5_S1x1 : S16x8.Slices ![4, 5] S1x1
  slices_S16x8_o5_5_S1x1 : S16x8.Slices ![5, 5] S1x1
  slices_S16x8_o6_5_S1x1 : S16x8.Slices ![6, 5] S1x1
  slices_S16x8_o7_5_S1x1 : S16x8.Slices ![7, 5] S1x1
  slices_S16x8_o8_5_S1x1 : S16x8.Slices ![8, 5] S1x1
  slices_S16x8_o9_5_S1x1 : S16x8.Slices ![9, 5] S1x1
  slices_S16x8_o10_5_S1x1 : S16x8.Slices ![10, 5] S1x1
  slices_S16x8_o11_5_S1x1 : S16x8.Slices ![11, 5] S1x1
  slices_S16x8_o12_5_S1x1 : S16x8.Slices ![12, 5] S1x1
  slices_S16x8_o13_5_S1x1 : S16x8.Slices ![13, 5] S1x1
  slices_S16x8_o14_5_S1x1 : S16x8.Slices ![14, 5] S1x1
  slices_S16x8_o15_5_S1x1 : S16x8.Slices ![15, 5] S1x1
  slices_S8_o5_S1 : S8.Slices ![5] S1
  slices_S16x8_o0_6_S1x1 : S16x8.Slices ![0, 6] S1x1
  slices_S16x8_o1_6_S1x1 : S16x8.Slices ![1, 6] S1x1
  slices_S16x8_o2_6_S1x1 : S16x8.Slices ![2, 6] S1x1
  slices_S16x8_o3_6_S1x1 : S16x8.Slices ![3, 6] S1x1
  slices_S16x8_o4_6_S1x1 : S16x8.Slices ![4, 6] S1x1
  slices_S16x8_o5_6_S1x1 : S16x8.Slices ![5, 6] S1x1
  slices_S16x8_o6_6_S1x1 : S16x8.Slices ![6, 6] S1x1
  slices_S16x8_o7_6_S1x1 : S16x8.Slices ![7, 6] S1x1
  slices_S16x8_o8_6_S1x1 : S16x8.Slices ![8, 6] S1x1
  slices_S16x8_o9_6_S1x1 : S16x8.Slices ![9, 6] S1x1
  slices_S16x8_o10_6_S1x1 : S16x8.Slices ![10, 6] S1x1
  slices_S16x8_o11_6_S1x1 : S16x8.Slices ![11, 6] S1x1
  slices_S16x8_o12_6_S1x1 : S16x8.Slices ![12, 6] S1x1
  slices_S16x8_o13_6_S1x1 : S16x8.Slices ![13, 6] S1x1
  slices_S16x8_o14_6_S1x1 : S16x8.Slices ![14, 6] S1x1
  slices_S16x8_o15_6_S1x1 : S16x8.Slices ![15, 6] S1x1
  slices_S8_o6_S1 : S8.Slices ![6] S1
  slices_S16x8_o0_7_S1x1 : S16x8.Slices ![0, 7] S1x1
  slices_S16x8_o1_7_S1x1 : S16x8.Slices ![1, 7] S1x1
  slices_S16x8_o2_7_S1x1 : S16x8.Slices ![2, 7] S1x1
  slices_S16x8_o3_7_S1x1 : S16x8.Slices ![3, 7] S1x1
  slices_S16x8_o4_7_S1x1 : S16x8.Slices ![4, 7] S1x1
  slices_S16x8_o5_7_S1x1 : S16x8.Slices ![5, 7] S1x1
  slices_S16x8_o6_7_S1x1 : S16x8.Slices ![6, 7] S1x1
  slices_S16x8_o7_7_S1x1 : S16x8.Slices ![7, 7] S1x1
  slices_S16x8_o8_7_S1x1 : S16x8.Slices ![8, 7] S1x1
  slices_S16x8_o9_7_S1x1 : S16x8.Slices ![9, 7] S1x1
  slices_S16x8_o10_7_S1x1 : S16x8.Slices ![10, 7] S1x1
  slices_S16x8_o11_7_S1x1 : S16x8.Slices ![11, 7] S1x1
  slices_S16x8_o12_7_S1x1 : S16x8.Slices ![12, 7] S1x1
  slices_S16x8_o13_7_S1x1 : S16x8.Slices ![13, 7] S1x1
  slices_S16x8_o14_7_S1x1 : S16x8.Slices ![14, 7] S1x1
  slices_S16x8_o15_7_S1x1 : S16x8.Slices ![15, 7] S1x1
  slices_S8_o7_S1 : S8.Slices ![7] S1
  concatenates_S1x512x1024_S1x512x1024_S1x512x1024_S1x512x1024_S1x512x1024_S1x512x1024_S1x512x1024_S1x512x1024_S8x512x1024_d0 : Shape.Concatenates [S1x512x1024, S1x512x1024, S1x512x1024, S1x512x1024, S1x512x1024, S1x512x1024, S1x512x1024, S1x512x1024] S8x512x1024 0
  inb_S1x8x512x1024_S1x8x512x1024_0_0_0_0 : ∀ a, (![0, 0, 0, 0] : Fin 4 → Nat) a + S1x8x512x1024.size a ≤ S1x8x512x1024.size a
  h_S1x8x512x1024 : 0 < S1x8x512x1024.numel
  shapeCasts_S1x8x512x1024_S8x512x1024 : S1x8x512x1024.ShapeCasts S8x512x1024
  shapeCasts_S8x512x1024_S1x8x512x1024 : S8x512x1024.ShapeCasts S1x8x512x1024
  transposes_S8x8x1024x1024_S8x1024x1024x8_0_2_3_1 : S8x8x1024x1024.Transposes [0, 2, 3, 1] S8x1024x1024x8
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S8x1024x1024.size a
  hwx0_0 : ∀ i : grid0.Coords, EltTy.bits .f32 = 32 ∨ (Rect.block (s := S8x1024x1024) S1x512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x1.size a ≤ S8x1024x1.size a
  hwx0_1 : ∀ i : grid0.Coords, EltTy.bits .f32 = 32 ∨ (Rect.block (s := S8x1024x1) S1x512x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1024.size a ≤ S8x1x1024.size a
  hwx0_2 : ∀ i : grid0.Coords, EltTy.bits .f32 = 32 ∨ (Rect.block (s := S8x1x1024) S1x1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x1024.size a ≤ S8x1024x1024.size a
  hwx0_3 : ∀ i : grid0.Coords, EltTy.bits .f32 = 32 ∨ (Rect.block (s := S8x1024x1024) S1x512x1024.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x1024.size a ≤ S8x1024x1024.size a
  hwx1_0 : ∀ i : grid1.Coords, EltTy.bits .f32 = 32 ∨ (Rect.block (s := S8x1024x1024) S1x1024x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1024x1024.size a ≤ S8x1024x1024.size a
  hwx1_1 : ∀ i : grid1.Coords, EltTy.bits .f32 = 32 ∨ (Rect.block (s := S8x1024x1024) S1x1024x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024x1024.size a ≤ S8x1024x1024.size a
  hwx1_2 : ∀ i : grid1.Coords, EltTy.bits .f32 = 32 ∨ (Rect.block (s := S8x1024x1024) S1x1024x1024.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x1024x1024.size a ≤ S8x1024x1024.size a
  hwx2_0 : ∀ i : grid2.Coords, EltTy.bits .f32 = 32 ∨ (Rect.block (s := S8x1024x1024) S1x1024x1024.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x1024x1024.size a ≤ S8x1024x1024.size a
  hwx2_1 : ∀ i : grid2.Coords, EltTy.bits .f32 = 32 ∨ (Rect.block (s := S8x1024x1024) S1x1024x1024.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x1024x1024.size a ≤ S8x1024x1024.size a
  hwx2_2 : ∀ i : grid2.Coords, EltTy.bits .f32 = 32 ∨ (Rect.block (s := S8x1024x1024) S1x1024x1024.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1x512x1024.size a ≤ S8x1024x1024.size a
  hwx3_0 : ∀ i : grid3.Coords, EltTy.bits .f32 = 32 ∨ (Rect.block (s := S8x1024x1024) S1x512x1024.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1x512x1024.size a ≤ S8x1024x1024.size a
  hwx3_1 : ∀ i : grid3.Coords, EltTy.bits .f32 = 32 ∨ (Rect.block (s := S8x1024x1024) S1x512x1024.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1x512x1024.size a ≤ S8x1024x1024.size a
  hwx3_2 : ∀ i : grid3.Coords, EltTy.bits .f32 = 32 ∨ (Rect.block (s := S8x1024x1024) S1x512x1024.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1x512x1.size a ≤ S8x1024x1.size a
  hwx3_3 : ∀ i : grid3.Coords, EltTy.bits .f32 = 32 ∨ (Rect.block (s := S8x1024x1) S1x512x1.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S1x1x1024.size a ≤ S8x1x1024.size a
  hwx3_4 : ∀ i : grid3.Coords, EltTy.bits .f32 = 32 ∨ (Rect.block (s := S8x1x1024) S1x1x1024.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S4x16.size a ≤ S4x16.size a
  hwx3_5 : ∀ i : grid3.Coords, EltTy.bits .f32 = 32 ∨ (Rect.block (s := S4x16) S4x16.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S16.size a ≤ S16.size a
  hwx3_6 : ∀ i : grid3.Coords, EltTy.bits .f32 = 32 ∨ (Rect.block (s := S16) S16.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S16x8.size a ≤ S16x8.size a
  hwx3_7 : ∀ i : grid3.Coords, EltTy.bits .f32 = 32 ∨ (Rect.block (s := S16x8) S16x8.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S8.size a ≤ S8.size a
  hwx3_8 : ∀ i : grid3.Coords, EltTy.bits .f32 = 32 ∨ (Rect.block (s := S8) S8.size (cc3_transform_8 i) (hinb3_8 i)).WholeWords (EltTy.packing .f32)
  hstage3_9 : ∀ j, (stage3_9 j).IsWhole
  nbuf3_9 : grid3.bufCount reads3_9 false = 2
  hreads3_9 : ∀ i i' : grid3.Coords, (∀ a, reads3_9 a = true → i a = i' a) → cc3_transform_9 i = cc3_transform_9 i'
  hinb3_9 : ∀ (i : grid3.Coords) a, (cc3_transform_9 i a + 1) * S1x8x512x1024.size a ≤ S8x8x1024x1024.size a
  hwx3_9 : ∀ i : grid3.Coords, EltTy.bits .f32 = 32 ∨ (Rect.block (s := S8x8x1024x1024) S1x8x512x1024.size (cc3_transform_9 i) (hinb3_9 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_arg0) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x512x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x512x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v3) S1x1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S1x1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4) S1x1024x1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v4) S1x1024x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v4) S1x1024x1024.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v5) S1x1024x1024.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v3) S1x512x1024.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v4) S1x512x1024.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v5) S1x512x1024.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v1) S1x512x1.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v2) S1x1x1024.size cc3_transform_4 reads3_4 false false 2 stage3_4 sem3_4
    hrank3 hreads3_4 hinb3_4 nbuf3_4 (Memref.isWhole_whole _) hwx3_4 hstage3_4

abbrev win3_5 : Pipeline.Window sig grid3 :=
  Pipeline.Window.ofSpec (Memref.whole main_arg2) S4x16.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_arg3) S16.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_arg4) S16x8.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_arg5) S8.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_v6) S1x8x512x1024.size cc3_transform_9 reads3_9 true false 2 stage3_9 sem3_9
    hrank3 hreads3_9 hinb3_9 nbuf3_9 (Memref.isWhole_whole _) hwx3_9 hstage3_9

abbrev win3 : Fin 10 → Pipeline.Window sig grid3 := fun | 0 => win3_0 | 1 => win3_1 | 2 => win3_2 | 3 => win3_3 | 4 => win3_4 | 5 => win3_5 | 6 => win3_6 | 7 => win3_7 | 8 => win3_8 | 9 => win3_9 | ⟨_ + 10, h⟩ => absurd h (Nat.not_lt.2 (Nat.le_add_left _ _))
abbrev spec3 : Fin 10 → Pipeline.WinSpec sig grid3.rank := fun w => (win3 w).toWinSpec

class Facts : Prop extends Facts₀ where

variable [Facts]
-- ==== ReferenceIdeal.lean ====
abbrev S8x1024x1024 : Shape := ⟨3, ![8, 1024, 1024]⟩
abbrev S8x1024 : Shape := ⟨2, ![8, 1024]⟩
abbrev S4x16 : Shape := ⟨2, ![4, 16]⟩
abbrev S16 : Shape := ⟨1, ![16]⟩
abbrev S16x8 : Shape := ⟨2, ![16, 8]⟩
abbrev S8 : Shape := ⟨1, ![8]⟩
abbrev S8x1024x1 : Shape := ⟨3, ![8, 1024, 1]⟩
abbrev S8x1x1024 : Shape := ⟨3, ![8, 1, 1024]⟩
abbrev S_ : Shape := ⟨0, ![]⟩
abbrev S1024x1024 : Shape := ⟨2, ![1024, 1024]⟩
abbrev S1x1024x1024 : Shape := ⟨3, ![1, 1024, 1024]⟩
abbrev S8x1024x1024x1 : Shape := ⟨4, ![8, 1024, 1024, 1]⟩
abbrev S8x1024x1024x4 : Shape := ⟨4, ![8, 1024, 1024, 4]⟩
abbrev S8x1024x1024x16 : Shape := ⟨4, ![8, 1024, 1024, 16]⟩
abbrev S1x1x1x16 : Shape := ⟨4, ![1, 1, 1, 16]⟩
abbrev S8x1024x1024x8 : Shape := ⟨4, ![8, 1024, 1024, 8]⟩
abbrev S1x1x1x8 : Shape := ⟨4, ![1, 1, 1, 8]⟩

abbrev nBuf : Space → Nat
  | .hbm => 58
  | .vmem => 0
  | .smem => 0
  | _ => 0

abbrev bufTy : (tb : Table) → Fin (tcTables nBuf tb) → BufTy
  | .hbm, ⟨0, _⟩ => ⟨S8x1024x1024, .f32⟩
  | .hbm, ⟨1, _⟩ => ⟨S8x1024, .i1⟩
  | .hbm, ⟨2, _⟩ => ⟨S4x16, .f32⟩
  | .hbm, ⟨3, _⟩ => ⟨S16, .f32⟩
  | .hbm, ⟨4, _⟩ => ⟨S16x8, .f32⟩
  | .hbm, ⟨5, _⟩ => ⟨S8, .f32⟩
  | .hbm, ⟨6, _⟩ => ⟨S8x1024, .f32⟩
  | .hbm, ⟨7, _⟩ => ⟨S8x1024x1, .f32⟩
  | .hbm, ⟨8, _⟩ => ⟨S8x1x1024, .f32⟩
  | .hbm, ⟨9, _⟩ => ⟨S8x1024x1024, .f32⟩
  | .hbm, ⟨10, _⟩ => ⟨S8x1024x1024, .f32⟩
  | .hbm, ⟨11, _⟩ => ⟨S8x1024x1024, .f32⟩
  | .hbm, ⟨12, _⟩ => ⟨S8x1024x1024, .f32⟩
  | .hbm, ⟨13, _⟩ => ⟨S_, .f32⟩
  | .hbm, ⟨14, _⟩ => ⟨S8x1024, .f32⟩
  | .hbm, ⟨15, _⟩ => ⟨S8x1024x1, .f32⟩
  | .hbm, ⟨16, _⟩ => ⟨S_, .f32⟩
  | .hbm, ⟨17, _⟩ => ⟨S8x1024x1, .f32⟩
  | .hbm, ⟨18, _⟩ => ⟨S8x1024x1, .i1⟩
  | .hbm, ⟨19, _⟩ => ⟨S_, .f32⟩
  | .hbm, ⟨20, _⟩ => ⟨S_, .f32⟩
  | .hbm, ⟨21, _⟩ => ⟨S8x1024x1, .f32⟩
  | .hbm, ⟨22, _⟩ => ⟨S8x1024x1, .f32⟩
  | .hbm, ⟨23, _⟩ => ⟨S8x1024x1024, .f32⟩
  | .hbm, ⟨24, _⟩ => ⟨S8x1024x1024, .f32⟩
  | .hbm, ⟨25, _⟩ => ⟨S8x1024x1024, .f32⟩
  | .hbm, ⟨26, _⟩ => ⟨S8x1024x1024, .f32⟩
  | .hbm, ⟨27, _⟩ => ⟨S8x1024x1, .f32⟩
  | .hbm, ⟨28, _⟩ => ⟨S1024x1024, .i32⟩
  | .hbm, ⟨29, _⟩ => ⟨S1024x1024, .i32⟩
  | .hbm, ⟨30, _⟩ => ⟨S_, .i32⟩
  | .hbm, ⟨31, _⟩ => ⟨S1024x1024, .i32⟩
  | .hbm, ⟨32, _⟩ => ⟨S1024x1024, .i32⟩
  | .hbm, ⟨33, _⟩ => ⟨S1024x1024, .i1⟩
  | .hbm, ⟨34, _⟩ => ⟨S1024x1024, .f32⟩
  | .hbm, ⟨35, _⟩ => ⟨S1x1024x1024, .f32⟩
  | .hbm, ⟨36, _⟩ => ⟨S8x1024x1024, .f32⟩
  | .hbm, ⟨37, _⟩ => ⟨S8x1024x1024, .f32⟩
  | .hbm, ⟨38, _⟩ => ⟨S8x1024x1024, .f32⟩
  | .hbm, ⟨39, _⟩ => ⟨S8x1024x1024x1, .f32⟩
  | .hbm, ⟨40, _⟩ => ⟨S8x1024x1024x1, .f32⟩
  | .hbm, ⟨41, _⟩ => ⟨S8x1024x1024x1, .f32⟩
  | .hbm, ⟨42, _⟩ => ⟨S8x1024x1024x1, .f32⟩
  | .hbm, ⟨43, _⟩ => ⟨S8x1024x1024x4, .f32⟩
  | .hbm, ⟨44, _⟩ => ⟨S8x1024x1024x16, .f32⟩
  | .hbm, ⟨45, _⟩ => ⟨S1x1x1x16, .f32⟩
  | .hbm, ⟨46, _⟩ => ⟨S8x1024x1024x16, .f32⟩
  | .hbm, ⟨47, _⟩ => ⟨S8x1024x1024x16, .f32⟩
  | .hbm, ⟨48, _⟩ => ⟨S_, .f32⟩
  | .hbm, ⟨49, _⟩ => ⟨S8x1024x1024x16, .f32⟩
  | .hbm, ⟨50, _⟩ => ⟨S8x1024x1024x16, .f32⟩
  | .hbm, ⟨51, _⟩ => ⟨S8x1024x1024x8, .f32⟩
  | .hbm, ⟨52, _⟩ => ⟨S1x1x1x8, .f32⟩
  | .hbm, ⟨53, _⟩ => ⟨S8x1024x1024x8, .f32⟩
  | .hbm, ⟨54, _⟩ => ⟨S8x1024x1024x8, .f32⟩
  | .hbm, ⟨55, _⟩ => ⟨S8x1024x1024x1, .f32⟩
  | .hbm, ⟨56, _⟩ => ⟨S8x1024x1024x8, .f32⟩
  | .hbm, ⟨57, _⟩ => ⟨S8x1024x1024x8, .f32⟩
  | _, _ => ⟨S8x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_call0_v0 : Ref sig .tc := ⟨.hbm, 20, rfl⟩
abbrev main_call0_v1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_call1_cst : Ref sig .tc := ⟨.hbm, 48, rfl⟩
abbrev main_call1_v0 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩

abbrev nD : Nat := 1
abbrev τ : Topo := Topo.v7x

variable {F : FTy → Type} [FloatOps F]

class Facts₀ : Prop where
  bcast_S8x1024_S8x1024x1_0_1 : S8x1024.BroadcastsInDim S8x1024x1 (![0, 1] : Fin 2 → Fin S8x1024x1.rank)
  bcast_S8x1024_S8x1x1024_0_2 : S8x1024.BroadcastsInDim S8x1x1024 (![0, 2] : Fin 2 → Fin S8x1x1024.rank)
  bcast_S8x1024x1_S8x1024x1024_0_1_2 : S8x1024x1.BroadcastsInDim S8x1024x1024 (![0, 1, 2] : Fin 3 → Fin S8x1024x1024.rank)
  bcast_S8x1x1024_S8x1024x1024_0_1_2 : S8x1x1024.BroadcastsInDim S8x1024x1024 (![0, 1, 2] : Fin 3 → Fin S8x1024x1024.rank)
  reducesTo_S8x1024x1024_S8x1024_d2 : S8x1024x1024.ReducesTo [2] S8x1024
  h_S_ : 0 < S_.numel
  bcast_S_S8x1024x1 : S_.BroadcastsInDim S8x1024x1 (![] : Fin 0 → Fin S8x1024x1.rank)
  bcast_S_S1024x1024 : S_.BroadcastsInDim S1024x1024 (![] : Fin 0 → Fin S1024x1024.rank)
  bcast_S1024x1024_S1x1024x1024_1_2 : S1024x1024.BroadcastsInDim S1x1024x1024 (![1, 2] : Fin 2 → Fin S1x1024x1024.rank)
  bcast_S1x1024x1024_S8x1024x1024_0_1_2 : S1x1024x1024.BroadcastsInDim S8x1024x1024 (![0, 1, 2] : Fin 3 → Fin S8x1024x1024.rank)
  bcast_S8x1024x1024_S8x1024x1024x1_0_1_2 : S8x1024x1024.BroadcastsInDim S8x1024x1024x1 (![0, 1, 2] : Fin 3 → Fin S8x1024x1024x1.rank)
  concatenates_S8x1024x1024x1_S8x1024x1024x1_S8x1024x1024x1_S8x1024x1024x1_S8x1024x1024x4_d3 : Shape.Concatenates [S8x1024x1024x1, S8x1024x1024x1, S8x1024x1024x1, S8x1024x1024x1] S8x1024x1024x4 3
  bcast_S16_S1x1x1x16_3 : S16.BroadcastsInDim S1x1x1x16 (![3] : Fin 1 → Fin S1x1x1x16.rank)
  bcast_S1x1x1x16_S8x1024x1024x16_0_1_2_3 : S1x1x1x16.BroadcastsInDim S8x1024x1024x16 (![0, 1, 2, 3] : Fin 4 → Fin S8x1024x1024x16.rank)
  bcast_S_S8x1024x1024x16 : S_.BroadcastsInDim S8x1024x1024x16 (![] : Fin 0 → Fin S8x1024x1024x16.rank)
  bcast_S8_S1x1x1x8_3 : S8.BroadcastsInDim S1x1x1x8 (![3] : Fin 1 → Fin S1x1x1x8.rank)
  bcast_S1x1x1x8_S8x1024x1024x8_0_1_2_3 : S1x1x1x8.BroadcastsInDim S8x1024x1024x8 (![0, 1, 2, 3] : Fin 4 → Fin S8x1024x1024x8.rank)
  bcast_S8x1024x1024x1_S8x1024x1024x8_0_1_2_3 : S8x1024x1024x1.BroadcastsInDim S8x1024x1024x8 (![0, 1, 2, 3] : Fin 4 → Fin S8x1024x1024x8.rank)
  dot_S8x1024x1024_S8x1024x1024_S8x1024x1024_2_1_1_2_0_0_wf : DotDims.WF S8x1024x1024 S8x1024x1024 S8x1024x1024 [2] [1] [1] [2] [0] [0]
  dot_S8x1024x1024x4_S4x16_S8x1024x1024x16_3_0_012_1_n_n_wf : DotDims.WF S8x1024x1024x4 S4x16 S8x1024x1024x16 [3] [0] [0, 1, 2] [1] [] []
  dot_S8x1024x1024x16_S16x8_S8x1024x1024x8_3_0_012_1_n_n_wf : DotDims.WF S8x1024x1024x16 S16x8 S8x1024x1024x8 [3] [0] [0, 1, 2] [1] [] []

variable [Facts₀]

def dot_S8x1024x1024_S8x1024x1024_S8x1024x1024_2_1_1_2_0_0 : DotDims S8x1024x1024 S8x1024x1024 S8x1024x1024 where
  lhsContracting := [2]
  rhsContracting := [1]
  lhsNonContracting := [1]
  rhsNonContracting := [2]
  lhsBatch := [0]
  rhsBatch := [0]
  wf := dot_S8x1024x1024_S8x1024x1024_S8x1024x1024_2_1_1_2_0_0_wf
def dot_S8x1024x1024x4_S4x16_S8x1024x1024x16_3_0_012_1_n_n : DotDims S8x1024x1024x4 S4x16 S8x1024x1024x16 where
  lhsContracting := [3]
  rhsContracting := [0]
  lhsNonContracting := [0, 1, 2]
  rhsNonContracting := [1]
  lhsBatch := []
  rhsBatch := []
  wf := dot_S8x1024x1024x4_S4x16_S8x1024x1024x16_3_0_012_1_n_n_wf
def dot_S8x1024x1024x16_S16x8_S8x1024x1024x8_3_0_012_1_n_n : DotDims S8x1024x1024x16 S16x8 S8x1024x1024x8 where
  lhsContracting := [3]
  rhsContracting := [0]
  lhsNonContracting := [0, 1, 2]
  rhsNonContracting := [1]
  lhsBatch := []
  rhsBatch := []
  wf := dot_S8x1024x1024x16_S16x8_S8x1024x1024x8_3_0_012_1_n_n_wf

class Facts : Prop extends Facts₀ where

variable [Facts]
-- ==== Proof.KReg0.lean ====
/-
  Region 0 of the program: the row-normalising kernel, run at each of its 16 grid points on the blocks of its
  four windows.  At a point the body reads a [1, 512, 1024] block of the adjacency, the matching [1, 512, 1] block of
  the mask as a column and the [1, 1, 1024] block of the mask as a row, and writes the [1, 512, 1024] block of the
  normalised array; it keeps nothing between points.  This module states what the output's staging buffer holds
  after the body as one store of the body's arithmetic over the three input blocks, proves the body's triple, and
  packages both as the pipeline's proof data and body obligation, at any contents V of the arrays on entry.
-/
import proofs.«115754_j78331613544465_2_alg».proof.Proof.Gen.Kernel.Launch
import proofs.«115754_j78331613544465_2_alg».proof.Proof.Gen.Kernel.Skeleton
import proofs.«115754_j78331613544465_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each a whole buffer -/

abbrev r0_a : Rect S1x512x1024 := Rect.unit (s := S1x512x1024) ![0, 0, 0] S1x512x1024.size inb_S1x512x1024_S1x512x1024_0_0_0
abbrev r0_b : Rect S1x512x1 := Rect.unit (s := S1x512x1) ![0, 0, 0] S1x512x1.size inb_S1x512x1_S1x512x1_0_0_0
abbrev r0_c : Rect S1x1x1024 := Rect.unit (s := S1x1x1024) ![0, 0, 0] S1x1x1024.size inb_S1x1x1024_S1x1x1024_0_0_0

/-- The output's staging buffer after the body: its one store, of the body's arithmetic over the three input blocks. -/
def out0_3 (x0 : Vec F S1x512x1024 .f32) (x1 : Vec F S1x512x1 .f32) (x2 : Vec F S1x1x1024 .f32) : Vec F S1x512x1024 .f32 :=
  View.canon [⟨r0_a, k0_pay1 (View.ld x0 r0_a) (View.ld x1 r0_b) (View.ld x2 r0_c)⟩]

/-- The store covers the buffer. -/
theorem cover0_3 (p0 : Vec F S1x512x1024 .f32) (y : S1x512x1024.Idx) :
    ∃ pc ∈ ([⟨r0_a, p0⟩] : List (View.Piece (Elt F) S1x512x1024 .f32)), y ∈ pc.1.set :=
  View.cover_of_tiled [⟨r0_a, p0⟩] S1x512x1024.size (by rfl) y

/-! ## The body's triple -/

set_option maxHeartbeats 1000000 in
/-- On whole staging buffers, the inputs' at contents x0, x1, x2 and the output's at anything, the body runs to its
    end with the inputs' buffers as they were and the output's at out0_3 of them. -/
theorem sound_kernel0 (c : Dev nD) (E : Set ℕ) (i : grid0.Coords)
    (arg2 : Memref sig .tc .vmem S1x512x1024 .f32) (harg2 : arg2.IsWhole) (arg3 : Memref sig .tc .vmem S1x512x1 .f32) (harg3 : arg3.IsWhole)
    (arg4 : Memref sig .tc .vmem S1x1x1024 .f32) (harg4 : arg4.IsWhole) (arg5 : Memref sig .tc .vmem S1x512x1024 .f32) (harg5 : arg5.IsWhole)
    (x0 : Vec F S1x512x1024 .f32) (x1 : Vec F S1x512x1 .f32) (x2 : Vec F S1x1x1024 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out0_3 x0 x1 x2)) -∗ K ⟨⟩))
      ⊢ wp frame (wpE (defs₀ (F := F)) Variants.none c none) E (cc0__normalize_kernel i arg2 harg2 arg3 harg3 arg4 harg4 arg5 harg5) K := by
  simp only [cc0__normalize_kernel_eq_skeleton]; unfold cc0__normalize_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The arrays as the region finds them; after the body at point t each input's buffer at its block and the output's at
    out0_3 of the input blocks; nothing kept between points, nothing owed, full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation0 (c : Dev nD) : BodyObligation (dat0 (F := F) V c) (defs₀ (F := F)) Variants.none () Set.univ := fun t => by
  rw [bigSep_W0, bigSep_W0]
  exact sound_body0 V c t

end Cert.Kernel.Frm

end
-- ==== Proof.KReg1.lean ====
/-
  Region 1 of the program: a batched matrix product, run at each of its 8 grid points on whole [1, 1024, 1024] slabs.
  At a point the body reads the slab of its left operand and the slab of its right operand — two windows onto ONE
  array, which the product squares — and writes the slab of the product; it keeps nothing between points.  The two
  input windows each hold one half of the common array's read share.  This module states what the output's staging
  buffer holds after the body, proves the body's triple, and packages both as the pipeline's proof data and body
  obligation, at any contents V of the arrays on entry.
-/
import proofs.«115754_j78331613544465_2_alg».proof.Proof.Gen.Kernel.Launch
import proofs.«115754_j78331613544465_2_alg».proof.Proof.Gen.Kernel.Skeleton
import proofs.«115754_j78331613544465_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each a whole buffer -/

abbrev r1_a : Rect S1x1024x1024 := Rect.unit (s := S1x1024x1024) ![0, 0, 0] S1x1024x1024.size inb_S1x1024x1024_S1x1024x1024_0_0_0

/-- The output's staging buffer after the body: its one store, of the product of the two input slabs. -/
def out1_2 (x0 : Vec F S1x1024x1024 .f32) (x1 : Vec F S1x1024x1024 .f32) : Vec F S1x1024x1024 .f32 :=
  View.canon [⟨r1_a, k1_pay1 (View.ld x0 r1_a) (View.ld x1 r1_a)⟩]

/-- The store covers the buffer. -/
theorem cover1_2 (p0 : Vec F S1x1024x1024 .f32) (y : S1x1024x1024.Idx) :
    ∃ pc ∈ ([⟨r1_a, p0⟩] : List (View.Piece (Elt F) S1x1024x1024 .f32)), y ∈ pc.1.set :=
  View.cover_of_tiled [⟨r1_a, p0⟩] S1x1024x1024.size (by rfl) y

/-! ## The body's triple -/

set_option maxHeartbeats 1000000 in
/-- On whole staging buffers, the inputs' at contents x0, x1 and the output's at anything, the body runs to its end
    with the inputs' buffers as they were and the output's at out1_2 of them. -/
theorem sound_kernel1 (c : Dev nD) (E : Set ℕ) (i : grid1.Coords)
    (arg1 : Memref sig .tc .vmem S1x1024x1024 .f32) (harg1 : arg1.IsWhole) (arg2 : Memref sig .tc .vmem S1x1024x1024 .f32) (harg2 : arg2.IsWhole)
    (arg3 : Memref sig .tc .vmem S1x1024x1024 .f32) (harg3 : arg3.IsWhole)
    (x0 : Vec F S1x1024x1024 .f32) (x1 : Vec F S1x1024x1024 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out1_2 x0 x1)) -∗ K ⟨⟩))
      ⊢ wp frame (wpE (defs₀ (F := F)) Variants.none c none) E (cc1__bmm_kernel i arg1 harg1 arg2 harg2 arg3 harg3) K := by
  simp only [cc1__bmm_kernel_eq_skeleton]; unfold cc1__bmm_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The pipeline's proof data -/

/-- The arrays as the region finds them; after the body at point t each input's buffer at its slab and the output's at
    out1_2 of the input slabs; nothing kept between points, nothing owed; the two input windows, which read one
    array, each hold one half of its share. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q w := match w with
    | ⟨0, _⟩ => fullShare.left
    | ⟨1, _⟩ => fullShare.right
    | ⟨2, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) :
    (dat1 V c).after 2 t = out1_2 (iblk1 V c 0 t) (iblk1 V c 1 t) := by dsimp only [dat1]

theorem share1_0 (c : Dev nD) : (dat1 V c).share 0 = fullShare.left := rfl
theorem share1_1 (c : Dev nD) : (dat1 V c).share 1 = fullShare.right := rfl
theorem share1_2 (c : Dev nD) : (dat1 V c).share 2 = fullShare := rfl

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation1 (c : Dev nD) : BodyObligation (dat1 (F := F) V c) (defs₀ (F := F)) Variants.none () Set.univ := fun t => by
  rw [bigSep_W1, bigSep_W1]
  exact sound_body1 V c t

end Cert.Kernel.Frm

end
-- ==== Proof.KReg2.lean ====
/-
  Region 2 of the program: a batched matrix product, run at each of its 8 grid points on whole [1, 1024, 1024] slabs.
  At a point the body reads the slab of its left operand and the slab of its right operand — two windows onto ONE
  array, which the product squares — and writes the slab of the product; it keeps nothing between points.  The two
  input windows each hold one half of the common array's read share.  This module states what the output's staging
  buffer holds after the body, proves the body's triple, and packages both as the pipeline's proof data and body
  obligation, at any contents V of the arrays on entry.
-/
import proofs.«115754_j78331613544465_2_alg».proof.Proof.Gen.Kernel.Launch
import proofs.«115754_j78331613544465_2_alg».proof.Proof.Gen.Kernel.Skeleton
import proofs.«115754_j78331613544465_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each a whole buffer -/

abbrev r2_a : Rect S1x1024x1024 := Rect.unit (s := S1x1024x1024) ![0, 0, 0] S1x1024x1024.size inb_S1x1024x1024_S1x1024x1024_0_0_0

/-- The output's staging buffer after the body: its one store, of the product of the two input slabs. -/
def out2_2 (x0 : Vec F S1x1024x1024 .f32) (x1 : Vec F S1x1024x1024 .f32) : Vec F S1x1024x1024 .f32 :=
  View.canon [⟨r2_a, k2_pay1 (View.ld x0 r2_a) (View.ld x1 r2_a)⟩]

/-- The store covers the buffer. -/
theorem cover2_2 (p0 : Vec F S1x1024x1024 .f32) (y : S1x1024x1024.Idx) :
    ∃ pc ∈ ([⟨r2_a, p0⟩] : List (View.Piece (Elt F) S1x1024x1024 .f32)), y ∈ pc.1.set :=
  View.cover_of_tiled [⟨r2_a, p0⟩] S1x1024x1024.size (by rfl) y

/-! ## The body's triple -/

set_option maxHeartbeats 1000000 in
/-- On whole staging buffers, the inputs' at contents x0, x1 and the output's at anything, the body runs to its end
    with the inputs' buffers as they were and the output's at out2_2 of them. -/
theorem sound_kernel2 (c : Dev nD) (E : Set ℕ) (i : grid2.Coords)
    (arg1 : Memref sig .tc .vmem S1x1024x1024 .f32) (harg1 : arg1.IsWhole) (arg2 : Memref sig .tc .vmem S1x1024x1024 .f32) (harg2 : arg2.IsWhole)
    (arg3 : Memref sig .tc .vmem S1x1024x1024 .f32) (harg3 : arg3.IsWhole)
    (x0 : Vec F S1x1024x1024 .f32) (x1 : Vec F S1x1024x1024 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out2_2 x0 x1)) -∗ K ⟨⟩))
      ⊢ wp frame (wpE (defs₀ (F := F)) Variants.none c none) E (cc2__bmm_kernel i arg1 harg1 arg2 harg2 arg3 harg3) K := by
  simp only [cc2__bmm_kernel_eq_skeleton]; unfold cc2__bmm_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The pipeline's proof data -/

/-- The arrays as the region finds them; after the body at point t each input's buffer at its slab and the output's at
    out2_2 of the input slabs; nothing kept between points, nothing owed; the two input windows, which read one
    array, each hold one half of its share. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q w := match w with
    | ⟨0, _⟩ => fullShare.left
    | ⟨1, _⟩ => fullShare.right
    | ⟨2, _⟩ => fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) :
    (dat2 V c).after 2 t = out2_2 (iblk2 V c 0 t) (iblk2 V c 1 t) := by dsimp only [dat2]

theorem share2_0 (c : Dev nD) : (dat2 V c).share 0 = fullShare.left := rfl
theorem share2_1 (c : Dev nD) : (dat2 V c).share 1 = fullShare.right := rfl
theorem share2_2 (c : Dev nD) : (dat2 V c).share 2 = fullShare := rfl

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation2 (c : Dev nD) : BodyObligation (dat2 (F := F) V c) (defs₀ (F := F)) Variants.none () Set.univ := fun t => by
  rw [bigSep_W2, bigSep_W2]
  exact sound_body2 V c t

end Cert.Kernel.Frm

end
-- ==== Proof.KReg3.lean ====
/-
  Region 3 of @main (the fourth kernel call: the two-layer perceptron kernel on a grid of 8 x 2 points, ten windows).
  At a parameter `V` — the TensorCore's buffer contents when the region is entered — this module states
  each window's block at a grid point, what the kernel body leaves in the output window's staging buffer as
  a function of the nine input blocks and of the grid position (the body reads its grid coordinates: one
  stored value depends on them), the body's triple, the pipeline's proof data and the body obligation.
  The body's arithmetic is carried by the named payloads: the first part of the body loads the nine input blocks,
  the eighteen parts after it compute without touching memory, and the body ends with one store over the whole
  output block.
-/
import proofs.«115754_j78331613544465_2_alg».proof.Proof.Gen.Kernel.Launch
import proofs.«115754_j78331613544465_2_alg».proof.Proof.Gen.Kernel.Skeleton
import proofs.«115754_j78331613544465_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of full extents recurses once per coordinate of the long axes
set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses: each buffer is read, and the output written, through its whole rectangle -/

abbrev r3_0 : Rect S1x512x1024 := Rect.unit (s := S1x512x1024) ![0, 0, 0] S1x512x1024.size inb_S1x512x1024_S1x512x1024_0_0_0
abbrev r3_1 : Rect S1x512x1 := Rect.unit (s := S1x512x1) ![0, 0, 0] S1x512x1.size inb_S1x512x1_S1x512x1_0_0_0
abbrev r3_2 : Rect S1x1x1024 := Rect.unit (s := S1x1x1024) ![0, 0, 0] S1x1x1024.size inb_S1x1x1024_S1x1x1024_0_0_0
abbrev r3_3 : Rect S4x16 := Rect.unit (s := S4x16) ![0, 0] S4x16.size inb_S4x16_S4x16_0_0
abbrev r3_4 : Rect S16 := Rect.unit (s := S16) ![0] S16.size inb_S16_S16_0
abbrev r3_5 : Rect S16x8 := Rect.unit (s := S16x8) ![0, 0] S16x8.size inb_S16x8_S16x8_0_0
abbrev r3_6 : Rect S8 := Rect.unit (s := S8) ![0] S8.size inb_S8_S8_0
abbrev r3_7 : Rect S1x8x512x1024 := Rect.unit (s := S1x8x512x1024) ![0, 0, 0, 0] S1x8x512x1024.size inb_S1x8x512x1024_S1x8x512x1024_0_0_0_0

/-! ## What the body leaves in the output window's buffer -/

/-- Window 9's staging buffer after the body at grid position `i`, from the nine input windows' blocks: its one
    store, over the whole block, of the last payload applied to the earlier payloads in the order the body
    computes them. -/
def out3_9 (i : grid3.Coords) (x0 : Vec F S1x512x1024 .f32) (x1 : Vec F S1x512x1024 .f32) (x2 : Vec F S1x512x1024 .f32) (x3 : Vec F S1x512x1 .f32) (x4 : Vec F S1x1x1024 .f32) (x5 : Vec F S4x16 .f32) (x6 : Vec F S16 .f32) (x7 : Vec F S16x8 .f32) (x8 : Vec F S8 .f32) : Vec F S1x8x512x1024 .f32 :=
  View.canon [⟨r3_7, k3_pay1
      (k3_pay6 (View.ld x3 r3_1) (View.ld x4 r3_2))
      (View.ld x8 r3_6)
      (k3_pay38 (k3_pay6 (View.ld x3 r3_1) (View.ld x4 r3_2)) (View.ld x7 r3_5) (View.ld x8 r3_6) (k3_pay31 (k3_pay29 (k3_pay2 (View.ld x0 r3_0)) (k3_pay3 (View.ld x1 r3_0)) (k3_pay4 (View.ld x2 r3_0)) (k3_pay7 i (View.ld x3 r3_1)) (View.ld x5 r3_3) (View.ld x6 r3_4)) (k3_pay30 (F := F))) (k3_pay32 (k3_pay2 (View.ld x0 r3_0)) (k3_pay3 (View.ld x1 r3_0)) (k3_pay4 (View.ld x2 r3_0)) (k3_pay7 i (View.ld x3 r3_1)) (View.ld x5 r3_3) (View.ld x6 r3_4)) (k3_pay33 (k3_pay2 (View.ld x0 r3_0)) (k3_pay3 (View.ld x1 r3_0)) (k3_pay4 (View.ld x2 r3_0)) (k3_pay7 i (View.ld x3 r3_1)) (View.ld x5 r3_3) (View.ld x6 r3_4)) (k3_pay36 (View.ld x7 r3_5) (k3_pay10 (k3_pay2 (View.ld x0 r3_0)) (k3_pay3 (View.ld x1 r3_0)) (k3_pay4 (View.ld x2 r3_0)) (k3_pay7 i (View.ld x3 r3_1)) (View.ld x5 r3_3) (View.ld x6 r3_4)) (k3_pay13 (k3_pay3 (View.ld x1 r3_0)) (k3_pay4 (View.ld x2 r3_0)) (View.ld x5 r3_3) (View.ld x6 r3_4) (k3_pay11 (k3_pay2 (View.ld x0 r3_0)) (k3_pay7 i (View.ld x3 r3_1)) (View.ld x5 r3_3)) (k3_pay12 (View.ld x5 r3_3))) (k3_pay14 (k3_pay2 (View.ld x0 r3_0)) (k3_pay3 (View.ld x1 r3_0)) (k3_pay4 (View.ld x2 r3_0)) (k3_pay7 i (View.ld x3 r3_1)) (View.ld x5 r3_3) (View.ld x6 r3_4)) (k3_pay16 (View.ld x6 r3_4) (k3_pay15 (k3_pay2 (View.ld x0 r3_0)) (k3_pay3 (View.ld x1 r3_0)) (k3_pay4 (View.ld x2 r3_0)) (k3_pay7 i (View.ld x3 r3_1)) (View.ld x5 r3_3))) (k3_pay17 (k3_pay2 (View.ld x0 r3_0)) (k3_pay3 (View.ld x1 r3_0)) (k3_pay4 (View.ld x2 r3_0)) (k3_pay7 i (View.ld x3 r3_1)) (View.ld x5 r3_3) (View.ld x6 r3_4)) (k3_pay18 (k3_pay2 (View.ld x0 r3_0)) (k3_pay3 (View.ld x1 r3_0)) (k3_pay4 (View.ld x2 r3_0)) (k3_pay7 i (View.ld x3 r3_1)) (View.ld x5 r3_3) (View.ld x6 r3_4)) (k3_pay20 (k3_pay2 (View.ld x0 r3_0)) (k3_pay3 (View.ld x1 r3_0)) (k3_pay4 (View.ld x2 r3_0)) (k3_pay7 i (View.ld x3 r3_1)) (View.ld x5 r3_3) (View.ld x6 r3_4) (k3_pay19 (View.ld x5 r3_3))) (k3_pay21 (k3_pay2 (View.ld x0 r3_0)) (k3_pay3 (View.ld x1 r3_0)) (k3_pay4 (View.ld x2 r3_0)) (k3_pay7 i (View.ld x3 r3_1)) (View.ld x5 r3_3) (View.ld x6 r3_4)) (k3_pay23 (k3_pay3 (View.ld x1 r3_0)) (k3_pay4 (View.ld x2 r3_0)) (View.ld x5 r3_3) (View.ld x6 r3_4) (k3_pay22 (k3_pay2 (View.ld x0 r3_0)) (k3_pay7 i (View.ld x3 r3_1)) (View.ld x5 r3_3))) (k3_pay24 (k3_pay2 (View.ld x0 r3_0)) (k3_pay3 (View.ld x1 r3_0)) (k3_pay4 (View.ld x2 r3_0)) (k3_pay7 i (View.ld x3 r3_1)) (View.ld x5 r3_3) (View.ld x6 r3_4)) (k3_pay27 (k3_pay4 (View.ld x2 r3_0)) (View.ld x6 r3_4) (k3_pay25 (k3_pay2 (View.ld x0 r3_0)) (k3_pay3 (View.ld x1 r3_0)) (k3_pay7 i (View.ld x3 r3_1)) (View.ld x5 r3_3)) (k3_pay26 (View.ld x5 r3_3))) (k3_pay28 (k3_pay2 (View.ld x0 r3_0)) (k3_pay3 (View.ld x1 r3_0)) (k3_pay4 (View.ld x2 r3_0)) (k3_pay7 i (View.ld x3 r3_1)) (View.ld x5 r3_3) (View.ld x6 r3_4)) (k3_pay34 (View.ld x7 r3_5) (k3_pay9 (k3_pay2 (View.ld x0 r3_0)) (k3_pay3 (View.ld x1 r3_0)) (k3_pay4 (View.ld x2 r3_0)) (k3_pay7 i (View.ld x3 r3_1)) (View.ld x5 r3_3) (View.ld x6 r3_4) (k3_pay8 (View.ld x5 r3_3)))) (k3_pay35 (View.ld x7 r3_5))) (k3_pay37 (View.ld x7 r3_5)))
      (k3_pay41 (k3_pay6 (View.ld x3 r3_1) (View.ld x4 r3_2)) (View.ld x7 r3_5) (View.ld x8 r3_6) (k3_pay23 (k3_pay3 (View.ld x1 r3_0)) (k3_pay4 (View.ld x2 r3_0)) (View.ld x5 r3_3) (View.ld x6 r3_4) (k3_pay22 (k3_pay2 (View.ld x0 r3_0)) (k3_pay7 i (View.ld x3 r3_1)) (View.ld x5 r3_3))) (k3_pay24 (k3_pay2 (View.ld x0 r3_0)) (k3_pay3 (View.ld x1 r3_0)) (k3_pay4 (View.ld x2 r3_0)) (k3_pay7 i (View.ld x3 r3_1)) (View.ld x5 r3_3) (View.ld x6 r3_4)) (k3_pay27 (k3_pay4 (View.ld x2 r3_0)) (View.ld x6 r3_4) (k3_pay25 (k3_pay2 (View.ld x0 r3_0)) (k3_pay3 (View.ld x1 r3_0)) (k3_pay7 i (View.ld x3 r3_1)) (View.ld x5 r3_3)) (k3_pay26 (View.ld x5 r3_3))) (k3_pay28 (k3_pay2 (View.ld x0 r3_0)) (k3_pay3 (View.ld x1 r3_0)) (k3_pay4 (View.ld x2 r3_0)) (k3_pay7 i (View.ld x3 r3_1)) (View.ld x5 r3_3) (View.ld x6 r3_4)) (k3_pay31 (k3_pay29 (k3_pay2 (View.ld x0 r3_0)) (k3_pay3 (View.ld x1 r3_0)) (k3_pay4 (View.ld x2 r3_0)) (k3_pay7 i (View.ld x3 r3_1)) (View.ld x5 r3_3) (View.ld x6 r3_4)) (k3_pay30 (F := F))) (k3_pay32 (k3_pay2 (View.ld x0 r3_0)) (k3_pay3 (View.ld x1 r3_0)) (k3_pay4 (View.ld x2 r3_0)) (k3_pay7 i (View.ld x3 r3_1)) (View.ld x5 r3_3) (View.ld x6 r3_4)) (k3_pay33 (k3_pay2 (View.ld x0 r3_0)) (k3_pay3 (View.ld x1 r3_0)) (k3_pay4 (View.ld x2 r3_0)) (k3_pay7 i (View.ld x3 r3_1)) (View.ld x5 r3_3) (View.ld x6 r3_4)) (k3_pay39 (View.ld x7 r3_5) (k3_pay9 (k3_pay2 (View.ld x0 r3_0)) (k3_pay3 (View.ld x1 r3_0)) (k3_pay4 (View.ld x2 r3_0)) (k3_pay7 i (View.ld x3 r3_1)) (View.ld x5 r3_3) (View.ld x6 r3_4) (k3_pay8 (View.ld x5 r3_3))) (k3_pay10 (k3_pay2 (View.ld x0 r3_0)) (k3_pay3 (View.ld x1 r3_0)) (k3_pay4 (View.ld x2 r3_0)) (k3_pay7 i (View.ld x3 r3_1)) (View.ld x5 r3_3) (View.ld x6 r3_4)) (k3_pay13 (k3_pay3 (View.ld x1 r3_0)) (k3_pay4 (View.ld x2 r3_0)) (View.ld x5 r3_3) (View.ld x6 r3_4) (k3_pay11 (k3_pay2 (View.ld x0 r3_0)) (k3_pay7 i (View.ld x3 r3_1)) (View.ld x5 r3_3)) (k3_pay12 (View.ld x5 r3_3))) (k3_pay14 (k3_pay2 (View.ld x0 r3_0)) (k3_pay3 (View.ld x1 r3_0)) (k3_pay4 (View.ld x2 r3_0)) (k3_pay7 i (View.ld x3 r3_1)) (View.ld x5 r3_3) (View.ld x6 r3_4)) (k3_pay16 (View.ld x6 r3_4) (k3_pay15 (k3_pay2 (View.ld x0 r3_0)) (k3_pay3 (View.ld x1 r3_0)) (k3_pay4 (View.ld x2 r3_0)) (k3_pay7 i (View.ld x3 r3_1)) (View.ld x5 r3_3))) (k3_pay17 (k3_pay2 (View.ld x0 r3_0)) (k3_pay3 (View.ld x1 r3_0)) (k3_pay4 (View.ld x2 r3_0)) (k3_pay7 i (View.ld x3 r3_1)) (View.ld x5 r3_3) (View.ld x6 r3_4)) (k3_pay18 (k3_pay2 (View.ld x0 r3_0)) (k3_pay3 (View.ld x1 r3_0)) (k3_pay4 (View.ld x2 r3_0)) (k3_pay7 i (View.ld x3 r3_1)) (View.ld x5 r3_3) (View.ld x6 r3_4)) (k3_pay20 (k3_pay2 (View.ld x0 r3_0)) (k3_pay3 (View.ld x1 r3_0)) (k3_pay4 (View.ld x2 r3_0)) (k3_pay7 i (View.ld x3 r3_1)) (View.ld x5 r3_3) (View.ld x6 r3_4) (k3_pay19 (View.ld x5 r3_3)))) (k3_pay40 (View.ld x7 r3_5) (k3_pay21 (k3_pay2 (View.ld x0 r3_0)) (k3_pay3 (View.ld x1 r3_0)) (k3_pay4 (View.ld x2 r3_0)) (k3_pay7 i (View.ld x3 r3_1)) (View.ld x5 r3_3) (View.ld x6 r3_4))))
      (k3_pay44 (k3_pay6 (View.ld x3 r3_1) (View.ld x4 r3_2)) (View.ld x8 r3_6) (k3_pay43 (View.ld x7 r3_5) (k3_pay16 (View.ld x6 r3_4) (k3_pay15 (k3_pay2 (View.ld x0 r3_0)) (k3_pay3 (View.ld x1 r3_0)) (k3_pay4 (View.ld x2 r3_0)) (k3_pay7 i (View.ld x3 r3_1)) (View.ld x5 r3_3))) (k3_pay17 (k3_pay2 (View.ld x0 r3_0)) (k3_pay3 (View.ld x1 r3_0)) (k3_pay4 (View.ld x2 r3_0)) (k3_pay7 i (View.ld x3 r3_1)) (View.ld x5 r3_3) (View.ld x6 r3_4)) (k3_pay18 (k3_pay2 (View.ld x0 r3_0)) (k3_pay3 (View.ld x1 r3_0)) (k3_pay4 (View.ld x2 r3_0)) (k3_pay7 i (View.ld x3 r3_1)) (View.ld x5 r3_3) (View.ld x6 r3_4)) (k3_pay20 (k3_pay2 (View.ld x0 r3_0)) (k3_pay3 (View.ld x1 r3_0)) (k3_pay4 (View.ld x2 r3_0)) (k3_pay7 i (View.ld x3 r3_1)) (View.ld x5 r3_3) (View.ld x6 r3_4) (k3_pay19 (View.ld x5 r3_3))) (k3_pay21 (k3_pay2 (View.ld x0 r3_0)) (k3_pay3 (View.ld x1 r3_0)) (k3_pay4 (View.ld x2 r3_0)) (k3_pay7 i (View.ld x3 r3_1)) (View.ld x5 r3_3) (View.ld x6 r3_4)) (k3_pay23 (k3_pay3 (View.ld x1 r3_0)) (k3_pay4 (View.ld x2 r3_0)) (View.ld x5 r3_3) (View.ld x6 r3_4) (k3_pay22 (k3_pay2 (View.ld x0 r3_0)) (k3_pay7 i (View.ld x3 r3_1)) (View.ld x5 r3_3))) (k3_pay24 (k3_pay2 (View.ld x0 r3_0)) (k3_pay3 (View.ld x1 r3_0)) (k3_pay4 (View.ld x2 r3_0)) (k3_pay7 i (View.ld x3 r3_1)) (View.ld x5 r3_3) (View.ld x6 r3_4)) (k3_pay27 (k3_pay4 (View.ld x2 r3_0)) (View.ld x6 r3_4) (k3_pay25 (k3_pay2 (View.ld x0 r3_0)) (k3_pay3 (View.ld x1 r3_0)) (k3_pay7 i (View.ld x3 r3_1)) (View.ld x5 r3_3)) (k3_pay26 (View.ld x5 r3_3))) (k3_pay28 (k3_pay2 (View.ld x0 r3_0)) (k3_pay3 (View.ld x1 r3_0)) (k3_pay4 (View.ld x2 r3_0)) (k3_pay7 i (View.ld x3 r3_1)) (View.ld x5 r3_3) (View.ld x6 r3_4)) (k3_pay31 (k3_pay29 (k3_pay2 (View.ld x0 r3_0)) (k3_pay3 (View.ld x1 r3_0)) (k3_pay4 (View.ld x2 r3_0)) (k3_pay7 i (View.ld x3 r3_1)) (View.ld x5 r3_3) (View.ld x6 r3_4)) (k3_pay30 (F := F))) (k3_pay32 (k3_pay2 (View.ld x0 r3_0)) (k3_pay3 (View.ld x1 r3_0)) (k3_pay4 (View.ld x2 r3_0)) (k3_pay7 i (View.ld x3 r3_1)) (View.ld x5 r3_3) (View.ld x6 r3_4)) (k3_pay33 (k3_pay2 (View.ld x0 r3_0)) (k3_pay3 (View.ld x1 r3_0)) (k3_pay4 (View.ld x2 r3_0)) (k3_pay7 i (View.ld x3 r3_1)) (View.ld x5 r3_3) (View.ld x6 r3_4)) (k3_pay42 (View.ld x7 r3_5) (k3_pay9 (k3_pay2 (View.ld x0 r3_0)) (k3_pay3 (View.ld x1 r3_0)) (k3_pay4 (View.ld x2 r3_0)) (k3_pay7 i (View.ld x3 r3_1)) (View.ld x5 r3_3) (View.ld x6 r3_4) (k3_pay8 (View.ld x5 r3_3))) (k3_pay10 (k3_pay2 (View.ld x0 r3_0)) (k3_pay3 (View.ld x1 r3_0)) (k3_pay4 (View.ld x2 r3_0)) (k3_pay7 i (View.ld x3 r3_1)) (View.ld x5 r3_3) (View.ld x6 r3_4)) (k3_pay13 (k3_pay3 (View.ld x1 r3_0)) (k3_pay4 (View.ld x2 r3_0)) (View.ld x5 r3_3) (View.ld x6 r3_4) (k3_pay11 (k3_pay2 (View.ld x0 r3_0)) (k3_pay7 i (View.ld x3 r3_1)) (View.ld x5 r3_3)) (k3_pay12 (View.ld x5 r3_3))) (k3_pay14 (k3_pay2 (View.ld x0 r3_0)) (k3_pay3 (View.ld x1 r3_0)) (k3_pay4 (View.ld x2 r3_0)) (k3_pay7 i (View.ld x3 r3_1)) (View.ld x5 r3_3) (View.ld x6 r3_4)))))
      (k3_pay47 (k3_pay6 (View.ld x3 r3_1) (View.ld x4 r3_2)) (View.ld x7 r3_5) (View.ld x8 r3_6) (k3_pay27 (k3_pay4 (View.ld x2 r3_0)) (View.ld x6 r3_4) (k3_pay25 (k3_pay2 (View.ld x0 r3_0)) (k3_pay3 (View.ld x1 r3_0)) (k3_pay7 i (View.ld x3 r3_1)) (View.ld x5 r3_3)) (k3_pay26 (View.ld x5 r3_3))) (k3_pay28 (k3_pay2 (View.ld x0 r3_0)) (k3_pay3 (View.ld x1 r3_0)) (k3_pay4 (View.ld x2 r3_0)) (k3_pay7 i (View.ld x3 r3_1)) (View.ld x5 r3_3) (View.ld x6 r3_4)) (k3_pay31 (k3_pay29 (k3_pay2 (View.ld x0 r3_0)) (k3_pay3 (View.ld x1 r3_0)) (k3_pay4 (View.ld x2 r3_0)) (k3_pay7 i (View.ld x3 r3_1)) (View.ld x5 r3_3) (View.ld x6 r3_4)) (k3_pay30 (F := F))) (k3_pay32 (k3_pay2 (View.ld x0 r3_0)) (k3_pay3 (View.ld x1 r3_0)) (k3_pay4 (View.ld x2 r3_0)) (k3_pay7 i (View.ld x3 r3_1)) (View.ld x5 r3_3) (View.ld x6 r3_4)) (k3_pay33 (k3_pay2 (View.ld x0 r3_0)) (k3_pay3 (View.ld x1 r3_0)) (k3_pay4 (View.ld x2 r3_0)) (k3_pay7 i (View.ld x3 r3_1)) (View.ld x5 r3_3) (View.ld x6 r3_4)) (k3_pay45 (View.ld x7 r3_5) (k3_pay9 (k3_pay2 (View.ld x0 r3_0)) (k3_pay3 (View.ld x1 r3_0)) (k3_pay4 (View.ld x2 r3_0)) (k3_pay7 i (View.ld x3 r3_1)) (View.ld x5 r3_3) (View.ld x6 r3_4) (k3_pay8 (View.ld x5 r3_3))) (k3_pay10 (k3_pay2 (View.ld x0 r3_0)) (k3_pay3 (View.ld x1 r3_0)) (k3_pay4 (View.ld x2 r3_0)) (k3_pay7 i (View.ld x3 r3_1)) (View.ld x5 r3_3) (View.ld x6 r3_4)) (k3_pay13 (k3_pay3 (View.ld x1 r3_0)) (k3_pay4 (View.ld x2 r3_0)) (View.ld x5 r3_3) (View.ld x6 r3_4) (k3_pay11 (k3_pay2 (View.ld x0 r3_0)) (k3_pay7 i (View.ld x3 r3_1)) (View.ld x5 r3_3)) (k3_pay12 (View.ld x5 r3_3))) (k3_pay14 (k3_pay2 (View.ld x0 r3_0)) (k3_pay3 (View.ld x1 r3_0)) (k3_pay4 (View.ld x2 r3_0)) (k3_pay7 i (View.ld x3 r3_1)) (View.ld x5 r3_3) (View.ld x6 r3_4)) (k3_pay16 (View.ld x6 r3_4) (k3_pay15 (k3_pay2 (View.ld x0 r3_0)) (k3_pay3 (View.ld x1 r3_0)) (k3_pay4 (View.ld x2 r3_0)) (k3_pay7 i (View.ld x3 r3_1)) (View.ld x5 r3_3))) (k3_pay17 (k3_pay2 (View.ld x0 r3_0)) (k3_pay3 (View.ld x1 r3_0)) (k3_pay4 (View.ld x2 r3_0)) (k3_pay7 i (View.ld x3 r3_1)) (View.ld x5 r3_3) (View.ld x6 r3_4)) (k3_pay18 (k3_pay2 (View.ld x0 r3_0)) (k3_pay3 (View.ld x1 r3_0)) (k3_pay4 (View.ld x2 r3_0)) (k3_pay7 i (View.ld x3 r3_1)) (View.ld x5 r3_3) (View.ld x6 r3_4)) (k3_pay20 (k3_pay2 (View.ld x0 r3_0)) (k3_pay3 (View.ld x1 r3_0)) (k3_pay4 (View.ld x2 r3_0)) (k3_pay7 i (View.ld x3 r3_1)) (View.ld x5 r3_3) (View.ld x6 r3_4) (k3_pay19 (View.ld x5 r3_3))) (k3_pay21 (k3_pay2 (View.ld x0 r3_0)) (k3_pay3 (View.ld x1 r3_0)) (k3_pay4 (View.ld x2 r3_0)) (k3_pay7 i (View.ld x3 r3_1)) (View.ld x5 r3_3) (View.ld x6 r3_4)) (k3_pay23 (k3_pay3 (View.ld x1 r3_0)) (k3_pay4 (View.ld x2 r3_0)) (View.ld x5 r3_3) (View.ld x6 r3_4) (k3_pay22 (k3_pay2 (View.ld x0 r3_0)) (k3_pay7 i (View.ld x3 r3_1)) (View.ld x5 r3_3))) (k3_pay24 (k3_pay2 (View.ld x0 r3_0)) (k3_pay3 (View.ld x1 r3_0)) (k3_pay4 (View.ld x2 r3_0)) (k3_pay7 i (View.ld x3 r3_1)) (View.ld x5 r3_3) (View.ld x6 r3_4))) (k3_pay46 (View.ld x7 r3_5)))
      (k3_pay50 (k3_pay6 (View.ld x3 r3_1) (View.ld x4 r3_2)) (View.ld x7 r3_5) (View.ld x8 r3_6) (k3_pay18 (k3_pay2 (View.ld x0 r3_0)) (k3_pay3 (View.ld x1 r3_0)) (k3_pay4 (View.ld x2 r3_0)) (k3_pay7 i (View.ld x3 r3_1)) (View.ld x5 r3_3) (View.ld x6 r3_4)) (k3_pay20 (k3_pay2 (View.ld x0 r3_0)) (k3_pay3 (View.ld x1 r3_0)) (k3_pay4 (View.ld x2 r3_0)) (k3_pay7 i (View.ld x3 r3_1)) (View.ld x5 r3_3) (View.ld x6 r3_4) (k3_pay19 (View.ld x5 r3_3))) (k3_pay21 (k3_pay2 (View.ld x0 r3_0)) (k3_pay3 (View.ld x1 r3_0)) (k3_pay4 (View.ld x2 r3_0)) (k3_pay7 i (View.ld x3 r3_1)) (View.ld x5 r3_3) (View.ld x6 r3_4)) (k3_pay23 (k3_pay3 (View.ld x1 r3_0)) (k3_pay4 (View.ld x2 r3_0)) (View.ld x5 r3_3) (View.ld x6 r3_4) (k3_pay22 (k3_pay2 (View.ld x0 r3_0)) (k3_pay7 i (View.ld x3 r3_1)) (View.ld x5 r3_3))) (k3_pay24 (k3_pay2 (View.ld x0 r3_0)) (k3_pay3 (View.ld x1 r3_0)) (k3_pay4 (View.ld x2 r3_0)) (k3_pay7 i (View.ld x3 r3_1)) (View.ld x5 r3_3) (View.ld x6 r3_4)) (k3_pay27 (k3_pay4 (View.ld x2 r3_0)) (View.ld x6 r3_4) (k3_pay25 (k3_pay2 (View.ld x0 r3_0)) (k3_pay3 (View.ld x1 r3_0)) (k3_pay7 i (View.ld x3 r3_1)) (View.ld x5 r3_3)) (k3_pay26 (View.ld x5 r3_3))) (k3_pay28 (k3_pay2 (View.ld x0 r3_0)) (k3_pay3 (View.ld x1 r3_0)) (k3_pay4 (View.ld x2 r3_0)) (k3_pay7 i (View.ld x3 r3_1)) (View.ld x5 r3_3) (View.ld x6 r3_4)) (k3_pay31 (k3_pay29 (k3_pay2 (View.ld x0 r3_0)) (k3_pay3 (View.ld x1 r3_0)) (k3_pay4 (View.ld x2 r3_0)) (k3_pay7 i (View.ld x3 r3_1)) (View.ld x5 r3_3) (View.ld x6 r3_4)) (k3_pay30 (F := F))) (k3_pay32 (k3_pay2 (View.ld x0 r3_0)) (k3_pay3 (View.ld x1 r3_0)) (k3_pay4 (View.ld x2 r3_0)) (k3_pay7 i (View.ld x3 r3_1)) (View.ld x5 r3_3) (View.ld x6 r3_4)) (k3_pay33 (k3_pay2 (View.ld x0 r3_0)) (k3_pay3 (View.ld x1 r3_0)) (k3_pay4 (View.ld x2 r3_0)) (k3_pay7 i (View.ld x3 r3_1)) (View.ld x5 r3_3) (View.ld x6 r3_4)) (k3_pay48 (View.ld x7 r3_5) (k3_pay9 (k3_pay2 (View.ld x0 r3_0)) (k3_pay3 (View.ld x1 r3_0)) (k3_pay4 (View.ld x2 r3_0)) (k3_pay7 i (View.ld x3 r3_1)) (View.ld x5 r3_3) (View.ld x6 r3_4) (k3_pay8 (View.ld x5 r3_3))) (k3_pay10 (k3_pay2 (View.ld x0 r3_0)) (k3_pay3 (View.ld x1 r3_0)) (k3_pay4 (View.ld x2 r3_0)) (k3_pay7 i (View.ld x3 r3_1)) (View.ld x5 r3_3) (View.ld x6 r3_4)) (k3_pay13 (k3_pay3 (View.ld x1 r3_0)) (k3_pay4 (View.ld x2 r3_0)) (View.ld x5 r3_3) (View.ld x6 r3_4) (k3_pay11 (k3_pay2 (View.ld x0 r3_0)) (k3_pay7 i (View.ld x3 r3_1)) (View.ld x5 r3_3)) (k3_pay12 (View.ld x5 r3_3))) (k3_pay14 (k3_pay2 (View.ld x0 r3_0)) (k3_pay3 (View.ld x1 r3_0)) (k3_pay4 (View.ld x2 r3_0)) (k3_pay7 i (View.ld x3 r3_1)) (View.ld x5 r3_3) (View.ld x6 r3_4)) (k3_pay16 (View.ld x6 r3_4) (k3_pay15 (k3_pay2 (View.ld x0 r3_0)) (k3_pay3 (View.ld x1 r3_0)) (k3_pay4 (View.ld x2 r3_0)) (k3_pay7 i (View.ld x3 r3_1)) (View.ld x5 r3_3))) (k3_pay17 (k3_pay2 (View.ld x0 r3_0)) (k3_pay3 (View.ld x1 r3_0)) (k3_pay4 (View.ld x2 r3_0)) (k3_pay7 i (View.ld x3 r3_1)) (View.ld x5 r3_3) (View.ld x6 r3_4))) (k3_pay49 (View.ld x7 r3_5)))
      (k3_pay55 (k3_pay6 (View.ld x3 r3_1) (View.ld x4 r3_2)) (View.ld x7 r3_5) (View.ld x8 r3_6) (k3_pay31 (k3_pay29 (k3_pay2 (View.ld x0 r3_0)) (k3_pay3 (View.ld x1 r3_0)) (k3_pay4 (View.ld x2 r3_0)) (k3_pay7 i (View.ld x3 r3_1)) (View.ld x5 r3_3) (View.ld x6 r3_4)) (k3_pay30 (F := F))) (k3_pay32 (k3_pay2 (View.ld x0 r3_0)) (k3_pay3 (View.ld x1 r3_0)) (k3_pay4 (View.ld x2 r3_0)) (k3_pay7 i (View.ld x3 r3_1)) (View.ld x5 r3_3) (View.ld x6 r3_4)) (k3_pay33 (k3_pay2 (View.ld x0 r3_0)) (k3_pay3 (View.ld x1 r3_0)) (k3_pay4 (View.ld x2 r3_0)) (k3_pay7 i (View.ld x3 r3_1)) (View.ld x5 r3_3) (View.ld x6 r3_4)) (k3_pay53 (View.ld x7 r3_5) (k3_pay10 (k3_pay2 (View.ld x0 r3_0)) (k3_pay3 (View.ld x1 r3_0)) (k3_pay4 (View.ld x2 r3_0)) (k3_pay7 i (View.ld x3 r3_1)) (View.ld x5 r3_3) (View.ld x6 r3_4)) (k3_pay13 (k3_pay3 (View.ld x1 r3_0)) (k3_pay4 (View.ld x2 r3_0)) (View.ld x5 r3_3) (View.ld x6 r3_4) (k3_pay11 (k3_pay2 (View.ld x0 r3_0)) (k3_pay7 i (View.ld x3 r3_1)) (View.ld x5 r3_3)) (k3_pay12 (View.ld x5 r3_3))) (k3_pay14 (k3_pay2 (View.ld x0 r3_0)) (k3_pay3 (View.ld x1 r3_0)) (k3_pay4 (View.ld x2 r3_0)) (k3_pay7 i (View.ld x3 r3_1)) (View.ld x5 r3_3) (View.ld x6 r3_4)) (k3_pay16 (View.ld x6 r3_4) (k3_pay15 (k3_pay2 (View.ld x0 r3_0)) (k3_pay3 (View.ld x1 r3_0)) (k3_pay4 (View.ld x2 r3_0)) (k3_pay7 i (View.ld x3 r3_1)) (View.ld x5 r3_3))) (k3_pay17 (k3_pay2 (View.ld x0 r3_0)) (k3_pay3 (View.ld x1 r3_0)) (k3_pay4 (View.ld x2 r3_0)) (k3_pay7 i (View.ld x3 r3_1)) (View.ld x5 r3_3) (View.ld x6 r3_4)) (k3_pay18 (k3_pay2 (View.ld x0 r3_0)) (k3_pay3 (View.ld x1 r3_0)) (k3_pay4 (View.ld x2 r3_0)) (k3_pay7 i (View.ld x3 r3_1)) (View.ld x5 r3_3) (View.ld x6 r3_4)) (k3_pay20 (k3_pay2 (View.ld x0 r3_0)) (k3_pay3 (View.ld x1 r3_0)) (k3_pay4 (View.ld x2 r3_0)) (k3_pay7 i (View.ld x3 r3_1)) (View.ld x5 r3_3) (View.ld x6 r3_4) (k3_pay19 (View.ld x5 r3_3))) (k3_pay21 (k3_pay2 (View.ld x0 r3_0)) (k3_pay3 (View.ld x1 r3_0)) (k3_pay4 (View.ld x2 r3_0)) (k3_pay7 i (View.ld x3 r3_1)) (View.ld x5 r3_3) (View.ld x6 r3_4)) (k3_pay23 (k3_pay3 (View.ld x1 r3_0)) (k3_pay4 (View.ld x2 r3_0)) (View.ld x5 r3_3) (View.ld x6 r3_4) (k3_pay22 (k3_pay2 (View.ld x0 r3_0)) (k3_pay7 i (View.ld x3 r3_1)) (View.ld x5 r3_3))) (k3_pay24 (k3_pay2 (View.ld x0 r3_0)) (k3_pay3 (View.ld x1 r3_0)) (k3_pay4 (View.ld x2 r3_0)) (k3_pay7 i (View.ld x3 r3_1)) (View.ld x5 r3_3) (View.ld x6 r3_4)) (k3_pay27 (k3_pay4 (View.ld x2 r3_0)) (View.ld x6 r3_4) (k3_pay25 (k3_pay2 (View.ld x0 r3_0)) (k3_pay3 (View.ld x1 r3_0)) (k3_pay7 i (View.ld x3 r3_1)) (View.ld x5 r3_3)) (k3_pay26 (View.ld x5 r3_3))) (k3_pay28 (k3_pay2 (View.ld x0 r3_0)) (k3_pay3 (View.ld x1 r3_0)) (k3_pay4 (View.ld x2 r3_0)) (k3_pay7 i (View.ld x3 r3_1)) (View.ld x5 r3_3) (View.ld x6 r3_4)) (k3_pay51 (View.ld x7 r3_5) (k3_pay9 (k3_pay2 (View.ld x0 r3_0)) (k3_pay3 (View.ld x1 r3_0)) (k3_pay4 (View.ld x2 r3_0)) (k3_pay7 i (View.ld x3 r3_1)) (View.ld x5 r3_3) (View.ld x6 r3_4) (k3_pay8 (View.ld x5 r3_3)))) (k3_pay52 (View.ld x7 r3_5))) (k3_pay54 (View.ld x7 r3_5)))
      (k3_pay58 (k3_pay6 (View.ld x3 r3_1) (View.ld x4 r3_2)) (View.ld x7 r3_5) (View.ld x8 r3_6) (k3_pay23 (k3_pay3 (View.ld x1 r3_0)) (k3_pay4 (View.ld x2 r3_0)) (View.ld x5 r3_3) (View.ld x6 r3_4) (k3_pay22 (k3_pay2 (View.ld x0 r3_0)) (k3_pay7 i (View.ld x3 r3_1)) (View.ld x5 r3_3))) (k3_pay24 (k3_pay2 (View.ld x0 r3_0)) (k3_pay3 (View.ld x1 r3_0)) (k3_pay4 (View.ld x2 r3_0)) (k3_pay7 i (View.ld x3 r3_1)) (View.ld x5 r3_3) (View.ld x6 r3_4)) (k3_pay27 (k3_pay4 (View.ld x2 r3_0)) (View.ld x6 r3_4) (k3_pay25 (k3_pay2 (View.ld x0 r3_0)) (k3_pay3 (View.ld x1 r3_0)) (k3_pay7 i (View.ld x3 r3_1)) (View.ld x5 r3_3)) (k3_pay26 (View.ld x5 r3_3))) (k3_pay28 (k3_pay2 (View.ld x0 r3_0)) (k3_pay3 (View.ld x1 r3_0)) (k3_pay4 (View.ld x2 r3_0)) (k3_pay7 i (View.ld x3 r3_1)) (View.ld x5 r3_3) (View.ld x6 r3_4)) (k3_pay31 (k3_pay29 (k3_pay2 (View.ld x0 r3_0)) (k3_pay3 (View.ld x1 r3_0)) (k3_pay4 (View.ld x2 r3_0)) (k3_pay7 i (View.ld x3 r3_1)) (View.ld x5 r3_3) (View.ld x6 r3_4)) (k3_pay30 (F := F))) (k3_pay32 (k3_pay2 (View.ld x0 r3_0)) (k3_pay3 (View.ld x1 r3_0)) (k3_pay4 (View.ld x2 r3_0)) (k3_pay7 i (View.ld x3 r3_1)) (View.ld x5 r3_3) (View.ld x6 r3_4)) (k3_pay33 (k3_pay2 (View.ld x0 r3_0)) (k3_pay3 (View.ld x1 r3_0)) (k3_pay4 (View.ld x2 r3_0)) (k3_pay7 i (View.ld x3 r3_1)) (View.ld x5 r3_3) (View.ld x6 r3_4)) (k3_pay56 (View.ld x7 r3_5) (k3_pay9 (k3_pay2 (View.ld x0 r3_0)) (k3_pay3 (View.ld x1 r3_0)) (k3_pay4 (View.ld x2 r3_0)) (k3_pay7 i (View.ld x3 r3_1)) (View.ld x5 r3_3) (View.ld x6 r3_4) (k3_pay8 (View.ld x5 r3_3))) (k3_pay10 (k3_pay2 (View.ld x0 r3_0)) (k3_pay3 (View.ld x1 r3_0)) (k3_pay4 (View.ld x2 r3_0)) (k3_pay7 i (View.ld x3 r3_1)) (View.ld x5 r3_3) (View.ld x6 r3_4)) (k3_pay13 (k3_pay3 (View.ld x1 r3_0)) (k3_pay4 (View.ld x2 r3_0)) (View.ld x5 r3_3) (View.ld x6 r3_4) (k3_pay11 (k3_pay2 (View.ld x0 r3_0)) (k3_pay7 i (View.ld x3 r3_1)) (View.ld x5 r3_3)) (k3_pay12 (View.ld x5 r3_3))) (k3_pay14 (k3_pay2 (View.ld x0 r3_0)) (k3_pay3 (View.ld x1 r3_0)) (k3_pay4 (View.ld x2 r3_0)) (k3_pay7 i (View.ld x3 r3_1)) (View.ld x5 r3_3) (View.ld x6 r3_4)) (k3_pay16 (View.ld x6 r3_4) (k3_pay15 (k3_pay2 (View.ld x0 r3_0)) (k3_pay3 (View.ld x1 r3_0)) (k3_pay4 (View.ld x2 r3_0)) (k3_pay7 i (View.ld x3 r3_1)) (View.ld x5 r3_3))) (k3_pay17 (k3_pay2 (View.ld x0 r3_0)) (k3_pay3 (View.ld x1 r3_0)) (k3_pay4 (View.ld x2 r3_0)) (k3_pay7 i (View.ld x3 r3_1)) (View.ld x5 r3_3) (View.ld x6 r3_4)) (k3_pay18 (k3_pay2 (View.ld x0 r3_0)) (k3_pay3 (View.ld x1 r3_0)) (k3_pay4 (View.ld x2 r3_0)) (k3_pay7 i (View.ld x3 r3_1)) (View.ld x5 r3_3) (View.ld x6 r3_4)) (k3_pay20 (k3_pay2 (View.ld x0 r3_0)) (k3_pay3 (View.ld x1 r3_0)) (k3_pay4 (View.ld x2 r3_0)) (k3_pay7 i (View.ld x3 r3_1)) (View.ld x5 r3_3) (View.ld x6 r3_4) (k3_pay19 (View.ld x5 r3_3)))) (k3_pay57 (View.ld x7 r3_5) (k3_pay21 (k3_pay2 (View.ld x0 r3_0)) (k3_pay3 (View.ld x1 r3_0)) (k3_pay4 (View.ld x2 r3_0)) (k3_pay7 i (View.ld x3 r3_1)) (View.ld x5 r3_3) (View.ld x6 r3_4))))
      (k3_pay60 (View.ld x7 r3_5) (k3_pay16 (View.ld x6 r3_4) (k3_pay15 (k3_pay2 (View.ld x0 r3_0)) (k3_pay3 (View.ld x1 r3_0)) (k3_pay4 (View.ld x2 r3_0)) (k3_pay7 i (View.ld x3 r3_1)) (View.ld x5 r3_3))) (k3_pay17 (k3_pay2 (View.ld x0 r3_0)) (k3_pay3 (View.ld x1 r3_0)) (k3_pay4 (View.ld x2 r3_0)) (k3_pay7 i (View.ld x3 r3_1)) (View.ld x5 r3_3) (View.ld x6 r3_4)) (k3_pay18 (k3_pay2 (View.ld x0 r3_0)) (k3_pay3 (View.ld x1 r3_0)) (k3_pay4 (View.ld x2 r3_0)) (k3_pay7 i (View.ld x3 r3_1)) (View.ld x5 r3_3) (View.ld x6 r3_4)) (k3_pay20 (k3_pay2 (View.ld x0 r3_0)) (k3_pay3 (View.ld x1 r3_0)) (k3_pay4 (View.ld x2 r3_0)) (k3_pay7 i (View.ld x3 r3_1)) (View.ld x5 r3_3) (View.ld x6 r3_4) (k3_pay19 (View.ld x5 r3_3))) (k3_pay21 (k3_pay2 (View.ld x0 r3_0)) (k3_pay3 (View.ld x1 r3_0)) (k3_pay4 (View.ld x2 r3_0)) (k3_pay7 i (View.ld x3 r3_1)) (View.ld x5 r3_3) (View.ld x6 r3_4)) (k3_pay23 (k3_pay3 (View.ld x1 r3_0)) (k3_pay4 (View.ld x2 r3_0)) (View.ld x5 r3_3) (View.ld x6 r3_4) (k3_pay22 (k3_pay2 (View.ld x0 r3_0)) (k3_pay7 i (View.ld x3 r3_1)) (View.ld x5 r3_3))) (k3_pay24 (k3_pay2 (View.ld x0 r3_0)) (k3_pay3 (View.ld x1 r3_0)) (k3_pay4 (View.ld x2 r3_0)) (k3_pay7 i (View.ld x3 r3_1)) (View.ld x5 r3_3) (View.ld x6 r3_4)) (k3_pay27 (k3_pay4 (View.ld x2 r3_0)) (View.ld x6 r3_4) (k3_pay25 (k3_pay2 (View.ld x0 r3_0)) (k3_pay3 (View.ld x1 r3_0)) (k3_pay7 i (View.ld x3 r3_1)) (View.ld x5 r3_3)) (k3_pay26 (View.ld x5 r3_3))) (k3_pay28 (k3_pay2 (View.ld x0 r3_0)) (k3_pay3 (View.ld x1 r3_0)) (k3_pay4 (View.ld x2 r3_0)) (k3_pay7 i (View.ld x3 r3_1)) (View.ld x5 r3_3) (View.ld x6 r3_4)) (k3_pay31 (k3_pay29 (k3_pay2 (View.ld x0 r3_0)) (k3_pay3 (View.ld x1 r3_0)) (k3_pay4 (View.ld x2 r3_0)) (k3_pay7 i (View.ld x3 r3_1)) (View.ld x5 r3_3) (View.ld x6 r3_4)) (k3_pay30 (F := F))) (k3_pay32 (k3_pay2 (View.ld x0 r3_0)) (k3_pay3 (View.ld x1 r3_0)) (k3_pay4 (View.ld x2 r3_0)) (k3_pay7 i (View.ld x3 r3_1)) (View.ld x5 r3_3) (View.ld x6 r3_4)) (k3_pay33 (k3_pay2 (View.ld x0 r3_0)) (k3_pay3 (View.ld x1 r3_0)) (k3_pay4 (View.ld x2 r3_0)) (k3_pay7 i (View.ld x3 r3_1)) (View.ld x5 r3_3) (View.ld x6 r3_4)) (k3_pay59 (View.ld x7 r3_5) (k3_pay9 (k3_pay2 (View.ld x0 r3_0)) (k3_pay3 (View.ld x1 r3_0)) (k3_pay4 (View.ld x2 r3_0)) (k3_pay7 i (View.ld x3 r3_1)) (View.ld x5 r3_3) (View.ld x6 r3_4) (k3_pay8 (View.ld x5 r3_3))) (k3_pay10 (k3_pay2 (View.ld x0 r3_0)) (k3_pay3 (View.ld x1 r3_0)) (k3_pay4 (View.ld x2 r3_0)) (k3_pay7 i (View.ld x3 r3_1)) (View.ld x5 r3_3) (View.ld x6 r3_4)) (k3_pay13 (k3_pay3 (View.ld x1 r3_0)) (k3_pay4 (View.ld x2 r3_0)) (View.ld x5 r3_3) (View.ld x6 r3_4) (k3_pay11 (k3_pay2 (View.ld x0 r3_0)) (k3_pay7 i (View.ld x3 r3_1)) (View.ld x5 r3_3)) (k3_pay12 (View.ld x5 r3_3))) (k3_pay14 (k3_pay2 (View.ld x0 r3_0)) (k3_pay3 (View.ld x1 r3_0)) (k3_pay4 (View.ld x2 r3_0)) (k3_pay7 i (View.ld x3 r3_1)) (View.ld x5 r3_3) (View.ld x6 r3_4))))⟩]

/-- The one store's rectangle is the whole block, so it covers it. -/
theorem cover3_9 (p0 : Vec F S1x8x512x1024 .f32) (y : S1x8x512x1024.Idx) :
    ∃ pc ∈ ([⟨r3_7, p0⟩] : List (View.Piece (Elt F) S1x8x512x1024 .f32)), y ∈ pc.1.set :=
  View.cover_of_tiled [⟨r3_7, p0⟩] S1x8x512x1024.size (by rfl) y

/-! ## The body's triple -/

set_option maxHeartbeats 4000000 in
/-- The kernel body on whole staging memrefs, the inputs' at read contents `xW` and the output's at anything, runs
    to the continuation holding the inputs' as they were and the output's at `out3_9` of the inputs'. -/
theorem sound_kernel3 (c : Dev nD) (E : Set ℕ) (i : grid3.Coords) (arg2 : Memref sig .tc .vmem S1x512x1024 .f32) (harg2 : arg2.IsWhole) (arg3 : Memref sig .tc .vmem S1x512x1024 .f32) (harg3 : arg3.IsWhole) (arg4 : Memref sig .tc .vmem S1x512x1024 .f32) (harg4 : arg4.IsWhole) (arg5 : Memref sig .tc .vmem S1x512x1 .f32) (harg5 : arg5.IsWhole) (arg6 : Memref sig .tc .vmem S1x1x1024 .f32) (harg6 : arg6.IsWhole) (arg7 : Memref sig .tc .vmem S4x16 .f32) (harg7 : arg7.IsWhole) (arg8 : Memref sig .tc .vmem S16 .f32) (harg8 : arg8.IsWhole) (arg9 : Memref sig .tc .vmem S16x8 .f32) (harg9 : arg9.IsWhole) (arg10 : Memref sig .tc .vmem S8 .f32) (harg10 : arg10.IsWhole) (arg11 : Memref sig .tc .vmem S1x8x512x1024 .f32) (harg11 : arg11.IsWhole)
    (x0 : Vec F S1x512x1024 .f32) (x1 : Vec F S1x512x1024 .f32) (x2 : Vec F S1x512x1024 .f32) (x3 : Vec F S1x512x1 .f32) (x4 : Vec F S1x1x1024 .f32) (x5 : Vec F S4x16 .f32) (x6 : Vec F S16 .f32) (x7 : Vec F S16x8 .f32) (x8 : Vec F S8 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare (out3_9 i x0 x1 x2 x3 x4 x5 x6 x7 x8)) -∗ K ⟨⟩))
      ⊢ wp frame (wpE (defs₀ (F := F)) Variants.none c none) E (cc3__mlp_kernel i arg2 harg2 arg3 harg3 arg4 harg4 arg5 harg5 arg6 harg6 arg7 harg7 arg8 harg8 arg9 harg9 arg10 harg10 arg11 harg11) K := by
  simp only [cc3__mlp_kernel_eq_skeleton]; unfold cc3__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec_parts
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  sl_unfold_run_names
  exact View.read_writes_eq_canon _ _ _ (cover3_9 _)

section Region
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, whether the pipeline fetched it there
    or not (where it did not, the window's block index has not moved since the last fetch), for any proof data
    whose array is `V`'s and whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- Input window 1's current staging buffer holds its block at every point, whether the pipeline fetched it there
    or not (where it did not, the window's block index has not moved since the last fetch), for any proof data
    whose array is `V`'s and whose body leaves the block in place. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
/-- Input window 2's current staging buffer holds its block at every point, whether the pipeline fetched it there
    or not (where it did not, the window's block index has not moved since the last fetch), for any proof data
    whose array is `V`'s and whose body leaves the block in place. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
/-- Input window 3's current staging buffer holds its block at every point, whether the pipeline fetched it there
    or not (where it did not, the window's block index has not moved since the last fetch), for any proof data
    whose array is `V`'s and whose body leaves the block in place. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
/-- Input window 4's current staging buffer holds its block at every point, whether the pipeline fetched it there
    or not (where it did not, the window's block index has not moved since the last fetch), for any proof data
    whose array is `V`'s and whose body leaves the block in place. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)
/-- Input window 5's current staging buffer holds its block at every point, whether the pipeline fetched it there
    or not (where it did not, the window's block index has not moved since the last fetch), for any proof data
    whose array is `V`'s and whose body leaves the block in place. -/
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)
/-- Input window 6's current staging buffer holds its block at every point, whether the pipeline fetched it there
    or not (where it did not, the window's block index has not moved since the last fetch), for any proof data
    whose array is `V`'s and whose body leaves the block in place. -/
theorem before3_6_of {c : Dev nD} (dat : Dat τ (Elt F) Unit ℕ (UR sig nD τ) ℕ cfg3 c) (hA : dat.A 6 = V c (Pipeline.arrRef spec3 6))
    (hafter : ∀ t, dat.after 6 t = iblk3 V c 6 t) (t : Fin cfg3.N) (d) : dat.before 6 t d = iblk3 V c 6 t :=
  (dat.before_in_eq_fetched 6 rfl (fun _ => rfl) (fun _ _ _ => rfl) (fun t => by rw [hafter]; unfold Dat.blockOf iblk3; rw [hA]; try rfl) t d).trans
    (by unfold Dat.fetched Dat.blockOf iblk3; rw [hA]; try rfl)
/-- Input window 7's current staging buffer holds its block at every point, whether the pipeline fetched it there
    or not (where it did not, the window's block index has not moved since the last fetch), for any proof data
    whose array is `V`'s and whose body leaves the block in place. -/
theorem before3_7_of {c : Dev nD} (dat : Dat τ (Elt F) Unit ℕ (UR sig nD τ) ℕ cfg3 c) (hA : dat.A 7 = V c (Pipeline.arrRef spec3 7))
    (hafter : ∀ t, dat.after 7 t = iblk3 V c 7 t) (t : Fin cfg3.N) (d) : dat.before 7 t d = iblk3 V c 7 t :=
  (dat.before_in_eq_fetched 7 rfl (fun _ => rfl) (fun _ _ _ => rfl) (fun t => by rw [hafter]; unfold Dat.blockOf iblk3; rw [hA]; try rfl) t d).trans
    (by unfold Dat.fetched Dat.blockOf iblk3; rw [hA]; try rfl)
/-- Input window 8's current staging buffer holds its block at every point, whether the pipeline fetched it there
    or not (where it did not, the window's block index has not moved since the last fetch), for any proof data
    whose array is `V`'s and whose body leaves the block in place. -/
theorem before3_8_of {c : Dev nD} (dat : Dat τ (Elt F) Unit ℕ (UR sig nD τ) ℕ cfg3 c) (hA : dat.A 8 = V c (Pipeline.arrRef spec3 8))
    (hafter : ∀ t, dat.after 8 t = iblk3 V c 8 t) (t : Fin cfg3.N) (d) : dat.before 8 t d = iblk3 V c 8 t :=
  (dat.before_in_eq_fetched 8 rfl (fun _ => rfl) (fun _ _ _ => rfl) (fun t => by rw [hafter]; unfold Dat.blockOf iblk3; rw [hA]; try rfl) t d).trans
    (by unfold Dat.fetched Dat.blockOf iblk3; rw [hA]; try rfl)

/-! ## The pipeline's proof data -/

/-- The proof data of pipeline 3 on core `c`: the arrays as the region finds them (`V`); after the body at point
    `t` each input's buffer at its block and the output's at `out3_9` of the input blocks at the point's grid
    position; the invariant is the scoped rest and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => iblk3 V c 7 t
    | ⟨8, _⟩ => iblk3 V c 8 t
    | ⟨9, _⟩ => out3_9 (grid3.coords t) (iblk3 V c 0 t) (iblk3 V c 1 t) (iblk3 V c 2 t) (iblk3 V c 3 t) (iblk3 V c 4 t) (iblk3 V c 5 t) (iblk3 V c 6 t) (iblk3 V c 7 t) (iblk3 V c 8 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = iblk3 V c 7 t := by dsimp only [dat3]
theorem after3_8 (c : Dev nD) (t : Fin cfg3.N) : (dat3 V c).after 8 t = iblk3 V c 8 t := by dsimp only [dat3]
theorem after3_9 (c : Dev nD) (t : Fin cfg3.N) : (dat3 V c).after 9 t = out3_9 (grid3.coords t) (iblk3 V c 0 t) (iblk3 V c 1 t) (iblk3 V c 2 t) (iblk3 V c 3 t) (iblk3 V c 4 t) (iblk3 V c 5 t) (iblk3 V c 6 t) (iblk3 V c 7 t) (iblk3 V c 8 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d
theorem before3_6 (c : Dev nD) (t : Fin cfg3.N) (d) : (dat3 V c).before 6 t d = iblk3 V c 6 t :=
  before3_6_of V (dat3 V c) (A_eq3 V c 6) (after3_6 V c) t d
theorem before3_7 (c : Dev nD) (t : Fin cfg3.N) (d) : (dat3 V c).before 7 t d = iblk3 V c 7 t :=
  before3_7_of V (dat3 V c) (A_eq3 V c 7) (after3_7 V c) t d
theorem before3_8 (c : Dev nD) (t : Fin cfg3.N) (d) : (dat3 V c).before 8 t d = iblk3 V c 8 t :=
  before3_8_of V (dat3 V c) (A_eq3 V c 8) (after3_8 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d))
    ∗ (∃ d, owns (c : Thread nD τ) (st3_8 t) fullShare ((dat3 V c).before 8 t d))
    ∗ (∃ d, owns (c : Thread nD τ) (st3_9 t) fullShare ((dat3 V c).before 9 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t)
    ∗ owns (c : Thread nD τ) (st3_8 t) fullShare ((dat3 V c).after 8 t)
    ∗ owns (c : Thread nD τ) (st3_9 t) fullShare ((dat3 V c).after 9 t))

/-- The body at any point: the inputs' memrefs hold their blocks, so the body's triple applies at the point's grid
    position; the invariant and what the core owes pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6, before3_7, before3_8]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6, after3_7, after3_8, after3_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel3 c Set.univ (grid3.coords t) _ _ _ _ _ _ _ _ _ _ _ _ _ _ _ _ _ _ _ _ (iblk3 V c 0 t) (iblk3 V c 1 t) (iblk3 V c 2 t) (iblk3 V c 3 t) (iblk3 V c 4 t) (iblk3 V c 5 t) (iblk3 V c 6 t) (iblk3 V c 7 t) (iblk3 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation3 (c : Dev nD) : BodyObligation (dat3 (F := F) V c) (defs₀ (F := F)) Variants.none () Set.univ := fun t => by
  rw [bigSep_W3, bigSep_W3]
  exact sound_body3 V c t

end Region

end Cert.Kernel.Frm

end
-- ==== Proof.KShare.lean ====
/-
  Entering and leaving the two matrix-product regions.  Each reads ONE array through both of its input windows and writes
  another; between regions a core holds every unscoped buffer whole at the full share.  On entry the read array's
  points-to is split along its share into a left and a right half, one for each input window; on exit the halves are
  joined again, and the written array holds what the write-backs left.
-/
import proofs.«115754_j78331613544465_2_alg».proof.Proof.KReg1
import proofs.«115754_j78331613544465_2_alg».proof.Proof.KReg2
import proofs.«115754_j78331613544465_2_alg».proof.Proof.Gen.Kernel.Launch
import proofs.«115754_j78331613544465_2_alg».proof.Proof.Gen.Kernel.Skeleton
import proofs.«115754_j78331613544465_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Region 1: its arrays are main_v3 (read by both input windows) and main_v4 (written) -/

theorem img1 : Finset.univ.image (Pipeline.arrRef spec1) = ({main_v3, main_v4} : Finset (Ref sig .tc)) := by decide

/-- The region's arrays as points-tos of the buffers behind them, each window at its share. -/
theorem arrays1_eq (c : Dev nD) (Fa : (w : Fin cfg1.W) → Buf (Elt F) ((cfg1.win w).arr.view.loc (c : Thread nD τ))) :
    ((dat1 V c).arrays Fa : sProp 𝕄) = bigSep Finset.univ fun w : Fin cfg1.W => ((((c : Thread nD τ).loc (Pipeline.arrRef spec1 w)) ↦{(dat1 V c).share w} Fa w : sProp 𝕄)) := by
  unfold Pipeline.Dat.arrays
  exact bigSep_congr fun w _ => by rw [(arr_whole1 w).set_eq_univ]

/-- Entering: the core's unscoped buffers at V are the region's arrays — the read array's share split in two halves,
    one per input window — beside the buffers the region does not touch. -/
theorem entryG1 (c : Dev nD) :
    (unscopedBufs c (V c) : sProp 𝕄) ⊢ iprop((dat1 V c).arrays ((dat1 V c).arrAt · 0) ∗ Pipeline.unscopedRest (Ix := Unit) (Name := ℕ) (U := UR sig nD τ) (Lvl := ℕ) spec1 c (V c)) := by
  rw [Pipeline.unscopedBufs_split₀ cfgs (1 : Fin 4) winFacts₀1.arr_unscoped c (V c)]
  refine sep_mono ?_ .rfl
  rw [arrays1_eq]
  unfold Pipeline.arrBufs
  show bigSep (Finset.univ.image (Pipeline.arrRef spec1)) (fun b : Ref sig .tc => (((c : Thread nD τ).loc b) ↦{fullShare} V c b : sProp 𝕄)) ⊢ _
  rw [img1, bigSep_insert (by decide), bigSep_singleton, bigSep_W1, share1_0, share1_1, share1_2]
  show iprop((((c : Thread nD τ).loc main_v3) ↦{fullShare} V c main_v3) ∗ (((c : Thread nD τ).loc main_v4) ↦{fullShare} V c main_v4)) ⊢
       (iprop((((c : Thread nD τ).loc main_v3) ↦{fullShare.left} V c main_v3) ∗ (((c : Thread nD τ).loc main_v3) ↦{fullShare.right} V c main_v3) ∗ (((c : Thread nD τ).loc main_v4) ↦{fullShare} V c main_v4)) : sProp 𝕄)
  have hs : ((((c : Thread nD τ).loc main_v3) ↦{fullShare} V c main_v3) : sProp 𝕄) ⊢ iprop((((c : Thread nD τ).loc main_v3) ↦{fullShare.left} V c main_v3) ∗ (((c : Thread nD τ).loc main_v3) ↦{fullShare.right} V c main_v3)) :=
    (pointsTo_share (PosShare.mem_left_op_right fullShare)).1
  iintro ⟨H3, H4⟩
  ihave H := hs $$ H3
  icases H with ⟨Hl, Hr⟩
  isplitl [Hl]; · iexact Hl
  isplitl [Hr]; · iexact Hr
  iexact H4

/-- Leaving: the two halves of the read array's share joined again, the written array at what the write-backs left,
    every other buffer as entered: the core's unscoped buffers at any V' that says so. -/
theorem exitG1 (c : Dev nD) (V' : (b : Ref sig .tc) → Buf (Elt F) ((c : Thread nD τ).loc b))
    (h4 : V' main_v4 = (dat1 V c).arrAt 2 cfg1.N) (hrest : ∀ b, b ≠ main_v4 → V' b = V c b) :
    iprop((dat1 V c).arrays ((dat1 V c).arrAt · cfg1.N) ∗ Pipeline.unscopedRest (Ix := Unit) (Name := ℕ) (U := UR sig nD τ) (Lvl := ℕ) spec1 c (V c)) ⊢ (unscopedBufs c V' : sProp 𝕄) := by
  rw [Pipeline.unscopedBufs_split₀ cfgs (1 : Fin 4) winFacts₀1.arr_unscoped c V']
  refine sep_mono ?_ (Entails.of_eq ?_)
  · rw [arrays1_eq]
    unfold Pipeline.arrBufs
    show _ ⊢ bigSep (Finset.univ.image (Pipeline.arrRef spec1)) (fun b : Ref sig .tc => (((c : Thread nD τ).loc b) ↦{fullShare} V' b : sProp 𝕄))
    rw [img1, bigSep_insert (by decide), bigSep_singleton, bigSep_W1, share1_0, share1_1, share1_2,
      (dat1 V c).arrAt_in 0 rfl cfg1.N, (dat1 V c).arrAt_in 1 rfl cfg1.N, hrest main_v3 (by decide), h4]
    show (iprop((((c : Thread nD τ).loc main_v3) ↦{fullShare.left} V c main_v3) ∗ (((c : Thread nD τ).loc main_v3) ↦{fullShare.right} V c main_v3) ∗ (((c : Thread nD τ).loc main_v4) ↦{fullShare} (dat1 V c).arrAt 2 cfg1.N)) : sProp 𝕄) ⊢
      iprop((((c : Thread nD τ).loc main_v3) ↦{fullShare} V c main_v3) ∗ (((c : Thread nD τ).loc main_v4) ↦{fullShare} (dat1 V c).arrAt 2 cfg1.N))
    have hj : iprop((((c : Thread nD τ).loc main_v3) ↦{fullShare.left} V c main_v3) ∗ (((c : Thread nD τ).loc main_v3) ↦{fullShare.right} V c main_v3)) ⊢ ((((c : Thread nD τ).loc main_v3) ↦{fullShare} V c main_v3) : sProp 𝕄) :=
      (pointsTo_share (PosShare.mem_left_op_right fullShare)).2
    iintro ⟨Hl, Hr, H4⟩
    isplitl [Hl Hr]
    · iapply hj; isplitl [Hl] <;> iassumption
    iexact H4
  · unfold Pipeline.unscopedRest
    exact bigSep_congr fun b hb => by
      rw [hrest b (fun e => (Finset.mem_sdiff.mp hb).2 (by rw [e]; exact Finset.mem_image.mpr ⟨2, Finset.mem_univ _, rfl⟩))]

/-! ## Region 2: its arrays are main_v4 (read by both input windows) and main_v5 (written) -/

theorem img2 : Finset.univ.image (Pipeline.arrRef spec2) = ({main_v4, main_v5} : Finset (Ref sig .tc)) := by decide

/-- The region's arrays as points-tos of the buffers behind them, each window at its share. -/
theorem arrays2_eq (c : Dev nD) (Fa : (w : Fin cfg2.W) → Buf (Elt F) ((cfg2.win w).arr.view.loc (c : Thread nD τ))) :
    ((dat2 V c).arrays Fa : sProp 𝕄) = bigSep Finset.univ fun w : Fin cfg2.W => ((((c : Thread nD τ).loc (Pipeline.arrRef spec2 w)) ↦{(dat2 V c).share w} Fa w : sProp 𝕄)) := by
  unfold Pipeline.Dat.arrays
  exact bigSep_congr fun w _ => by rw [(arr_whole2 w).set_eq_univ]

/-- Entering: the core's unscoped buffers at V are the region's arrays — the read array's share split in two halves,
    one per input window — beside the buffers the region does not touch. -/
theorem entryG2 (c : Dev nD) :
    (unscopedBufs c (V c) : sProp 𝕄) ⊢ iprop((dat2 V c).arrays ((dat2 V c).arrAt · 0) ∗ Pipeline.unscopedRest (Ix := Unit) (Name := ℕ) (U := UR sig nD τ) (Lvl := ℕ) spec2 c (V c)) := by
  rw [Pipeline.unscopedBufs_split₀ cfgs (2 : Fin 4) winFacts₀2.arr_unscoped c (V c)]
  refine sep_mono ?_ .rfl
  rw [arrays2_eq]
  unfold Pipeline.arrBufs
  show bigSep (Finset.univ.image (Pipeline.arrRef spec2)) (fun b : Ref sig .tc => (((c : Thread nD τ).loc b) ↦{fullShare} V c b : sProp 𝕄)) ⊢ _
  rw [img2, bigSep_insert (by decide), bigSep_singleton, bigSep_W2, share2_0, share2_1, share2_2]
  show iprop((((c : Thread nD τ).loc main_v4) ↦{fullShare} V c main_v4) ∗ (((c : Thread nD τ).loc main_v5) ↦{fullShare} V c main_v5)) ⊢
       (iprop((((c : Thread nD τ).loc main_v4) ↦{fullShare.left} V c main_v4) ∗ (((c : Thread nD τ).loc main_v4) ↦{fullShare.right} V c main_v4) ∗ (((c : Thread nD τ).loc main_v5) ↦{fullShare} V c main_v5)) : sProp 𝕄)
  have hs : ((((c : Thread nD τ).loc main_v4) ↦{fullShare} V c main_v4) : sProp 𝕄) ⊢ iprop((((c : Thread nD τ).loc main_v4) ↦{fullShare.left} V c main_v4) ∗ (((c : Thread nD τ).loc main_v4) ↦{fullShare.right} V c main_v4)) :=
    (pointsTo_share (PosShare.mem_left_op_right fullShare)).1
  iintro ⟨H3, H4⟩
  ihave H := hs $$ H3
  icases H with ⟨Hl, Hr⟩
  isplitl [Hl]; · iexact Hl
  isplitl [Hr]; · iexact Hr
  iexact H4

/-- Leaving: the two halves of the read array's share joined again, the written array at what the write-backs left,
    every other buffer as entered: the core's unscoped buffers at any V' that says so. -/
theorem exitG2 (c : Dev nD) (V' : (b : Ref sig .tc) → Buf (Elt F) ((c : Thread nD τ).loc b))
    (h4 : V' main_v5 = (dat2 V c).arrAt 2 cfg2.N) (hrest : ∀ b, b ≠ main_v5 → V' b = V c b) :
    iprop((dat2 V c).arrays ((dat2 V c).arrAt · cfg2.N) ∗ Pipeline.unscopedRest (Ix := Unit) (Name := ℕ) (U := UR sig nD τ) (Lvl := ℕ) spec2 c (V c)) ⊢ (unscopedBufs c V' : sProp 𝕄) := by
  rw [Pipeline.unscopedBufs_split₀ cfgs (2 : Fin 4) winFacts₀2.arr_unscoped c V']
  refine sep_mono ?_ (Entails.of_eq ?_)
  · rw [arrays2_eq]
    unfold Pipeline.arrBufs
    show _ ⊢ bigSep (Finset.univ.image (Pipeline.arrRef spec2)) (fun b : Ref sig .tc => (((c : Thread nD τ).loc b) ↦{fullShare} V' b : sProp 𝕄))
    rw [img2, bigSep_insert (by decide), bigSep_singleton, bigSep_W2, share2_0, share2_1, share2_2,
      (dat2 V c).arrAt_in 0 rfl cfg2.N, (dat2 V c).arrAt_in 1 rfl cfg2.N, hrest main_v4 (by decide), h4]
    show (iprop((((c : Thread nD τ).loc main_v4) ↦{fullShare.left} V c main_v4) ∗ (((c : Thread nD τ).loc main_v4) ↦{fullShare.right} V c main_v4) ∗ (((c : Thread nD τ).loc main_v5) ↦{fullShare} (dat2 V c).arrAt 2 cfg2.N)) : sProp 𝕄) ⊢
      iprop((((c : Thread nD τ).loc main_v4) ↦{fullShare} V c main_v4) ∗ (((c : Thread nD τ).loc main_v5) ↦{fullShare} (dat2 V c).arrAt 2 cfg2.N))
    have hj : iprop((((c : Thread nD τ).loc main_v4) ↦{fullShare.left} V c main_v4) ∗ (((c : Thread nD τ).loc main_v4) ↦{fullShare.right} V c main_v4)) ⊢ ((((c : Thread nD τ).loc main_v4) ↦{fullShare} V c main_v4) : sProp 𝕄) :=
      (pointsTo_share (PosShare.mem_left_op_right fullShare)).2
    iintro ⟨Hl, Hr, H4⟩
    isplitl [Hl Hr]
    · iapply hj; isplitl [Hl] <;> iassumption
    iexact H4
  · unfold Pipeline.unscopedRest
    exact bigSep_congr fun b hb => by
      rw [hrest b (fun e => (Finset.mem_sdiff.mp hb).2 (by rw [e]; exact Finset.mem_image.mpr ⟨2, Finset.mem_univ _, rfl⟩))]

end Cert.Kernel.Frm

end
-- ==== Proof.KRun.lean ====
/-
  The run of the whole program: its six stretches in order — the host operations that turn the mask into a column and a
  row, the four kernel regions, the host transpose — each entered from the buffer contents the one before left.
-/
import proofs.«115754_j78331613544465_2_alg».proof.Proof.KReg0
import proofs.«115754_j78331613544465_2_alg».proof.Proof.KReg1
import proofs.«115754_j78331613544465_2_alg».proof.Proof.KReg2
import proofs.«115754_j78331613544465_2_alg».proof.Proof.KReg3
import proofs.«115754_j78331613544465_2_alg».proof.Proof.KShare

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## The buffer contents at each boundary -/

abbrev W0 : Dev nD → Valuation τ sig (Elt F) := fun c b => m (c, b)
abbrev W1 : Dev nD → Valuation τ sig (Elt F) := fun c => StableHlo.after hostOps0 (W0 m c)
abbrev V1 : (c : Dev nD) → (b : Ref sig .tc) → Buf (Elt F) ((c : Thread nD τ).loc b) := fun c b => W1 m c b

def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After region 1: the product's array at what the write-backs leave, every other buffer as entered. -/
def W3 (c : Dev nD) : Valuation τ sig (Elt F) :=
  Function.update (W2 m c) (Proc.devRef .tc main_v4) ((dat1 (V2 m) c).arrAt 2 cfg1.N)
abbrev V3 : (c : Dev nD) → (b : Ref sig .tc) → Buf (Elt F) ((c : Thread nD τ).loc b) := fun c b => W3 m c b

/-- After region 2. -/
def W4 (c : Dev nD) : Valuation τ sig (Elt F) :=
  Function.update (W3 m c) (Proc.devRef .tc main_v5) ((dat2 (V3 m) c).arrAt 2 cfg2.N)
abbrev V4 : (c : Dev nD) → (b : Ref sig .tc) → Buf (Elt F) ((c : Thread nD τ).loc b) := fun c b => W4 m c b

def W5 (c : Dev nD) : Valuation τ sig (Elt F) :=
  Pipeline.withArrays spec3 c (W4 m c) fun w => (dat3 (V4 m) c).arrAt w cfg3.N
theorem W5_arr (c : Dev nD) (w : Fin cfg3.W) :
    W5 m c (Proc.devRef .tc (Pipeline.arrRef spec3 w)) = (dat3 (V4 m) c).arrAt w cfg3.N := by
  unfold W5; exact Pipeline.withArrays_arr spec3 launch3.win.arr_inj c _ _ w
theorem W5_of_ne (c : Dev nD) (b : Ref sig .tc) (hb : ∀ w, Pipeline.arrRef spec3 w ≠ b) :
    W5 m c (Proc.devRef .tc b) = W4 m c (Proc.devRef .tc b) := by
  unfold W5; exact Pipeline.withArrays_of_ne spec3 c _ _ b hb
abbrev V5 : (c : Dev nD) → (b : Ref sig .tc) → Buf (Elt F) ((c : Thread nD τ).loc b) := fun c b => W5 m c b
theorem hF3 (c : Dev nD) (w : Fin cfg3.W) : (dat3 (V4 m) c).arrAt w cfg3.N = V5 m c (Pipeline.arrRef spec3 w) :=
  (W5_arr m c w).symm
theorem hrest3 (c : Dev nD) : ∀ b, b ∉ Finset.univ.image (Pipeline.arrRef spec3) → V5 m c b = V4 m c b :=
  fun b hb => W5_of_ne m c b fun w e => hb (Finset.mem_image.mpr ⟨w, Finset.mem_univ _, e⟩)

abbrev W6 : Dev nD → Valuation τ sig (Elt F) := fun c => StableHlo.after hostOps4 (W5 m c)

/-! ## The proof data family and the thread state -/

abbrev adm : (p : Fin 4) → (pcfgs (F := F) p).Adm := fun p => (cfgs p).toPCfg_adm
def pdats : (p : Fin 4) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
  | ⟨2, _⟩ => fun c => dat2 (V3 m) c
  | ⟨3, _⟩ => fun c => dat3 (V4 m) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps4_fresh : (hostOps4 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## Entering and leaving a region whose two input windows read one array -/

theorem entry1 (c : Dev nD) :
    (unscopedBufs c (V2 m c) : sProp 𝕄) ⊢ iprop((pdats m 1 c).arrays ((pdats m 1 c).arrAt · 0) ∗ Pipeline.unscopedRest (Ix := Unit) (Name := ℕ) (U := UR sig nD τ) (Lvl := ℕ) spec1 c (V2 m c)) :=
  entryG1 (V2 m) c
theorem exit1 (c : Dev nD) :
    iprop((pdats m 1 c).arrays ((pdats m 1 c).arrAt · cfg1.N) ∗ Pipeline.unscopedRest (Ix := Unit) (Name := ℕ) (U := UR sig nD τ) (Lvl := ℕ) spec1 c (V2 m c)) ⊢ (unscopedBufs c (V3 m c) : sProp 𝕄) :=
  exitG1 (V2 m) c (V3 m c) (by show W3 m c (Proc.devRef .tc main_v4) = _; unfold W3; exact Function.update_self ..)
    (fun b hb => by show W3 m c (Proc.devRef .tc b) = W2 m c (Proc.devRef .tc b); unfold W3; exact Function.update_of_ne (StableHlo.devRef_ne_of_ne hb : (Proc.devRef .tc b : DevRef τ sig) ≠ Proc.devRef .tc main_v4) ..)
theorem entry2 (c : Dev nD) :
    (unscopedBufs c (V3 m c) : sProp 𝕄) ⊢ iprop((pdats m 2 c).arrays ((pdats m 2 c).arrAt · 0) ∗ Pipeline.unscopedRest (Ix := Unit) (Name := ℕ) (U := UR sig nD τ) (Lvl := ℕ) spec2 c (V3 m c)) :=
  entryG2 (V3 m) c
theorem exit2 (c : Dev nD) :
    iprop((pdats m 2 c).arrays ((pdats m 2 c).arrAt · cfg2.N) ∗ Pipeline.unscopedRest (Ix := Unit) (Name := ℕ) (U := UR sig nD τ) (Lvl := ℕ) spec2 c (V3 m c)) ⊢ (unscopedBufs c (V4 m c) : sProp 𝕄) :=
  exitG2 (V3 m) c (V4 m c) (by show W4 m c (Proc.devRef .tc main_v5) = _; unfold W4; exact Function.update_self ..)
    (fun b hb => by show W4 m c (Proc.devRef .tc b) = W3 m c (Proc.devRef .tc b); unfold W4; exact Function.update_of_ne (StableHlo.devRef_ne_of_ne hb : (Proc.devRef .tc b : DevRef τ sig) ≠ Proc.devRef .tc main_v5) ..)

/-! ## The regions as segments -/

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := entry1 m c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := exit1 m c
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg2 : Pipeline.RegionSeg (pcfgs (F := F)) adm (pdats m) () defs₀ 𝒱₀ L lv 2 where
  win := winFacts₀2
  block_pos := block_pos2
  stage_whole := stage_whole2
  K := PEmpty
  osem k := k.elim
  ho := Pipeline.OwnSemFacts.none _
  hbody c := (body_obligation2 (V3 m) c).loose
  hwaits := Pipeline.hwaits_of_owed_zero _ _ _ _ L lv 2 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec2 c (V3 m c)
  hentry c := by
    rw [Pipeline.ownSems0_none]
    have hsplit := entry2 m c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := exit2 m c
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V4 m) c).loose
  hwaits := Pipeline.hwaits_of_owed_zero _ _ _ _ L lv 3 fun _ _ => rfl
  pre c := iprop(StableHlo.held (c : Thread nD τ) (Pipeline.ucRefs τ sig) (W4 m c) ∗ R c)
  post c := iprop(StableHlo.held (c : Thread nD τ) (Pipeline.ucRefs τ sig) (W5 m c) ∗ R c)
  X c := iprop(∃ r, prngReg c r)
  Y c := iprop(∃ r, prngReg c r)
  Z c := Pipeline.unscopedRest (Ix := Unit) (Name := ℕ) (U := UR sig nD τ) (Lvl := ℕ) spec3 c (V4 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (V4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (V4 m c) (V5 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev Tₙ (c : Dev nD) : sProp 𝕄 := iprop(StableHlo.held (c : Thread nD τ) (Pipeline.ucRefs τ sig) (W6 m c) ∗ ∃ r, prngReg c r)

abbrev segs : List (Pipeline.Seg (pcfgs (F := F)) adm (pdats m) () defs₀ 𝒱₀ L lv) :=
  [ .host (hseg hostOps0 hostOps0_sub hostOps0_fresh (W0 m)),
    .region (reg0 m), .region (reg1 m), .region (reg2 m), .region (reg3 m),
    .host (hseg hostOps4 hostOps4_sub hostOps4_fresh (W5 m)) ]

theorem main_run (c : Dev nD) : main (F := F) c = Pipeline.Seg.run (segs m) := (main_chain c).trans (by chain_rfl)

set_option backward.isDefEq.respectTransparency.types false in
/-- Every weakly fair execution of the program from memory m with zero counters terminates, without a fault, and every
    final memory holds every unscoped buffer of every core at the last boundary's contents. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W6 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun c => by
      show iprop(StableHlo.held (c : Thread nD τ) (Pipeline.ucRefs τ sig) (W6 m c) ∗ R c) ⊢ _
      iintro ⟨Hh, Hp, HO⟩
      isplitl [Hh Hp]
      · isplitl [Hh] <;> iassumption
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m c b)
    (hfin := fun c s' => by
      iintro ⟨⟨Hh, -⟩, HSI⟩
      unfold StableHlo.held
      imodintro
      iapply (pointsTo_read_all (Pipeline.ucRefs τ sig) (fun b => (((c : Thread nD τ)).1, b)) (W6 m c) s')
      isplitl [Hh] <;> iassumption)
    (hQ := fun s h c => h c)

end Cert.Kernel.Frm

end
-- ==== Proof.KArgs.lean ====
/-
  Which buffer holds what at each boundary of the run.

  The run's boundary contents are a chain: the launch memory; after the host operations that make the mask's column
  and row; after each of the four regions, where a region changes only the arrays of its output windows; after the
  host transposition. Walking the chain backwards from a boundary to the last step that wrote a buffer gives that
  buffer's contents there: an argument array is written by no step, so it holds the launch memory's contents at every
  boundary; the mask's column and row are written only by the first host stretch; each intermediate array holds what
  its region's write-backs left, from that region's exit onwards.
-/
import proofs.«115754_j78331613544465_2_alg».proof.Proof.KRun
import proofs.«115754_j78331613544465_2_alg».proof.Proof.Gen.Kernel.Regions

noncomputable section

namespace Cert.Kernel.Frm

open Idealize.ShloMosaic Idealize.ShloMosaic.TcCoe Idealize.SL.Sem
open Idealize.ShloMosaic.Pipeline (Dat)
open Cert.Kernel

variable {F : FTy → Type} [FloatOps F]
variable (m : (ℓ : Loc nD τ sig) → Buf (Elt F) ℓ)

/-! ## One step back along the chain -/

/-- The first host stretch changes only the converted mask, its column and its row. -/
theorem W1_of (c : Dev nD) (r : Ref sig .tc) (h : r ∉ Gen.hostOps0_W) :
    W1 m c (Proc.devRef .tc r) = W0 m c (Proc.devRef .tc r) :=
  StableHlo.after_of_writes_sub Gen.hostOps0 _ Gen.hostOps0_writes h

/-- The first product region changes only its output array. -/
theorem W3_of (c : Dev nD) (r : Ref sig .tc) (h : r ≠ main_v4) :
    W3 m c (Proc.devRef .tc r) = W2 m c (Proc.devRef .tc r) := by
  unfold W3
  exact Function.update_of_ne (StableHlo.devRef_ne_of_ne h : (Proc.devRef .tc r : DevRef τ sig) ≠ Proc.devRef .tc main_v4) ..
theorem W3_self (c : Dev nD) : W3 m c (Proc.devRef .tc main_v4) = (dat1 (V2 m) c).arrAt 2 cfg1.N := by
  unfold W3
  exact Function.update_self ..

/-- The second product region changes only its output array. -/
theorem W4_of (c : Dev nD) (r : Ref sig .tc) (h : r ≠ main_v5) :
    W4 m c (Proc.devRef .tc r) = W3 m c (Proc.devRef .tc r) := by
  unfold W4
  exact Function.update_of_ne (StableHlo.devRef_ne_of_ne h : (Proc.devRef .tc r : DevRef τ sig) ≠ Proc.devRef .tc main_v5) ..
theorem W4_self (c : Dev nD) : W4 m c (Proc.devRef .tc main_v5) = (dat2 (V3 m) c).arrAt 2 cfg2.N := by
  unfold W4
  exact Function.update_self ..

/-- The last host stretch changes only the result array. -/
theorem W6_of (c : Dev nD) (r : Ref sig .tc) (h : r ∉ Gen.hostOps4_W) :
    W6 m c (Proc.devRef .tc r) = W5 m c (Proc.devRef .tc r) :=
  StableHlo.after_of_writes_sub Gen.hostOps4 _ Gen.hostOps4_writes h

/-! ## The argument arrays end as launched -/

theorem W6_main_arg0 (c : Dev nD) : W6 m c (Proc.devRef .tc main_arg0) = m ((c : Thread nD τ).loc main_arg0) :=
  (W6_of m c main_arg0 (by decide)).trans <| (W5_of_ne m c main_arg0 (by decide)).trans <|
    (W4_of m c main_arg0 (by decide)).trans <| (W3_of m c main_arg0 (by decide)).trans <|
    (W2_arr m c 0).trans <| ((dat0 (V1 m) c).arrAt_in 0 rfl _).trans <| (A_eq0 (V1 m) c 0).trans <|
    (W1_of m c main_arg0 (by decide)).trans rfl
theorem W6_main_arg1 (c : Dev nD) : W6 m c (Proc.devRef .tc main_arg1) = m ((c : Thread nD τ).loc main_arg1) :=
  (W6_of m c main_arg1 (by decide)).trans <| (W5_of_ne m c main_arg1 (by decide)).trans <|
    (W4_of m c main_arg1 (by decide)).trans <| (W3_of m c main_arg1 (by decide)).trans <|
    (W2_of_ne m c main_arg1 (by decide)).trans <| (W1_of m c main_arg1 (by decide)).trans rfl

/-! ## What the last region finds -/

/-- A weight or bias array, which only the last region reads: as launched. -/
theorem W4_of_arg (c : Dev nD) (r : Ref sig .tc) (h5 : r ≠ main_v5) (h4 : r ≠ main_v4)
    (h0 : ∀ w, Pipeline.arrRef spec0 w ≠ r) (h : r ∉ Gen.hostOps0_W) :
    W4 m c (Proc.devRef .tc r) = W0 m c (Proc.devRef .tc r) :=
  (W4_of m c r h5).trans <| (W3_of m c r h4).trans <| (W2_of_ne m c r h0).trans <| W1_of m c r h

theorem V4_main_arg2 (c : Dev nD) : V4 m c main_arg2 = m ((c : Thread nD τ).loc main_arg2) :=
  (W4_of_arg m c main_arg2 (by decide) (by decide) (by decide) (by decide)).trans rfl
theorem V4_main_arg3 (c : Dev nD) : V4 m c main_arg3 = m ((c : Thread nD τ).loc main_arg3) :=
  (W4_of_arg m c main_arg3 (by decide) (by decide) (by decide) (by decide)).trans rfl
theorem V4_main_arg4 (c : Dev nD) : V4 m c main_arg4 = m ((c : Thread nD τ).loc main_arg4) :=
  (W4_of_arg m c main_arg4 (by decide) (by decide) (by decide) (by decide)).trans rfl
theorem V4_main_arg5 (c : Dev nD) : V4 m c main_arg5 = m ((c : Thread nD τ).loc main_arg5) :=
  (W4_of_arg m c main_arg5 (by decide) (by decide) (by decide) (by decide)).trans rfl

theorem W6_main_arg2 (c : Dev nD) : W6 m c (Proc.devRef .tc main_arg2) = m ((c : Thread nD τ).loc main_arg2) :=
  (W6_of m c main_arg2 (by decide)).trans <| (W5_arr m c 5).trans <|
    ((dat3 (V4 m) c).arrAt_in 5 rfl _).trans <| (A_eq3 (V4 m) c 5).trans <| V4_main_arg2 m c
theorem W6_main_arg3 (c : Dev nD) : W6 m c (Proc.devRef .tc main_arg3) = m ((c : Thread nD τ).loc main_arg3) :=
  (W6_of m c main_arg3 (by decide)).trans <| (W5_arr m c 6).trans <|
    ((dat3 (V4 m) c).arrAt_in 6 rfl _).trans <| (A_eq3 (V4 m) c 6).trans <| V4_main_arg3 m c
theorem W6_main_arg4 (c : Dev nD) : W6 m c (Proc.devRef .tc main_arg4) = m ((c : Thread nD τ).loc main_arg4) :=
  (W6_of m c main_arg4 (by decide)).trans <| (W5_arr m c 7).trans <|
    ((dat3 (V4 m) c).arrAt_in 7 rfl _).trans <| (A_eq3 (V4 m) c 7).trans <| V4_main_arg4 m c
theorem W6_main_arg5 (c : Dev nD) : W6 m c (Proc.devRef .tc main_arg5) = m ((c : Thread nD τ).loc main_arg5) :=
  (W6_of m c main_arg5 (by decide)).trans <| (W5_arr m c 8).trans <|
    ((dat3 (V4 m) c).arrAt_in 8 rfl _).trans <| (A_eq3 (V4 m) c 8).trans <| V4_main_arg5 m c

/-- The mask's column: as the first host stretch left it (the row-normalising region only reads it). -/
theorem V4_main_v1 (c : Dev nD) : V4 m c main_v1 = V1 m c main_v1 :=
  (W4_of m c main_v1 (by decide)).trans <| (W3_of m c main_v1 (by decide)).trans <|
    (W2_arr m c 1).trans <| ((dat0 (V1 m) c).arrAt_in 1 rfl _).trans <| A_eq0 (V1 m) c 1
/-- The mask's row: likewise. -/
theorem V4_main_v2 (c : Dev nD) : V4 m c main_v2 = V1 m c main_v2 :=
  (W4_of m c main_v2 (by decide)).trans <| (W3_of m c main_v2 (by decide)).trans <|
    (W2_arr m c 2).trans <| ((dat0 (V1 m) c).arrAt_in 2 rfl _).trans <| A_eq0 (V1 m) c 2

/-- The row-normalised array: what the first region's write-backs left. -/
theorem V2_main_v3 (c : Dev nD) : V2 m c main_v3 = (dat0 (V1 m) c).arrAt 3 cfg0.N := W2_arr m c 3
theorem V4_main_v3 (c : Dev nD) : V4 m c main_v3 = (dat0 (V1 m) c).arrAt 3 cfg0.N :=
  (W4_of m c main_v3 (by decide)).trans <| (W3_of m c main_v3 (by decide)).trans <| W2_arr m c 3

/-- The first product: what the second region's write-backs left. -/
theorem V3_main_v4 (c : Dev nD) : V3 m c main_v4 = (dat1 (V2 m) c).arrAt 2 cfg1.N := W3_self m c
theorem V4_main_v4 (c : Dev nD) : V4 m c main_v4 = (dat1 (V2 m) c).arrAt 2 cfg1.N :=
  (W4_of m c main_v4 (by decide)).trans <| W3_self m c

/-- The second product: what the third region's write-backs left. -/
theorem V4_main_v5 (c : Dev nD) : V4 m c main_v5 = (dat2 (V3 m) c).arrAt 2 cfg2.N := W4_self m c

/-- The adjacency argument as the first region finds it: as launched. -/
theorem V1_main_arg0 (c : Dev nD) : V1 m c main_arg0 = m ((c : Thread nD τ).loc main_arg0) :=
  (W1_of m c main_arg0 (by decide)).trans rfl

/-- The heads-major result: what the last region's write-backs left. -/
theorem W5_main_v6 (c : Dev nD) : W5 m c (Proc.devRef .tc main_v6) = (dat3 (V4 m) c).arrAt 9 cfg3.N := W5_arr m c 9

end Cert.Kernel.Frm

end
-- ==== Proof.KIReg0.lean ====
/-
  Region 0 of the program: the row-normalising kernel, run at each of its 16 grid points on the blocks of its
  four windows.  At a point the body reads a [1, 512, 1024] block of the adjacency, the matching [1, 512, 1] block of
  the mask as a column and the [1, 1, 1024] block of the mask as a row, and writes the [1, 512, 1024] block of the
  normalised array; it keeps nothing between points.  This module states what the output's staging buffer holds
  after the body as one store of the body's arithmetic over the three input blocks, proves the body's triple, and
  packages both as the pipeline's proof data and body obligation, at any contents V of the arrays on entry.
-/
import proofs.«115754_j78331613544465_2_alg».proof.Proof.Gen.KernelIdeal.Launch
import proofs.«115754_j78331613544465_2_alg».proof.Proof.Gen.KernelIdeal.Skeleton
import proofs.«115754_j78331613544465_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each a whole buffer -/

abbrev r0_a : Rect S1x512x1024 := Rect.unit (s := S1x512x1024) ![0, 0, 0] S1x512x1024.size inb_S1x512x1024_S1x512x1024_0_0_0
abbrev r0_b : Rect S1x512x1 := Rect.unit (s := S1x512x1) ![0, 0, 0] S1x512x1.size inb_S1x512x1_S1x512x1_0_0_0
abbrev r0_c : Rect S1x1x1024 := Rect.unit (s := S1x1x1024) ![0, 0, 0] S1x1x1024.size inb_S1x1x1024_S1x1x1024_0_0_0

/-- The output's staging buffer after the body: its one store, of the body's arithmetic over the three input blocks. -/
def out0_3 (x0 : Vec F S1x512x1024 .f32) (x1 : Vec F S1x512x1 .f32) (x2 : Vec F S1x1x1024 .f32) : Vec F S1x512x1024 .f32 :=
  View.canon [⟨r0_a, k0_pay1 (View.ld x0 r0_a) (View.ld x1 r0_b) (View.ld x2 r0_c)⟩]

/-- The store covers the buffer. -/
theorem cover0_3 (p0 : Vec F S1x512x1024 .f32) (y : S1x512x1024.Idx) :
    ∃ pc ∈ ([⟨r0_a, p0⟩] : List (View.Piece (Elt F) S1x512x1024 .f32)), y ∈ pc.1.set :=
  View.cover_of_tiled [⟨r0_a, p0⟩] S1x512x1024.size (by rfl) y

/-! ## The body's triple -/

set_option maxHeartbeats 1000000 in
/-- On whole staging buffers, the inputs' at contents x0, x1, x2 and the output's at anything, the body runs to its
    end with the inputs' buffers as they were and the output's at out0_3 of them. -/
theorem sound_kernel0 (c : Dev nD) (E : Set ℕ) (i : grid0.Coords)
    (arg2 : Memref sig .tc .vmem S1x512x1024 .f32) (harg2 : arg2.IsWhole) (arg3 : Memref sig .tc .vmem S1x512x1 .f32) (harg3 : arg3.IsWhole)
    (arg4 : Memref sig .tc .vmem S1x1x1024 .f32) (harg4 : arg4.IsWhole) (arg5 : Memref sig .tc .vmem S1x512x1024 .f32) (harg5 : arg5.IsWhole)
    (x0 : Vec F S1x512x1024 .f32) (x1 : Vec F S1x512x1 .f32) (x2 : Vec F S1x1x1024 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out0_3 x0 x1 x2)) -∗ K ⟨⟩))
      ⊢ wp frame (wpE (defs₀ (F := F)) Variants.none c none) E (cc0__normalize_kernel i arg2 harg2 arg3 harg3 arg4 harg4 arg5 harg5) K := by
  simp only [cc0__normalize_kernel_eq_skeleton]; unfold cc0__normalize_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The arrays as the region finds them; after the body at point t each input's buffer at its block and the output's at
    out0_3 of the input blocks; nothing kept between points, nothing owed, full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation0 (c : Dev nD) : BodyObligation (dat0 (F := F) V c) (defs₀ (F := F)) Variants.none () Set.univ := fun t => by
  rw [bigSep_W0, bigSep_W0]
  exact sound_body0 V c t

end Cert.KernelIdeal.Frm

end
-- ==== Proof.KIReg1.lean ====
/-
  Region 1 of the program: a batched matrix product, run at each of its 8 grid points on whole [1, 1024, 1024] slabs.
  At a point the body reads the slab of its left operand and the slab of its right operand — two windows onto ONE
  array, which the product squares — and writes the slab of the product; it keeps nothing between points.  The two
  input windows each hold one half of the common array's read share.  This module states what the output's staging
  buffer holds after the body, proves the body's triple, and packages both as the pipeline's proof data and body
  obligation, at any contents V of the arrays on entry.
-/
import proofs.«115754_j78331613544465_2_alg».proof.Proof.Gen.KernelIdeal.Launch
import proofs.«115754_j78331613544465_2_alg».proof.Proof.Gen.KernelIdeal.Skeleton
import proofs.«115754_j78331613544465_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each a whole buffer -/

abbrev r1_a : Rect S1x1024x1024 := Rect.unit (s := S1x1024x1024) ![0, 0, 0] S1x1024x1024.size inb_S1x1024x1024_S1x1024x1024_0_0_0

/-- The output's staging buffer after the body: its one store, of the product of the two input slabs. -/
def out1_2 (x0 : Vec F S1x1024x1024 .f32) (x1 : Vec F S1x1024x1024 .f32) : Vec F S1x1024x1024 .f32 :=
  View.canon [⟨r1_a, k1_pay1 (View.ld x0 r1_a) (View.ld x1 r1_a)⟩]

/-- The store covers the buffer. -/
theorem cover1_2 (p0 : Vec F S1x1024x1024 .f32) (y : S1x1024x1024.Idx) :
    ∃ pc ∈ ([⟨r1_a, p0⟩] : List (View.Piece (Elt F) S1x1024x1024 .f32)), y ∈ pc.1.set :=
  View.cover_of_tiled [⟨r1_a, p0⟩] S1x1024x1024.size (by rfl) y

/-! ## The body's triple -/

set_option maxHeartbeats 1000000 in
/-- On whole staging buffers, the inputs' at contents x0, x1 and the output's at anything, the body runs to its end
    with the inputs' buffers as they were and the output's at out1_2 of them. -/
theorem sound_kernel1 (c : Dev nD) (E : Set ℕ) (i : grid1.Coords)
    (arg1 : Memref sig .tc .vmem S1x1024x1024 .f32) (harg1 : arg1.IsWhole) (arg2 : Memref sig .tc .vmem S1x1024x1024 .f32) (harg2 : arg2.IsWhole)
    (arg3 : Memref sig .tc .vmem S1x1024x1024 .f32) (harg3 : arg3.IsWhole)
    (x0 : Vec F S1x1024x1024 .f32) (x1 : Vec F S1x1024x1024 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out1_2 x0 x1)) -∗ K ⟨⟩))
      ⊢ wp frame (wpE (defs₀ (F := F)) Variants.none c none) E (cc1__bmm_kernel i arg1 harg1 arg2 harg2 arg3 harg3) K := by
  simp only [cc1__bmm_kernel_eq_skeleton]; unfold cc1__bmm_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The pipeline's proof data -/

/-- The arrays as the region finds them; after the body at point t each input's buffer at its slab and the output's at
    out1_2 of the input slabs; nothing kept between points, nothing owed; the two input windows, which read one
    array, each hold one half of its share. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q w := match w with
    | ⟨0, _⟩ => fullShare.left
    | ⟨1, _⟩ => fullShare.right
    | ⟨2, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) :
    (dat1 V c).after 2 t = out1_2 (iblk1 V c 0 t) (iblk1 V c 1 t) := by dsimp only [dat1]

theorem share1_0 (c : Dev nD) : (dat1 V c).share 0 = fullShare.left := rfl
theorem share1_1 (c : Dev nD) : (dat1 V c).share 1 = fullShare.right := rfl
theorem share1_2 (c : Dev nD) : (dat1 V c).share 2 = fullShare := rfl

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation1 (c : Dev nD) : BodyObligation (dat1 (F := F) V c) (defs₀ (F := F)) Variants.none () Set.univ := fun t => by
  rw [bigSep_W1, bigSep_W1]
  exact sound_body1 V c t

end Cert.KernelIdeal.Frm

end
-- ==== Proof.KIReg2.lean ====
/-
  Region 2 of the program: a batched matrix product, run at each of its 8 grid points on whole [1, 1024, 1024] slabs.
  At a point the body reads the slab of its left operand and the slab of its right operand — two windows onto ONE
  array, which the product squares — and writes the slab of the product; it keeps nothing between points.  The two
  input windows each hold one half of the common array's read share.  This module states what the output's staging
  buffer holds after the body, proves the body's triple, and packages both as the pipeline's proof data and body
  obligation, at any contents V of the arrays on entry.
-/
import proofs.«115754_j78331613544465_2_alg».proof.Proof.Gen.KernelIdeal.Launch
import proofs.«115754_j78331613544465_2_alg».proof.Proof.Gen.KernelIdeal.Skeleton
import proofs.«115754_j78331613544465_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each a whole buffer -/

abbrev r2_a : Rect S1x1024x1024 := Rect.unit (s := S1x1024x1024) ![0, 0, 0] S1x1024x1024.size inb_S1x1024x1024_S1x1024x1024_0_0_0

/-- The output's staging buffer after the body: its one store, of the product of the two input slabs. -/
def out2_2 (x0 : Vec F S1x1024x1024 .f32) (x1 : Vec F S1x1024x1024 .f32) : Vec F S1x1024x1024 .f32 :=
  View.canon [⟨r2_a, k2_pay1 (View.ld x0 r2_a) (View.ld x1 r2_a)⟩]

/-- The store covers the buffer. -/
theorem cover2_2 (p0 : Vec F S1x1024x1024 .f32) (y : S1x1024x1024.Idx) :
    ∃ pc ∈ ([⟨r2_a, p0⟩] : List (View.Piece (Elt F) S1x1024x1024 .f32)), y ∈ pc.1.set :=
  View.cover_of_tiled [⟨r2_a, p0⟩] S1x1024x1024.size (by rfl) y

/-! ## The body's triple -/

set_option maxHeartbeats 1000000 in
/-- On whole staging buffers, the inputs' at contents x0, x1 and the output's at anything, the body runs to its end
    with the inputs' buffers as they were and the output's at out2_2 of them. -/
theorem sound_kernel2 (c : Dev nD) (E : Set ℕ) (i : grid2.Coords)
    (arg1 : Memref sig .tc .vmem S1x1024x1024 .f32) (harg1 : arg1.IsWhole) (arg2 : Memref sig .tc .vmem S1x1024x1024 .f32) (harg2 : arg2.IsWhole)
    (arg3 : Memref sig .tc .vmem S1x1024x1024 .f32) (harg3 : arg3.IsWhole)
    (x0 : Vec F S1x1024x1024 .f32) (x1 : Vec F S1x1024x1024 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out2_2 x0 x1)) -∗ K ⟨⟩))
      ⊢ wp frame (wpE (defs₀ (F := F)) Variants.none c none) E (cc2__bmm_kernel i arg1 harg1 arg2 harg2 arg3 harg3) K := by
  simp only [cc2__bmm_kernel_eq_skeleton]; unfold cc2__bmm_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The pipeline's proof data -/

/-- The arrays as the region finds them; after the body at point t each input's buffer at its slab and the output's at
    out2_2 of the input slabs; nothing kept between points, nothing owed; the two input windows, which read one
    array, each hold one half of its share. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q w := match w with
    | ⟨0, _⟩ => fullShare.left
    | ⟨1, _⟩ => fullShare.right
    | ⟨2, _⟩ => fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) :
    (dat2 V c).after 2 t = out2_2 (iblk2 V c 0 t) (iblk2 V c 1 t) := by dsimp only [dat2]

theorem share2_0 (c : Dev nD) : (dat2 V c).share 0 = fullShare.left := rfl
theorem share2_1 (c : Dev nD) : (dat2 V c).share 1 = fullShare.right := rfl
theorem share2_2 (c : Dev nD) : (dat2 V c).share 2 = fullShare := rfl

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation2 (c : Dev nD) : BodyObligation (dat2 (F := F) V c) (defs₀ (F := F)) Variants.none () Set.univ := fun t => by
  rw [bigSep_W2, bigSep_W2]
  exact sound_body2 V c t

end Cert.KernelIdeal.Frm

end
-- ==== Proof.KIReg3.lean ====
/-
  Region 3 of @main (the fourth kernel call: the two-layer perceptron kernel on a grid of 8 x 2 points, ten windows).
  At a parameter `V` — the TensorCore's buffer contents when the region is entered — this module states
  each window's block at a grid point, what the kernel body leaves in the output window's staging buffer as
  a function of the nine input blocks and of the grid position (the body reads its grid coordinates: one
  stored value depends on them), the body's triple, the pipeline's proof data and the body obligation.
  The body's arithmetic is carried by the named payloads: the first part of the body loads the nine input blocks,
  the eighteen parts after it compute without touching memory, and the body ends with one store over the whole
  output block.
-/
import proofs.«115754_j78331613544465_2_alg».proof.Proof.Gen.KernelIdeal.Launch
import proofs.«115754_j78331613544465_2_alg».proof.Proof.Gen.KernelIdeal.Skeleton
import proofs.«115754_j78331613544465_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of full extents recurses once per coordinate of the long axes
set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses: each buffer is read, and the output written, through its whole rectangle -/

abbrev r3_0 : Rect S1x512x1024 := Rect.unit (s := S1x512x1024) ![0, 0, 0] S1x512x1024.size inb_S1x512x1024_S1x512x1024_0_0_0
abbrev r3_1 : Rect S1x512x1 := Rect.unit (s := S1x512x1) ![0, 0, 0] S1x512x1.size inb_S1x512x1_S1x512x1_0_0_0
abbrev r3_2 : Rect S1x1x1024 := Rect.unit (s := S1x1x1024) ![0, 0, 0] S1x1x1024.size inb_S1x1x1024_S1x1x1024_0_0_0
abbrev r3_3 : Rect S4x16 := Rect.unit (s := S4x16) ![0, 0] S4x16.size inb_S4x16_S4x16_0_0
abbrev r3_4 : Rect S16 := Rect.unit (s := S16) ![0] S16.size inb_S16_S16_0
abbrev r3_5 : Rect S16x8 := Rect.unit (s := S16x8) ![0, 0] S16x8.size inb_S16x8_S16x8_0_0
abbrev r3_6 : Rect S8 := Rect.unit (s := S8) ![0] S8.size inb_S8_S8_0
abbrev r3_7 : Rect S1x8x512x1024 := Rect.unit (s := S1x8x512x1024) ![0, 0, 0, 0] S1x8x512x1024.size inb_S1x8x512x1024_S1x8x512x1024_0_0_0_0

/-! ## What the body leaves in the output window's buffer -/

/-- Window 9's staging buffer after the body at grid position `i`, from the nine input windows' blocks: its one
    store, over the whole block, of the last payload applied to the earlier payloads in the order the body
    computes them. -/
def out3_9 (i : grid3.Coords) (x0 : Vec F S1x512x1024 .f32) (x1 : Vec F S1x512x1024 .f32) (x2 : Vec F S1x512x1024 .f32) (x3 : Vec F S1x512x1 .f32) (x4 : Vec F S1x1x1024 .f32) (x5 : Vec F S4x16 .f32) (x6 : Vec F S16 .f32) (x7 : Vec F S16x8 .f32) (x8 : Vec F S8 .f32) : Vec F S1x8x512x1024 .f32 :=
  View.canon [⟨r3_7, k3_pay1
      (k3_pay6 (View.ld x3 r3_1) (View.ld x4 r3_2))
      (View.ld x8 r3_6)
      (k3_pay38 (k3_pay6 (View.ld x3 r3_1) (View.ld x4 r3_2)) (View.ld x7 r3_5) (View.ld x8 r3_6) (k3_pay31 (k3_pay29 (k3_pay2 (View.ld x0 r3_0)) (k3_pay3 (View.ld x1 r3_0)) (k3_pay4 (View.ld x2 r3_0)) (k3_pay7 i (View.ld x3 r3_1)) (View.ld x5 r3_3) (View.ld x6 r3_4)) (k3_pay30 (F := F))) (k3_pay32 (k3_pay2 (View.ld x0 r3_0)) (k3_pay3 (View.ld x1 r3_0)) (k3_pay4 (View.ld x2 r3_0)) (k3_pay7 i (View.ld x3 r3_1)) (View.ld x5 r3_3) (View.ld x6 r3_4)) (k3_pay33 (k3_pay2 (View.ld x0 r3_0)) (k3_pay3 (View.ld x1 r3_0)) (k3_pay4 (View.ld x2 r3_0)) (k3_pay7 i (View.ld x3 r3_1)) (View.ld x5 r3_3) (View.ld x6 r3_4)) (k3_pay36 (View.ld x7 r3_5) (k3_pay10 (k3_pay2 (View.ld x0 r3_0)) (k3_pay3 (View.ld x1 r3_0)) (k3_pay4 (View.ld x2 r3_0)) (k3_pay7 i (View.ld x3 r3_1)) (View.ld x5 r3_3) (View.ld x6 r3_4)) (k3_pay13 (k3_pay3 (View.ld x1 r3_0)) (k3_pay4 (View.ld x2 r3_0)) (View.ld x5 r3_3) (View.ld x6 r3_4) (k3_pay11 (k3_pay2 (View.ld x0 r3_0)) (k3_pay7 i (View.ld x3 r3_1)) (View.ld x5 r3_3)) (k3_pay12 (View.ld x5 r3_3))) (k3_pay14 (k3_pay2 (View.ld x0 r3_0)) (k3_pay3 (View.ld x1 r3_0)) (k3_pay4 (View.ld x2 r3_0)) (k3_pay7 i (View.ld x3 r3_1)) (View.ld x5 r3_3) (View.ld x6 r3_4)) (k3_pay16 (View.ld x6 r3_4) (k3_pay15 (k3_pay2 (View.ld x0 r3_0)) (k3_pay3 (View.ld x1 r3_0)) (k3_pay4 (View.ld x2 r3_0)) (k3_pay7 i (View.ld x3 r3_1)) (View.ld x5 r3_3))) (k3_pay17 (k3_pay2 (View.ld x0 r3_0)) (k3_pay3 (View.ld x1 r3_0)) (k3_pay4 (View.ld x2 r3_0)) (k3_pay7 i (View.ld x3 r3_1)) (View.ld x5 r3_3) (View.ld x6 r3_4)) (k3_pay18 (k3_pay2 (View.ld x0 r3_0)) (k3_pay3 (View.ld x1 r3_0)) (k3_pay4 (View.ld x2 r3_0)) (k3_pay7 i (View.ld x3 r3_1)) (View.ld x5 r3_3) (View.ld x6 r3_4)) (k3_pay20 (k3_pay2 (View.ld x0 r3_0)) (k3_pay3 (View.ld x1 r3_0)) (k3_pay4 (View.ld x2 r3_0)) (k3_pay7 i (View.ld x3 r3_1)) (View.ld x5 r3_3) (View.ld x6 r3_4) (k3_pay19 (View.ld x5 r3_3))) (k3_pay21 (k3_pay2 (View.ld x0 r3_0)) (k3_pay3 (View.ld x1 r3_0)) (k3_pay4 (View.ld x2 r3_0)) (k3_pay7 i (View.ld x3 r3_1)) (View.ld x5 r3_3) (View.ld x6 r3_4)) (k3_pay23 (k3_pay3 (View.ld x1 r3_0)) (k3_pay4 (View.ld x2 r3_0)) (View.ld x5 r3_3) (View.ld x6 r3_4) (k3_pay22 (k3_pay2 (View.ld x0 r3_0)) (k3_pay7 i (View.ld x3 r3_1)) (View.ld x5 r3_3))) (k3_pay24 (k3_pay2 (View.ld x0 r3_0)) (k3_pay3 (View.ld x1 r3_0)) (k3_pay4 (View.ld x2 r3_0)) (k3_pay7 i (View.ld x3 r3_1)) (View.ld x5 r3_3) (View.ld x6 r3_4)) (k3_pay27 (k3_pay4 (View.ld x2 r3_0)) (View.ld x6 r3_4) (k3_pay25 (k3_pay2 (View.ld x0 r3_0)) (k3_pay3 (View.ld x1 r3_0)) (k3_pay7 i (View.ld x3 r3_1)) (View.ld x5 r3_3)) (k3_pay26 (View.ld x5 r3_3))) (k3_pay28 (k3_pay2 (View.ld x0 r3_0)) (k3_pay3 (View.ld x1 r3_0)) (k3_pay4 (View.ld x2 r3_0)) (k3_pay7 i (View.ld x3 r3_1)) (View.ld x5 r3_3) (View.ld x6 r3_4)) (k3_pay34 (View.ld x7 r3_5) (k3_pay9 (k3_pay2 (View.ld x0 r3_0)) (k3_pay3 (View.ld x1 r3_0)) (k3_pay4 (View.ld x2 r3_0)) (k3_pay7 i (View.ld x3 r3_1)) (View.ld x5 r3_3) (View.ld x6 r3_4) (k3_pay8 (View.ld x5 r3_3)))) (k3_pay35 (View.ld x7 r3_5))) (k3_pay37 (View.ld x7 r3_5)))
      (k3_pay41 (k3_pay6 (View.ld x3 r3_1) (View.ld x4 r3_2)) (View.ld x7 r3_5) (View.ld x8 r3_6) (k3_pay23 (k3_pay3 (View.ld x1 r3_0)) (k3_pay4 (View.ld x2 r3_0)) (View.ld x5 r3_3) (View.ld x6 r3_4) (k3_pay22 (k3_pay2 (View.ld x0 r3_0)) (k3_pay7 i (View.ld x3 r3_1)) (View.ld x5 r3_3))) (k3_pay24 (k3_pay2 (View.ld x0 r3_0)) (k3_pay3 (View.ld x1 r3_0)) (k3_pay4 (View.ld x2 r3_0)) (k3_pay7 i (View.ld x3 r3_1)) (View.ld x5 r3_3) (View.ld x6 r3_4)) (k3_pay27 (k3_pay4 (View.ld x2 r3_0)) (View.ld x6 r3_4) (k3_pay25 (k3_pay2 (View.ld x0 r3_0)) (k3_pay3 (View.ld x1 r3_0)) (k3_pay7 i (View.ld x3 r3_1)) (View.ld x5 r3_3)) (k3_pay26 (View.ld x5 r3_3))) (k3_pay28 (k3_pay2 (View.ld x0 r3_0)) (k3_pay3 (View.ld x1 r3_0)) (k3_pay4 (View.ld x2 r3_0)) (k3_pay7 i (View.ld x3 r3_1)) (View.ld x5 r3_3) (View.ld x6 r3_4)) (k3_pay31 (k3_pay29 (k3_pay2 (View.ld x0 r3_0)) (k3_pay3 (View.ld x1 r3_0)) (k3_pay4 (View.ld x2 r3_0)) (k3_pay7 i (View.ld x3 r3_1)) (View.ld x5 r3_3) (View.ld x6 r3_4)) (k3_pay30 (F := F))) (k3_pay32 (k3_pay2 (View.ld x0 r3_0)) (k3_pay3 (View.ld x1 r3_0)) (k3_pay4 (View.ld x2 r3_0)) (k3_pay7 i (View.ld x3 r3_1)) (View.ld x5 r3_3) (View.ld x6 r3_4)) (k3_pay33 (k3_pay2 (View.ld x0 r3_0)) (k3_pay3 (View.ld x1 r3_0)) (k3_pay4 (View.ld x2 r3_0)) (k3_pay7 i (View.ld x3 r3_1)) (View.ld x5 r3_3) (View.ld x6 r3_4)) (k3_pay39 (View.ld x7 r3_5) (k3_pay9 (k3_pay2 (View.ld x0 r3_0)) (k3_pay3 (View.ld x1 r3_0)) (k3_pay4 (View.ld x2 r3_0)) (k3_pay7 i (View.ld x3 r3_1)) (View.ld x5 r3_3) (View.ld x6 r3_4) (k3_pay8 (View.ld x5 r3_3))) (k3_pay10 (k3_pay2 (View.ld x0 r3_0)) (k3_pay3 (View.ld x1 r3_0)) (k3_pay4 (View.ld x2 r3_0)) (k3_pay7 i (View.ld x3 r3_1)) (View.ld x5 r3_3) (View.ld x6 r3_4)) (k3_pay13 (k3_pay3 (View.ld x1 r3_0)) (k3_pay4 (View.ld x2 r3_0)) (View.ld x5 r3_3) (View.ld x6 r3_4) (k3_pay11 (k3_pay2 (View.ld x0 r3_0)) (k3_pay7 i (View.ld x3 r3_1)) (View.ld x5 r3_3)) (k3_pay12 (View.ld x5 r3_3))) (k3_pay14 (k3_pay2 (View.ld x0 r3_0)) (k3_pay3 (View.ld x1 r3_0)) (k3_pay4 (View.ld x2 r3_0)) (k3_pay7 i (View.ld x3 r3_1)) (View.ld x5 r3_3) (View.ld x6 r3_4)) (k3_pay16 (View.ld x6 r3_4) (k3_pay15 (k3_pay2 (View.ld x0 r3_0)) (k3_pay3 (View.ld x1 r3_0)) (k3_pay4 (View.ld x2 r3_0)) (k3_pay7 i (View.ld x3 r3_1)) (View.ld x5 r3_3))) (k3_pay17 (k3_pay2 (View.ld x0 r3_0)) (k3_pay3 (View.ld x1 r3_0)) (k3_pay4 (View.ld x2 r3_0)) (k3_pay7 i (View.ld x3 r3_1)) (View.ld x5 r3_3) (View.ld x6 r3_4)) (k3_pay18 (k3_pay2 (View.ld x0 r3_0)) (k3_pay3 (View.ld x1 r3_0)) (k3_pay4 (View.ld x2 r3_0)) (k3_pay7 i (View.ld x3 r3_1)) (View.ld x5 r3_3) (View.ld x6 r3_4)) (k3_pay20 (k3_pay2 (View.ld x0 r3_0)) (k3_pay3 (View.ld x1 r3_0)) (k3_pay4 (View.ld x2 r3_0)) (k3_pay7 i (View.ld x3 r3_1)) (View.ld x5 r3_3) (View.ld x6 r3_4) (k3_pay19 (View.ld x5 r3_3)))) (k3_pay40 (View.ld x7 r3_5) (k3_pay21 (k3_pay2 (View.ld x0 r3_0)) (k3_pay3 (View.ld x1 r3_0)) (k3_pay4 (View.ld x2 r3_0)) (k3_pay7 i (View.ld x3 r3_1)) (View.ld x5 r3_3) (View.ld x6 r3_4))))
      (k3_pay44 (k3_pay6 (View.ld x3 r3_1) (View.ld x4 r3_2)) (View.ld x8 r3_6) (k3_pay43 (View.ld x7 r3_5) (k3_pay16 (View.ld x6 r3_4) (k3_pay15 (k3_pay2 (View.ld x0 r3_0)) (k3_pay3 (View.ld x1 r3_0)) (k3_pay4 (View.ld x2 r3_0)) (k3_pay7 i (View.ld x3 r3_1)) (View.ld x5 r3_3))) (k3_pay17 (k3_pay2 (View.ld x0 r3_0)) (k3_pay3 (View.ld x1 r3_0)) (k3_pay4 (View.ld x2 r3_0)) (k3_pay7 i (View.ld x3 r3_1)) (View.ld x5 r3_3) (View.ld x6 r3_4)) (k3_pay18 (k3_pay2 (View.ld x0 r3_0)) (k3_pay3 (View.ld x1 r3_0)) (k3_pay4 (View.ld x2 r3_0)) (k3_pay7 i (View.ld x3 r3_1)) (View.ld x5 r3_3) (View.ld x6 r3_4)) (k3_pay20 (k3_pay2 (View.ld x0 r3_0)) (k3_pay3 (View.ld x1 r3_0)) (k3_pay4 (View.ld x2 r3_0)) (k3_pay7 i (View.ld x3 r3_1)) (View.ld x5 r3_3) (View.ld x6 r3_4) (k3_pay19 (View.ld x5 r3_3))) (k3_pay21 (k3_pay2 (View.ld x0 r3_0)) (k3_pay3 (View.ld x1 r3_0)) (k3_pay4 (View.ld x2 r3_0)) (k3_pay7 i (View.ld x3 r3_1)) (View.ld x5 r3_3) (View.ld x6 r3_4)) (k3_pay23 (k3_pay3 (View.ld x1 r3_0)) (k3_pay4 (View.ld x2 r3_0)) (View.ld x5 r3_3) (View.ld x6 r3_4) (k3_pay22 (k3_pay2 (View.ld x0 r3_0)) (k3_pay7 i (View.ld x3 r3_1)) (View.ld x5 r3_3))) (k3_pay24 (k3_pay2 (View.ld x0 r3_0)) (k3_pay3 (View.ld x1 r3_0)) (k3_pay4 (View.ld x2 r3_0)) (k3_pay7 i (View.ld x3 r3_1)) (View.ld x5 r3_3) (View.ld x6 r3_4)) (k3_pay27 (k3_pay4 (View.ld x2 r3_0)) (View.ld x6 r3_4) (k3_pay25 (k3_pay2 (View.ld x0 r3_0)) (k3_pay3 (View.ld x1 r3_0)) (k3_pay7 i (View.ld x3 r3_1)) (View.ld x5 r3_3)) (k3_pay26 (View.ld x5 r3_3))) (k3_pay28 (k3_pay2 (View.ld x0 r3_0)) (k3_pay3 (View.ld x1 r3_0)) (k3_pay4 (View.ld x2 r3_0)) (k3_pay7 i (View.ld x3 r3_1)) (View.ld x5 r3_3) (View.ld x6 r3_4)) (k3_pay31 (k3_pay29 (k3_pay2 (View.ld x0 r3_0)) (k3_pay3 (View.ld x1 r3_0)) (k3_pay4 (View.ld x2 r3_0)) (k3_pay7 i (View.ld x3 r3_1)) (View.ld x5 r3_3) (View.ld x6 r3_4)) (k3_pay30 (F := F))) (k3_pay32 (k3_pay2 (View.ld x0 r3_0)) (k3_pay3 (View.ld x1 r3_0)) (k3_pay4 (View.ld x2 r3_0)) (k3_pay7 i (View.ld x3 r3_1)) (View.ld x5 r3_3) (View.ld x6 r3_4)) (k3_pay33 (k3_pay2 (View.ld x0 r3_0)) (k3_pay3 (View.ld x1 r3_0)) (k3_pay4 (View.ld x2 r3_0)) (k3_pay7 i (View.ld x3 r3_1)) (View.ld x5 r3_3) (View.ld x6 r3_4)) (k3_pay42 (View.ld x7 r3_5) (k3_pay9 (k3_pay2 (View.ld x0 r3_0)) (k3_pay3 (View.ld x1 r3_0)) (k3_pay4 (View.ld x2 r3_0)) (k3_pay7 i (View.ld x3 r3_1)) (View.ld x5 r3_3) (View.ld x6 r3_4) (k3_pay8 (View.ld x5 r3_3))) (k3_pay10 (k3_pay2 (View.ld x0 r3_0)) (k3_pay3 (View.ld x1 r3_0)) (k3_pay4 (View.ld x2 r3_0)) (k3_pay7 i (View.ld x3 r3_1)) (View.ld x5 r3_3) (View.ld x6 r3_4)) (k3_pay13 (k3_pay3 (View.ld x1 r3_0)) (k3_pay4 (View.ld x2 r3_0)) (View.ld x5 r3_3) (View.ld x6 r3_4) (k3_pay11 (k3_pay2 (View.ld x0 r3_0)) (k3_pay7 i (View.ld x3 r3_1)) (View.ld x5 r3_3)) (k3_pay12 (View.ld x5 r3_3))) (k3_pay14 (k3_pay2 (View.ld x0 r3_0)) (k3_pay3 (View.ld x1 r3_0)) (k3_pay4 (View.ld x2 r3_0)) (k3_pay7 i (View.ld x3 r3_1)) (View.ld x5 r3_3) (View.ld x6 r3_4)))))
      (k3_pay47 (k3_pay6 (View.ld x3 r3_1) (View.ld x4 r3_2)) (View.ld x7 r3_5) (View.ld x8 r3_6) (k3_pay27 (k3_pay4 (View.ld x2 r3_0)) (View.ld x6 r3_4) (k3_pay25 (k3_pay2 (View.ld x0 r3_0)) (k3_pay3 (View.ld x1 r3_0)) (k3_pay7 i (View.ld x3 r3_1)) (View.ld x5 r3_3)) (k3_pay26 (View.ld x5 r3_3))) (k3_pay28 (k3_pay2 (View.ld x0 r3_0)) (k3_pay3 (View.ld x1 r3_0)) (k3_pay4 (View.ld x2 r3_0)) (k3_pay7 i (View.ld x3 r3_1)) (View.ld x5 r3_3) (View.ld x6 r3_4)) (k3_pay31 (k3_pay29 (k3_pay2 (View.ld x0 r3_0)) (k3_pay3 (View.ld x1 r3_0)) (k3_pay4 (View.ld x2 r3_0)) (k3_pay7 i (View.ld x3 r3_1)) (View.ld x5 r3_3) (View.ld x6 r3_4)) (k3_pay30 (F := F))) (k3_pay32 (k3_pay2 (View.ld x0 r3_0)) (k3_pay3 (View.ld x1 r3_0)) (k3_pay4 (View.ld x2 r3_0)) (k3_pay7 i (View.ld x3 r3_1)) (View.ld x5 r3_3) (View.ld x6 r3_4)) (k3_pay33 (k3_pay2 (View.ld x0 r3_0)) (k3_pay3 (View.ld x1 r3_0)) (k3_pay4 (View.ld x2 r3_0)) (k3_pay7 i (View.ld x3 r3_1)) (View.ld x5 r3_3) (View.ld x6 r3_4)) (k3_pay45 (View.ld x7 r3_5) (k3_pay9 (k3_pay2 (View.ld x0 r3_0)) (k3_pay3 (View.ld x1 r3_0)) (k3_pay4 (View.ld x2 r3_0)) (k3_pay7 i (View.ld x3 r3_1)) (View.ld x5 r3_3) (View.ld x6 r3_4) (k3_pay8 (View.ld x5 r3_3))) (k3_pay10 (k3_pay2 (View.ld x0 r3_0)) (k3_pay3 (View.ld x1 r3_0)) (k3_pay4 (View.ld x2 r3_0)) (k3_pay7 i (View.ld x3 r3_1)) (View.ld x5 r3_3) (View.ld x6 r3_4)) (k3_pay13 (k3_pay3 (View.ld x1 r3_0)) (k3_pay4 (View.ld x2 r3_0)) (View.ld x5 r3_3) (View.ld x6 r3_4) (k3_pay11 (k3_pay2 (View.ld x0 r3_0)) (k3_pay7 i (View.ld x3 r3_1)) (View.ld x5 r3_3)) (k3_pay12 (View.ld x5 r3_3))) (k3_pay14 (k3_pay2 (View.ld x0 r3_0)) (k3_pay3 (View.ld x1 r3_0)) (k3_pay4 (View.ld x2 r3_0)) (k3_pay7 i (View.ld x3 r3_1)) (View.ld x5 r3_3) (View.ld x6 r3_4)) (k3_pay16 (View.ld x6 r3_4) (k3_pay15 (k3_pay2 (View.ld x0 r3_0)) (k3_pay3 (View.ld x1 r3_0)) (k3_pay4 (View.ld x2 r3_0)) (k3_pay7 i (View.ld x3 r3_1)) (View.ld x5 r3_3))) (k3_pay17 (k3_pay2 (View.ld x0 r3_0)) (k3_pay3 (View.ld x1 r3_0)) (k3_pay4 (View.ld x2 r3_0)) (k3_pay7 i (View.ld x3 r3_1)) (View.ld x5 r3_3) (View.ld x6 r3_4)) (k3_pay18 (k3_pay2 (View.ld x0 r3_0)) (k3_pay3 (View.ld x1 r3_0)) (k3_pay4 (View.ld x2 r3_0)) (k3_pay7 i (View.ld x3 r3_1)) (View.ld x5 r3_3) (View.ld x6 r3_4)) (k3_pay20 (k3_pay2 (View.ld x0 r3_0)) (k3_pay3 (View.ld x1 r3_0)) (k3_pay4 (View.ld x2 r3_0)) (k3_pay7 i (View.ld x3 r3_1)) (View.ld x5 r3_3) (View.ld x6 r3_4) (k3_pay19 (View.ld x5 r3_3))) (k3_pay21 (k3_pay2 (View.ld x0 r3_0)) (k3_pay3 (View.ld x1 r3_0)) (k3_pay4 (View.ld x2 r3_0)) (k3_pay7 i (View.ld x3 r3_1)) (View.ld x5 r3_3) (View.ld x6 r3_4)) (k3_pay23 (k3_pay3 (View.ld x1 r3_0)) (k3_pay4 (View.ld x2 r3_0)) (View.ld x5 r3_3) (View.ld x6 r3_4) (k3_pay22 (k3_pay2 (View.ld x0 r3_0)) (k3_pay7 i (View.ld x3 r3_1)) (View.ld x5 r3_3))) (k3_pay24 (k3_pay2 (View.ld x0 r3_0)) (k3_pay3 (View.ld x1 r3_0)) (k3_pay4 (View.ld x2 r3_0)) (k3_pay7 i (View.ld x3 r3_1)) (View.ld x5 r3_3) (View.ld x6 r3_4))) (k3_pay46 (View.ld x7 r3_5)))
      (k3_pay50 (k3_pay6 (View.ld x3 r3_1) (View.ld x4 r3_2)) (View.ld x7 r3_5) (View.ld x8 r3_6) (k3_pay18 (k3_pay2 (View.ld x0 r3_0)) (k3_pay3 (View.ld x1 r3_0)) (k3_pay4 (View.ld x2 r3_0)) (k3_pay7 i (View.ld x3 r3_1)) (View.ld x5 r3_3) (View.ld x6 r3_4)) (k3_pay20 (k3_pay2 (View.ld x0 r3_0)) (k3_pay3 (View.ld x1 r3_0)) (k3_pay4 (View.ld x2 r3_0)) (k3_pay7 i (View.ld x3 r3_1)) (View.ld x5 r3_3) (View.ld x6 r3_4) (k3_pay19 (View.ld x5 r3_3))) (k3_pay21 (k3_pay2 (View.ld x0 r3_0)) (k3_pay3 (View.ld x1 r3_0)) (k3_pay4 (View.ld x2 r3_0)) (k3_pay7 i (View.ld x3 r3_1)) (View.ld x5 r3_3) (View.ld x6 r3_4)) (k3_pay23 (k3_pay3 (View.ld x1 r3_0)) (k3_pay4 (View.ld x2 r3_0)) (View.ld x5 r3_3) (View.ld x6 r3_4) (k3_pay22 (k3_pay2 (View.ld x0 r3_0)) (k3_pay7 i (View.ld x3 r3_1)) (View.ld x5 r3_3))) (k3_pay24 (k3_pay2 (View.ld x0 r3_0)) (k3_pay3 (View.ld x1 r3_0)) (k3_pay4 (View.ld x2 r3_0)) (k3_pay7 i (View.ld x3 r3_1)) (View.ld x5 r3_3) (View.ld x6 r3_4)) (k3_pay27 (k3_pay4 (View.ld x2 r3_0)) (View.ld x6 r3_4) (k3_pay25 (k3_pay2 (View.ld x0 r3_0)) (k3_pay3 (View.ld x1 r3_0)) (k3_pay7 i (View.ld x3 r3_1)) (View.ld x5 r3_3)) (k3_pay26 (View.ld x5 r3_3))) (k3_pay28 (k3_pay2 (View.ld x0 r3_0)) (k3_pay3 (View.ld x1 r3_0)) (k3_pay4 (View.ld x2 r3_0)) (k3_pay7 i (View.ld x3 r3_1)) (View.ld x5 r3_3) (View.ld x6 r3_4)) (k3_pay31 (k3_pay29 (k3_pay2 (View.ld x0 r3_0)) (k3_pay3 (View.ld x1 r3_0)) (k3_pay4 (View.ld x2 r3_0)) (k3_pay7 i (View.ld x3 r3_1)) (View.ld x5 r3_3) (View.ld x6 r3_4)) (k3_pay30 (F := F))) (k3_pay32 (k3_pay2 (View.ld x0 r3_0)) (k3_pay3 (View.ld x1 r3_0)) (k3_pay4 (View.ld x2 r3_0)) (k3_pay7 i (View.ld x3 r3_1)) (View.ld x5 r3_3) (View.ld x6 r3_4)) (k3_pay33 (k3_pay2 (View.ld x0 r3_0)) (k3_pay3 (View.ld x1 r3_0)) (k3_pay4 (View.ld x2 r3_0)) (k3_pay7 i (View.ld x3 r3_1)) (View.ld x5 r3_3) (View.ld x6 r3_4)) (k3_pay48 (View.ld x7 r3_5) (k3_pay9 (k3_pay2 (View.ld x0 r3_0)) (k3_pay3 (View.ld x1 r3_0)) (k3_pay4 (View.ld x2 r3_0)) (k3_pay7 i (View.ld x3 r3_1)) (View.ld x5 r3_3) (View.ld x6 r3_4) (k3_pay8 (View.ld x5 r3_3))) (k3_pay10 (k3_pay2 (View.ld x0 r3_0)) (k3_pay3 (View.ld x1 r3_0)) (k3_pay4 (View.ld x2 r3_0)) (k3_pay7 i (View.ld x3 r3_1)) (View.ld x5 r3_3) (View.ld x6 r3_4)) (k3_pay13 (k3_pay3 (View.ld x1 r3_0)) (k3_pay4 (View.ld x2 r3_0)) (View.ld x5 r3_3) (View.ld x6 r3_4) (k3_pay11 (k3_pay2 (View.ld x0 r3_0)) (k3_pay7 i (View.ld x3 r3_1)) (View.ld x5 r3_3)) (k3_pay12 (View.ld x5 r3_3))) (k3_pay14 (k3_pay2 (View.ld x0 r3_0)) (k3_pay3 (View.ld x1 r3_0)) (k3_pay4 (View.ld x2 r3_0)) (k3_pay7 i (View.ld x3 r3_1)) (View.ld x5 r3_3) (View.ld x6 r3_4)) (k3_pay16 (View.ld x6 r3_4) (k3_pay15 (k3_pay2 (View.ld x0 r3_0)) (k3_pay3 (View.ld x1 r3_0)) (k3_pay4 (View.ld x2 r3_0)) (k3_pay7 i (View.ld x3 r3_1)) (View.ld x5 r3_3))) (k3_pay17 (k3_pay2 (View.ld x0 r3_0)) (k3_pay3 (View.ld x1 r3_0)) (k3_pay4 (View.ld x2 r3_0)) (k3_pay7 i (View.ld x3 r3_1)) (View.ld x5 r3_3) (View.ld x6 r3_4))) (k3_pay49 (View.ld x7 r3_5)))
      (k3_pay55 (k3_pay6 (View.ld x3 r3_1) (View.ld x4 r3_2)) (View.ld x7 r3_5) (View.ld x8 r3_6) (k3_pay31 (k3_pay29 (k3_pay2 (View.ld x0 r3_0)) (k3_pay3 (View.ld x1 r3_0)) (k3_pay4 (View.ld x2 r3_0)) (k3_pay7 i (View.ld x3 r3_1)) (View.ld x5 r3_3) (View.ld x6 r3_4)) (k3_pay30 (F := F))) (k3_pay32 (k3_pay2 (View.ld x0 r3_0)) (k3_pay3 (View.ld x1 r3_0)) (k3_pay4 (View.ld x2 r3_0)) (k3_pay7 i (View.ld x3 r3_1)) (View.ld x5 r3_3) (View.ld x6 r3_4)) (k3_pay33 (k3_pay2 (View.ld x0 r3_0)) (k3_pay3 (View.ld x1 r3_0)) (k3_pay4 (View.ld x2 r3_0)) (k3_pay7 i (View.ld x3 r3_1)) (View.ld x5 r3_3) (View.ld x6 r3_4)) (k3_pay53 (View.ld x7 r3_5) (k3_pay10 (k3_pay2 (View.ld x0 r3_0)) (k3_pay3 (View.ld x1 r3_0)) (k3_pay4 (View.ld x2 r3_0)) (k3_pay7 i (View.ld x3 r3_1)) (View.ld x5 r3_3) (View.ld x6 r3_4)) (k3_pay13 (k3_pay3 (View.ld x1 r3_0)) (k3_pay4 (View.ld x2 r3_0)) (View.ld x5 r3_3) (View.ld x6 r3_4) (k3_pay11 (k3_pay2 (View.ld x0 r3_0)) (k3_pay7 i (View.ld x3 r3_1)) (View.ld x5 r3_3)) (k3_pay12 (View.ld x5 r3_3))) (k3_pay14 (k3_pay2 (View.ld x0 r3_0)) (k3_pay3 (View.ld x1 r3_0)) (k3_pay4 (View.ld x2 r3_0)) (k3_pay7 i (View.ld x3 r3_1)) (View.ld x5 r3_3) (View.ld x6 r3_4)) (k3_pay16 (View.ld x6 r3_4) (k3_pay15 (k3_pay2 (View.ld x0 r3_0)) (k3_pay3 (View.ld x1 r3_0)) (k3_pay4 (View.ld x2 r3_0)) (k3_pay7 i (View.ld x3 r3_1)) (View.ld x5 r3_3))) (k3_pay17 (k3_pay2 (View.ld x0 r3_0)) (k3_pay3 (View.ld x1 r3_0)) (k3_pay4 (View.ld x2 r3_0)) (k3_pay7 i (View.ld x3 r3_1)) (View.ld x5 r3_3) (View.ld x6 r3_4)) (k3_pay18 (k3_pay2 (View.ld x0 r3_0)) (k3_pay3 (View.ld x1 r3_0)) (k3_pay4 (View.ld x2 r3_0)) (k3_pay7 i (View.ld x3 r3_1)) (View.ld x5 r3_3) (View.ld x6 r3_4)) (k3_pay20 (k3_pay2 (View.ld x0 r3_0)) (k3_pay3 (View.ld x1 r3_0)) (k3_pay4 (View.ld x2 r3_0)) (k3_pay7 i (View.ld x3 r3_1)) (View.ld x5 r3_3) (View.ld x6 r3_4) (k3_pay19 (View.ld x5 r3_3))) (k3_pay21 (k3_pay2 (View.ld x0 r3_0)) (k3_pay3 (View.ld x1 r3_0)) (k3_pay4 (View.ld x2 r3_0)) (k3_pay7 i (View.ld x3 r3_1)) (View.ld x5 r3_3) (View.ld x6 r3_4)) (k3_pay23 (k3_pay3 (View.ld x1 r3_0)) (k3_pay4 (View.ld x2 r3_0)) (View.ld x5 r3_3) (View.ld x6 r3_4) (k3_pay22 (k3_pay2 (View.ld x0 r3_0)) (k3_pay7 i (View.ld x3 r3_1)) (View.ld x5 r3_3))) (k3_pay24 (k3_pay2 (View.ld x0 r3_0)) (k3_pay3 (View.ld x1 r3_0)) (k3_pay4 (View.ld x2 r3_0)) (k3_pay7 i (View.ld x3 r3_1)) (View.ld x5 r3_3) (View.ld x6 r3_4)) (k3_pay27 (k3_pay4 (View.ld x2 r3_0)) (View.ld x6 r3_4) (k3_pay25 (k3_pay2 (View.ld x0 r3_0)) (k3_pay3 (View.ld x1 r3_0)) (k3_pay7 i (View.ld x3 r3_1)) (View.ld x5 r3_3)) (k3_pay26 (View.ld x5 r3_3))) (k3_pay28 (k3_pay2 (View.ld x0 r3_0)) (k3_pay3 (View.ld x1 r3_0)) (k3_pay4 (View.ld x2 r3_0)) (k3_pay7 i (View.ld x3 r3_1)) (View.ld x5 r3_3) (View.ld x6 r3_4)) (k3_pay51 (View.ld x7 r3_5) (k3_pay9 (k3_pay2 (View.ld x0 r3_0)) (k3_pay3 (View.ld x1 r3_0)) (k3_pay4 (View.ld x2 r3_0)) (k3_pay7 i (View.ld x3 r3_1)) (View.ld x5 r3_3) (View.ld x6 r3_4) (k3_pay8 (View.ld x5 r3_3)))) (k3_pay52 (View.ld x7 r3_5))) (k3_pay54 (View.ld x7 r3_5)))
      (k3_pay58 (k3_pay6 (View.ld x3 r3_1) (View.ld x4 r3_2)) (View.ld x7 r3_5) (View.ld x8 r3_6) (k3_pay23 (k3_pay3 (View.ld x1 r3_0)) (k3_pay4 (View.ld x2 r3_0)) (View.ld x5 r3_3) (View.ld x6 r3_4) (k3_pay22 (k3_pay2 (View.ld x0 r3_0)) (k3_pay7 i (View.ld x3 r3_1)) (View.ld x5 r3_3))) (k3_pay24 (k3_pay2 (View.ld x0 r3_0)) (k3_pay3 (View.ld x1 r3_0)) (k3_pay4 (View.ld x2 r3_0)) (k3_pay7 i (View.ld x3 r3_1)) (View.ld x5 r3_3) (View.ld x6 r3_4)) (k3_pay27 (k3_pay4 (View.ld x2 r3_0)) (View.ld x6 r3_4) (k3_pay25 (k3_pay2 (View.ld x0 r3_0)) (k3_pay3 (View.ld x1 r3_0)) (k3_pay7 i (View.ld x3 r3_1)) (View.ld x5 r3_3)) (k3_pay26 (View.ld x5 r3_3))) (k3_pay28 (k3_pay2 (View.ld x0 r3_0)) (k3_pay3 (View.ld x1 r3_0)) (k3_pay4 (View.ld x2 r3_0)) (k3_pay7 i (View.ld x3 r3_1)) (View.ld x5 r3_3) (View.ld x6 r3_4)) (k3_pay31 (k3_pay29 (k3_pay2 (View.ld x0 r3_0)) (k3_pay3 (View.ld x1 r3_0)) (k3_pay4 (View.ld x2 r3_0)) (k3_pay7 i (View.ld x3 r3_1)) (View.ld x5 r3_3) (View.ld x6 r3_4)) (k3_pay30 (F := F))) (k3_pay32 (k3_pay2 (View.ld x0 r3_0)) (k3_pay3 (View.ld x1 r3_0)) (k3_pay4 (View.ld x2 r3_0)) (k3_pay7 i (View.ld x3 r3_1)) (View.ld x5 r3_3) (View.ld x6 r3_4)) (k3_pay33 (k3_pay2 (View.ld x0 r3_0)) (k3_pay3 (View.ld x1 r3_0)) (k3_pay4 (View.ld x2 r3_0)) (k3_pay7 i (View.ld x3 r3_1)) (View.ld x5 r3_3) (View.ld x6 r3_4)) (k3_pay56 (View.ld x7 r3_5) (k3_pay9 (k3_pay2 (View.ld x0 r3_0)) (k3_pay3 (View.ld x1 r3_0)) (k3_pay4 (View.ld x2 r3_0)) (k3_pay7 i (View.ld x3 r3_1)) (View.ld x5 r3_3) (View.ld x6 r3_4) (k3_pay8 (View.ld x5 r3_3))) (k3_pay10 (k3_pay2 (View.ld x0 r3_0)) (k3_pay3 (View.ld x1 r3_0)) (k3_pay4 (View.ld x2 r3_0)) (k3_pay7 i (View.ld x3 r3_1)) (View.ld x5 r3_3) (View.ld x6 r3_4)) (k3_pay13 (k3_pay3 (View.ld x1 r3_0)) (k3_pay4 (View.ld x2 r3_0)) (View.ld x5 r3_3) (View.ld x6 r3_4) (k3_pay11 (k3_pay2 (View.ld x0 r3_0)) (k3_pay7 i (View.ld x3 r3_1)) (View.ld x5 r3_3)) (k3_pay12 (View.ld x5 r3_3))) (k3_pay14 (k3_pay2 (View.ld x0 r3_0)) (k3_pay3 (View.ld x1 r3_0)) (k3_pay4 (View.ld x2 r3_0)) (k3_pay7 i (View.ld x3 r3_1)) (View.ld x5 r3_3) (View.ld x6 r3_4)) (k3_pay16 (View.ld x6 r3_4) (k3_pay15 (k3_pay2 (View.ld x0 r3_0)) (k3_pay3 (View.ld x1 r3_0)) (k3_pay4 (View.ld x2 r3_0)) (k3_pay7 i (View.ld x3 r3_1)) (View.ld x5 r3_3))) (k3_pay17 (k3_pay2 (View.ld x0 r3_0)) (k3_pay3 (View.ld x1 r3_0)) (k3_pay4 (View.ld x2 r3_0)) (k3_pay7 i (View.ld x3 r3_1)) (View.ld x5 r3_3) (View.ld x6 r3_4)) (k3_pay18 (k3_pay2 (View.ld x0 r3_0)) (k3_pay3 (View.ld x1 r3_0)) (k3_pay4 (View.ld x2 r3_0)) (k3_pay7 i (View.ld x3 r3_1)) (View.ld x5 r3_3) (View.ld x6 r3_4)) (k3_pay20 (k3_pay2 (View.ld x0 r3_0)) (k3_pay3 (View.ld x1 r3_0)) (k3_pay4 (View.ld x2 r3_0)) (k3_pay7 i (View.ld x3 r3_1)) (View.ld x5 r3_3) (View.ld x6 r3_4) (k3_pay19 (View.ld x5 r3_3)))) (k3_pay57 (View.ld x7 r3_5) (k3_pay21 (k3_pay2 (View.ld x0 r3_0)) (k3_pay3 (View.ld x1 r3_0)) (k3_pay4 (View.ld x2 r3_0)) (k3_pay7 i (View.ld x3 r3_1)) (View.ld x5 r3_3) (View.ld x6 r3_4))))
      (k3_pay60 (View.ld x7 r3_5) (k3_pay16 (View.ld x6 r3_4) (k3_pay15 (k3_pay2 (View.ld x0 r3_0)) (k3_pay3 (View.ld x1 r3_0)) (k3_pay4 (View.ld x2 r3_0)) (k3_pay7 i (View.ld x3 r3_1)) (View.ld x5 r3_3))) (k3_pay17 (k3_pay2 (View.ld x0 r3_0)) (k3_pay3 (View.ld x1 r3_0)) (k3_pay4 (View.ld x2 r3_0)) (k3_pay7 i (View.ld x3 r3_1)) (View.ld x5 r3_3) (View.ld x6 r3_4)) (k3_pay18 (k3_pay2 (View.ld x0 r3_0)) (k3_pay3 (View.ld x1 r3_0)) (k3_pay4 (View.ld x2 r3_0)) (k3_pay7 i (View.ld x3 r3_1)) (View.ld x5 r3_3) (View.ld x6 r3_4)) (k3_pay20 (k3_pay2 (View.ld x0 r3_0)) (k3_pay3 (View.ld x1 r3_0)) (k3_pay4 (View.ld x2 r3_0)) (k3_pay7 i (View.ld x3 r3_1)) (View.ld x5 r3_3) (View.ld x6 r3_4) (k3_pay19 (View.ld x5 r3_3))) (k3_pay21 (k3_pay2 (View.ld x0 r3_0)) (k3_pay3 (View.ld x1 r3_0)) (k3_pay4 (View.ld x2 r3_0)) (k3_pay7 i (View.ld x3 r3_1)) (View.ld x5 r3_3) (View.ld x6 r3_4)) (k3_pay23 (k3_pay3 (View.ld x1 r3_0)) (k3_pay4 (View.ld x2 r3_0)) (View.ld x5 r3_3) (View.ld x6 r3_4) (k3_pay22 (k3_pay2 (View.ld x0 r3_0)) (k3_pay7 i (View.ld x3 r3_1)) (View.ld x5 r3_3))) (k3_pay24 (k3_pay2 (View.ld x0 r3_0)) (k3_pay3 (View.ld x1 r3_0)) (k3_pay4 (View.ld x2 r3_0)) (k3_pay7 i (View.ld x3 r3_1)) (View.ld x5 r3_3) (View.ld x6 r3_4)) (k3_pay27 (k3_pay4 (View.ld x2 r3_0)) (View.ld x6 r3_4) (k3_pay25 (k3_pay2 (View.ld x0 r3_0)) (k3_pay3 (View.ld x1 r3_0)) (k3_pay7 i (View.ld x3 r3_1)) (View.ld x5 r3_3)) (k3_pay26 (View.ld x5 r3_3))) (k3_pay28 (k3_pay2 (View.ld x0 r3_0)) (k3_pay3 (View.ld x1 r3_0)) (k3_pay4 (View.ld x2 r3_0)) (k3_pay7 i (View.ld x3 r3_1)) (View.ld x5 r3_3) (View.ld x6 r3_4)) (k3_pay31 (k3_pay29 (k3_pay2 (View.ld x0 r3_0)) (k3_pay3 (View.ld x1 r3_0)) (k3_pay4 (View.ld x2 r3_0)) (k3_pay7 i (View.ld x3 r3_1)) (View.ld x5 r3_3) (View.ld x6 r3_4)) (k3_pay30 (F := F))) (k3_pay32 (k3_pay2 (View.ld x0 r3_0)) (k3_pay3 (View.ld x1 r3_0)) (k3_pay4 (View.ld x2 r3_0)) (k3_pay7 i (View.ld x3 r3_1)) (View.ld x5 r3_3) (View.ld x6 r3_4)) (k3_pay33 (k3_pay2 (View.ld x0 r3_0)) (k3_pay3 (View.ld x1 r3_0)) (k3_pay4 (View.ld x2 r3_0)) (k3_pay7 i (View.ld x3 r3_1)) (View.ld x5 r3_3) (View.ld x6 r3_4)) (k3_pay59 (View.ld x7 r3_5) (k3_pay9 (k3_pay2 (View.ld x0 r3_0)) (k3_pay3 (View.ld x1 r3_0)) (k3_pay4 (View.ld x2 r3_0)) (k3_pay7 i (View.ld x3 r3_1)) (View.ld x5 r3_3) (View.ld x6 r3_4) (k3_pay8 (View.ld x5 r3_3))) (k3_pay10 (k3_pay2 (View.ld x0 r3_0)) (k3_pay3 (View.ld x1 r3_0)) (k3_pay4 (View.ld x2 r3_0)) (k3_pay7 i (View.ld x3 r3_1)) (View.ld x5 r3_3) (View.ld x6 r3_4)) (k3_pay13 (k3_pay3 (View.ld x1 r3_0)) (k3_pay4 (View.ld x2 r3_0)) (View.ld x5 r3_3) (View.ld x6 r3_4) (k3_pay11 (k3_pay2 (View.ld x0 r3_0)) (k3_pay7 i (View.ld x3 r3_1)) (View.ld x5 r3_3)) (k3_pay12 (View.ld x5 r3_3))) (k3_pay14 (k3_pay2 (View.ld x0 r3_0)) (k3_pay3 (View.ld x1 r3_0)) (k3_pay4 (View.ld x2 r3_0)) (k3_pay7 i (View.ld x3 r3_1)) (View.ld x5 r3_3) (View.ld x6 r3_4))))⟩]

/-- The one store's rectangle is the whole block, so it covers it. -/
theorem cover3_9 (p0 : Vec F S1x8x512x1024 .f32) (y : S1x8x512x1024.Idx) :
    ∃ pc ∈ ([⟨r3_7, p0⟩] : List (View.Piece (Elt F) S1x8x512x1024 .f32)), y ∈ pc.1.set :=
  View.cover_of_tiled [⟨r3_7, p0⟩] S1x8x512x1024.size (by rfl) y

/-! ## The body's triple -/

set_option maxHeartbeats 4000000 in
/-- The kernel body on whole staging memrefs, the inputs' at read contents `xW` and the output's at anything, runs
    to the continuation holding the inputs' as they were and the output's at `out3_9` of the inputs'. -/
theorem sound_kernel3 (c : Dev nD) (E : Set ℕ) (i : grid3.Coords) (arg2 : Memref sig .tc .vmem S1x512x1024 .f32) (harg2 : arg2.IsWhole) (arg3 : Memref sig .tc .vmem S1x512x1024 .f32) (harg3 : arg3.IsWhole) (arg4 : Memref sig .tc .vmem S1x512x1024 .f32) (harg4 : arg4.IsWhole) (arg5 : Memref sig .tc .vmem S1x512x1 .f32) (harg5 : arg5.IsWhole) (arg6 : Memref sig .tc .vmem S1x1x1024 .f32) (harg6 : arg6.IsWhole) (arg7 : Memref sig .tc .vmem S4x16 .f32) (harg7 : arg7.IsWhole) (arg8 : Memref sig .tc .vmem S16 .f32) (harg8 : arg8.IsWhole) (arg9 : Memref sig .tc .vmem S16x8 .f32) (harg9 : arg9.IsWhole) (arg10 : Memref sig .tc .vmem S8 .f32) (harg10 : arg10.IsWhole) (arg11 : Memref sig .tc .vmem S1x8x512x1024 .f32) (harg11 : arg11.IsWhole)
    (x0 : Vec F S1x512x1024 .f32) (x1 : Vec F S1x512x1024 .f32) (x2 : Vec F S1x512x1024 .f32) (x3 : Vec F S1x512x1 .f32) (x4 : Vec F S1x1x1024 .f32) (x5 : Vec F S4x16 .f32) (x6 : Vec F S16 .f32) (x7 : Vec F S16x8 .f32) (x8 : Vec F S8 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare (out3_9 i x0 x1 x2 x3 x4 x5 x6 x7 x8)) -∗ K ⟨⟩))
      ⊢ wp frame (wpE (defs₀ (F := F)) Variants.none c none) E (cc3__mlp_kernel i arg2 harg2 arg3 harg3 arg4 harg4 arg5 harg5 arg6 harg6 arg7 harg7 arg8 harg8 arg9 harg9 arg10 harg10 arg11 harg11) K := by
  simp only [cc3__mlp_kernel_eq_skeleton]; unfold cc3__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec_parts
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  sl_unfold_run_names
  exact View.read_writes_eq_canon _ _ _ (cover3_9 _)

section Region
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, whether the pipeline fetched it there
    or not (where it did not, the window's block index has not moved since the last fetch), for any proof data
    whose array is `V`'s and whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- Input window 1's current staging buffer holds its block at every point, whether the pipeline fetched it there
    or not (where it did not, the window's block index has not moved since the last fetch), for any proof data
    whose array is `V`'s and whose body leaves the block in place. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
/-- Input window 2's current staging buffer holds its block at every point, whether the pipeline fetched it there
    or not (where it did not, the window's block index has not moved since the last fetch), for any proof data
    whose array is `V`'s and whose body leaves the block in place. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
/-- Input window 3's current staging buffer holds its block at every point, whether the pipeline fetched it there
    or not (where it did not, the window's block index has not moved since the last fetch), for any proof data
    whose array is `V`'s and whose body leaves the block in place. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
/-- Input window 4's current staging buffer holds its block at every point, whether the pipeline fetched it there
    or not (where it did not, the window's block index has not moved since the last fetch), for any proof data
    whose array is `V`'s and whose body leaves the block in place. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)
/-- Input window 5's current staging buffer holds its block at every point, whether the pipeline fetched it there
    or not (where it did not, the window's block index has not moved since the last fetch), for any proof data
    whose array is `V`'s and whose body leaves the block in place. -/
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)
/-- Input window 6's current staging buffer holds its block at every point, whether the pipeline fetched it there
    or not (where it did not, the window's block index has not moved since the last fetch), for any proof data
    whose array is `V`'s and whose body leaves the block in place. -/
theorem before3_6_of {c : Dev nD} (dat : Dat τ (Elt F) Unit ℕ (UR sig nD τ) ℕ cfg3 c) (hA : dat.A 6 = V c (Pipeline.arrRef spec3 6))
    (hafter : ∀ t, dat.after 6 t = iblk3 V c 6 t) (t : Fin cfg3.N) (d) : dat.before 6 t d = iblk3 V c 6 t :=
  (dat.before_in_eq_fetched 6 rfl (fun _ => rfl) (fun _ _ _ => rfl) (fun t => by rw [hafter]; unfold Dat.blockOf iblk3; rw [hA]; try rfl) t d).trans
    (by unfold Dat.fetched Dat.blockOf iblk3; rw [hA]; try rfl)
/-- Input window 7's current staging buffer holds its block at every point, whether the pipeline fetched it there
    or not (where it did not, the window's block index has not moved since the last fetch), for any proof data
    whose array is `V`'s and whose body leaves the block in place. -/
theorem before3_7_of {c : Dev nD} (dat : Dat τ (Elt F) Unit ℕ (UR sig nD τ) ℕ cfg3 c) (hA : dat.A 7 = V c (Pipeline.arrRef spec3 7))
    (hafter : ∀ t, dat.after 7 t = iblk3 V c 7 t) (t : Fin cfg3.N) (d) : dat.before 7 t d = iblk3 V c 7 t :=
  (dat.before_in_eq_fetched 7 rfl (fun _ => rfl) (fun _ _ _ => rfl) (fun t => by rw [hafter]; unfold Dat.blockOf iblk3; rw [hA]; try rfl) t d).trans
    (by unfold Dat.fetched Dat.blockOf iblk3; rw [hA]; try rfl)
/-- Input window 8's current staging buffer holds its block at every point, whether the pipeline fetched it there
    or not (where it did not, the window's block index has not moved since the last fetch), for any proof data
    whose array is `V`'s and whose body leaves the block in place. -/
theorem before3_8_of {c : Dev nD} (dat : Dat τ (Elt F) Unit ℕ (UR sig nD τ) ℕ cfg3 c) (hA : dat.A 8 = V c (Pipeline.arrRef spec3 8))
    (hafter : ∀ t, dat.after 8 t = iblk3 V c 8 t) (t : Fin cfg3.N) (d) : dat.before 8 t d = iblk3 V c 8 t :=
  (dat.before_in_eq_fetched 8 rfl (fun _ => rfl) (fun _ _ _ => rfl) (fun t => by rw [hafter]; unfold Dat.blockOf iblk3; rw [hA]; try rfl) t d).trans
    (by unfold Dat.fetched Dat.blockOf iblk3; rw [hA]; try rfl)

/-! ## The pipeline's proof data -/

/-- The proof data of pipeline 3 on core `c`: the arrays as the region finds them (`V`); after the body at point
    `t` each input's buffer at its block and the output's at `out3_9` of the input blocks at the point's grid
    position; the invariant is the scoped rest and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => iblk3 V c 7 t
    | ⟨8, _⟩ => iblk3 V c 8 t
    | ⟨9, _⟩ => out3_9 (grid3.coords t) (iblk3 V c 0 t) (iblk3 V c 1 t) (iblk3 V c 2 t) (iblk3 V c 3 t) (iblk3 V c 4 t) (iblk3 V c 5 t) (iblk3 V c 6 t) (iblk3 V c 7 t) (iblk3 V c 8 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = iblk3 V c 7 t := by dsimp only [dat3]
theorem after3_8 (c : Dev nD) (t : Fin cfg3.N) : (dat3 V c).after 8 t = iblk3 V c 8 t := by dsimp only [dat3]
theorem after3_9 (c : Dev nD) (t : Fin cfg3.N) : (dat3 V c).after 9 t = out3_9 (grid3.coords t) (iblk3 V c 0 t) (iblk3 V c 1 t) (iblk3 V c 2 t) (iblk3 V c 3 t) (iblk3 V c 4 t) (iblk3 V c 5 t) (iblk3 V c 6 t) (iblk3 V c 7 t) (iblk3 V c 8 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d
theorem before3_6 (c : Dev nD) (t : Fin cfg3.N) (d) : (dat3 V c).before 6 t d = iblk3 V c 6 t :=
  before3_6_of V (dat3 V c) (A_eq3 V c 6) (after3_6 V c) t d
theorem before3_7 (c : Dev nD) (t : Fin cfg3.N) (d) : (dat3 V c).before 7 t d = iblk3 V c 7 t :=
  before3_7_of V (dat3 V c) (A_eq3 V c 7) (after3_7 V c) t d
theorem before3_8 (c : Dev nD) (t : Fin cfg3.N) (d) : (dat3 V c).before 8 t d = iblk3 V c 8 t :=
  before3_8_of V (dat3 V c) (A_eq3 V c 8) (after3_8 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d))
    ∗ (∃ d, owns (c : Thread nD τ) (st3_8 t) fullShare ((dat3 V c).before 8 t d))
    ∗ (∃ d, owns (c : Thread nD τ) (st3_9 t) fullShare ((dat3 V c).before 9 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t)
    ∗ owns (c : Thread nD τ) (st3_8 t) fullShare ((dat3 V c).after 8 t)
    ∗ owns (c : Thread nD τ) (st3_9 t) fullShare ((dat3 V c).after 9 t))

/-- The body at any point: the inputs' memrefs hold their blocks, so the body's triple applies at the point's grid
    position; the invariant and what the core owes pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6, before3_7, before3_8]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6, after3_7, after3_8, after3_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel3 c Set.univ (grid3.coords t) _ _ _ _ _ _ _ _ _ _ _ _ _ _ _ _ _ _ _ _ (iblk3 V c 0 t) (iblk3 V c 1 t) (iblk3 V c 2 t) (iblk3 V c 3 t) (iblk3 V c 4 t) (iblk3 V c 5 t) (iblk3 V c 6 t) (iblk3 V c 7 t) (iblk3 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation3 (c : Dev nD) : BodyObligation (dat3 (F := F) V c) (defs₀ (F := F)) Variants.none () Set.univ := fun t => by
  rw [bigSep_W3, bigSep_W3]
  exact sound_body3 V c t

end Region

end Cert.KernelIdeal.Frm

end
-- ==== Proof.KIShare.lean ====
/-
  Entering and leaving the two matrix-product regions.  Each reads ONE array through both of its input windows and writes
  another; between regions a core holds every unscoped buffer whole at the full share.  On entry the read array's
  points-to is split along its share into a left and a right half, one for each input window; on exit the halves are
  joined again, and the written array holds what the write-backs left.
-/
import proofs.«115754_j78331613544465_2_alg».proof.Proof.KIReg1
import proofs.«115754_j78331613544465_2_alg».proof.Proof.KIReg2
import proofs.«115754_j78331613544465_2_alg».proof.Proof.Gen.KernelIdeal.Launch
import proofs.«115754_j78331613544465_2_alg».proof.Proof.Gen.KernelIdeal.Skeleton
import proofs.«115754_j78331613544465_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Region 1: its arrays are main_v3 (read by both input windows) and main_v4 (written) -/

theorem img1 : Finset.univ.image (Pipeline.arrRef spec1) = ({main_v3, main_v4} : Finset (Ref sig .tc)) := by decide

/-- The region's arrays as points-tos of the buffers behind them, each window at its share. -/
theorem arrays1_eq (c : Dev nD) (Fa : (w : Fin cfg1.W) → Buf (Elt F) ((cfg1.win w).arr.view.loc (c : Thread nD τ))) :
    ((dat1 V c).arrays Fa : sProp 𝕄) = bigSep Finset.univ fun w : Fin cfg1.W => ((((c : Thread nD τ).loc (Pipeline.arrRef spec1 w)) ↦{(dat1 V c).share w} Fa w : sProp 𝕄)) := by
  unfold Pipeline.Dat.arrays
  exact bigSep_congr fun w _ => by rw [(arr_whole1 w).set_eq_univ]

/-- Entering: the core's unscoped buffers at V are the region's arrays — the read array's share split in two halves,
    one per input window — beside the buffers the region does not touch. -/
theorem entryG1 (c : Dev nD) :
    (unscopedBufs c (V c) : sProp 𝕄) ⊢ iprop((dat1 V c).arrays ((dat1 V c).arrAt · 0) ∗ Pipeline.unscopedRest (Ix := Unit) (Name := ℕ) (U := UR sig nD τ) (Lvl := ℕ) spec1 c (V c)) := by
  rw [Pipeline.unscopedBufs_split₀ cfgs (1 : Fin 4) winFacts₀1.arr_unscoped c (V c)]
  refine sep_mono ?_ .rfl
  rw [arrays1_eq]
  unfold Pipeline.arrBufs
  show bigSep (Finset.univ.image (Pipeline.arrRef spec1)) (fun b : Ref sig .tc => (((c : Thread nD τ).loc b) ↦{fullShare} V c b : sProp 𝕄)) ⊢ _
  rw [img1, bigSep_insert (by decide), bigSep_singleton, bigSep_W1, share1_0, share1_1, share1_2]
  show iprop((((c : Thread nD τ).loc main_v3) ↦{fullShare} V c main_v3) ∗ (((c : Thread nD τ).loc main_v4) ↦{fullShare} V c main_v4)) ⊢
       (iprop((((c : Thread nD τ).loc main_v3) ↦{fullShare.left} V c main_v3) ∗ (((c : Thread nD τ).loc main_v3) ↦{fullShare.right} V c main_v3) ∗ (((c : Thread nD τ).loc main_v4) ↦{fullShare} V c main_v4)) : sProp 𝕄)
  have hs : ((((c : Thread nD τ).loc main_v3) ↦{fullShare} V c main_v3) : sProp 𝕄) ⊢ iprop((((c : Thread nD τ).loc main_v3) ↦{fullShare.left} V c main_v3) ∗ (((c : Thread nD τ).loc main_v3) ↦{fullShare.right} V c main_v3)) :=
    (pointsTo_share (PosShare.mem_left_op_right fullShare)).1
  iintro ⟨H3, H4⟩
  ihave H := hs $$ H3
  icases H with ⟨Hl, Hr⟩
  isplitl [Hl]; · iexact Hl
  isplitl [Hr]; · iexact Hr
  iexact H4

/-- Leaving: the two halves of the read array's share joined again, the written array at what the write-backs left,
    every other buffer as entered: the core's unscoped buffers at any V' that says so. -/
theorem exitG1 (c : Dev nD) (V' : (b : Ref sig .tc) → Buf (Elt F) ((c : Thread nD τ).loc b))
    (h4 : V' main_v4 = (dat1 V c).arrAt 2 cfg1.N) (hrest : ∀ b, b ≠ main_v4 → V' b = V c b) :
    iprop((dat1 V c).arrays ((dat1 V c).arrAt · cfg1.N) ∗ Pipeline.unscopedRest (Ix := Unit) (Name := ℕ) (U := UR sig nD τ) (Lvl := ℕ) spec1 c (V c)) ⊢ (unscopedBufs c V' : sProp 𝕄) := by
  rw [Pipeline.unscopedBufs_split₀ cfgs (1 : Fin 4) winFacts₀1.arr_unscoped c V']
  refine sep_mono ?_ (Entails.of_eq ?_)
  · rw [arrays1_eq]
    unfold Pipeline.arrBufs
    show _ ⊢ bigSep (Finset.univ.image (Pipeline.arrRef spec1)) (fun b : Ref sig .tc => (((c : Thread nD τ).loc b) ↦{fullShare} V' b : sProp 𝕄))
    rw [img1, bigSep_insert (by decide), bigSep_singleton, bigSep_W1, share1_0, share1_1, share1_2,
      (dat1 V c).arrAt_in 0 rfl cfg1.N, (dat1 V c).arrAt_in 1 rfl cfg1.N, hrest main_v3 (by decide), h4]
    show (iprop((((c : Thread nD τ).loc main_v3) ↦{fullShare.left} V c main_v3) ∗ (((c : Thread nD τ).loc main_v3) ↦{fullShare.right} V c main_v3) ∗ (((c : Thread nD τ).loc main_v4) ↦{fullShare} (dat1 V c).arrAt 2 cfg1.N)) : sProp 𝕄) ⊢
      iprop((((c : Thread nD τ).loc main_v3) ↦{fullShare} V c main_v3) ∗ (((c : Thread nD τ).loc main_v4) ↦{fullShare} (dat1 V c).arrAt 2 cfg1.N))
    have hj : iprop((((c : Thread nD τ).loc main_v3) ↦{fullShare.left} V c main_v3) ∗ (((c : Thread nD τ).loc main_v3) ↦{fullShare.right} V c main_v3)) ⊢ ((((c : Thread nD τ).loc main_v3) ↦{fullShare} V c main_v3) : sProp 𝕄) :=
      (pointsTo_share (PosShare.mem_left_op_right fullShare)).2
    iintro ⟨Hl, Hr, H4⟩
    isplitl [Hl Hr]
    · iapply hj; isplitl [Hl] <;> iassumption
    iexact H4
  · unfold Pipeline.unscopedRest
    exact bigSep_congr fun b hb => by
      rw [hrest b (fun e => (Finset.mem_sdiff.mp hb).2 (by rw [e]; exact Finset.mem_image.mpr ⟨2, Finset.mem_univ _, rfl⟩))]

/-! ## Region 2: its arrays are main_v4 (read by both input windows) and main_v5 (written) -/

theorem img2 : Finset.univ.image (Pipeline.arrRef spec2) = ({main_v4, main_v5} : Finset (Ref sig .tc)) := by decide

/-- The region's arrays as points-tos of the buffers behind them, each window at its share. -/
theorem arrays2_eq (c : Dev nD) (Fa : (w : Fin cfg2.W) → Buf (Elt F) ((cfg2.win w).arr.view.loc (c : Thread nD τ))) :
    ((dat2 V c).arrays Fa : sProp 𝕄) = bigSep Finset.univ fun w : Fin cfg2.W => ((((c : Thread nD τ).loc (Pipeline.arrRef spec2 w)) ↦{(dat2 V c).share w} Fa w : sProp 𝕄)) := by
  unfold Pipeline.Dat.arrays
  exact bigSep_congr fun w _ => by rw [(arr_whole2 w).set_eq_univ]

/-- Entering: the core's unscoped buffers at V are the region's arrays — the read array's share split in two halves,
    one per input window — beside the buffers the region does not touch. -/
theorem entryG2 (c : Dev nD) :
    (unscopedBufs c (V c) : sProp 𝕄) ⊢ iprop((dat2 V c).arrays ((dat2 V c).arrAt · 0) ∗ Pipeline.unscopedRest (Ix := Unit) (Name := ℕ) (U := UR sig nD τ) (Lvl := ℕ) spec2 c (V c)) := by
  rw [Pipeline.unscopedBufs_split₀ cfgs (2 : Fin 4) winFacts₀2.arr_unscoped c (V c)]
  refine sep_mono ?_ .rfl
  rw [arrays2_eq]
  unfold Pipeline.arrBufs
  show bigSep (Finset.univ.image (Pipeline.arrRef spec2)) (fun b : Ref sig .tc => (((c : Thread nD τ).loc b) ↦{fullShare} V c b : sProp 𝕄)) ⊢ _
  rw [img2, bigSep_insert (by decide), bigSep_singleton, bigSep_W2, share2_0, share2_1, share2_2]
  show iprop((((c : Thread nD τ).loc main_v4) ↦{fullShare} V c main_v4) ∗ (((c : Thread nD τ).loc main_v5) ↦{fullShare} V c main_v5)) ⊢
       (iprop((((c : Thread nD τ).loc main_v4) ↦{fullShare.left} V c main_v4) ∗ (((c : Thread nD τ).loc main_v4) ↦{fullShare.right} V c main_v4) ∗ (((c : Thread nD τ).loc main_v5) ↦{fullShare} V c main_v5)) : sProp 𝕄)
  have hs : ((((c : Thread nD τ).loc main_v4) ↦{fullShare} V c main_v4) : sProp 𝕄) ⊢ iprop((((c : Thread nD τ).loc main_v4) ↦{fullShare.left} V c main_v4) ∗ (((c : Thread nD τ).loc main_v4) ↦{fullShare.right} V c main_v4)) :=
    (pointsTo_share (PosShare.mem_left_op_right fullShare)).1
  iintro ⟨H3, H4⟩
  ihave H := hs $$ H3
  icases H with ⟨Hl, Hr⟩
  isplitl [Hl]; · iexact Hl
  isplitl [Hr]; · iexact Hr
  iexact H4

/-- Leaving: the two halves of the read array's share joined again, the written array at what the write-backs left,
    every other buffer as entered: the core's unscoped buffers at any V' that says so. -/
theorem exitG2 (c : Dev nD) (V' : (b : Ref sig .tc) → Buf (Elt F) ((c : Thread nD τ).loc b))
    (h4 : V' main_v5 = (dat2 V c).arrAt 2 cfg2.N) (hrest : ∀ b, b ≠ main_v5 → V' b = V c b) :
    iprop((dat2 V c).arrays ((dat2 V c).arrAt · cfg2.N) ∗ Pipeline.unscopedRest (Ix := Unit) (Name := ℕ) (U := UR sig nD τ) (Lvl := ℕ) spec2 c (V c)) ⊢ (unscopedBufs c V' : sProp 𝕄) := by
  rw [Pipeline.unscopedBufs_split₀ cfgs (2 : Fin 4) winFacts₀2.arr_unscoped c V']
  refine sep_mono ?_ (Entails.of_eq ?_)
  · rw [arrays2_eq]
    unfold Pipeline.arrBufs
    show _ ⊢ bigSep (Finset.univ.image (Pipeline.arrRef spec2)) (fun b : Ref sig .tc => (((c : Thread nD τ).loc b) ↦{fullShare} V' b : sProp 𝕄))
    rw [img2, bigSep_insert (by decide), bigSep_singleton, bigSep_W2, share2_0, share2_1, share2_2,
      (dat2 V c).arrAt_in 0 rfl cfg2.N, (dat2 V c).arrAt_in 1 rfl cfg2.N, hrest main_v4 (by decide), h4]
    show (iprop((((c : Thread nD τ).loc main_v4) ↦{fullShare.left} V c main_v4) ∗ (((c : Thread nD τ).loc main_v4) ↦{fullShare.right} V c main_v4) ∗ (((c : Thread nD τ).loc main_v5) ↦{fullShare} (dat2 V c).arrAt 2 cfg2.N)) : sProp 𝕄) ⊢
      iprop((((c : Thread nD τ).loc main_v4) ↦{fullShare} V c main_v4) ∗ (((c : Thread nD τ).loc main_v5) ↦{fullShare} (dat2 V c).arrAt 2 cfg2.N))
    have hj : iprop((((c : Thread nD τ).loc main_v4) ↦{fullShare.left} V c main_v4) ∗ (((c : Thread nD τ).loc main_v4) ↦{fullShare.right} V c main_v4)) ⊢ ((((c : Thread nD τ).loc main_v4) ↦{fullShare} V c main_v4) : sProp 𝕄) :=
      (pointsTo_share (PosShare.mem_left_op_right fullShare)).2
    iintro ⟨Hl, Hr, H4⟩
    isplitl [Hl Hr]
    · iapply hj; isplitl [Hl] <;> iassumption
    iexact H4
  · unfold Pipeline.unscopedRest
    exact bigSep_congr fun b hb => by
      rw [hrest b (fun e => (Finset.mem_sdiff.mp hb).2 (by rw [e]; exact Finset.mem_image.mpr ⟨2, Finset.mem_univ _, rfl⟩))]

end Cert.KernelIdeal.Frm

end
-- ==== Proof.KIRun.lean ====
/-
  The run of the whole program: its six stretches in order — the host operations that turn the mask into a column and a
  row, the four kernel regions, the host transpose — each entered from the buffer contents the one before left.
-/
import proofs.«115754_j78331613544465_2_alg».proof.Proof.KIReg0
import proofs.«115754_j78331613544465_2_alg».proof.Proof.KIReg1
import proofs.«115754_j78331613544465_2_alg».proof.Proof.KIReg2
import proofs.«115754_j78331613544465_2_alg».proof.Proof.KIReg3
import proofs.«115754_j78331613544465_2_alg».proof.Proof.KIShare

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The buffer contents at each boundary -/

abbrev W0 : Dev nD → Valuation τ sig (Elt F) := fun c b => m (c, b)
abbrev W1 : Dev nD → Valuation τ sig (Elt F) := fun c => StableHlo.after hostOps0 (W0 m c)
abbrev V1 : (c : Dev nD) → (b : Ref sig .tc) → Buf (Elt F) ((c : Thread nD τ).loc b) := fun c b => W1 m c b

def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After region 1: the product's array at what the write-backs leave, every other buffer as entered. -/
def W3 (c : Dev nD) : Valuation τ sig (Elt F) :=
  Function.update (W2 m c) (Proc.devRef .tc main_v4) ((dat1 (V2 m) c).arrAt 2 cfg1.N)
abbrev V3 : (c : Dev nD) → (b : Ref sig .tc) → Buf (Elt F) ((c : Thread nD τ).loc b) := fun c b => W3 m c b

/-- After region 2. -/
def W4 (c : Dev nD) : Valuation τ sig (Elt F) :=
  Function.update (W3 m c) (Proc.devRef .tc main_v5) ((dat2 (V3 m) c).arrAt 2 cfg2.N)
abbrev V4 : (c : Dev nD) → (b : Ref sig .tc) → Buf (Elt F) ((c : Thread nD τ).loc b) := fun c b => W4 m c b

def W5 (c : Dev nD) : Valuation τ sig (Elt F) :=
  Pipeline.withArrays spec3 c (W4 m c) fun w => (dat3 (V4 m) c).arrAt w cfg3.N
theorem W5_arr (c : Dev nD) (w : Fin cfg3.W) :
    W5 m c (Proc.devRef .tc (Pipeline.arrRef spec3 w)) = (dat3 (V4 m) c).arrAt w cfg3.N := by
  unfold W5; exact Pipeline.withArrays_arr spec3 launch3.win.arr_inj c _ _ w
theorem W5_of_ne (c : Dev nD) (b : Ref sig .tc) (hb : ∀ w, Pipeline.arrRef spec3 w ≠ b) :
    W5 m c (Proc.devRef .tc b) = W4 m c (Proc.devRef .tc b) := by
  unfold W5; exact Pipeline.withArrays_of_ne spec3 c _ _ b hb
abbrev V5 : (c : Dev nD) → (b : Ref sig .tc) → Buf (Elt F) ((c : Thread nD τ).loc b) := fun c b => W5 m c b
theorem hF3 (c : Dev nD) (w : Fin cfg3.W) : (dat3 (V4 m) c).arrAt w cfg3.N = V5 m c (Pipeline.arrRef spec3 w) :=
  (W5_arr m c w).symm
theorem hrest3 (c : Dev nD) : ∀ b, b ∉ Finset.univ.image (Pipeline.arrRef spec3) → V5 m c b = V4 m c b :=
  fun b hb => W5_of_ne m c b fun w e => hb (Finset.mem_image.mpr ⟨w, Finset.mem_univ _, e⟩)

abbrev W6 : Dev nD → Valuation τ sig (Elt F) := fun c => StableHlo.after hostOps4 (W5 m c)

/-! ## The proof data family and the thread state -/

abbrev adm : (p : Fin 4) → (pcfgs (F := F) p).Adm := fun p => (cfgs p).toPCfg_adm
def pdats : (p : Fin 4) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
  | ⟨2, _⟩ => fun c => dat2 (V3 m) c
  | ⟨3, _⟩ => fun c => dat3 (V4 m) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps4_fresh : (hostOps4 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## Entering and leaving a region whose two input windows read one array -/

theorem entry1 (c : Dev nD) :
    (unscopedBufs c (V2 m c) : sProp 𝕄) ⊢ iprop((pdats m 1 c).arrays ((pdats m 1 c).arrAt · 0) ∗ Pipeline.unscopedRest (Ix := Unit) (Name := ℕ) (U := UR sig nD τ) (Lvl := ℕ) spec1 c (V2 m c)) :=
  entryG1 (V2 m) c
theorem exit1 (c : Dev nD) :
    iprop((pdats m 1 c).arrays ((pdats m 1 c).arrAt · cfg1.N) ∗ Pipeline.unscopedRest (Ix := Unit) (Name := ℕ) (U := UR sig nD τ) (Lvl := ℕ) spec1 c (V2 m c)) ⊢ (unscopedBufs c (V3 m c) : sProp 𝕄) :=
  exitG1 (V2 m) c (V3 m c) (by show W3 m c (Proc.devRef .tc main_v4) = _; unfold W3; exact Function.update_self ..)
    (fun b hb => by show W3 m c (Proc.devRef .tc b) = W2 m c (Proc.devRef .tc b); unfold W3; exact Function.update_of_ne (StableHlo.devRef_ne_of_ne hb : (Proc.devRef .tc b : DevRef τ sig) ≠ Proc.devRef .tc main_v4) ..)
theorem entry2 (c : Dev nD) :
    (unscopedBufs c (V3 m c) : sProp 𝕄) ⊢ iprop((pdats m 2 c).arrays ((pdats m 2 c).arrAt · 0) ∗ Pipeline.unscopedRest (Ix := Unit) (Name := ℕ) (U := UR sig nD τ) (Lvl := ℕ) spec2 c (V3 m c)) :=
  entryG2 (V3 m) c
theorem exit2 (c : Dev nD) :
    iprop((pdats m 2 c).arrays ((pdats m 2 c).arrAt · cfg2.N) ∗ Pipeline.unscopedRest (Ix := Unit) (Name := ℕ) (U := UR sig nD τ) (Lvl := ℕ) spec2 c (V3 m c)) ⊢ (unscopedBufs c (V4 m c) : sProp 𝕄) :=
  exitG2 (V3 m) c (V4 m c) (by show W4 m c (Proc.devRef .tc main_v5) = _; unfold W4; exact Function.update_self ..)
    (fun b hb => by show W4 m c (Proc.devRef .tc b) = W3 m c (Proc.devRef .tc b); unfold W4; exact Function.update_of_ne (StableHlo.devRef_ne_of_ne hb : (Proc.devRef .tc b : DevRef τ sig) ≠ Proc.devRef .tc main_v5) ..)

/-! ## The regions as segments -/

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := entry1 m c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := exit1 m c
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg2 : Pipeline.RegionSeg (pcfgs (F := F)) adm (pdats m) () defs₀ 𝒱₀ L lv 2 where
  win := winFacts₀2
  block_pos := block_pos2
  stage_whole := stage_whole2
  K := PEmpty
  osem k := k.elim
  ho := Pipeline.OwnSemFacts.none _
  hbody c := (body_obligation2 (V3 m) c).loose
  hwaits := Pipeline.hwaits_of_owed_zero _ _ _ _ L lv 2 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec2 c (V3 m c)
  hentry c := by
    rw [Pipeline.ownSems0_none]
    have hsplit := entry2 m c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := exit2 m c
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V4 m) c).loose
  hwaits := Pipeline.hwaits_of_owed_zero _ _ _ _ L lv 3 fun _ _ => rfl
  pre c := iprop(StableHlo.held (c : Thread nD τ) (Pipeline.ucRefs τ sig) (W4 m c) ∗ R c)
  post c := iprop(StableHlo.held (c : Thread nD τ) (Pipeline.ucRefs τ sig) (W5 m c) ∗ R c)
  X c := iprop(∃ r, prngReg c r)
  Y c := iprop(∃ r, prngReg c r)
  Z c := Pipeline.unscopedRest (Ix := Unit) (Name := ℕ) (U := UR sig nD τ) (Lvl := ℕ) spec3 c (V4 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (V4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (V4 m c) (V5 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev Tₙ (c : Dev nD) : sProp 𝕄 := iprop(StableHlo.held (c : Thread nD τ) (Pipeline.ucRefs τ sig) (W6 m c) ∗ ∃ r, prngReg c r)

abbrev segs : List (Pipeline.Seg (pcfgs (F := F)) adm (pdats m) () defs₀ 𝒱₀ L lv) :=
  [ .host (hseg hostOps0 hostOps0_sub hostOps0_fresh (W0 m)),
    .region (reg0 m), .region (reg1 m), .region (reg2 m), .region (reg3 m),
    .host (hseg hostOps4 hostOps4_sub hostOps4_fresh (W5 m)) ]

theorem main_run (c : Dev nD) : main (F := F) c = Pipeline.Seg.run (segs m) := (main_chain c).trans (by chain_rfl)

set_option backward.isDefEq.respectTransparency.types false in
/-- Every weakly fair execution of the program from memory m with zero counters terminates, without a fault, and every
    final memory holds every unscoped buffer of every core at the last boundary's contents. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W6 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun c => by
      show iprop(StableHlo.held (c : Thread nD τ) (Pipeline.ucRefs τ sig) (W6 m c) ∗ R c) ⊢ _
      iintro ⟨Hh, Hp, HO⟩
      isplitl [Hh Hp]
      · isplitl [Hh] <;> iassumption
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m c b)
    (hfin := fun c s' => by
      iintro ⟨⟨Hh, -⟩, HSI⟩
      unfold StableHlo.held
      imodintro
      iapply (pointsTo_read_all (Pipeline.ucRefs τ sig) (fun b => (((c : Thread nD τ)).1, b)) (W6 m c) s')
      isplitl [Hh] <;> iassumption)
    (hQ := fun s h c => h c)

end Cert.KernelIdeal.Frm

end
-- ==== Proof.KIArgs.lean ====
/-
  Which buffer holds what at each boundary of the run.

  The run's boundary contents are a chain: the launch memory; after the host operations that make the mask's column
  and row; after each of the four regions, where a region changes only the arrays of its output windows; after the
  host transposition. Walking the chain backwards from a boundary to the last step that wrote a buffer gives that
  buffer's contents there: an argument array is written by no step, so it holds the launch memory's contents at every
  boundary; the mask's column and row are written only by the first host stretch; each intermediate array holds what
  its region's write-backs left, from that region's exit onwards.
-/
import proofs.«115754_j78331613544465_2_alg».proof.Proof.KIRun
import proofs.«115754_j78331613544465_2_alg».proof.Proof.Gen.KernelIdeal.Regions

noncomputable section

namespace Cert.KernelIdeal.Frm

open Idealize.ShloMosaic Idealize.ShloMosaic.TcCoe Idealize.SL.Sem
open Idealize.ShloMosaic.Pipeline (Dat)
open Cert.KernelIdeal

variable {F : FTy → Type} [FloatOps F]
variable (m : (ℓ : Loc nD τ sig) → Buf (Elt F) ℓ)

/-! ## One step back along the chain -/

/-- The first host stretch changes only the converted mask, its column and its row. -/
theorem W1_of (c : Dev nD) (r : Ref sig .tc) (h : r ∉ Gen.hostOps0_W) :
    W1 m c (Proc.devRef .tc r) = W0 m c (Proc.devRef .tc r) :=
  StableHlo.after_of_writes_sub Gen.hostOps0 _ Gen.hostOps0_writes h

/-- The first product region changes only its output array. -/
theorem W3_of (c : Dev nD) (r : Ref sig .tc) (h : r ≠ main_v4) :
    W3 m c (Proc.devRef .tc r) = W2 m c (Proc.devRef .tc r) := by
  unfold W3
  exact Function.update_of_ne (StableHlo.devRef_ne_of_ne h : (Proc.devRef .tc r : DevRef τ sig) ≠ Proc.devRef .tc main_v4) ..
theorem W3_self (c : Dev nD) : W3 m c (Proc.devRef .tc main_v4) = (dat1 (V2 m) c).arrAt 2 cfg1.N := by
  unfold W3
  exact Function.update_self ..

/-- The second product region changes only its output array. -/
theorem W4_of (c : Dev nD) (r : Ref sig .tc) (h : r ≠ main_v5) :
    W4 m c (Proc.devRef .tc r) = W3 m c (Proc.devRef .tc r) := by
  unfold W4
  exact Function.update_of_ne (StableHlo.devRef_ne_of_ne h : (Proc.devRef .tc r : DevRef τ sig) ≠ Proc.devRef .tc main_v5) ..
theorem W4_self (c : Dev nD) : W4 m c (Proc.devRef .tc main_v5) = (dat2 (V3 m) c).arrAt 2 cfg2.N := by
  unfold W4
  exact Function.update_self ..

/-- The last host stretch changes only the result array. -/
theorem W6_of (c : Dev nD) (r : Ref sig .tc) (h : r ∉ Gen.hostOps4_W) :
    W6 m c (Proc.devRef .tc r) = W5 m c (Proc.devRef .tc r) :=
  StableHlo.after_of_writes_sub Gen.hostOps4 _ Gen.hostOps4_writes h

/-! ## The argument arrays end as launched -/

theorem W6_main_arg0 (c : Dev nD) : W6 m c (Proc.devRef .tc main_arg0) = m ((c : Thread nD τ).loc main_arg0) :=
  (W6_of m c main_arg0 (by decide)).trans <| (W5_of_ne m c main_arg0 (by decide)).trans <|
    (W4_of m c main_arg0 (by decide)).trans <| (W3_of m c main_arg0 (by decide)).trans <|
    (W2_arr m c 0).trans <| ((dat0 (V1 m) c).arrAt_in 0 rfl _).trans <| (A_eq0 (V1 m) c 0).trans <|
    (W1_of m c main_arg0 (by decide)).trans rfl
theorem W6_main_arg1 (c : Dev nD) : W6 m c (Proc.devRef .tc main_arg1) = m ((c : Thread nD τ).loc main_arg1) :=
  (W6_of m c main_arg1 (by decide)).trans <| (W5_of_ne m c main_arg1 (by decide)).trans <|
    (W4_of m c main_arg1 (by decide)).trans <| (W3_of m c main_arg1 (by decide)).trans <|
    (W2_of_ne m c main_arg1 (by decide)).trans <| (W1_of m c main_arg1 (by decide)).trans rfl

/-! ## What the last region finds -/

/-- A weight or bias array, which only the last region reads: as launched. -/
theorem W4_of_arg (c : Dev nD) (r : Ref sig .tc) (h5 : r ≠ main_v5) (h4 : r ≠ main_v4)
    (h0 : ∀ w, Pipeline.arrRef spec0 w ≠ r) (h : r ∉ Gen.hostOps0_W) :
    W4 m c (Proc.devRef .tc r) = W0 m c (Proc.devRef .tc r) :=
  (W4_of m c r h5).trans <| (W3_of m c r h4).trans <| (W2_of_ne m c r h0).trans <| W1_of m c r h

theorem V4_main_arg2 (c : Dev nD) : V4 m c main_arg2 = m ((c : Thread nD τ).loc main_arg2) :=
  (W4_of_arg m c main_arg2 (by decide) (by decide) (by decide) (by decide)).trans rfl
theorem V4_main_arg3 (c : Dev nD) : V4 m c main_arg3 = m ((c : Thread nD τ).loc main_arg3) :=
  (W4_of_arg m c main_arg3 (by decide) (by decide) (by decide) (by decide)).trans rfl
theorem V4_main_arg4 (c : Dev nD) : V4 m c main_arg4 = m ((c : Thread nD τ).loc main_arg4) :=
  (W4_of_arg m c main_arg4 (by decide) (by decide) (by decide) (by decide)).trans rfl
theorem V4_main_arg5 (c : Dev nD) : V4 m c main_arg5 = m ((c : Thread nD τ).loc main_arg5) :=
  (W4_of_arg m c main_arg5 (by decide) (by decide) (by decide) (by decide)).trans rfl

theorem W6_main_arg2 (c : Dev nD) : W6 m c (Proc.devRef .tc main_arg2) = m ((c : Thread nD τ).loc main_arg2) :=
  (W6_of m c main_arg2 (by decide)).trans <| (W5_arr m c 5).trans <|
    ((dat3 (V4 m) c).arrAt_in 5 rfl _).trans <| (A_eq3 (V4 m) c 5).trans <| V4_main_arg2 m c
theorem W6_main_arg3 (c : Dev nD) : W6 m c (Proc.devRef .tc main_arg3) = m ((c : Thread nD τ).loc main_arg3) :=
  (W6_of m c main_arg3 (by decide)).trans <| (W5_arr m c 6).trans <|
    ((dat3 (V4 m) c).arrAt_in 6 rfl _).trans <| (A_eq3 (V4 m) c 6).trans <| V4_main_arg3 m c
theorem W6_main_arg4 (c : Dev nD) : W6 m c (Proc.devRef .tc main_arg4) = m ((c : Thread nD τ).loc main_arg4) :=
  (W6_of m c main_arg4 (by decide)).trans <| (W5_arr m c 7).trans <|
    ((dat3 (V4 m) c).arrAt_in 7 rfl _).trans <| (A_eq3 (V4 m) c 7).trans <| V4_main_arg4 m c
theorem W6_main_arg5 (c : Dev nD) : W6 m c (Proc.devRef .tc main_arg5) = m ((c : Thread nD τ).loc main_arg5) :=
  (W6_of m c main_arg5 (by decide)).trans <| (W5_arr m c 8).trans <|
    ((dat3 (V4 m) c).arrAt_in 8 rfl _).trans <| (A_eq3 (V4 m) c 8).trans <| V4_main_arg5 m c

/-- The mask's column: as the first host stretch left it (the row-normalising region only reads it). -/
theorem V4_main_v1 (c : Dev nD) : V4 m c main_v1 = V1 m c main_v1 :=
  (W4_of m c main_v1 (by decide)).trans <| (W3_of m c main_v1 (by decide)).trans <|
    (W2_arr m c 1).trans <| ((dat0 (V1 m) c).arrAt_in 1 rfl _).trans <| A_eq0 (V1 m) c 1
/-- The mask's row: likewise. -/
theorem V4_main_v2 (c : Dev nD) : V4 m c main_v2 = V1 m c main_v2 :=
  (W4_of m c main_v2 (by decide)).trans <| (W3_of m c main_v2 (by decide)).trans <|
    (W2_arr m c 2).trans <| ((dat0 (V1 m) c).arrAt_in 2 rfl _).trans <| A_eq0 (V1 m) c 2

/-- The row-normalised array: what the first region's write-backs left. -/
theorem V2_main_v3 (c : Dev nD) : V2 m c main_v3 = (dat0 (V1 m) c).arrAt 3 cfg0.N := W2_arr m c 3
theorem V4_main_v3 (c : Dev nD) : V4 m c main_v3 = (dat0 (V1 m) c).arrAt 3 cfg0.N :=
  (W4_of m c main_v3 (by decide)).trans <| (W3_of m c main_v3 (by decide)).trans <| W2_arr m c 3

/-- The first product: what the second region's write-backs left. -/
theorem V3_main_v4 (c : Dev nD) : V3 m c main_v4 = (dat1 (V2 m) c).arrAt 2 cfg1.N := W3_self m c
theorem V4_main_v4 (c : Dev nD) : V4 m c main_v4 = (dat1 (V2 m) c).arrAt 2 cfg1.N :=
  (W4_of m c main_v4 (by decide)).trans <| W3_self m c

/-- The second product: what the third region's write-backs left. -/
theorem V4_main_v5 (c : Dev nD) : V4 m c main_v5 = (dat2 (V3 m) c).arrAt 2 cfg2.N := W4_self m c

/-- The adjacency argument as the first region finds it: as launched. -/
theorem V1_main_arg0 (c : Dev nD) : V1 m c main_arg0 = m ((c : Thread nD τ).loc main_arg0) :=
  (W1_of m c main_arg0 (by decide)).trans rfl

/-- The heads-major result: what the last region's write-backs left. -/
theorem W5_main_v6 (c : Dev nD) : W5 m c (Proc.devRef .tc main_v6) = (dat3 (V4 m) c).arrAt 9 cfg3.N := W5_arr m c 9

end Cert.KernelIdeal.Frm

end
-- ==== Proof.Spec.lean ====
/-
  The function both programs compute, entry by entry, on the extended reals.

  From an adjacency array adj[b, i, j], a 0/1 node mask m[b, i], and the weights of a two-layer perceptron:
  the masked adjacency A = adj · m_i · m_j; its row sums deg; the row-normalised P = A / deg (rows of sum zero divided
  by one); the second and fourth powers P2 = P · P and P4 = P2 · P2 of P as matrices, per batch entry; the masked
  identity; and, at every (b, i, j), the perceptron applied to the four stacked values
  (masked identity, P, P2, P4): a hidden layer of 16 rectified affine forms, an output layer of 8 affine forms,
  the result multiplied by m_i · m_j.  Sums are written as sums over finite index types, so that neither
  program's order of summation is preferred.
-/
import Idealize.ShloMosaic.PureOps.Ideal
import Idealize.ShloMosaic.Lib.ValueIdx

noncomputable section

namespace Cert.Spec

open Idealize.ShloMosaic Idealize.ShloMosaic.ValueIdx

variable (adj : FVec Ideal ⟨3, ![8, 1024, 1024]⟩ .f32) (mask : IVec ⟨2, ![8, 1024]⟩ 1)
  (w1 : FVec Ideal ⟨2, ![4, 16]⟩ .f32) (b1 : FVec Ideal ⟨1, ![16]⟩ .f32)
  (w2 : FVec Ideal ⟨2, ![16, 8]⟩ .f32) (b2 : FVec Ideal ⟨1, ![8]⟩ .f32)

/-- The mask bit of node i of batch entry b as the number 0 or 1. -/
def msk (b : Fin 8) (i : Fin 1024) : EReal := FloatOps.uitofp (F := Ideal) .f32 (mask (ix2 b i))

/-- Both end points of the pair (i, j) are in the mask. -/
def pair (b : Fin 8) (i j : Fin 1024) : EReal := msk mask b i * msk mask b j

/-- The masked adjacency. -/
def A (b : Fin 8) (i j : Fin 1024) : EReal := adj (ix3 b i j) * pair mask b i j

/-- The masked degree of node i: the sum of its row. -/
def deg (b : Fin 8) (i : Fin 1024) : EReal := ∑ j : Fin 1024, A adj mask b i j

/-- The divisor of row i: its degree, or one where the degree is zero. -/
def den (b : Fin 8) (i : Fin 1024) : EReal :=
  Scalar.select (FloatOps.cmpf (F := Ideal) (φ := .f32) .oeq (deg adj mask b i) (Ideal.ofBits .f32 0x00000000#32))
    (Ideal.ofBits .f32 0x3F800000#32) (deg adj mask b i)

/-- The row-normalised masked adjacency. -/
def P (b : Fin 8) (i j : Fin 1024) : EReal := Ideal.div (A adj mask b i j) (den adj mask b i)

/-- Its square as a matrix, per batch entry. -/
def P2 (b : Fin 8) (i j : Fin 1024) : EReal := ∑ k : Fin 1024, P adj mask b i k * P adj mask b k j

/-- Its fourth power: the square of the square. -/
def P4 (b : Fin 8) (i j : Fin 1024) : EReal := ∑ k : Fin 1024, P2 adj mask b i k * P2 adj mask b k j

/-- The masked identity matrix. -/
def selfAdj (b : Fin 8) (i j : Fin 1024) : EReal := if i = j then msk mask b i else 0

/-- The four stacked values at (b, i, j). -/
def stk (s : Fin 4) (b : Fin 8) (i j : Fin 1024) : EReal :=
  match s with
  | 0 => selfAdj mask b i j
  | 1 => P adj mask b i j
  | 2 => P2 adj mask b i j
  | 3 => P4 adj mask b i j

/-- Hidden unit c at (b, i, j): the rectified affine form of the stacked values. -/
def hid (c : Fin 16) (b : Fin 8) (i j : Fin 1024) : EReal :=
  max ((∑ s : Fin 4, stk adj mask s b i j * w1 (ix2 s c)) + b1 (ix1 c)) 0

/-- Output o at (b, i, j): the affine form of the hidden units, masked by the pair. -/
def out (b : Fin 8) (i j : Fin 1024) (o : Fin 8) : EReal :=
  ((∑ c : Fin 16, hid adj mask w1 b1 c b i j * w2 (ix2 c o)) + b2 (ix1 o)) * pair mask b i j

/-- The result array, [8, 1024, 1024, 8]. -/
def G : FVec Ideal ⟨4, ![8, 1024, 1024, 8]⟩ .f32 :=
  fun x => out adj mask w1 b1 w2 b2 ⟨(x 0).val, (x 0).isLt⟩ ⟨(x 1).val, (x 1).isLt⟩ ⟨(x 2).val, (x 2).isLt⟩ ⟨(x 3).val, (x 3).isLt⟩

theorem G_ix4 (b : Fin 8) (i j : Fin 1024) (o : Fin 8) :
    G adj mask w1 b1 w2 b2 (ix4 b i j o) = out adj mask w1 b1 w2 b2 b i j o := rfl

/-- The arrays the kernel's first three stages leave: P, P2, P4 as [8, 1024, 1024] arrays. -/
def arrP : FVec Ideal ⟨3, ![8, 1024, 1024]⟩ .f32 :=
  fun x => P adj mask ⟨(x 0).val, (x 0).isLt⟩ ⟨(x 1).val, (x 1).isLt⟩ ⟨(x 2).val, (x 2).isLt⟩
def arrP2 : FVec Ideal ⟨3, ![8, 1024, 1024]⟩ .f32 :=
  fun x => P2 adj mask ⟨(x 0).val, (x 0).isLt⟩ ⟨(x 1).val, (x 1).isLt⟩ ⟨(x 2).val, (x 2).isLt⟩
def arrP4 : FVec Ideal ⟨3, ![8, 1024, 1024]⟩ .f32 :=
  fun x => P4 adj mask ⟨(x 0).val, (x 0).isLt⟩ ⟨(x 1).val, (x 1).isLt⟩ ⟨(x 2).val, (x 2).isLt⟩

theorem arrP_ix3 (b : Fin 8) (i j : Fin 1024) : arrP adj mask (ix3 b i j) = P adj mask b i j := rfl
theorem arrP2_ix3 (b : Fin 8) (i j : Fin 1024) : arrP2 adj mask (ix3 b i j) = P2 adj mask b i j := rfl
theorem arrP4_ix3 (b : Fin 8) (i j : Fin 1024) : arrP4 adj mask (ix3 b i j) = P4 adj mask b i j := rfl

/-- The kernel's last stage writes heads-major: [8, 8, 1024, 1024] indexed (b, o, i, j). -/
def arrOutHM : FVec Ideal ⟨4, ![8, 8, 1024, 1024]⟩ .f32 :=
  fun x => out adj mask w1 b1 w2 b2 ⟨(x 0).val, (x 0).isLt⟩ ⟨(x 2).val, (x 2).isLt⟩ ⟨(x 3).val, (x 3).isLt⟩ ⟨(x 1).val, (x 1).isLt⟩

theorem arrOutHM_ix4 (b o : Fin 8) (i j : Fin 1024) :
    arrOutHM adj mask w1 b1 w2 b2 (ix4 b o i j) = out adj mask w1 b1 w2 b2 b i j o := rfl

end Cert.Spec

end
-- ==== Proof.KIHost0.lean ====
/-
  The mask arrays the row-normalising stage finds.

  Before the first stage the program converts the 0/1 node mask [8, 1024] to numbers and views the result twice: as a
  column array [8, 1024, 1] and as a row array [8, 1, 1024]. Both views keep the row-major order of the entries, so the
  column array at (b, i, 0) and the row array at (b, 0, j) are the mask's numbers at (b, i) and (b, j).
-/
import proofs.«115754_j78331613544465_2_alg».proof.Proof.Gen.KernelIdeal.Launch
import proofs.«115754_j78331613544465_2_alg».proof.Proof.Spec
import Idealize.ShloMosaic.Lib.StableHlo.Run
import Idealize.ShloMosaic.Lib.ValueLayout

noncomputable section

namespace Cert.KernelIdeal.Val

open Idealize.ShloMosaic Idealize.ShloMosaic.ValueIdx Idealize.ShloMosaic.StableHlo Cert.KernelIdeal Cert.KernelIdeal.Gen

/-! ## The two views of an [a, b] array, read at an index -/

section Layout
variable {α : Type}

/-- An `[a, b]` array viewed `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, b]` array viewed `[a, 1, b]` reads, at `(i, u, j)`, the operand at `(i, j)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

end Layout

/-! ## The arrays after the host operations that precede the first stage -/

variable (W : Valuation τ sig (Elt Ideal))

/-- The column array after the three host operations: the converted mask viewed [8, 1024, 1]. -/
theorem after_hostOps0_main_v1 :
    (after (hostOps0 (F := Ideal)) W (Proc.devRef .tc main_v1) : S8x1024x1.Idx → EReal)
      = shapeCast S8x1024x1
          (uitofp (F := Ideal) .f32 (W (Proc.devRef .tc main_arg1) : IVec S8x1024 1) : FVec Ideal S8x1024 .f32)
          shapeCasts_S8x1024_S8x1024x1 := by
  after_results
  rfl

/-- The row array after the three host operations: the converted mask viewed [8, 1, 1024]. -/
theorem after_hostOps0_main_v2 :
    (after (hostOps0 (F := Ideal)) W (Proc.devRef .tc main_v2) : S8x1x1024.Idx → EReal)
      = shapeCast S8x1x1024
          (uitofp (F := Ideal) .f32 (W (Proc.devRef .tc main_arg1) : IVec S8x1024 1) : FVec Ideal S8x1024 .f32)
          shapeCasts_S8x1024_S8x1x1024 := by
  after_results
  rfl

/-- The adjacency argument is not written by the host operations. -/
theorem after_hostOps0_main_arg0 :
    after (hostOps0 (F := Ideal)) W (Proc.devRef .tc main_arg0) = W (Proc.devRef .tc main_arg0) := by
  after_results

/-- Nor is the mask argument. -/
theorem after_hostOps0_main_arg1 :
    after (hostOps0 (F := Ideal)) W (Proc.devRef .tc main_arg1) = W (Proc.devRef .tc main_arg1) := by
  after_results

/-- The column array at (b, i, 0) is the mask's number at (b, i). -/
theorem main_v1_apply (b : Fin 8) (i : Fin 1024) (u : Fin 1) :
    (after (hostOps0 (F := Ideal)) W (Proc.devRef .tc main_v1) : S8x1024x1.Idx → EReal) (ix3 b i u)
      = Cert.Spec.msk (W (Proc.devRef .tc main_arg1) : IVec S8x1024 1) b i := by
  rw [after_hostOps0_main_v1, shapeCast_ab_ab1_apply]
  rfl

/-- The row array at (b, 0, j) is the mask's number at (b, j). -/
theorem main_v2_apply (b : Fin 8) (u : Fin 1) (j : Fin 1024) :
    (after (hostOps0 (F := Ideal)) W (Proc.devRef .tc main_v2) : S8x1x1024.Idx → EReal) (ix3 b u j)
      = Cert.Spec.msk (W (Proc.devRef .tc main_arg1) : IVec S8x1024 1) b j := by
  rw [after_hostOps0_main_v2, shapeCast_ab_a1b_apply]
  rfl

end Cert.KernelIdeal.Val

end
-- ==== Proof.KIHost4.lean ====
/-
  The result array after the last stage.

  The last stage leaves its result heads-major, [8, 8, 1024, 1024] indexed (b, o, i, j).  One host operation follows:
  a transposition that moves the channel axis to the end, so that the result [8, 1024, 1024, 8] at (b, i, j, o) is
  the heads-major array at (b, o, i, j).  It writes no argument array.
-/
import proofs.«115754_j78331613544465_2_alg».proof.Proof.Gen.KernelIdeal.Launch
import Idealize.ShloMosaic.Lib.StableHlo.Run
import Idealize.ShloMosaic.Lib.Pipeline.Value
import Idealize.ShloMosaic.Lib.ValueIdx

noncomputable section

namespace Cert.KernelIdeal.Val

open Idealize.ShloMosaic Idealize.ShloMosaic.ValueIdx Idealize.ShloMosaic.StableHlo Cert.KernelIdeal Cert.KernelIdeal.Gen

/-! ## The transposition that moves the second axis to the end, read at an index -/

section Layout
variable {α : Type}

/-- An `[n, a, c, d]` array with its second axis moved to the end reads, at `(b, i, j, o)`, the operand at `(b, o, i, j)`. -/
theorem transpose_0231_apply {n a c d : ℕ} (x : (⟨4, ![n, a, c, d]⟩ : Shape).Idx → α)
    (h : (⟨4, ![n, a, c, d]⟩ : Shape).Transposes [0, 2, 3, 1] ⟨4, ![n, c, d, a]⟩)
    (b : Fin n) (i : Fin c) (j : Fin d) (o : Fin a) :
    transpose ⟨4, ![n, c, d, a]⟩ [0, 2, 3, 1] x h (ix4 b i j o) = x (ix4 b o i j) :=
  transpose_apply _ x h _ _ fun e => match e with | ⟨0, _⟩ => rfl | ⟨1, _⟩ => rfl | ⟨2, _⟩ => rfl | ⟨3, _⟩ => rfl

end Layout

/-! ## The arrays after the host operation that follows the last stage -/

variable (W : Valuation τ sig (Elt Ideal))

/-- The result array after the host operation: the heads-major array with its channel axis moved to the end. -/
theorem after_hostOps4_main_v7 :
    (after (hostOps4 (F := Ideal)) W (Proc.devRef .tc main_v7) : S8x1024x1024x8.Idx → EReal)
      = transpose S8x1024x1024x8 [0, 2, 3, 1] (W (Proc.devRef .tc main_v6) : S8x8x1024x1024.Idx → EReal)
          transposes_S8x8x1024x1024_S8x1024x1024x8_0_2_3_1 := by
  after_results

/-- The result array at (b, i, j, o) is the heads-major array at (b, o, i, j). -/
theorem main_v7_apply (b : Fin 8) (i j : Fin 1024) (o : Fin 8) :
    (after (hostOps4 (F := Ideal)) W (Proc.devRef .tc main_v7) : S8x1024x1024x8.Idx → EReal) (ix4 b i j o)
      = (W (Proc.devRef .tc main_v6) : S8x8x1024x1024.Idx → EReal) (ix4 b o i j) := by
  rw [after_hostOps4_main_v7, transpose_0231_apply]

/-- The host operation writes none of the six argument arrays. -/
theorem after_hostOps4_main_arg0 :
    after (hostOps4 (F := Ideal)) W (Proc.devRef .tc main_arg0) = W (Proc.devRef .tc main_arg0) := by
  after_results

theorem after_hostOps4_main_arg1 :
    after (hostOps4 (F := Ideal)) W (Proc.devRef .tc main_arg1) = W (Proc.devRef .tc main_arg1) := by
  after_results

theorem after_hostOps4_main_arg2 :
    after (hostOps4 (F := Ideal)) W (Proc.devRef .tc main_arg2) = W (Proc.devRef .tc main_arg2) := by
  after_results

theorem after_hostOps4_main_arg3 :
    after (hostOps4 (F := Ideal)) W (Proc.devRef .tc main_arg3) = W (Proc.devRef .tc main_arg3) := by
  after_results

theorem after_hostOps4_main_arg4 :
    after (hostOps4 (F := Ideal)) W (Proc.devRef .tc main_arg4) = W (Proc.devRef .tc main_arg4) := by
  after_results

theorem after_hostOps4_main_arg5 :
    after (hostOps4 (F := Ideal)) W (Proc.devRef .tc main_arg5) = W (Proc.devRef .tc main_arg5) := by
  after_results

end Cert.KernelIdeal.Val

end
-- ==== Proof.KIPay0.lean ====
/-
  The row-normalising body read at an entry.

  The body loads a [1, 512, 1024] block x0 of the adjacency, the matching [1, 512, 1] column block x1 of the mask and the
  [1, 1, 1024] row block x2 of the mask. It forms the masked block x0(r, q) · (x1(r) · x2(q)), sums each row over its
  1024 lanes, replaces a row sum that equals zero by one, and divides every entry of the masked block by its row's
  divisor. At the entry (0, r, q) the value stored is therefore the masked entry divided by the row's divisor, where the
  row sum is a sum over the finite type of lanes, with no order of summation preferred.
-/
import proofs.«115754_j78331613544465_2_alg».proof.Proof.Gen.KernelIdeal.Skeleton
import Idealize.ShloMosaic.PureOps.Ideal.Laws
import Idealize.ShloMosaic.Lib.ValueLayout

noncomputable section

namespace Cert.KernelIdeal.Val

open Idealize.ShloMosaic Idealize.ShloMosaic.ValueIdx Cert.KernelIdeal Cert.KernelIdeal.Gen

/-! ## Column forms of the layout operations, read at an index -/

section Layout
variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A `[1, a, 1]` array cast to `[a]` reads, at `i`, the operand at `(0, i, 0)`. -/
theorem shapeCast_1a1_a_apply {a : ℕ} (x : (⟨3, ![1, a, 1]⟩ : Shape).Idx → α)
    (h : (⟨3, ![1, a, 1]⟩ : Shape).ShapeCasts ⟨1, ![a]⟩) (i : Fin a) :
    shapeCast ⟨1, ![a]⟩ x h (ix1 i) = x (ix3 (0 : Fin 1) i (0 : Fin 1)) :=
  shapeCast_apply x h _ _ (by
    rw [Shape.rowMajor_val_three, Shape.rowMajor_val_one]
    show (0 * a + i.val) * 1 + 0 = i.val
    rw [Nat.zero_mul, Nat.zero_add, Nat.mul_one, Nat.add_zero])

/-- A `[1, 1, a]` array cast to `[a]` reads, at `i`, the operand at `(0, 0, i)`. -/
theorem shapeCast_11a_a_apply {a : ℕ} (x : (⟨3, ![1, 1, a]⟩ : Shape).Idx → α)
    (h : (⟨3, ![1, 1, a]⟩ : Shape).ShapeCasts ⟨1, ![a]⟩) (i : Fin a) :
    shapeCast ⟨1, ![a]⟩ x h (ix1 i) = x (ix3 (0 : Fin 1) (0 : Fin 1) i) :=
  shapeCast_apply x h _ _ (by
    rw [Shape.rowMajor_val_three, Shape.rowMajor_val_one]
    show (0 * 1 + 0) * a + i.val = i.val
    simp only [Nat.zero_mul, Nat.zero_add, Nat.add_zero])

/-- An `[a, 1]` column broadcast to `[a, b]` reads, at `(p, c)`, the column at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## The stages of the body -/

variable (x0 : Vec Ideal S1x512x1024 .f32) (x1 : Vec Ideal S1x512x1 .f32) (x2 : Vec Ideal S1x1x1024 .f32)

/-- The masked block: the adjacency block times the product of the mask's column entry and row entry. -/
def masked : FVec Ideal S512x1024 .f32 :=
  mulf (shapeCast S512x1024 x0 shapeCasts_S1x512x1024_S512x1024)
    (mulf
      (broadcastTo S512x1024
        (shapeCast S512x1 (shapeCast S512 (shapeCast S1x512x1 x1 shapeCasts_S1x512x1_S1x512x1) shapeCasts_S1x512x1_S512)
          shapeCasts_S512_S512x1) broadcasts_S512x1_S512x1024)
      (broadcastTo S512x1024
        (shapeCast S1x1024 (shapeCast S1024 (shapeCast S1x1x1024 x2 shapeCasts_S1x1x1024_S1x1x1024) shapeCasts_S1x1x1024_S1024)
          shapeCasts_S1024_S1x1024) broadcasts_S1x1024_S512x1024))

/-- The row sums of the masked block. -/
def rowSum : FVec Ideal S512 .f32 :=
  multiReduction .add [1] S512 (masked x0 x1 x2) 0x00000000#32 reduces_S512x1024_S512 (.inl rfl) rfl

/-- The divisor of each row, as a column: the row sum, or one where the row sum equals zero. -/
def divisor : FVec Ideal S512x1 .f32 :=
  select
    (cmpf .oeq (shapeCast S512x1 (rowSum x0 x1 x2) shapeCasts_S512_S512x1)
      (broadcast S512x1 (Scalar.ofBits (F := Ideal) .f32 0x00000000#32)))
    (broadcast S512x1 (Scalar.ofBits (F := Ideal) .f32 0x3F800000#32))
    (shapeCast S512x1 (rowSum x0 x1 x2) shapeCasts_S512_S512x1)

/-- The body's stored value is the masked block divided by the broadcast divisor, with the unit axis put back. -/
theorem k0_pay1_eq :
    k0_pay1 (F := Ideal) x0 x1 x2
      = shapeCast S1x512x1024
          (divf (masked x0 x1 x2) (broadcastTo S512x1024 (divisor x0 x1 x2) broadcasts_S512x1_S512x1024))
          shapeCasts_S512x1024_S1x512x1024 := rfl

/-- The masked block at (r, q). -/
theorem masked_apply (r : Fin 512) (q : Fin 1024) :
    masked x0 x1 x2 (ix2 r q)
      = x0 (ix3 (0 : Fin 1) r q) * (x1 (ix3 (0 : Fin 1) r (0 : Fin 1)) * x2 (ix3 (0 : Fin 1) (0 : Fin 1) q)) := by
  unfold masked
  rw [mulf_apply, mulf_apply, shapeCast_1ab_ab_apply, broadcastTo_a1_ab_apply, shapeCast_a_a1_apply,
    shapeCast_1a1_a_apply, shapeCast_self, broadcastTo_1b_ab_apply, shapeCast_a_1a_apply, shapeCast_11a_a_apply,
    shapeCast_self]

/-- The row sum at r: the sum of the masked row over its 1024 lanes. -/
theorem rowSum_apply (r : Fin 512) :
    rowSum x0 x1 x2 (ix1 r) = ∑ q : Fin 1024, masked x0 x1 x2 (ix2 r q) := by
  unfold rowSum
  refine (Ideal.multiReduction_add_single (masked x0 x1 x2) _ reduces_S512x1024_S512 _ _ (ix1 r)).trans ?_
  refine Finset.sum_congr rfl fun q _ => congrArg (masked x0 x1 x2) (funext fun ax => Fin.ext ?_)
  match ax with
  | ⟨0, _⟩ => rfl
  | ⟨1, _⟩ => rfl

/-- The divisor at row r. -/
theorem divisor_apply (r : Fin 512) (u : Fin 1) :
    divisor x0 x1 x2 (ix2 r u)
      = Scalar.select
          (FloatOps.cmpf (F := Ideal) (φ := .f32) .oeq (rowSum x0 x1 x2 (ix1 r)) (Ideal.ofBits .f32 0x00000000#32))
          (Ideal.ofBits .f32 0x3F800000#32) (rowSum x0 x1 x2 (ix1 r)) := by
  unfold divisor
  rw [select_apply, cmpf_apply, broadcast_apply, broadcast_apply, shapeCast_a_a1_apply]
  rfl

/-- THE BODY AT AN ENTRY: the masked entry divided by its row's divisor. -/
theorem k0_pay1_apply (r : Fin 512) (q : Fin 1024) :
    k0_pay1 (F := Ideal) x0 x1 x2 (ix3 (0 : Fin 1) r q)
      = Ideal.div (x0 (ix3 (0 : Fin 1) r q) * (x1 (ix3 (0 : Fin 1) r (0 : Fin 1)) * x2 (ix3 (0 : Fin 1) (0 : Fin 1) q)))
          (Scalar.select
            (FloatOps.cmpf (F := Ideal) (φ := .f32) .oeq
              (∑ q' : Fin 1024, x0 (ix3 (0 : Fin 1) r q') * (x1 (ix3 (0 : Fin 1) r (0 : Fin 1)) * x2 (ix3 (0 : Fin 1) (0 : Fin 1) q')))
              (Ideal.ofBits .f32 0x00000000#32))
            (Ideal.ofBits .f32 0x3F800000#32)
            (∑ q' : Fin 1024, x0 (ix3 (0 : Fin 1) r q') * (x1 (ix3 (0 : Fin 1) r (0 : Fin 1)) * x2 (ix3 (0 : Fin 1) (0 : Fin 1) q')))) := by
  have hs : rowSum x0 x1 x2 (ix1 r)
      = ∑ q' : Fin 1024, x0 (ix3 (0 : Fin 1) r q') * (x1 (ix3 (0 : Fin 1) r (0 : Fin 1)) * x2 (ix3 (0 : Fin 1) (0 : Fin 1) q')) :=
    (rowSum_apply x0 x1 x2 r).trans (Finset.sum_congr rfl fun q' _ => masked_apply x0 x1 x2 r q')
  rw [k0_pay1_eq, shapeCast_ab_1ab_apply, divf_apply, broadcastTo_a1_ab_apply, divisor_apply, masked_apply, hs]

end Cert.KernelIdeal.Val

end
-- ==== Proof.KIVal0.lean ====
/-
  The row-normalising stage: from the blocks its grid points write to the whole array.

  The stage runs at 16 grid points, point t = (b, h) with b = t / 2 the batch entry and h = t mod 2 the half of the
  rows. At point t its adjacency block is rows 512·h … 512·h + 511 of batch entry b, its mask column block the same
  rows of the column array, its mask row block the whole row array of batch entry b, and it writes back rows
  512·h … 512·h + 511 of batch entry b of the result. Row r of the block is row i = 512·h + r of the array, so the
  entry written at (b, i, q) is the masked adjacency entry divided by row i's divisor: the row-normalised masked
  adjacency P of the specification. The sixteen blocks tile the array, so the array the stage leaves is P everywhere.
-/
import proofs.«115754_j78331613544465_2_alg».proof.Proof.KIReg0
import proofs.«115754_j78331613544465_2_alg».proof.Proof.KIPay0
import proofs.«115754_j78331613544465_2_alg».proof.Proof.Spec
import Idealize.ShloMosaic.Lib.Pipeline.Value

noncomputable section

namespace Cert.KernelIdeal.Val

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Frm

/-! ## The body at an entry is the specification's P, given what its three blocks hold -/

/-- If row r of the adjacency block is row i of batch entry b, the mask column block at r is the mask's number at
    (b, i), and the mask row block is the mask's numbers of batch entry b, then the body's value at (0, r, q) is
    P(b, i, q). -/
theorem body_eq_P (x0 : Vec Ideal S1x512x1024 .f32) (x1 : Vec Ideal S1x512x1 .f32) (x2 : Vec Ideal S1x1x1024 .f32)
    (adj : FVec Ideal ⟨3, ![8, 1024, 1024]⟩ .f32) (mask : IVec ⟨2, ![8, 1024]⟩ 1) (b : Fin 8) (i : Fin 1024) (r : Fin 512)
    (h0 : ∀ q : Fin 1024, x0 (ix3 (0 : Fin 1) r q) = adj (ix3 b i q))
    (h1 : x1 (ix3 (0 : Fin 1) r (0 : Fin 1)) = Cert.Spec.msk mask b i)
    (h2 : ∀ q : Fin 1024, x2 (ix3 (0 : Fin 1) (0 : Fin 1) q) = Cert.Spec.msk mask b q) (u : Fin 1) (q : Fin 1024) :
    k0_pay1 (F := Ideal) x0 x1 x2 (ix3 u r q) = Cert.Spec.P adj mask b i q := by
  obtain rfl : u = 0 := Subsingleton.elim _ _
  rw [k0_pay1_apply]
  simp only [h0, h1, h2]
  rfl

/-! ## The grid: which rows a point's blocks are -/

theorem hz3 : (![0, 0, 0] : Fin 3 → Nat) = fun _ => 0 := funext fun a => by fin_cases a <;> rfl

theorem N0 : cfg0.N = 16 := N_0

/-- The printed index maps, decided over the 16 points: point t is batch entry t / 2 and row half t mod 2. -/
theorem idx_facts0 : ∀ t : Fin cfg0.N,
    win0_0.index t (0 : Fin 3) = t.val / 2 ∧ win0_0.index t (1 : Fin 3) = t.val % 2 ∧ win0_0.index t (2 : Fin 3) = 0
    ∧ win0_1.index t (0 : Fin 3) = t.val / 2 ∧ win0_1.index t (1 : Fin 3) = t.val % 2 ∧ win0_1.index t (2 : Fin 3) = 0
    ∧ win0_2.index t (0 : Fin 3) = t.val / 2 ∧ win0_2.index t (1 : Fin 3) = 0 ∧ win0_2.index t (2 : Fin 3) = 0
    ∧ win0_3.index t (0 : Fin 3) = t.val / 2 ∧ win0_3.index t (1 : Fin 3) = t.val % 2 ∧ win0_3.index t (2 : Fin 3) = 0 :=
  (by decide +kernel : ∀ t : Fin grid0.N, _)

/-- The batch entry of point t. -/
def batch0 (t : Fin cfg0.N) : Fin 8 := ⟨t.val / 2, by have := t.isLt; have hN := N0; omega⟩
/-- Row r of point t's blocks, as a row of the array. -/
def row0 (t : Fin cfg0.N) (r : Fin 512) : Fin 1024 := ⟨t.val % 2 * 512 + r.val, by have := r.isLt; omega⟩

variable (V : (c : Dev nD) → (b : Ref sig .tc) → Buf (Elt Ideal) ((c : Thread nD τ).loc b))

/-- The adjacency block of point t at (u, r, q) is the array at (batch, row, q). -/
theorem iblk0_0_apply (c : Dev nD) (t : Fin cfg0.N) (u : Fin 1) (r : Fin 512) (q : Fin 1024) :
    (iblk0 V c 0 t : Vec Ideal S1x512x1024 .f32) (ix3 u r q)
      = (V c main_arg0 : S8x1024x1024.Idx → EReal) (ix3 (batch0 t) (row0 t r) q) := by
  obtain ⟨e0, e1, e2, -⟩ := idx_facts0 t
  unfold iblk0
  rw [View.read_apply]
  show V c main_arg0 _ = V c main_arg0 _
  congr 1
  funext a
  apply Fin.ext
  match a with
  | ⟨0, _⟩ => show win0_0.index t (0 : Fin 3) * 1 + 1 * u.val = t.val / 2; have := u.isLt; omega
  | ⟨1, _⟩ => show win0_0.index t (1 : Fin 3) * 512 + 1 * r.val = t.val % 2 * 512 + r.val; omega
  | ⟨2, _⟩ => show win0_0.index t (2 : Fin 3) * 1024 + 1 * q.val = q.val; omega

/-- The mask column block of point t at (u, r, v) is the column array at (batch, row, 0). -/
theorem iblk0_1_apply (c : Dev nD) (t : Fin cfg0.N) (u : Fin 1) (r : Fin 512) (v : Fin 1) :
    (iblk0 V c 1 t : Vec Ideal S1x512x1 .f32) (ix3 u r v)
      = (V c main_v1 : S8x1024x1.Idx → EReal) (ix3 (batch0 t) (row0 t r) (0 : Fin 1)) := by
  obtain ⟨-, -, -, e0, e1, e2, -⟩ := idx_facts0 t
  unfold iblk0
  rw [View.read_apply]
  show V c main_v1 _ = V c main_v1 _
  congr 1
  funext a
  apply Fin.ext
  match a with
  | ⟨0, _⟩ => show win0_1.index t (0 : Fin 3) * 1 + 1 * u.val = t.val / 2; have := u.isLt; omega
  | ⟨1, _⟩ => show win0_1.index t (1 : Fin 3) * 512 + 1 * r.val = t.val % 2 * 512 + r.val; omega
  | ⟨2, _⟩ => show win0_1.index t (2 : Fin 3) * 1 + 1 * v.val = 0; have := v.isLt; omega

/-- The mask row block of point t at (u, v, q) is the row array at (batch, 0, q). -/
theorem iblk0_2_apply (c : Dev nD) (t : Fin cfg0.N) (u v : Fin 1) (q : Fin 1024) :
    (iblk0 V c 2 t : Vec Ideal S1x1x1024 .f32) (ix3 u v q)
      = (V c main_v2 : S8x1x1024.Idx → EReal) (ix3 (batch0 t) (0 : Fin 1) q) := by
  obtain ⟨-, -, -, -, -, -, e0, e1, e2, -⟩ := idx_facts0 t
  unfold iblk0
  rw [View.read_apply]
  show V c main_v2 _ = V c main_v2 _
  congr 1
  funext a
  apply Fin.ext
  match a with
  | ⟨0, _⟩ => show win0_2.index t (0 : Fin 3) * 1 + 1 * u.val = t.val / 2; have := u.isLt; omega
  | ⟨1, _⟩ => show win0_2.index t (1 : Fin 3) * 1 + 1 * v.val = 0; have := v.isLt; omega
  | ⟨2, _⟩ => show win0_2.index t (2 : Fin 3) * 1024 + 1 * q.val = q.val; omega

/-- Two functions on a rank-3 index set that agree at every triple of coordinates are equal. -/
theorem funext_ix3 {α : Type} {n0 n1 n2 : ℕ} {f g : (⟨3, ![n0, n1, n2]⟩ : Shape).Idx → α}
    (h : ∀ (a : Fin n0) (b : Fin n1) (c : Fin n2), f (ix3 a b c) = g (ix3 a b c)) : f = g :=
  funext fun j => by rw [eq_ix3 j]; exact h _ _ _

variable (adj : FVec Ideal ⟨3, ![8, 1024, 1024]⟩ .f32) (mask : IVec ⟨2, ![8, 1024]⟩ 1)

/-- WHAT POINT t WRITES BACK is block t of the array P. -/
theorem flushed0_eq (c : Dev nD)
    (h0 : (V c main_arg0 : S8x1024x1024.Idx → EReal) = adj)
    (h1 : ∀ (b : Fin 8) (i : Fin 1024) (u : Fin 1), (V c main_v1 : S8x1024x1.Idx → EReal) (ix3 b i u) = Cert.Spec.msk mask b i)
    (h2 : ∀ (b : Fin 8) (u : Fin 1) (j : Fin 1024), (V c main_v2 : S8x1x1024.Idx → EReal) (ix3 b u j) = Cert.Spec.msk mask b j)
    (t : Fin cfg0.N) :
    (dat0 V c).flushed 3 t = ((cfg0.win 3).blk t).view.read (Elt Ideal) (Cert.Spec.arrP adj mask) := by
  show (cfg0.win 3).cut (grid0.coords t) ((dat0 V c).after 3 t) = _
  rw [after0_3]
  unfold out0_3
  rw [View.canon_unit_zero hz3]
  simp only [View.ld_unit_zero (S := S1x512x1024) hz3, View.ld_unit_zero (S := S1x512x1) hz3, View.ld_unit_zero (S := S1x1x1024) hz3]
  refine funext_ix3 (n0 := 1) (n1 := 512) (n2 := 1024) (α := EReal) fun u r q => ?_
  show k0_pay1 (F := Ideal) (iblk0 V c 0 t) (iblk0 V c 1 t) (iblk0 V c 2 t) (ix3 u r q)
    = Cert.Spec.arrP adj mask (((cfg0.win 3).blk t).view.emb (ix3 u r q))
  have hemb : ((cfg0.win 3).blk t).view.emb (ix3 u r q) = (ix3 (batch0 t) (row0 t r) q : S8x1024x1024.Idx) := by
    obtain ⟨-, -, -, -, -, -, -, -, -, e0, e1, e2⟩ := idx_facts0 t
    funext a
    apply Fin.ext
    match a with
    | ⟨0, _⟩ => show win0_3.index t (0 : Fin 3) * 1 + 1 * u.val = t.val / 2; have := u.isLt; omega
    | ⟨1, _⟩ => show win0_3.index t (1 : Fin 3) * 512 + 1 * r.val = t.val % 2 * 512 + r.val; omega
    | ⟨2, _⟩ => show win0_3.index t (2 : Fin 3) * 1024 + 1 * q.val = q.val; omega
  rw [hemb, Cert.Spec.arrP_ix3]
  refine body_eq_P (iblk0 V c 0 t) (iblk0 V c 1 t) (iblk0 V c 2 t) adj mask (batch0 t) (row0 t r) r
    (fun q' => ?_) ?_ (fun q' => ?_) u q
  · rw [iblk0_0_apply, h0]
  · rw [iblk0_1_apply, h1]
  · rw [iblk0_2_apply, h2]

/-- An index of the array is in point t's block iff each coordinate is in the block's range on its axis. -/
theorem mem_blk0_3 (t : Fin cfg0.N) (i : S8x1024x1024.Idx) :
    i ∈ ((cfg0.win 3).blk t).view.set
      ↔ ∀ a : Fin 3, win0_3.index t a * S1x512x1024.size a ≤ (i a).val
          ∧ (i a).val < win0_3.index t a * S1x512x1024.size a + S1x512x1024.size a := by
  show i ∈ ((View.whole main_v3).slice (win0_3.rect t)).set ↔ _
  rw [View.set_slice_whole, Rect.mem_set_unit]
  exact Iff.rfl

/-- Every index of the array is in the block of the point that holds its batch entry and its half of the rows. -/
theorem cover0_3 (i : S8x1024x1024.Idx) :
    ∃ t : Fin cfg0.N, (cfg0.win 3).flush t = true ∧ i ∈ ((cfg0.win 3).blk t).view.set := by
  have hi0 : (i 0).val < 8 := (i 0).isLt
  have hi1 : (i 1).val < 1024 := (i 1).isLt
  have hi2 : (i 2).val < 1024 := (i 2).isLt
  refine ⟨⟨(i 0).val * 2 + (i 1).val / 512, by have hN := N0; omega⟩, flush0_3 _, ?_⟩
  rw [mem_blk0_3]
  obtain ⟨-, -, -, -, -, -, -, -, -, e0, e1, e2⟩ := idx_facts0 ⟨(i 0).val * 2 + (i 1).val / 512, by have hN := N0; omega⟩
  intro a
  match a with
  | ⟨0, _⟩ =>
    show win0_3.index _ (0 : Fin 3) * 1 ≤ (i 0).val ∧ (i 0).val < win0_3.index _ (0 : Fin 3) * 1 + 1
    rw [e0]; show ((i 0).val * 2 + (i 1).val / 512) / 2 * 1 ≤ (i 0).val ∧ (i 0).val < ((i 0).val * 2 + (i 1).val / 512) / 2 * 1 + 1
    omega
  | ⟨1, _⟩ =>
    show win0_3.index _ (1 : Fin 3) * 512 ≤ (i 1).val ∧ (i 1).val < win0_3.index _ (1 : Fin 3) * 512 + 512
    rw [e1]; show ((i 0).val * 2 + (i 1).val / 512) % 2 * 512 ≤ (i 1).val ∧ (i 1).val < ((i 0).val * 2 + (i 1).val / 512) % 2 * 512 + 512
    omega
  | ⟨2, _⟩ =>
    show win0_3.index _ (2 : Fin 3) * 1024 ≤ (i 2).val ∧ (i 2).val < win0_3.index _ (2 : Fin 3) * 1024 + 1024
    rw [e2]; omega

/-- THE ARRAY the stage leaves is P. -/
theorem final0 (c : Dev nD)
    (h0 : (V c main_arg0 : S8x1024x1024.Idx → EReal) = adj)
    (h1 : ∀ (b : Fin 8) (i : Fin 1024) (u : Fin 1), (V c main_v1 : S8x1024x1.Idx → EReal) (ix3 b i u) = Cert.Spec.msk mask b i)
    (h2 : ∀ (b : Fin 8) (u : Fin 1) (j : Fin 1024), (V c main_v2 : S8x1x1024.Idx → EReal) (ix3 b u j) = Cert.Spec.msk mask b j) :
    (dat0 V c).arrAt 3 cfg0.N = Cert.Spec.arrP adj mask :=
  (dat0 V c).arrAt_eq_of_cover 3 (Cert.Spec.arrP adj mask) (fun t _ => flushed0_eq V adj mask c h0 h1 h2 t) cover0_3

end Cert.KernelIdeal.Val

end
-- ==== Proof.LibMatmulRows.lean ====
/-
  A plain matrix product into a zero accumulator, read at a row and a column.

  For dimension numbers that contract the left operand's axis 1 against the right operand's axis 0, with no batch axis,
  the product of an [M, K] and a [K, N] array into the zero splat reads at (p, c) as the sum over a < K of
  l(p, a) · r(a, c): the product's sum over the contraction shape's indices, re-indexed through that shape's one axis.
-/
import Idealize.ShloMosaic.PureOps.Ideal.Laws
import Idealize.ShloMosaic.Lib.ValueIdx

noncomputable section

namespace Cert.LibMatmulRows

open Idealize.ShloMosaic Idealize.ShloMosaic.ValueIdx

/-- The product into the zero accumulator at (p, c), from the four facts that say which operand index the dimension
    numbers read at an output index and a contraction index. -/
theorem matmul_zero_ix2 {M K N : Nat} {φ₁ φ₂ : FTy} (d : DotDims ⟨2, ![M, K]⟩ ⟨2, ![K, N]⟩ ⟨2, ![M, N]⟩)
    (hr : d.contr.rank = 1) (hs : d.contr.size ⟨0, by omega⟩ = K)
    (hl0 : ∀ (i : (⟨2, ![M, N]⟩ : Shape).Idx) (q : d.contr.Idx), (d.lhsIdx i q 0).val = (i 0).val)
    (hl1 : ∀ (i : (⟨2, ![M, N]⟩ : Shape).Idx) (q : d.contr.Idx), (d.lhsIdx i q 1).val = (q ⟨0, by omega⟩).val)
    (hr0 : ∀ (i : (⟨2, ![M, N]⟩ : Shape).Idx) (q : d.contr.Idx), (d.rhsIdx i q 0).val = (q ⟨0, by omega⟩).val)
    (hr1 : ∀ (i : (⟨2, ![M, N]⟩ : Shape).Idx) (q : d.contr.Idx), (d.rhsIdx i q 1).val = (i 1).val)
    (prec : Option ContractPrecision) (l : FVec Ideal ⟨2, ![M, K]⟩ φ₁) (r : FVec Ideal ⟨2, ![K, N]⟩ φ₂) (p : Fin M) (c : Fin N) :
    matmul d prec l r (constant ⟨2, ![M, N]⟩ .f32 0x00000000#32) (ix2 p c) = ∑ a : Fin K, l (ix2 p a) * r (ix2 a c) := by
  show FloatOps.matmul d prec l r (constant ⟨2, ![M, N]⟩ .f32 0x00000000#32) (ix2 p c) = _
  rw [Ideal.matmul_constant_zero_apply, ← Equiv.sum_comp (contrEquiv1 d K hr hs).symm]
  refine Finset.sum_congr rfl fun a _ => ?_
  have hk := contrEquiv1_symm_val d K hr hs a
  have el : d.lhsIdx (ix2 p c) ((contrEquiv1 d K hr hs).symm a) = ix2 p a := funext fun x => Fin.ext (by
    match x with
    | ⟨0, _⟩ => exact hl0 _ _
    | ⟨1, _⟩ => exact (hl1 _ _).trans hk)
  have er : d.rhsIdx (ix2 p c) ((contrEquiv1 d K hr hs).symm a) = ix2 a c := funext fun x => Fin.ext (by
    match x with
    | ⟨0, _⟩ => exact (hr0 _ _).trans hk
    | ⟨1, _⟩ => exact hr1 _ _)
  rw [el, er]

end Cert.LibMatmulRows

end
-- ==== Proof.LibPlainDot.lean ====
/-
  Plain matrix-product dimension numbers, read at their indices.

  Dimension numbers of a product of an [M, K] array and a [K, N] array are PLAIN when they contract the left
  operand's axis 1 against the right operand's axis 0, keep the left operand's axis 0 and the right operand's axis 1 as
  the result's two axes in that order, and have no batch axis. For such numbers the contraction shape has the one axis
  of extent K, and at a result index (p, c) and a contraction position a the left operand is read at (p, a) and the
  right operand at (a, c). These are the six facts a product needs to be read as the sum over a of l(p, a) · r(a, c).
-/
import Idealize.ShloMosaic.PureOps.Ideal.Laws
import Idealize.ShloMosaic.Lib.ValueIdx

noncomputable section

namespace Cert.LibPlainDot

open Idealize.ShloMosaic

variable {M K N : Nat} (d : DotDims ⟨2, ![M, K]⟩ ⟨2, ![K, N]⟩ ⟨2, ![M, N]⟩)

/-- The six lists of plain dimension numbers. -/
structure Plain : Prop where
  lc : d.lhsContracting = [1]
  rc : d.rhsContracting = [0]
  ln : d.lhsNonContracting = [0]
  rn : d.rhsNonContracting = [1]
  lb : d.lhsBatch = []
  rb : d.rhsBatch = []

variable {d}

/-- One contracted axis. -/
theorem Plain.rank (h : Plain d) : d.contr.rank = 1 := by rw [d.rank_contr, h.lc]; rfl

private theorem val_congr {n : Nat} {s : Fin n → Nat} (i : (a : Fin n) → Fin (s a)) (p q : Nat) (hp : p < n) (hq : q < n)
    (e : p = q) : (i ⟨p, hp⟩).val = (i ⟨q, hq⟩).val := by subst e; rfl

/-- The left operand's row is the result's row. -/
theorem Plain.lhs0 (h : Plain d) (i : (⟨2, ![M, N]⟩ : Shape).Idx) (q : d.contr.Idx) : (d.lhsIdx i q 0).val = (i 0).val := by
  have hb : (0 : Fin (⟨2, ![M, K]⟩ : Shape).rank) ∉ d.lhsBatch := by rw [h.lb]; exact List.not_mem_nil
  have hn : (0 : Fin (⟨2, ![M, K]⟩ : Shape).rank) ∈ d.lhsNonContracting := by rw [h.ln]; exact List.mem_singleton.mpr rfl
  unfold DotDims.lhsIdx
  rw [dif_neg hb, dif_pos hn]
  simp only [Fin.val_cast]
  exact val_congr i _ _ _ _ (by simp [h.lb, h.ln])

/-- The left operand's column is the contraction position. -/
theorem Plain.lhs1 (h : Plain d) (i : (⟨2, ![M, N]⟩ : Shape).Idx) (q : d.contr.Idx) :
    (d.lhsIdx i q 1).val = (q ⟨0, by rw [h.rank]; exact Nat.one_pos⟩).val :=
  d.lhsIdx_val_of_single h.lc i q

/-- The right operand's row is the contraction position. -/
theorem Plain.rhs0 (h : Plain d) (i : (⟨2, ![M, N]⟩ : Shape).Idx) (q : d.contr.Idx) :
    (d.rhsIdx i q 0).val = (q ⟨0, by rw [h.rank]; exact Nat.one_pos⟩).val :=
  d.rhsIdx_val_of_single h.rc i q

/-- The right operand's column is the result's column. -/
theorem Plain.rhs1 (h : Plain d) (i : (⟨2, ![M, N]⟩ : Shape).Idx) (q : d.contr.Idx) : (d.rhsIdx i q 1).val = (i 1).val := by
  have hb : (1 : Fin (⟨2, ![K, N]⟩ : Shape).rank) ∉ d.rhsBatch := by rw [h.rb]; exact List.not_mem_nil
  have hn : (1 : Fin (⟨2, ![K, N]⟩ : Shape).rank) ∈ d.rhsNonContracting := by rw [h.rn]; exact List.mem_singleton.mpr rfl
  unfold DotDims.rhsIdx
  rw [dif_neg hb, dif_pos hn]
  simp only [Fin.val_cast]
  exact val_congr i _ _ _ _ (by simp [h.lb, h.ln, h.rn])

/-- The contracted axis has the operands' shared extent. -/
theorem Plain.size (h : Plain d) : d.contr.size ⟨0, by rw [h.rank]; exact Nat.one_pos⟩ = K := by
  have hp : 0 < d.lhsContracting.length := by rw [h.lc]; exact Nat.one_pos
  have e1 : d.lhsContracting[0] = (1 : Fin (⟨2, ![M, K]⟩ : Shape).rank) := by simp [h.lc]
  exact (d.size_contr 0 hp).trans (by rw [e1]; rfl)

end Cert.LibPlainDot

end
-- ==== Proof.KIPay12.lean ====
/-
  The two matrix-product bodies read at an entry.

  Each of the two product stages loads two whole [1, 1024, 1024] slabs x and y, drops the leading unit axis of each,
  multiplies the two 1024 x 1024 matrices into a zero accumulator and puts the unit axis back. At the entry (0, r, q)
  the value stored is therefore the sum over a < 1024 of x(0, r, a) · y(0, a, q): the (r, q) entry of the matrix
  product, with no order of summation preferred.
-/
import proofs.«115754_j78331613544465_2_alg».proof.Proof.Gen.KernelIdeal.Skeleton
import proofs.«115754_j78331613544465_2_alg».proof.Proof.LibMatmulRows
import proofs.«115754_j78331613544465_2_alg».proof.Proof.LibPlainDot
import Idealize.ShloMosaic.Lib.ValueLayout

noncomputable section

namespace Cert.KernelIdeal.Val

open Idealize.ShloMosaic Idealize.ShloMosaic.ValueIdx Cert.KernelIdeal Cert.KernelIdeal.Gen

/-- The product stages' dimension numbers are plain: rows of the left operand against columns of the right one. -/
theorem plain_dot : Cert.LibPlainDot.Plain dot_S1024x1024_S1024x1024_S1024x1024_1_0_0_1_n_n :=
  ⟨rfl, rfl, rfl, rfl, rfl, rfl⟩

/-- A product of two slabs with their unit axes dropped, into the zero splat, with the unit axis put back, at (0, r, q). -/
theorem slab_product_apply (x y : Vec Ideal S1x1024x1024 .f32) (r q : Fin 1024) :
    shapeCast S1x1024x1024
        (matmul (F := Ideal) dot_S1024x1024_S1024x1024_S1024x1024_1_0_0_1_n_n (some .fp32)
          (shapeCast S1024x1024 x shapeCasts_S1x1024x1024_S1024x1024 : FVec Ideal S1024x1024 .f32)
          (shapeCast S1024x1024 y shapeCasts_S1x1024x1024_S1024x1024 : FVec Ideal S1024x1024 .f32)
          (constant (F := Ideal) S1024x1024 .f32 0x00000000#32))
        shapeCasts_S1024x1024_S1x1024x1024 (ix3 (0 : Fin 1) r q)
      = ∑ a : Fin 1024, x (ix3 (0 : Fin 1) r a) * y (ix3 (0 : Fin 1) a q) := by
  refine (shapeCast_ab_1ab_apply _ _ (0 : Fin 1) r q).trans ?_
  refine (Cert.LibMatmulRows.matmul_zero_ix2 _ plain_dot.rank plain_dot.size plain_dot.lhs0 plain_dot.lhs1
    plain_dot.rhs0 plain_dot.rhs1 _ _ _ r q).trans ?_
  refine Finset.sum_congr rfl fun a _ => ?_
  rw [shapeCast_1ab_ab_apply, shapeCast_1ab_ab_apply]

/-- The first product stage's stored value at (0, r, q): the (r, q) entry of the product of its two slabs. -/
theorem k1_pay1_apply (x y : Vec Ideal S1x1024x1024 .f32) (r q : Fin 1024) :
    k1_pay1 (F := Ideal) x y (ix3 (0 : Fin 1) r q) = ∑ a : Fin 1024, x (ix3 (0 : Fin 1) r a) * y (ix3 (0 : Fin 1) a q) :=
  slab_product_apply x y r q

/-- The second product stage's stored value at (0, r, q): the same reading. -/
theorem k2_pay1_apply (x y : Vec Ideal S1x1024x1024 .f32) (r q : Fin 1024) :
    k2_pay1 (F := Ideal) x y (ix3 (0 : Fin 1) r q) = ∑ a : Fin 1024, x (ix3 (0 : Fin 1) r a) * y (ix3 (0 : Fin 1) a q) :=
  slab_product_apply x y r q

end Cert.KernelIdeal.Val

end
-- ==== Proof.KIVal1.lean ====
/-
  The first product stage: from the slabs its grid points write to the whole array.

  The stage runs at 8 grid points, point t being batch entry t. At point t both of its input slabs are the whole
  1024 x 1024 matrix of batch entry t of the row-normalised array, and it writes back the whole matrix of batch entry t of the result:
  the matrix product of the slab with itself. With the input array equal to the specification's P, the entry written at
  (t, r, q) is the sum over a of P(t, r, a) · P(t, a, q), which is the specification's P2. The eight slabs tile the array.
-/
import proofs.«115754_j78331613544465_2_alg».proof.Proof.KIReg1
import proofs.«115754_j78331613544465_2_alg».proof.Proof.KIPay12
import proofs.«115754_j78331613544465_2_alg».proof.Proof.Spec
import Idealize.ShloMosaic.Lib.Pipeline.Value

noncomputable section

namespace Cert.KernelIdeal.Val

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Frm

theorem hz3_1 : (![0, 0, 0] : Fin 3 → Nat) = fun _ => 0 := funext fun a => by fin_cases a <;> rfl

theorem N1 : cfg1.N = 8 := N_1

/-- The printed index maps, decided over the 8 points: every window's block at point t is the slab of batch entry t. -/
theorem idx_facts1 : ∀ t : Fin cfg1.N,
    win1_0.index t (0 : Fin 3) = t.val ∧ win1_0.index t (1 : Fin 3) = 0 ∧ win1_0.index t (2 : Fin 3) = 0
    ∧ win1_1.index t (0 : Fin 3) = t.val ∧ win1_1.index t (1 : Fin 3) = 0 ∧ win1_1.index t (2 : Fin 3) = 0
    ∧ win1_2.index t (0 : Fin 3) = t.val ∧ win1_2.index t (1 : Fin 3) = 0 ∧ win1_2.index t (2 : Fin 3) = 0 :=
  (by decide +kernel : ∀ t : Fin grid1.N, _)

/-- The batch entry of point t. -/
def batch1 (t : Fin cfg1.N) : Fin 8 := ⟨t.val, by have := t.isLt; have hN := N1; omega⟩

variable (V : (c : Dev nD) → (b : Ref sig .tc) → Buf (Elt Ideal) ((c : Thread nD τ).loc b))

/-- The left slab of point t at (u, r, q) is the input array at (t, r, q). -/
theorem iblk1_0_apply (c : Dev nD) (t : Fin cfg1.N) (u : Fin 1) (r q : Fin 1024) :
    (iblk1 V c 0 t : Vec Ideal S1x1024x1024 .f32) (ix3 u r q)
      = (V c main_v3 : S8x1024x1024.Idx → EReal) (ix3 (batch1 t) r q) := by
  obtain ⟨e0, e1, e2, -⟩ := idx_facts1 t
  unfold iblk1
  rw [View.read_apply]
  show V c main_v3 _ = V c main_v3 _
  congr 1
  funext a
  apply Fin.ext
  match a with
  | ⟨0, _⟩ => show win1_0.index t (0 : Fin 3) * 1 + 1 * u.val = t.val; have := u.isLt; omega
  | ⟨1, _⟩ => show win1_0.index t (1 : Fin 3) * 1024 + 1 * r.val = r.val; omega
  | ⟨2, _⟩ => show win1_0.index t (2 : Fin 3) * 1024 + 1 * q.val = q.val; omega

/-- The right slab of point t at (u, r, q) is the input array at (t, r, q). -/
theorem iblk1_1_apply (c : Dev nD) (t : Fin cfg1.N) (u : Fin 1) (r q : Fin 1024) :
    (iblk1 V c 1 t : Vec Ideal S1x1024x1024 .f32) (ix3 u r q)
      = (V c main_v3 : S8x1024x1024.Idx → EReal) (ix3 (batch1 t) r q) := by
  obtain ⟨-, -, -, e0, e1, e2, -⟩ := idx_facts1 t
  unfold iblk1
  rw [View.read_apply]
  show V c main_v3 _ = V c main_v3 _
  congr 1
  funext a
  apply Fin.ext
  match a with
  | ⟨0, _⟩ => show win1_1.index t (0 : Fin 3) * 1 + 1 * u.val = t.val; have := u.isLt; omega
  | ⟨1, _⟩ => show win1_1.index t (1 : Fin 3) * 1024 + 1 * r.val = r.val; omega
  | ⟨2, _⟩ => show win1_1.index t (2 : Fin 3) * 1024 + 1 * q.val = q.val; omega

/-- Two functions on a rank-3 index set that agree at every triple of coordinates are equal. -/
theorem funext_ix3_1 {α : Type} {n0 n1 n2 : ℕ} {f g : (⟨3, ![n0, n1, n2]⟩ : Shape).Idx → α}
    (h : ∀ (a : Fin n0) (b : Fin n1) (c : Fin n2), f (ix3 a b c) = g (ix3 a b c)) : f = g :=
  funext fun j => by rw [eq_ix3 j]; exact h _ _ _

variable (adj : FVec Ideal ⟨3, ![8, 1024, 1024]⟩ .f32) (mask : IVec ⟨2, ![8, 1024]⟩ 1)

/-- WHAT POINT t WRITES BACK is slab t of the array P2. -/
theorem flushed1_eq (c : Dev nD)
    (h : (V c main_v3 : S8x1024x1024.Idx → EReal) = Cert.Spec.arrP adj mask) (t : Fin cfg1.N) :
    (dat1 V c).flushed 2 t = ((cfg1.win 2).blk t).view.read (Elt Ideal) (Cert.Spec.arrP2 adj mask) := by
  show (cfg1.win 2).cut (grid1.coords t) ((dat1 V c).after 2 t) = _
  rw [after1_2]
  unfold out1_2
  rw [View.canon_unit_zero hz3_1]
  simp only [View.ld_unit_zero (S := S1x1024x1024) hz3_1]
  refine funext_ix3_1 (n0 := 1) (n1 := 1024) (n2 := 1024) (α := EReal) fun u r q => ?_
  show k1_pay1 (F := Ideal) (iblk1 V c 0 t) (iblk1 V c 1 t) (ix3 u r q)
    = Cert.Spec.arrP2 adj mask (((cfg1.win 2).blk t).view.emb (ix3 u r q))
  have hemb : ((cfg1.win 2).blk t).view.emb (ix3 u r q) = (ix3 (batch1 t) r q : S8x1024x1024.Idx) := by
    obtain ⟨-, -, -, -, -, -, e0, e1, e2⟩ := idx_facts1 t
    funext a
    apply Fin.ext
    match a with
    | ⟨0, _⟩ => show win1_2.index t (0 : Fin 3) * 1 + 1 * u.val = t.val; have := u.isLt; omega
    | ⟨1, _⟩ => show win1_2.index t (1 : Fin 3) * 1024 + 1 * r.val = r.val; omega
    | ⟨2, _⟩ => show win1_2.index t (2 : Fin 3) * 1024 + 1 * q.val = q.val; omega
  obtain rfl : u = 0 := Subsingleton.elim _ _
  rw [hemb, Cert.Spec.arrP2_ix3]
  refine (k1_pay1_apply (iblk1 V c 0 t) (iblk1 V c 1 t) r q).trans ?_
  show _ = ∑ a : Fin 1024, Cert.Spec.P adj mask (batch1 t) r a * Cert.Spec.P adj mask (batch1 t) a q
  refine Finset.sum_congr rfl fun a _ => ?_
  rw [iblk1_0_apply, iblk1_1_apply, h, Cert.Spec.arrP_ix3, Cert.Spec.arrP_ix3]

/-- An index of the array is in point t's slab iff each coordinate is in the slab's range on its axis. -/
theorem mem_blk1_2 (t : Fin cfg1.N) (i : S8x1024x1024.Idx) :
    i ∈ ((cfg1.win 2).blk t).view.set
      ↔ ∀ a : Fin 3, win1_2.index t a * S1x1024x1024.size a ≤ (i a).val
          ∧ (i a).val < win1_2.index t a * S1x1024x1024.size a + S1x1024x1024.size a := by
  show i ∈ ((View.whole main_v4).slice (win1_2.rect t)).set ↔ _
  rw [View.set_slice_whole, Rect.mem_set_unit]
  exact Iff.rfl

/-- Every index of the array is in the slab of the point of its batch entry. -/
theorem cover1_2 (i : S8x1024x1024.Idx) :
    ∃ t : Fin cfg1.N, (cfg1.win 2).flush t = true ∧ i ∈ ((cfg1.win 2).blk t).view.set := by
  have hi0 : (i 0).val < 8 := (i 0).isLt
  have hi1 : (i 1).val < 1024 := (i 1).isLt
  have hi2 : (i 2).val < 1024 := (i 2).isLt
  refine ⟨⟨(i 0).val, by have hN := N1; omega⟩, flush1_2 _, ?_⟩
  rw [mem_blk1_2]
  obtain ⟨-, -, -, -, -, -, e0, e1, e2⟩ := idx_facts1 ⟨(i 0).val, by have hN := N1; omega⟩
  intro a
  match a with
  | ⟨0, _⟩ =>
    show win1_2.index _ (0 : Fin 3) * 1 ≤ (i 0).val ∧ (i 0).val < win1_2.index _ (0 : Fin 3) * 1 + 1
    rw [e0]; show (i 0).val * 1 ≤ (i 0).val ∧ (i 0).val < (i 0).val * 1 + 1
    omega
  | ⟨1, _⟩ =>
    show win1_2.index _ (1 : Fin 3) * 1024 ≤ (i 1).val ∧ (i 1).val < win1_2.index _ (1 : Fin 3) * 1024 + 1024
    rw [e1]; omega
  | ⟨2, _⟩ =>
    show win1_2.index _ (2 : Fin 3) * 1024 ≤ (i 2).val ∧ (i 2).val < win1_2.index _ (2 : Fin 3) * 1024 + 1024
    rw [e2]; omega

/-- THE ARRAY the stage leaves is P2. -/
theorem final1 (c : Dev nD)
    (h : (V c main_v3 : S8x1024x1024.Idx → EReal) = Cert.Spec.arrP adj mask) :
    (dat1 V c).arrAt 2 cfg1.N = Cert.Spec.arrP2 adj mask :=
  (dat1 V c).arrAt_eq_of_cover 2 (Cert.Spec.arrP2 adj mask) (fun t _ => flushed1_eq V adj mask c h t) cover1_2

end Cert.KernelIdeal.Val

end
-- ==== Proof.KIVal2.lean ====
/-
  The second product stage: from the slabs its grid points write to the whole array.

  The stage runs at 8 grid points, point t being batch entry t. At point t both of its input slabs are the whole
  1024 x 1024 matrix of batch entry t of the first product, and it writes back the whole matrix of batch entry t of the result:
  the matrix product of the slab with itself. With the input array equal to the specification's P2, the entry written at
  (t, r, q) is the sum over a of P2(t, r, a) · P2(t, a, q), which is the specification's P4. The eight slabs tile the array.
-/
import proofs.«115754_j78331613544465_2_alg».proof.Proof.KIReg2
import proofs.«115754_j78331613544465_2_alg».proof.Proof.KIPay12
import proofs.«115754_j78331613544465_2_alg».proof.Proof.Spec
import Idealize.ShloMosaic.Lib.Pipeline.Value

noncomputable section

namespace Cert.KernelIdeal.Val

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Frm

theorem hz3_2 : (![0, 0, 0] : Fin 3 → Nat) = fun _ => 0 := funext fun a => by fin_cases a <;> rfl

theorem N2 : cfg2.N = 8 := N_2

/-- The printed index maps, decided over the 8 points: every window's block at point t is the slab of batch entry t. -/
theorem idx_facts2 : ∀ t : Fin cfg2.N,
    win2_0.index t (0 : Fin 3) = t.val ∧ win2_0.index t (1 : Fin 3) = 0 ∧ win2_0.index t (2 : Fin 3) = 0
    ∧ win2_1.index t (0 : Fin 3) = t.val ∧ win2_1.index t (1 : Fin 3) = 0 ∧ win2_1.index t (2 : Fin 3) = 0
    ∧ win2_2.index t (0 : Fin 3) = t.val ∧ win2_2.index t (1 : Fin 3) = 0 ∧ win2_2.index t (2 : Fin 3) = 0 :=
  (by decide +kernel : ∀ t : Fin grid2.N, _)

/-- The batch entry of point t. -/
def batch2 (t : Fin cfg2.N) : Fin 8 := ⟨t.val, by have := t.isLt; have hN := N2; omega⟩

variable (V : (c : Dev nD) → (b : Ref sig .tc) → Buf (Elt Ideal) ((c : Thread nD τ).loc b))

/-- The left slab of point t at (u, r, q) is the input array at (t, r, q). -/
theorem iblk2_0_apply (c : Dev nD) (t : Fin cfg2.N) (u : Fin 1) (r q : Fin 1024) :
    (iblk2 V c 0 t : Vec Ideal S1x1024x1024 .f32) (ix3 u r q)
      = (V c main_v4 : S8x1024x1024.Idx → EReal) (ix3 (batch2 t) r q) := by
  obtain ⟨e0, e1, e2, -⟩ := idx_facts2 t
  unfold iblk2
  rw [View.read_apply]
  show V c main_v4 _ = V c main_v4 _
  congr 1
  funext a
  apply Fin.ext
  match a with
  | ⟨0, _⟩ => show win2_0.index t (0 : Fin 3) * 1 + 1 * u.val = t.val; have := u.isLt; omega
  | ⟨1, _⟩ => show win2_0.index t (1 : Fin 3) * 1024 + 1 * r.val = r.val; omega
  | ⟨2, _⟩ => show win2_0.index t (2 : Fin 3) * 1024 + 1 * q.val = q.val; omega

/-- The right slab of point t at (u, r, q) is the input array at (t, r, q). -/
theorem iblk2_1_apply (c : Dev nD) (t : Fin cfg2.N) (u : Fin 1) (r q : Fin 1024) :
    (iblk2 V c 1 t : Vec Ideal S1x1024x1024 .f32) (ix3 u r q)
      = (V c main_v4 : S8x1024x1024.Idx → EReal) (ix3 (batch2 t) r q) := by
  obtain ⟨-, -, -, e0, e1, e2, -⟩ := idx_facts2 t
  unfold iblk2
  rw [View.read_apply]
  show V c main_v4 _ = V c main_v4 _
  congr 1
  funext a
  apply Fin.ext
  match a with
  | ⟨0, _⟩ => show win2_1.index t (0 : Fin 3) * 1 + 1 * u.val = t.val; have := u.isLt; omega
  | ⟨1, _⟩ => show win2_1.index t (1 : Fin 3) * 1024 + 1 * r.val = r.val; omega
  | ⟨2, _⟩ => show win2_1.index t (2 : Fin 3) * 1024 + 1 * q.val = q.val; omega

/-- Two functions on a rank-3 index set that agree at every triple of coordinates are equal. -/
theorem funext_ix3_2 {α : Type} {n0 n1 n2 : ℕ} {f g : (⟨3, ![n0, n1, n2]⟩ : Shape).Idx → α}
    (h : ∀ (a : Fin n0) (b : Fin n1) (c : Fin n2), f (ix3 a b c) = g (ix3 a b c)) : f = g :=
  funext fun j => by rw [eq_ix3 j]; exact h _ _ _

variable (adj : FVec Ideal ⟨3, ![8, 1024, 1024]⟩ .f32) (mask : IVec ⟨2, ![8, 1024]⟩ 1)

/-- WHAT POINT t WRITES BACK is slab t of the array P4. -/
theorem flushed2_eq (c : Dev nD)
    (h : (V c main_v4 : S8x1024x1024.Idx → EReal) = Cert.Spec.arrP2 adj mask) (t : Fin cfg2.N) :
    (dat2 V c).flushed 2 t = ((cfg2.win 2).blk t).view.read (Elt Ideal) (Cert.Spec.arrP4 adj mask) := by
  show (cfg2.win 2).cut (grid2.coords t) ((dat2 V c).after 2 t) = _
  rw [after2_2]
  unfold out2_2
  rw [View.canon_unit_zero hz3_2]
  simp only [View.ld_unit_zero (S := S1x1024x1024) hz3_2]
  refine funext_ix3_2 (n0 := 1) (n1 := 1024) (n2 := 1024) (α := EReal) fun u r q => ?_
  show k2_pay1 (F := Ideal) (iblk2 V c 0 t) (iblk2 V c 1 t) (ix3 u r q)
    = Cert.Spec.arrP4 adj mask (((cfg2.win 2).blk t).view.emb (ix3 u r q))
  have hemb : ((cfg2.win 2).blk t).view.emb (ix3 u r q) = (ix3 (batch2 t) r q : S8x1024x1024.Idx) := by
    obtain ⟨-, -, -, -, -, -, e0, e1, e2⟩ := idx_facts2 t
    funext a
    apply Fin.ext
    match a with
    | ⟨0, _⟩ => show win2_2.index t (0 : Fin 3) * 1 + 1 * u.val = t.val; have := u.isLt; omega
    | ⟨1, _⟩ => show win2_2.index t (1 : Fin 3) * 1024 + 1 * r.val = r.val; omega
    | ⟨2, _⟩ => show win2_2.index t (2 : Fin 3) * 1024 + 1 * q.val = q.val; omega
  obtain rfl : u = 0 := Subsingleton.elim _ _
  rw [hemb, Cert.Spec.arrP4_ix3]
  refine (k2_pay1_apply (iblk2 V c 0 t) (iblk2 V c 1 t) r q).trans ?_
  show _ = ∑ a : Fin 1024, Cert.Spec.P2 adj mask (batch2 t) r a * Cert.Spec.P2 adj mask (batch2 t) a q
  refine Finset.sum_congr rfl fun a _ => ?_
  rw [iblk2_0_apply, iblk2_1_apply, h, Cert.Spec.arrP2_ix3, Cert.Spec.arrP2_ix3]

/-- An index of the array is in point t's slab iff each coordinate is in the slab's range on its axis. -/
theorem mem_blk2_2 (t : Fin cfg2.N) (i : S8x1024x1024.Idx) :
    i ∈ ((cfg2.win 2).blk t).view.set
      ↔ ∀ a : Fin 3, win2_2.index t a * S1x1024x1024.size a ≤ (i a).val
          ∧ (i a).val < win2_2.index t a * S1x1024x1024.size a + S1x1024x1024.size a := by
  show i ∈ ((View.whole main_v5).slice (win2_2.rect t)).set ↔ _
  rw [View.set_slice_whole, Rect.mem_set_unit]
  exact Iff.rfl

/-- Every index of the array is in the slab of the point of its batch entry. -/
theorem cover2_2 (i : S8x1024x1024.Idx) :
    ∃ t : Fin cfg2.N, (cfg2.win 2).flush t = true ∧ i ∈ ((cfg2.win 2).blk t).view.set := by
  have hi0 : (i 0).val < 8 := (i 0).isLt
  have hi1 : (i 1).val < 1024 := (i 1).isLt
  have hi2 : (i 2).val < 1024 := (i 2).isLt
  refine ⟨⟨(i 0).val, by have hN := N2; omega⟩, flush2_2 _, ?_⟩
  rw [mem_blk2_2]
  obtain ⟨-, -, -, -, -, -, e0, e1, e2⟩ := idx_facts2 ⟨(i 0).val, by have hN := N2; omega⟩
  intro a
  match a with
  | ⟨0, _⟩ =>
    show win2_2.index _ (0 : Fin 3) * 1 ≤ (i 0).val ∧ (i 0).val < win2_2.index _ (0 : Fin 3) * 1 + 1
    rw [e0]; show (i 0).val * 1 ≤ (i 0).val ∧ (i 0).val < (i 0).val * 1 + 1
    omega
  | ⟨1, _⟩ =>
    show win2_2.index _ (1 : Fin 3) * 1024 ≤ (i 1).val ∧ (i 1).val < win2_2.index _ (1 : Fin 3) * 1024 + 1024
    rw [e1]; omega
  | ⟨2, _⟩ =>
    show win2_2.index _ (2 : Fin 3) * 1024 ≤ (i 2).val ∧ (i 2).val < win2_2.index _ (2 : Fin 3) * 1024 + 1024
    rw [e2]; omega

/-- THE ARRAY the stage leaves is P4. -/
theorem final2 (c : Dev nD)
    (h : (V c main_v4 : S8x1024x1024.Idx → EReal) = Cert.Spec.arrP2 adj mask) :
    (dat2 V c).arrAt 2 cfg2.N = Cert.Spec.arrP4 adj mask :=
  (dat2 V c).arrAt_eq_of_cover 2 (Cert.Spec.arrP4 adj mask) (fun t _ => flushed2_eq V adj mask c h t) cover2_2

end Cert.KernelIdeal.Val

end
-- ==== Proof.KIStore3.lean ====
/-
  The value the kernel's body stores over the whole output block, as ONE function of the grid position and of
  the nine vectors the body loads, one per input window in the windows' order: the body's last payload applied
  to the earlier ones in the order the body computes them. The output buffer after the body is that value
  written through the whole rectangle.
-/
import proofs.«115754_j78331613544465_2_alg».proof.Proof.KIReg3

set_option maxRecDepth 16384

noncomputable section

namespace Cert.KernelIdeal.Frm

open Cert.KernelIdeal Cert.KernelIdeal.Gen
open Idealize.ShloMosaic Idealize.ShloMosaic.TcCoe

variable {F : FTy → Type} [FloatOps F]

/-- The stored value, of shape [1, 8, 512, 1024], from the grid position and the nine loaded vectors. -/
def store3 (i : grid3.Coords) (v0 v2 v4 : Vec F S1x512x1024 .f32) (v6 : Vec F S1x512x1 .f32) (v9 : Vec F S1x1x1024 .f32) (v28 : Vec F S4x16 .f32) (v29 : Vec F S16 .f32) (v30 : Vec F S16x8 .f32) (v31 : Vec F S8 .f32) : FVec F S1x8x512x1024 .f32 :=
  k3_pay1
    (k3_pay6 v6 v9)
    v31
    (k3_pay38 (k3_pay6 v6 v9) v30 v31 (k3_pay31 (k3_pay29 (k3_pay2 v0) (k3_pay3 v2) (k3_pay4 v4) (k3_pay7 i v6) v28 v29) (k3_pay30 (F := F))) (k3_pay32 (k3_pay2 v0) (k3_pay3 v2) (k3_pay4 v4) (k3_pay7 i v6) v28 v29) (k3_pay33 (k3_pay2 v0) (k3_pay3 v2) (k3_pay4 v4) (k3_pay7 i v6) v28 v29) (k3_pay36 v30 (k3_pay10 (k3_pay2 v0) (k3_pay3 v2) (k3_pay4 v4) (k3_pay7 i v6) v28 v29) (k3_pay13 (k3_pay3 v2) (k3_pay4 v4) v28 v29 (k3_pay11 (k3_pay2 v0) (k3_pay7 i v6) v28) (k3_pay12 v28)) (k3_pay14 (k3_pay2 v0) (k3_pay3 v2) (k3_pay4 v4) (k3_pay7 i v6) v28 v29) (k3_pay16 v29 (k3_pay15 (k3_pay2 v0) (k3_pay3 v2) (k3_pay4 v4) (k3_pay7 i v6) v28)) (k3_pay17 (k3_pay2 v0) (k3_pay3 v2) (k3_pay4 v4) (k3_pay7 i v6) v28 v29) (k3_pay18 (k3_pay2 v0) (k3_pay3 v2) (k3_pay4 v4) (k3_pay7 i v6) v28 v29) (k3_pay20 (k3_pay2 v0) (k3_pay3 v2) (k3_pay4 v4) (k3_pay7 i v6) v28 v29 (k3_pay19 v28)) (k3_pay21 (k3_pay2 v0) (k3_pay3 v2) (k3_pay4 v4) (k3_pay7 i v6) v28 v29) (k3_pay23 (k3_pay3 v2) (k3_pay4 v4) v28 v29 (k3_pay22 (k3_pay2 v0) (k3_pay7 i v6) v28)) (k3_pay24 (k3_pay2 v0) (k3_pay3 v2) (k3_pay4 v4) (k3_pay7 i v6) v28 v29) (k3_pay27 (k3_pay4 v4) v29 (k3_pay25 (k3_pay2 v0) (k3_pay3 v2) (k3_pay7 i v6) v28) (k3_pay26 v28)) (k3_pay28 (k3_pay2 v0) (k3_pay3 v2) (k3_pay4 v4) (k3_pay7 i v6) v28 v29) (k3_pay34 v30 (k3_pay9 (k3_pay2 v0) (k3_pay3 v2) (k3_pay4 v4) (k3_pay7 i v6) v28 v29 (k3_pay8 v28))) (k3_pay35 v30)) (k3_pay37 v30))
    (k3_pay41 (k3_pay6 v6 v9) v30 v31 (k3_pay23 (k3_pay3 v2) (k3_pay4 v4) v28 v29 (k3_pay22 (k3_pay2 v0) (k3_pay7 i v6) v28)) (k3_pay24 (k3_pay2 v0) (k3_pay3 v2) (k3_pay4 v4) (k3_pay7 i v6) v28 v29) (k3_pay27 (k3_pay4 v4) v29 (k3_pay25 (k3_pay2 v0) (k3_pay3 v2) (k3_pay7 i v6) v28) (k3_pay26 v28)) (k3_pay28 (k3_pay2 v0) (k3_pay3 v2) (k3_pay4 v4) (k3_pay7 i v6) v28 v29) (k3_pay31 (k3_pay29 (k3_pay2 v0) (k3_pay3 v2) (k3_pay4 v4) (k3_pay7 i v6) v28 v29) (k3_pay30 (F := F))) (k3_pay32 (k3_pay2 v0) (k3_pay3 v2) (k3_pay4 v4) (k3_pay7 i v6) v28 v29) (k3_pay33 (k3_pay2 v0) (k3_pay3 v2) (k3_pay4 v4) (k3_pay7 i v6) v28 v29) (k3_pay39 v30 (k3_pay9 (k3_pay2 v0) (k3_pay3 v2) (k3_pay4 v4) (k3_pay7 i v6) v28 v29 (k3_pay8 v28)) (k3_pay10 (k3_pay2 v0) (k3_pay3 v2) (k3_pay4 v4) (k3_pay7 i v6) v28 v29) (k3_pay13 (k3_pay3 v2) (k3_pay4 v4) v28 v29 (k3_pay11 (k3_pay2 v0) (k3_pay7 i v6) v28) (k3_pay12 v28)) (k3_pay14 (k3_pay2 v0) (k3_pay3 v2) (k3_pay4 v4) (k3_pay7 i v6) v28 v29) (k3_pay16 v29 (k3_pay15 (k3_pay2 v0) (k3_pay3 v2) (k3_pay4 v4) (k3_pay7 i v6) v28)) (k3_pay17 (k3_pay2 v0) (k3_pay3 v2) (k3_pay4 v4) (k3_pay7 i v6) v28 v29) (k3_pay18 (k3_pay2 v0) (k3_pay3 v2) (k3_pay4 v4) (k3_pay7 i v6) v28 v29) (k3_pay20 (k3_pay2 v0) (k3_pay3 v2) (k3_pay4 v4) (k3_pay7 i v6) v28 v29 (k3_pay19 v28))) (k3_pay40 v30 (k3_pay21 (k3_pay2 v0) (k3_pay3 v2) (k3_pay4 v4) (k3_pay7 i v6) v28 v29)))
    (k3_pay44 (k3_pay6 v6 v9) v31 (k3_pay43 v30 (k3_pay16 v29 (k3_pay15 (k3_pay2 v0) (k3_pay3 v2) (k3_pay4 v4) (k3_pay7 i v6) v28)) (k3_pay17 (k3_pay2 v0) (k3_pay3 v2) (k3_pay4 v4) (k3_pay7 i v6) v28 v29) (k3_pay18 (k3_pay2 v0) (k3_pay3 v2) (k3_pay4 v4) (k3_pay7 i v6) v28 v29) (k3_pay20 (k3_pay2 v0) (k3_pay3 v2) (k3_pay4 v4) (k3_pay7 i v6) v28 v29 (k3_pay19 v28)) (k3_pay21 (k3_pay2 v0) (k3_pay3 v2) (k3_pay4 v4) (k3_pay7 i v6) v28 v29) (k3_pay23 (k3_pay3 v2) (k3_pay4 v4) v28 v29 (k3_pay22 (k3_pay2 v0) (k3_pay7 i v6) v28)) (k3_pay24 (k3_pay2 v0) (k3_pay3 v2) (k3_pay4 v4) (k3_pay7 i v6) v28 v29) (k3_pay27 (k3_pay4 v4) v29 (k3_pay25 (k3_pay2 v0) (k3_pay3 v2) (k3_pay7 i v6) v28) (k3_pay26 v28)) (k3_pay28 (k3_pay2 v0) (k3_pay3 v2) (k3_pay4 v4) (k3_pay7 i v6) v28 v29) (k3_pay31 (k3_pay29 (k3_pay2 v0) (k3_pay3 v2) (k3_pay4 v4) (k3_pay7 i v6) v28 v29) (k3_pay30 (F := F))) (k3_pay32 (k3_pay2 v0) (k3_pay3 v2) (k3_pay4 v4) (k3_pay7 i v6) v28 v29) (k3_pay33 (k3_pay2 v0) (k3_pay3 v2) (k3_pay4 v4) (k3_pay7 i v6) v28 v29) (k3_pay42 v30 (k3_pay9 (k3_pay2 v0) (k3_pay3 v2) (k3_pay4 v4) (k3_pay7 i v6) v28 v29 (k3_pay8 v28)) (k3_pay10 (k3_pay2 v0) (k3_pay3 v2) (k3_pay4 v4) (k3_pay7 i v6) v28 v29) (k3_pay13 (k3_pay3 v2) (k3_pay4 v4) v28 v29 (k3_pay11 (k3_pay2 v0) (k3_pay7 i v6) v28) (k3_pay12 v28)) (k3_pay14 (k3_pay2 v0) (k3_pay3 v2) (k3_pay4 v4) (k3_pay7 i v6) v28 v29))))
    (k3_pay47 (k3_pay6 v6 v9) v30 v31 (k3_pay27 (k3_pay4 v4) v29 (k3_pay25 (k3_pay2 v0) (k3_pay3 v2) (k3_pay7 i v6) v28) (k3_pay26 v28)) (k3_pay28 (k3_pay2 v0) (k3_pay3 v2) (k3_pay4 v4) (k3_pay7 i v6) v28 v29) (k3_pay31 (k3_pay29 (k3_pay2 v0) (k3_pay3 v2) (k3_pay4 v4) (k3_pay7 i v6) v28 v29) (k3_pay30 (F := F))) (k3_pay32 (k3_pay2 v0) (k3_pay3 v2) (k3_pay4 v4) (k3_pay7 i v6) v28 v29) (k3_pay33 (k3_pay2 v0) (k3_pay3 v2) (k3_pay4 v4) (k3_pay7 i v6) v28 v29) (k3_pay45 v30 (k3_pay9 (k3_pay2 v0) (k3_pay3 v2) (k3_pay4 v4) (k3_pay7 i v6) v28 v29 (k3_pay8 v28)) (k3_pay10 (k3_pay2 v0) (k3_pay3 v2) (k3_pay4 v4) (k3_pay7 i v6) v28 v29) (k3_pay13 (k3_pay3 v2) (k3_pay4 v4) v28 v29 (k3_pay11 (k3_pay2 v0) (k3_pay7 i v6) v28) (k3_pay12 v28)) (k3_pay14 (k3_pay2 v0) (k3_pay3 v2) (k3_pay4 v4) (k3_pay7 i v6) v28 v29) (k3_pay16 v29 (k3_pay15 (k3_pay2 v0) (k3_pay3 v2) (k3_pay4 v4) (k3_pay7 i v6) v28)) (k3_pay17 (k3_pay2 v0) (k3_pay3 v2) (k3_pay4 v4) (k3_pay7 i v6) v28 v29) (k3_pay18 (k3_pay2 v0) (k3_pay3 v2) (k3_pay4 v4) (k3_pay7 i v6) v28 v29) (k3_pay20 (k3_pay2 v0) (k3_pay3 v2) (k3_pay4 v4) (k3_pay7 i v6) v28 v29 (k3_pay19 v28)) (k3_pay21 (k3_pay2 v0) (k3_pay3 v2) (k3_pay4 v4) (k3_pay7 i v6) v28 v29) (k3_pay23 (k3_pay3 v2) (k3_pay4 v4) v28 v29 (k3_pay22 (k3_pay2 v0) (k3_pay7 i v6) v28)) (k3_pay24 (k3_pay2 v0) (k3_pay3 v2) (k3_pay4 v4) (k3_pay7 i v6) v28 v29)) (k3_pay46 v30))
    (k3_pay50 (k3_pay6 v6 v9) v30 v31 (k3_pay18 (k3_pay2 v0) (k3_pay3 v2) (k3_pay4 v4) (k3_pay7 i v6) v28 v29) (k3_pay20 (k3_pay2 v0) (k3_pay3 v2) (k3_pay4 v4) (k3_pay7 i v6) v28 v29 (k3_pay19 v28)) (k3_pay21 (k3_pay2 v0) (k3_pay3 v2) (k3_pay4 v4) (k3_pay7 i v6) v28 v29) (k3_pay23 (k3_pay3 v2) (k3_pay4 v4) v28 v29 (k3_pay22 (k3_pay2 v0) (k3_pay7 i v6) v28)) (k3_pay24 (k3_pay2 v0) (k3_pay3 v2) (k3_pay4 v4) (k3_pay7 i v6) v28 v29) (k3_pay27 (k3_pay4 v4) v29 (k3_pay25 (k3_pay2 v0) (k3_pay3 v2) (k3_pay7 i v6) v28) (k3_pay26 v28)) (k3_pay28 (k3_pay2 v0) (k3_pay3 v2) (k3_pay4 v4) (k3_pay7 i v6) v28 v29) (k3_pay31 (k3_pay29 (k3_pay2 v0) (k3_pay3 v2) (k3_pay4 v4) (k3_pay7 i v6) v28 v29) (k3_pay30 (F := F))) (k3_pay32 (k3_pay2 v0) (k3_pay3 v2) (k3_pay4 v4) (k3_pay7 i v6) v28 v29) (k3_pay33 (k3_pay2 v0) (k3_pay3 v2) (k3_pay4 v4) (k3_pay7 i v6) v28 v29) (k3_pay48 v30 (k3_pay9 (k3_pay2 v0) (k3_pay3 v2) (k3_pay4 v4) (k3_pay7 i v6) v28 v29 (k3_pay8 v28)) (k3_pay10 (k3_pay2 v0) (k3_pay3 v2) (k3_pay4 v4) (k3_pay7 i v6) v28 v29) (k3_pay13 (k3_pay3 v2) (k3_pay4 v4) v28 v29 (k3_pay11 (k3_pay2 v0) (k3_pay7 i v6) v28) (k3_pay12 v28)) (k3_pay14 (k3_pay2 v0) (k3_pay3 v2) (k3_pay4 v4) (k3_pay7 i v6) v28 v29) (k3_pay16 v29 (k3_pay15 (k3_pay2 v0) (k3_pay3 v2) (k3_pay4 v4) (k3_pay7 i v6) v28)) (k3_pay17 (k3_pay2 v0) (k3_pay3 v2) (k3_pay4 v4) (k3_pay7 i v6) v28 v29)) (k3_pay49 v30))
    (k3_pay55 (k3_pay6 v6 v9) v30 v31 (k3_pay31 (k3_pay29 (k3_pay2 v0) (k3_pay3 v2) (k3_pay4 v4) (k3_pay7 i v6) v28 v29) (k3_pay30 (F := F))) (k3_pay32 (k3_pay2 v0) (k3_pay3 v2) (k3_pay4 v4) (k3_pay7 i v6) v28 v29) (k3_pay33 (k3_pay2 v0) (k3_pay3 v2) (k3_pay4 v4) (k3_pay7 i v6) v28 v29) (k3_pay53 v30 (k3_pay10 (k3_pay2 v0) (k3_pay3 v2) (k3_pay4 v4) (k3_pay7 i v6) v28 v29) (k3_pay13 (k3_pay3 v2) (k3_pay4 v4) v28 v29 (k3_pay11 (k3_pay2 v0) (k3_pay7 i v6) v28) (k3_pay12 v28)) (k3_pay14 (k3_pay2 v0) (k3_pay3 v2) (k3_pay4 v4) (k3_pay7 i v6) v28 v29) (k3_pay16 v29 (k3_pay15 (k3_pay2 v0) (k3_pay3 v2) (k3_pay4 v4) (k3_pay7 i v6) v28)) (k3_pay17 (k3_pay2 v0) (k3_pay3 v2) (k3_pay4 v4) (k3_pay7 i v6) v28 v29) (k3_pay18 (k3_pay2 v0) (k3_pay3 v2) (k3_pay4 v4) (k3_pay7 i v6) v28 v29) (k3_pay20 (k3_pay2 v0) (k3_pay3 v2) (k3_pay4 v4) (k3_pay7 i v6) v28 v29 (k3_pay19 v28)) (k3_pay21 (k3_pay2 v0) (k3_pay3 v2) (k3_pay4 v4) (k3_pay7 i v6) v28 v29) (k3_pay23 (k3_pay3 v2) (k3_pay4 v4) v28 v29 (k3_pay22 (k3_pay2 v0) (k3_pay7 i v6) v28)) (k3_pay24 (k3_pay2 v0) (k3_pay3 v2) (k3_pay4 v4) (k3_pay7 i v6) v28 v29) (k3_pay27 (k3_pay4 v4) v29 (k3_pay25 (k3_pay2 v0) (k3_pay3 v2) (k3_pay7 i v6) v28) (k3_pay26 v28)) (k3_pay28 (k3_pay2 v0) (k3_pay3 v2) (k3_pay4 v4) (k3_pay7 i v6) v28 v29) (k3_pay51 v30 (k3_pay9 (k3_pay2 v0) (k3_pay3 v2) (k3_pay4 v4) (k3_pay7 i v6) v28 v29 (k3_pay8 v28))) (k3_pay52 v30)) (k3_pay54 v30))
    (k3_pay58 (k3_pay6 v6 v9) v30 v31 (k3_pay23 (k3_pay3 v2) (k3_pay4 v4) v28 v29 (k3_pay22 (k3_pay2 v0) (k3_pay7 i v6) v28)) (k3_pay24 (k3_pay2 v0) (k3_pay3 v2) (k3_pay4 v4) (k3_pay7 i v6) v28 v29) (k3_pay27 (k3_pay4 v4) v29 (k3_pay25 (k3_pay2 v0) (k3_pay3 v2) (k3_pay7 i v6) v28) (k3_pay26 v28)) (k3_pay28 (k3_pay2 v0) (k3_pay3 v2) (k3_pay4 v4) (k3_pay7 i v6) v28 v29) (k3_pay31 (k3_pay29 (k3_pay2 v0) (k3_pay3 v2) (k3_pay4 v4) (k3_pay7 i v6) v28 v29) (k3_pay30 (F := F))) (k3_pay32 (k3_pay2 v0) (k3_pay3 v2) (k3_pay4 v4) (k3_pay7 i v6) v28 v29) (k3_pay33 (k3_pay2 v0) (k3_pay3 v2) (k3_pay4 v4) (k3_pay7 i v6) v28 v29) (k3_pay56 v30 (k3_pay9 (k3_pay2 v0) (k3_pay3 v2) (k3_pay4 v4) (k3_pay7 i v6) v28 v29 (k3_pay8 v28)) (k3_pay10 (k3_pay2 v0) (k3_pay3 v2) (k3_pay4 v4) (k3_pay7 i v6) v28 v29) (k3_pay13 (k3_pay3 v2) (k3_pay4 v4) v28 v29 (k3_pay11 (k3_pay2 v0) (k3_pay7 i v6) v28) (k3_pay12 v28)) (k3_pay14 (k3_pay2 v0) (k3_pay3 v2) (k3_pay4 v4) (k3_pay7 i v6) v28 v29) (k3_pay16 v29 (k3_pay15 (k3_pay2 v0) (k3_pay3 v2) (k3_pay4 v4) (k3_pay7 i v6) v28)) (k3_pay17 (k3_pay2 v0) (k3_pay3 v2) (k3_pay4 v4) (k3_pay7 i v6) v28 v29) (k3_pay18 (k3_pay2 v0) (k3_pay3 v2) (k3_pay4 v4) (k3_pay7 i v6) v28 v29) (k3_pay20 (k3_pay2 v0) (k3_pay3 v2) (k3_pay4 v4) (k3_pay7 i v6) v28 v29 (k3_pay19 v28))) (k3_pay57 v30 (k3_pay21 (k3_pay2 v0) (k3_pay3 v2) (k3_pay4 v4) (k3_pay7 i v6) v28 v29)))
    (k3_pay60 v30 (k3_pay16 v29 (k3_pay15 (k3_pay2 v0) (k3_pay3 v2) (k3_pay4 v4) (k3_pay7 i v6) v28)) (k3_pay17 (k3_pay2 v0) (k3_pay3 v2) (k3_pay4 v4) (k3_pay7 i v6) v28 v29) (k3_pay18 (k3_pay2 v0) (k3_pay3 v2) (k3_pay4 v4) (k3_pay7 i v6) v28 v29) (k3_pay20 (k3_pay2 v0) (k3_pay3 v2) (k3_pay4 v4) (k3_pay7 i v6) v28 v29 (k3_pay19 v28)) (k3_pay21 (k3_pay2 v0) (k3_pay3 v2) (k3_pay4 v4) (k3_pay7 i v6) v28 v29) (k3_pay23 (k3_pay3 v2) (k3_pay4 v4) v28 v29 (k3_pay22 (k3_pay2 v0) (k3_pay7 i v6) v28)) (k3_pay24 (k3_pay2 v0) (k3_pay3 v2) (k3_pay4 v4) (k3_pay7 i v6) v28 v29) (k3_pay27 (k3_pay4 v4) v29 (k3_pay25 (k3_pay2 v0) (k3_pay3 v2) (k3_pay7 i v6) v28) (k3_pay26 v28)) (k3_pay28 (k3_pay2 v0) (k3_pay3 v2) (k3_pay4 v4) (k3_pay7 i v6) v28 v29) (k3_pay31 (k3_pay29 (k3_pay2 v0) (k3_pay3 v2) (k3_pay4 v4) (k3_pay7 i v6) v28 v29) (k3_pay30 (F := F))) (k3_pay32 (k3_pay2 v0) (k3_pay3 v2) (k3_pay4 v4) (k3_pay7 i v6) v28 v29) (k3_pay33 (k3_pay2 v0) (k3_pay3 v2) (k3_pay4 v4) (k3_pay7 i v6) v28 v29) (k3_pay59 v30 (k3_pay9 (k3_pay2 v0) (k3_pay3 v2) (k3_pay4 v4) (k3_pay7 i v6) v28 v29 (k3_pay8 v28)) (k3_pay10 (k3_pay2 v0) (k3_pay3 v2) (k3_pay4 v4) (k3_pay7 i v6) v28 v29) (k3_pay13 (k3_pay3 v2) (k3_pay4 v4) v28 v29 (k3_pay11 (k3_pay2 v0) (k3_pay7 i v6) v28) (k3_pay12 v28)) (k3_pay14 (k3_pay2 v0) (k3_pay3 v2) (k3_pay4 v4) (k3_pay7 i v6) v28 v29)))

/-- The output buffer after the body is the stored value, at the loads of the nine input blocks, written through
    the whole rectangle. -/
theorem out3_9_eq (i : grid3.Coords) (x0 : Vec F S1x512x1024 .f32) (x1 : Vec F S1x512x1024 .f32) (x2 : Vec F S1x512x1024 .f32) (x3 : Vec F S1x512x1 .f32) (x4 : Vec F S1x1x1024 .f32) (x5 : Vec F S4x16 .f32) (x6 : Vec F S16 .f32) (x7 : Vec F S16x8 .f32) (x8 : Vec F S8 .f32) :
    out3_9 i x0 x1 x2 x3 x4 x5 x6 x7 x8 = View.canon [⟨r3_7, store3 i (View.ld x0 r3_0) (View.ld x1 r3_0) (View.ld x2 r3_0) (View.ld x3 r3_1) (View.ld x4 r3_2) (View.ld x5 r3_3) (View.ld x6 r3_4) (View.ld x7 r3_5) (View.ld x8 r3_6)⟩] := rfl

end Cert.KernelIdeal.Frm

end
-- ==== Proof.KIPay3.lean ====
/-
  The perceptron body read at an entry.

  The body loads three [1, 512, 1024] blocks p1, p2, p4, the matching [1, 512, 1] column block and [1, 1, 1024] row
  block of the mask, and the weights of the two layers.  At the entry (r, q) of its 512 x 1024 tile it forms four
  values: the column mask entry where the tile's row r (offset by 512 times the second grid coordinate) is the column
  q and zero elsewhere, and the three block entries.  Each of sixteen hidden units is the rectified sum of the four
  values times their weights plus a bias; each of eight outputs is the sum of the hidden units times their weights
  plus a bias, times the product of the column and row mask entries.  The body adds the terms of each sum from the
  left, in the order of the index, which is the order in which a sum over a finite index type unfolds; no law of
  arithmetic is needed beyond that.
-/
import proofs.«115754_j78331613544465_2_alg».proof.Proof.Gen.KernelIdeal.Skeleton
import proofs.«115754_j78331613544465_2_alg».proof.Proof.KIPay0
import proofs.«115754_j78331613544465_2_alg».proof.Proof.KIStore3
import proofs.«115754_j78331613544465_2_alg».proof.Proof.Spec
import Idealize.ShloMosaic.PureOps.Ideal.Laws
import Idealize.ShloMosaic.Lib.ValueLayout
import Idealize.ShloMosaic.Lib.Pipeline.Value

noncomputable section

namespace Cert.KernelIdeal.Val

open Idealize.ShloMosaic Idealize.ShloMosaic.ValueIdx Cert.KernelIdeal Cert.KernelIdeal.Gen

/-! ## One entry of a weight array, taken as a slice of one element -/

section Layout
variable {α : Type}

/-- The entry (a, b) of an [m, n] array, taken as the 1 x 1 slice at offsets (a, b) and then as its one element. -/
theorem weight_at {m n : ℕ} (v : (⟨2, ![m, n]⟩ : Shape).Idx → α) (a b : ℕ)
    (h : (⟨2, ![m, n]⟩ : Shape).Slices ![a, b] ⟨2, ![1, 1]⟩)
    (hp : ∀ d, (![0, 0] : Fin 2 → ℕ) d < (⟨2, ![1, 1]⟩ : Shape).size d) :
    extractAt ![0, 0] (extractStridedSlice ⟨2, ![1, 1]⟩ ![a, b] v h) hp = v (ix2 ⟨a, h.2 0⟩ ⟨b, h.2 1⟩) :=
  congrArg v (funext fun d => Fin.ext (by match d with | ⟨0, _⟩ => rfl | ⟨1, _⟩ => rfl))

/-- The entry a of an [n] array, taken as the slice of one element at offset a and then as its one element. -/
theorem bias_at {n : ℕ} (v : (⟨1, ![n]⟩ : Shape).Idx → α) (a : ℕ)
    (h : (⟨1, ![n]⟩ : Shape).Slices ![a] ⟨1, ![1]⟩)
    (hp : ∀ d, (![0] : Fin 1 → ℕ) d < (⟨1, ![1]⟩ : Shape).size d) :
    extractAt ![0] (extractStridedSlice ⟨1, ![1]⟩ ![a] v h) hp = v (ix1 ⟨a, h.2 0⟩) :=
  congrArg v (funext fun d => Fin.ext (by match d with | ⟨0, _⟩ => rfl))

end Layout

/-! ## The four values at an entry of the tile -/

/-- A loaded [1, 512, 1024] block with its unit axis dropped, at (r, q). -/
theorem k3_pay2_at (v : Vec Ideal S1x512x1024 .f32) (r : Fin 512) (q : Fin 1024) :
    k3_pay2 (F := Ideal) v (ix2 r q) = v (ix3 (0 : Fin 1) r q) := by
  unfold k3_pay2
  exact shapeCast_1ab_ab_apply _ _ r q

theorem k3_pay3_at (v : Vec Ideal S1x512x1024 .f32) (r : Fin 512) (q : Fin 1024) :
    k3_pay3 (F := Ideal) v (ix2 r q) = v (ix3 (0 : Fin 1) r q) := by
  unfold k3_pay3
  exact shapeCast_1ab_ab_apply _ _ r q

theorem k3_pay4_at (v : Vec Ideal S1x512x1024 .f32) (r : Fin 512) (q : Fin 1024) :
    k3_pay4 (F := Ideal) v (ix2 r q) = v (ix3 (0 : Fin 1) r q) := by
  unfold k3_pay4
  exact shapeCast_1ab_ab_apply _ _ r q

/-- The column block of the mask as a vector, at r. -/
theorem k3_pay5_at (v6 : Vec Ideal S1x512x1 .f32) (r : Fin 512) :
    k3_pay5 (F := Ideal) v6 (ix1 r) = v6 (ix3 (0 : Fin 1) r (0 : Fin 1)) := by
  unfold k3_pay5
  rw [shapeCast_1a1_a_apply, shapeCast_self]

/-- The product of the column and row mask blocks, broadcast over the tile, at (r, q). -/
theorem k3_pay6_at (v6 : Vec Ideal S1x512x1 .f32) (v9 : Vec Ideal S1x1x1024 .f32) (r : Fin 512) (q : Fin 1024) :
    k3_pay6 (F := Ideal) v6 v9 (ix2 r q)
      = v6 (ix3 (0 : Fin 1) r (0 : Fin 1)) * v9 (ix3 (0 : Fin 1) (0 : Fin 1) q) := by
  unfold k3_pay6
  rw [mulf_apply, broadcastTo_a1_ab_apply, shapeCast_a_a1_apply, k3_pay5_at, broadcastTo_1b_ab_apply,
    shapeCast_a_1a_apply, shapeCast_11a_a_apply, shapeCast_self]

/-- Row t * 512 + r of the array against column q, compared as 32-bit words: the words are equal exactly when the
    numbers are, since both are below 2048. -/
theorem diag_word (t : ℕ) (ht : t < 2) (r : Fin 512) (q : Fin 1024) :
    IntOp.cmpi .eq (IntOp.addi (IntOp.muli (BitVec.ofNat 32 t) 512#32) (BitVec.ofNat 32 r.val)) (BitVec.ofNat 32 q.val)
      = if t * 512 + r.val = q.val then 1#1 else 0#1 := by
  have key : (BitVec.ofNat 32 t * 512#32 + BitVec.ofNat 32 r.val = BitVec.ofNat 32 q.val) ↔ t * 512 + r.val = q.val := by
    rw [← BitVec.toNat_inj]
    simp only [BitVec.toNat_add, BitVec.toNat_mul, BitVec.toNat_ofNat]
    have := r.isLt
    have := q.isLt
    constructor <;> intro h <;> omega
  unfold IntOp.cmpi IntOp.addi IntOp.muli
  by_cases h : t * 512 + r.val = q.val
  · rw [if_pos h, key.mpr h, beq_self_eq_true]
    rfl
  · rw [if_neg h]
    have hne : ¬ (BitVec.ofNat 32 t * 512#32 + BitVec.ofNat 32 r.val = BitVec.ofNat 32 q.val) := fun e => h (key.mp e)
    rw [beq_false_of_ne hne]
    rfl

/-- The masked diagonal of the tile at (r, q): the column mask entry where the tile's row, offset by 512 times the
    second grid coordinate, is the column q, and zero elsewhere. -/
theorem k3_pay7_at (i : grid3.Coords) (v6 : Vec Ideal S1x512x1 .f32) (r : Fin 512) (q : Fin 1024) :
    k3_pay7 (F := Ideal) i v6 (ix2 r q)
      = if (i 1).val * 512 + r.val = q.val then v6 (ix3 (0 : Fin 1) r (0 : Fin 1)) else 0 := by
  have hsel : k3_pay7 (F := Ideal) i v6 (ix2 r q)
      = Scalar.select
          (IntOp.cmpi .eq
            (IntOp.addi (IntOp.muli (BitVec.ofNat 32 (i 1).val) 512#32)
              (iota .tc S512x1024 32 [0] iota_S512x1024_d0_w32 (ix2 r q)))
            (iota .tc S512x1024 32 [1] iota_S512x1024_d1_w32 (ix2 r q)))
          (broadcastTo S512x1024
            (shapeCast S512x1 (shapeCast S512x1 (k3_pay5 (F := Ideal) v6) shapeCasts_S512_S512x1) shapeCasts_S512x1_S512x1)
            broadcasts_S512x1_S512x1024 (ix2 r q))
          (Ideal.ofBits .f32 0x00000000#32) := rfl
  have hc : IntOp.cmpi .eq
        (IntOp.addi (IntOp.muli (BitVec.ofNat 32 (i 1).val) 512#32)
          (iota .tc S512x1024 32 [0] iota_S512x1024_d0_w32 (ix2 r q)))
        (iota .tc S512x1024 32 [1] iota_S512x1024_d1_w32 (ix2 r q))
      = if (i 1).val * 512 + r.val = q.val then 1#1 else 0#1 := by
    rw [iota_single_apply, iota_single_apply]
    exact diag_word (i 1).val (i 1).isLt r q
  rw [hsel, hc, broadcastTo_a1_ab_apply, shapeCast_self, shapeCast_a_a1_apply, k3_pay5_at, Ideal.ofBits_zero_f32]
  by_cases h : (i 1).val * 512 + r.val = q.val
  · rw [if_pos h, if_pos h, select_one]
  · rw [if_neg h, if_neg h, select_zero]

/-! ## The eight outputs stacked -/

/-- Eight arrays of one shape with a leading axis of extent one, joined along that axis and read at (o, r, q): the
    array that o names, at (0, r, q), for any eight arrays. -/
theorem stack8_at (y0 y1 y2 y3 y4 y5 y6 y7 : S1x512x1024.Idx → EReal)
    (h : Shape.Concatenates [S1x512x1024, S1x512x1024, S1x512x1024, S1x512x1024, S1x512x1024, S1x512x1024,
      S1x512x1024, S1x512x1024] S8x512x1024 0)
    (o : Fin 8) (r : Fin 512) (q : Fin 1024) :
    concatenate S8x512x1024 0
        [⟨S1x512x1024, y0⟩, ⟨S1x512x1024, y1⟩, ⟨S1x512x1024, y2⟩, ⟨S1x512x1024, y3⟩, ⟨S1x512x1024, y4⟩,
          ⟨S1x512x1024, y5⟩, ⟨S1x512x1024, y6⟩, ⟨S1x512x1024, y7⟩] h (ix3 o r q)
      = (![y0, y1, y2, y3, y4, y5, y6, y7] o) (ix3 (0 : Fin 1) r q) :=
  concatenate_ofFn_unit_apply (t := S8x512x1024) (s₁ := S1x512x1024) (0 : Fin 3) (![y0, y1, y2, y3, y4, y5, y6, y7]) h
    rfl rfl (ix3 o r q) o rfl (ix3 (0 : Fin 1) r q)
    (fun d hd => by
      match d with
      | ⟨0, _⟩ => exact absurd rfl hd
      | ⟨1, _⟩ => rfl
      | ⟨2, _⟩ => rfl)

/-- One of eight numbers, by position. -/
def sel8 (a0 a1 a2 a3 a4 a5 a6 a7 : EReal) (o : Fin 8) : EReal :=
  match o with
  | ⟨0, _⟩ => a0 | ⟨1, _⟩ => a1 | ⟨2, _⟩ => a2 | ⟨3, _⟩ => a3 | ⟨4, _⟩ => a4 | ⟨5, _⟩ => a5 | ⟨6, _⟩ => a6 | ⟨7, _⟩ => a7

/-- The stored array at (u, o, r, q): output o at (r, q).  The first seven outputs arrive finished; the last one
    arrives before its bias and mask factor, which are applied here. -/
theorem k3_pay1_at (v16 : FVec Ideal S512x1024 .f32) (v31 : Vec Ideal S8 .f32)
    (c0 c1 c2 c3 c4 c5 c6 c7 : FVec Ideal S512x1024 .f32) (u : Fin 1) (o : Fin 8) (r : Fin 512) (q : Fin 1024) :
    k3_pay1 (F := Ideal) v16 v31 c0 c1 c2 c3 c4 c5 c6 c7 (ix4 u o r q)
      = sel8 (c0 (ix2 r q)) (c1 (ix2 r q)) (c2 (ix2 r q)) (c3 (ix2 r q)) (c4 (ix2 r q)) (c5 (ix2 r q)) (c6 (ix2 r q))
          ((c7 (ix2 r q) + v31 (ix1 ⟨7, by decide⟩)) * v16 (ix2 r q)) o := by
  have hb : extractAt ![0] (extractStridedSlice S1 ![7] v31 slices_S8_o7_S1) inpos_S1_p0 = v31 (ix1 ⟨7, by decide⟩) :=
    bias_at v31 7 slices_S8_o7_S1 inpos_S1_p0
  unfold k3_pay1
  rw [shapeCast_abc_1abc_apply, stack8_at]
  match o with
  | ⟨0, _⟩ => exact shapeCast_ab_1ab_apply _ _ (0 : Fin 1) r q
  | ⟨1, _⟩ => exact shapeCast_ab_1ab_apply _ _ (0 : Fin 1) r q
  | ⟨2, _⟩ => exact shapeCast_ab_1ab_apply _ _ (0 : Fin 1) r q
  | ⟨3, _⟩ => exact shapeCast_ab_1ab_apply _ _ (0 : Fin 1) r q
  | ⟨4, _⟩ => exact shapeCast_ab_1ab_apply _ _ (0 : Fin 1) r q
  | ⟨5, _⟩ => exact shapeCast_ab_1ab_apply _ _ (0 : Fin 1) r q
  | ⟨6, _⟩ => exact shapeCast_ab_1ab_apply _ _ (0 : Fin 1) r q
  | ⟨7, _⟩ =>
    show shapeCast S1x512x1024
          (mulf (addf c7 (broadcast S512x1024
            (extractAt ![0] (extractStridedSlice S1 ![7] v31 slices_S8_o7_S1) inpos_S1_p0))) v16)
          shapeCasts_S512x1024_S1x512x1024 (ix3 (0 : Fin 1) r q)
        = (c7 (ix2 r q) + v31 (ix1 ⟨7, by decide⟩)) * v16 (ix2 r q)
    rw [shapeCast_ab_1ab_apply, mulf_apply, addf_apply, broadcast_apply, hb]

/-! ## A sum over sixteen indices, term by term from the left -/

/-- A sum over the sixteen indices is its terms added from the left in the order of the index. -/
theorem sum_sixteen (f : Fin 16 → EReal) :
    ∑ c : Fin 16, f c
      = f ⟨0, by decide⟩ + f ⟨1, by decide⟩ + f ⟨2, by decide⟩ + f ⟨3, by decide⟩ + f ⟨4, by decide⟩ + f ⟨5, by decide⟩
        + f ⟨6, by decide⟩ + f ⟨7, by decide⟩ + f ⟨8, by decide⟩ + f ⟨9, by decide⟩ + f ⟨10, by decide⟩ + f ⟨11, by decide⟩
        + f ⟨12, by decide⟩ + f ⟨13, by decide⟩ + f ⟨14, by decide⟩ + f ⟨15, by decide⟩ := by
  simp only [Fin.sum_univ_castSucc, Fin.sum_univ_zero, zero_add]
  rfl

/-- A sum over the four indices is its terms added from the left in the order of the index. -/
theorem sum_four (f : Fin 4 → EReal) :
    ∑ s : Fin 4, f s = f ⟨0, by decide⟩ + f ⟨1, by decide⟩ + f ⟨2, by decide⟩ + f ⟨3, by decide⟩ := by
  simp only [Fin.sum_univ_castSucc, Fin.sum_univ_zero, zero_add]
  rfl

/-! ## The perceptron of four values -/

/-- The four values the perceptron reads at an entry, by position. -/
def stk4 (d p1 p2 p4 : EReal) (s : Fin 4) : EReal :=
  match s with | ⟨0, _⟩ => d | ⟨1, _⟩ => p1 | ⟨2, _⟩ => p2 | ⟨3, _⟩ => p4

/-- The perceptron of four values d, p1, p2, p4 and a mask factor m: sixteen rectified affine forms of the four
    values, eight affine forms of those, the result times m. -/
def mlp (d p1 p2 p4 m : EReal) (w1 : Vec Ideal S4x16 .f32) (b1 : Vec Ideal S16 .f32) (w2 : Vec Ideal S16x8 .f32)
    (b2 : Vec Ideal S8 .f32) (o : Fin 8) : EReal :=
  ((∑ c : Fin 16, max ((∑ s : Fin 4, stk4 d p1 p2 p4 s * w1 (ix2 s c)) + b1 (ix1 c)) 0 * w2 (ix2 c o)) + b2 (ix1 o)) * m

/-- The specification's output is the perceptron of the masked identity, P, its square and its fourth power, with
    the product of the two mask entries as the mask factor. -/
theorem out_eq_mlp (adj : FVec Ideal ⟨3, ![8, 1024, 1024]⟩ .f32) (mask : IVec ⟨2, ![8, 1024]⟩ 1)
    (w1 : FVec Ideal ⟨2, ![4, 16]⟩ .f32) (b1 : FVec Ideal ⟨1, ![16]⟩ .f32)
    (w2 : FVec Ideal ⟨2, ![16, 8]⟩ .f32) (b2 : FVec Ideal ⟨1, ![8]⟩ .f32)
    (b : Fin 8) (i j : Fin 1024) (o : Fin 8) :
    Cert.Spec.out adj mask w1 b1 w2 b2 b i j o
      = mlp (Cert.Spec.selfAdj mask b i j) (Cert.Spec.P adj mask b i j) (Cert.Spec.P2 adj mask b i j)
          (Cert.Spec.P4 adj mask b i j) (Cert.Spec.pair mask b i j) w1 b1 w2 b2 o := by
  have hs : ∀ s : Fin 4, Cert.Spec.stk adj mask s b i j
      = stk4 (Cert.Spec.selfAdj mask b i j) (Cert.Spec.P adj mask b i j) (Cert.Spec.P2 adj mask b i j)
          (Cert.Spec.P4 adj mask b i j) s := fun s => by
    match s with
    | ⟨0, _⟩ => rfl
    | ⟨1, _⟩ => rfl
    | ⟨2, _⟩ => rfl
    | ⟨3, _⟩ => rfl
  unfold Cert.Spec.out Cert.Spec.hid mlp
  simp only [hs]

/-! ## The body's stored value at an entry -/

/-- One output at an entry: select it, unfold the body's pieces down to the four values, the weights and the mask
    entries, and read each piece at the entry. -/
local macro "mlp_entry" : tactic =>
  `(tactic| (simp only [sel8]
             simp only [k3_pay8, k3_pay9, k3_pay10, k3_pay11, k3_pay12, k3_pay13, k3_pay14, k3_pay15, k3_pay16, k3_pay17, k3_pay18, k3_pay19, k3_pay20, k3_pay21, k3_pay22, k3_pay23, k3_pay24, k3_pay25, k3_pay26, k3_pay27, k3_pay28, k3_pay29, k3_pay30, k3_pay31, k3_pay32, k3_pay33, k3_pay34, k3_pay35, k3_pay36, k3_pay37, k3_pay38, k3_pay39, k3_pay40, k3_pay41, k3_pay42, k3_pay43, k3_pay44, k3_pay45, k3_pay46, k3_pay47, k3_pay48, k3_pay49, k3_pay50, k3_pay51, k3_pay52, k3_pay53, k3_pay54, k3_pay55, k3_pay56, k3_pay57, k3_pay58, k3_pay59, k3_pay60, mulf_apply, addf_apply, maximumf_apply, broadcast_apply, weight_at, bias_at,
               k3_pay2_at, k3_pay3_at, k3_pay4_at, k3_pay6_at, k3_pay7_at, Ideal.ofBits_def, Ideal.ofBits_zero_f32]))

/-- THE BODY AT AN ENTRY: the stored array at (u, o, r, q) is output o of the perceptron of the masked diagonal entry
    and the three block entries at (r, q), with the product of the column and row mask entries as the mask factor. -/
theorem store3_apply (i : grid3.Coords) (v0 v2 v4 : Vec Ideal S1x512x1024 .f32) (v6 : Vec Ideal S1x512x1 .f32)
    (v9 : Vec Ideal S1x1x1024 .f32) (v28 : Vec Ideal S4x16 .f32) (v29 : Vec Ideal S16 .f32)
    (v30 : Vec Ideal S16x8 .f32) (v31 : Vec Ideal S8 .f32) (u : Fin 1) (o : Fin 8) (r : Fin 512) (q : Fin 1024) :
    Cert.KernelIdeal.Frm.store3 (F := Ideal) i v0 v2 v4 v6 v9 v28 v29 v30 v31 (ix4 u o r q)
      = mlp (if (i 1).val * 512 + r.val = q.val then v6 (ix3 (0 : Fin 1) r (0 : Fin 1)) else 0)
          (v0 (ix3 (0 : Fin 1) r q)) (v2 (ix3 (0 : Fin 1) r q)) (v4 (ix3 (0 : Fin 1) r q))
          (v6 (ix3 (0 : Fin 1) r (0 : Fin 1)) * v9 (ix3 (0 : Fin 1) (0 : Fin 1) q)) v28 v29 v30 v31 o := by
  unfold Cert.KernelIdeal.Frm.store3
  rw [k3_pay1_at]
  unfold mlp
  simp only [sum_sixteen, sum_four, stk4]
  match o with
  | ⟨0, _⟩ => mlp_entry
  | ⟨1, _⟩ => mlp_entry
  | ⟨2, _⟩ => mlp_entry
  | ⟨3, _⟩ => mlp_entry
  | ⟨4, _⟩ => mlp_entry
  | ⟨5, _⟩ => mlp_entry
  | ⟨6, _⟩ => mlp_entry
  | ⟨7, _⟩ => mlp_entry

end Cert.KernelIdeal.Val

end
-- ==== Proof.KIVal3.lean ====
/-
  The perceptron stage: from the blocks its grid points write to the whole array.

  The stage runs at 16 grid points, point t = (b, h) with b = t / 2 the batch entry and h = t mod 2 the half of the
  rows. At point t its three matrix blocks are rows 512·h … 512·h + 511 of batch entry b of the three arrays the
  earlier stages left, its mask column block the same rows of the column array, its mask row block the whole row
  array of batch entry b, its four weight blocks the whole weight arrays, and it writes back, for each of the eight
  outputs o, rows 512·h … 512·h + 511 of plane (b, o) of the result. Row r of a block is row i = 512·h + r of the
  array, and the body's second grid coordinate is h, so the entry written at (b, o, i, q) is the perceptron of the
  four stacked values at (b, i, q): the specification's output o there. The sixteen blocks tile the array, so the
  array the stage leaves is the specification's result in heads-major order.
-/
import proofs.«115754_j78331613544465_2_alg».proof.Proof.KIReg3
import proofs.«115754_j78331613544465_2_alg».proof.Proof.KIStore3
import proofs.«115754_j78331613544465_2_alg».proof.Proof.KIPay3
import proofs.«115754_j78331613544465_2_alg».proof.Proof.Spec
import Idealize.ShloMosaic.Lib.Pipeline.Value

noncomputable section

namespace Cert.KernelIdeal.Val

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Frm

/-! ## The body at an entry is the specification's output, given what its nine blocks hold -/

/-- If row r of the three matrix blocks is row I of batch entry b of P, P2 and P4, the grid's second coordinate
    places the block's row r at row I, the mask column block at r is the mask's number at (b, I), the mask row
    block is the mask's numbers of batch entry b, and the weight blocks are the weights, then the stored value at
    (0, o, r, q) is the specification's output o at (b, I, q). -/
theorem body_eq_out (adj : FVec Ideal ⟨3, ![8, 1024, 1024]⟩ .f32) (mask : IVec ⟨2, ![8, 1024]⟩ 1)
    (w1 : FVec Ideal ⟨2, ![4, 16]⟩ .f32) (b1 : FVec Ideal ⟨1, ![16]⟩ .f32) (w2 : FVec Ideal ⟨2, ![16, 8]⟩ .f32) (b2 : FVec Ideal ⟨1, ![8]⟩ .f32)
    (i : grid3.Coords) (x0 x1 x2 : Vec Ideal S1x512x1024 .f32) (x3 : Vec Ideal S1x512x1 .f32) (x4 : Vec Ideal S1x1x1024 .f32)
    (b : Fin 8) (I : Fin 1024) (r : Fin 512) (hI : I.val = (i 1).val * 512 + r.val)
    (h0 : ∀ q : Fin 1024, x0 (ix3 (0 : Fin 1) r q) = Cert.Spec.P adj mask b I q)
    (h1 : ∀ q : Fin 1024, x1 (ix3 (0 : Fin 1) r q) = Cert.Spec.P2 adj mask b I q)
    (h2 : ∀ q : Fin 1024, x2 (ix3 (0 : Fin 1) r q) = Cert.Spec.P4 adj mask b I q)
    (h3 : x3 (ix3 (0 : Fin 1) r (0 : Fin 1)) = Cert.Spec.msk mask b I)
    (h4 : ∀ q : Fin 1024, x4 (ix3 (0 : Fin 1) (0 : Fin 1) q) = Cert.Spec.msk mask b q)
    (u : Fin 1) (o : Fin 8) (q : Fin 1024) :
    store3 (F := Ideal) i x0 x1 x2 x3 x4 w1 b1 w2 b2 (ix4 u o r q) = Cert.Spec.out adj mask w1 b1 w2 b2 b I q o := by
  rw [store3_apply, out_eq_mlp, h0, h1, h2, h3, h4]
  have hd : (if (i 1).val * 512 + r.val = q.val then Cert.Spec.msk mask b I else 0) = Cert.Spec.selfAdj mask b I q := by
    unfold Cert.Spec.selfAdj
    by_cases h : I = q
    · rw [if_pos h, if_pos (by rw [← hI, h])]
    · rw [if_neg h, if_neg (fun e => h (Fin.ext (by rw [hI, e])))]
  rw [hd]
  rfl

/-! ## The grid: which rows a point's blocks are -/

theorem hz1_3 : (![0] : Fin 1 → Nat) = fun _ => 0 := funext fun a => by fin_cases a <;> rfl
theorem hz2_3 : (![0, 0] : Fin 2 → Nat) = fun _ => 0 := funext fun a => by fin_cases a <;> rfl
theorem hz3_3 : (![0, 0, 0] : Fin 3 → Nat) = fun _ => 0 := funext fun a => by fin_cases a <;> rfl
theorem hz4_3 : (![0, 0, 0, 0] : Fin 4 → Nat) = fun _ => 0 := funext fun a => by fin_cases a <;> rfl

theorem N3 : cfg3.N = 16 := N_3

/-- The printed index maps of the matrix and mask windows, decided over the 16 points: point t is batch entry t / 2
    and row half t mod 2. -/
theorem idx3_0 : ∀ t : Fin cfg3.N,
    win3_0.index t (0 : Fin 3) = t.val / 2 ∧ win3_0.index t (1 : Fin 3) = t.val % 2 ∧ win3_0.index t (2 : Fin 3) = 0 :=
  (by decide +kernel : ∀ t : Fin grid3.N, _)
theorem idx3_1 : ∀ t : Fin cfg3.N,
    win3_1.index t (0 : Fin 3) = t.val / 2 ∧ win3_1.index t (1 : Fin 3) = t.val % 2 ∧ win3_1.index t (2 : Fin 3) = 0 :=
  (by decide +kernel : ∀ t : Fin grid3.N, _)
theorem idx3_2 : ∀ t : Fin cfg3.N,
    win3_2.index t (0 : Fin 3) = t.val / 2 ∧ win3_2.index t (1 : Fin 3) = t.val % 2 ∧ win3_2.index t (2 : Fin 3) = 0 :=
  (by decide +kernel : ∀ t : Fin grid3.N, _)
theorem idx3_3 : ∀ t : Fin cfg3.N,
    win3_3.index t (0 : Fin 3) = t.val / 2 ∧ win3_3.index t (1 : Fin 3) = t.val % 2 ∧ win3_3.index t (2 : Fin 3) = 0 :=
  (by decide +kernel : ∀ t : Fin grid3.N, _)
theorem idx3_4 : ∀ t : Fin cfg3.N,
    win3_4.index t (0 : Fin 3) = t.val / 2 ∧ win3_4.index t (1 : Fin 3) = 0 ∧ win3_4.index t (2 : Fin 3) = 0 :=
  (by decide +kernel : ∀ t : Fin grid3.N, _)
/-- The weight windows are the whole arrays at every point. -/
theorem idx3_5 : ∀ t : Fin cfg3.N, win3_5.index t (0 : Fin 2) = 0 ∧ win3_5.index t (1 : Fin 2) = 0 :=
  (by decide +kernel : ∀ t : Fin grid3.N, _)
theorem idx3_6 : ∀ t : Fin cfg3.N, win3_6.index t (0 : Fin 1) = 0 :=
  (by decide +kernel : ∀ t : Fin grid3.N, _)
theorem idx3_7 : ∀ t : Fin cfg3.N, win3_7.index t (0 : Fin 2) = 0 ∧ win3_7.index t (1 : Fin 2) = 0 :=
  (by decide +kernel : ∀ t : Fin grid3.N, _)
theorem idx3_8 : ∀ t : Fin cfg3.N, win3_8.index t (0 : Fin 1) = 0 :=
  (by decide +kernel : ∀ t : Fin grid3.N, _)
/-- The result window: batch entry t / 2, all eight planes, row half t mod 2. -/
theorem idx3_9 : ∀ t : Fin cfg3.N,
    win3_9.index t (0 : Fin 4) = t.val / 2 ∧ win3_9.index t (1 : Fin 4) = 0 ∧ win3_9.index t (2 : Fin 4) = t.val % 2
      ∧ win3_9.index t (3 : Fin 4) = 0 :=
  (by decide +kernel : ∀ t : Fin grid3.N, _)
/-- The second grid coordinate of point t is its row half. -/
theorem coord3_1 : ∀ t : Fin cfg3.N, ((grid3.coords t) 1).val = t.val % 2 :=
  (by decide +kernel : ∀ t : Fin grid3.N, _)

/-- The batch entry of point t. -/
def batch3 (t : Fin cfg3.N) : Fin 8 := ⟨t.val / 2, by have := t.isLt; have hN := N3; omega⟩
/-- Row r of point t's blocks, as a row of the array. -/
def row3 (t : Fin cfg3.N) (r : Fin 512) : Fin 1024 := ⟨t.val % 2 * 512 + r.val, by have := r.isLt; omega⟩

variable (V : (c : Dev nD) → (b : Ref sig .tc) → Buf (Elt Ideal) ((c : Thread nD τ).loc b))

/-- Matrix block 0 of point t at (u, r, q) is its array at (batch, row, q). -/
theorem iblk3_0_apply (c : Dev nD) (t : Fin cfg3.N) (u : Fin 1) (r : Fin 512) (q : Fin 1024) :
    (iblk3 V c 0 t : Vec Ideal S1x512x1024 .f32) (ix3 u r q)
      = (V c main_v3 : S8x1024x1024.Idx → EReal) (ix3 (batch3 t) (row3 t r) q) := by
  obtain ⟨e0, e1, e2⟩ := idx3_0 t
  unfold iblk3
  rw [View.read_apply]
  show V c main_v3 _ = V c main_v3 _
  congr 1
  funext a
  apply Fin.ext
  match a with
  | ⟨0, _⟩ => show win3_0.index t (0 : Fin 3) * 1 + 1 * u.val = t.val / 2; have := u.isLt; omega
  | ⟨1, _⟩ => show win3_0.index t (1 : Fin 3) * 512 + 1 * r.val = t.val % 2 * 512 + r.val; omega
  | ⟨2, _⟩ => show win3_0.index t (2 : Fin 3) * 1024 + 1 * q.val = q.val; omega

/-- Matrix block 1 of point t at (u, r, q) is its array at (batch, row, q). -/
theorem iblk3_1_apply (c : Dev nD) (t : Fin cfg3.N) (u : Fin 1) (r : Fin 512) (q : Fin 1024) :
    (iblk3 V c 1 t : Vec Ideal S1x512x1024 .f32) (ix3 u r q)
      = (V c main_v4 : S8x1024x1024.Idx → EReal) (ix3 (batch3 t) (row3 t r) q) := by
  obtain ⟨e0, e1, e2⟩ := idx3_1 t
  unfold iblk3
  rw [View.read_apply]
  show V c main_v4 _ = V c main_v4 _
  congr 1
  funext a
  apply Fin.ext
  match a with
  | ⟨0, _⟩ => show win3_1.index t (0 : Fin 3) * 1 + 1 * u.val = t.val / 2; have := u.isLt; omega
  | ⟨1, _⟩ => show win3_1.index t (1 : Fin 3) * 512 + 1 * r.val = t.val % 2 * 512 + r.val; omega
  | ⟨2, _⟩ => show win3_1.index t (2 : Fin 3) * 1024 + 1 * q.val = q.val; omega

/-- Matrix block 2 of point t at (u, r, q) is its array at (batch, row, q). -/
theorem iblk3_2_apply (c : Dev nD) (t : Fin cfg3.N) (u : Fin 1) (r : Fin 512) (q : Fin 1024) :
    (iblk3 V c 2 t : Vec Ideal S1x512x1024 .f32) (ix3 u r q)
      = (V c main_v5 : S8x1024x1024.Idx → EReal) (ix3 (batch3 t) (row3 t r) q) := by
  obtain ⟨e0, e1, e2⟩ := idx3_2 t
  unfold iblk3
  rw [View.read_apply]
  show V c main_v5 _ = V c main_v5 _
  congr 1
  funext a
  apply Fin.ext
  match a with
  | ⟨0, _⟩ => show win3_2.index t (0 : Fin 3) * 1 + 1 * u.val = t.val / 2; have := u.isLt; omega
  | ⟨1, _⟩ => show win3_2.index t (1 : Fin 3) * 512 + 1 * r.val = t.val % 2 * 512 + r.val; omega
  | ⟨2, _⟩ => show win3_2.index t (2 : Fin 3) * 1024 + 1 * q.val = q.val; omega

/-- The mask column block of point t at (u, r, v) is the column array at (batch, row, 0). -/
theorem iblk3_3_apply (c : Dev nD) (t : Fin cfg3.N) (u : Fin 1) (r : Fin 512) (v : Fin 1) :
    (iblk3 V c 3 t : Vec Ideal S1x512x1 .f32) (ix3 u r v)
      = (V c main_v1 : S8x1024x1.Idx → EReal) (ix3 (batch3 t) (row3 t r) (0 : Fin 1)) := by
  obtain ⟨e0, e1, e2⟩ := idx3_3 t
  unfold iblk3
  rw [View.read_apply]
  show V c main_v1 _ = V c main_v1 _
  congr 1
  funext a
  apply Fin.ext
  match a with
  | ⟨0, _⟩ => show win3_3.index t (0 : Fin 3) * 1 + 1 * u.val = t.val / 2; have := u.isLt; omega
  | ⟨1, _⟩ => show win3_3.index t (1 : Fin 3) * 512 + 1 * r.val = t.val % 2 * 512 + r.val; omega
  | ⟨2, _⟩ => show win3_3.index t (2 : Fin 3) * 1 + 1 * v.val = 0; have := v.isLt; omega

/-- The mask row block of point t at (u, v, q) is the row array at (batch, 0, q). -/
theorem iblk3_4_apply (c : Dev nD) (t : Fin cfg3.N) (u v : Fin 1) (q : Fin 1024) :
    (iblk3 V c 4 t : Vec Ideal S1x1x1024 .f32) (ix3 u v q)
      = (V c main_v2 : S8x1x1024.Idx → EReal) (ix3 (batch3 t) (0 : Fin 1) q) := by
  obtain ⟨e0, e1, e2⟩ := idx3_4 t
  unfold iblk3
  rw [View.read_apply]
  show V c main_v2 _ = V c main_v2 _
  congr 1
  funext a
  apply Fin.ext
  match a with
  | ⟨0, _⟩ => show win3_4.index t (0 : Fin 3) * 1 + 1 * u.val = t.val / 2; have := u.isLt; omega
  | ⟨1, _⟩ => show win3_4.index t (1 : Fin 3) * 1 + 1 * v.val = 0; have := v.isLt; omega
  | ⟨2, _⟩ => show win3_4.index t (2 : Fin 3) * 1024 + 1 * q.val = q.val; omega

/-- The first layer's weight block is the whole weight array. -/
theorem iblk3_5_apply (c : Dev nD) (t : Fin cfg3.N) (a0 : Fin 4) (a1 : Fin 16) :
    (iblk3 V c 5 t : Vec Ideal S4x16 .f32) (ix2 a0 a1)
      = (V c main_arg2 : S4x16.Idx → EReal) (ix2 a0 a1) := by
  obtain ⟨e0, e1⟩ := idx3_5 t
  unfold iblk3
  rw [View.read_apply]
  show V c main_arg2 _ = V c main_arg2 _
  congr 1
  funext a
  apply Fin.ext
  match a with
  | ⟨0, _⟩ => show win3_5.index t (0 : Fin 2) * 4 + 1 * a0.val = a0.val; omega
  | ⟨1, _⟩ => show win3_5.index t (1 : Fin 2) * 16 + 1 * a1.val = a1.val; omega

/-- The first layer's bias block is the whole bias array. -/
theorem iblk3_6_apply (c : Dev nD) (t : Fin cfg3.N) (a0 : Fin 16) :
    (iblk3 V c 6 t : Vec Ideal S16 .f32) (ix1 a0)
      = (V c main_arg3 : S16.Idx → EReal) (ix1 a0) := by
  obtain e0 := idx3_6 t
  unfold iblk3
  rw [View.read_apply]
  show V c main_arg3 _ = V c main_arg3 _
  congr 1
  funext a
  apply Fin.ext
  match a with
  | ⟨0, _⟩ => show win3_6.index t (0 : Fin 1) * 16 + 1 * a0.val = a0.val; omega

/-- The second layer's weight block is the whole weight array. -/
theorem iblk3_7_apply (c : Dev nD) (t : Fin cfg3.N) (a0 : Fin 16) (a1 : Fin 8) :
    (iblk3 V c 7 t : Vec Ideal S16x8 .f32) (ix2 a0 a1)
      = (V c main_arg4 : S16x8.Idx → EReal) (ix2 a0 a1) := by
  obtain ⟨e0, e1⟩ := idx3_7 t
  unfold iblk3
  rw [View.read_apply]
  show V c main_arg4 _ = V c main_arg4 _
  congr 1
  funext a
  apply Fin.ext
  match a with
  | ⟨0, _⟩ => show win3_7.index t (0 : Fin 2) * 16 + 1 * a0.val = a0.val; omega
  | ⟨1, _⟩ => show win3_7.index t (1 : Fin 2) * 8 + 1 * a1.val = a1.val; omega

/-- The second layer's bias block is the whole bias array. -/
theorem iblk3_8_apply (c : Dev nD) (t : Fin cfg3.N) (a0 : Fin 8) :
    (iblk3 V c 8 t : Vec Ideal S8 .f32) (ix1 a0)
      = (V c main_arg5 : S8.Idx → EReal) (ix1 a0) := by
  obtain e0 := idx3_8 t
  unfold iblk3
  rw [View.read_apply]
  show V c main_arg5 _ = V c main_arg5 _
  congr 1
  funext a
  apply Fin.ext
  match a with
  | ⟨0, _⟩ => show win3_8.index t (0 : Fin 1) * 8 + 1 * a0.val = a0.val; omega

/-- Two functions on a rank-4 index set that agree at every quadruple of coordinates are equal. -/
theorem funext_ix4_3 {α : Type} {n0 n1 n2 n3 : ℕ} {f g : (⟨4, ![n0, n1, n2, n3]⟩ : Shape).Idx → α}
    (h : ∀ (a : Fin n0) (b : Fin n1) (c : Fin n2) (d : Fin n3), f (ix4 a b c d) = g (ix4 a b c d)) : f = g :=
  funext fun j => by rw [eq_ix4 j]; exact h _ _ _ _

variable (adj : FVec Ideal ⟨3, ![8, 1024, 1024]⟩ .f32) (mask : IVec ⟨2, ![8, 1024]⟩ 1)
    (w1 : FVec Ideal ⟨2, ![4, 16]⟩ .f32) (b1 : FVec Ideal ⟨1, ![16]⟩ .f32) (w2 : FVec Ideal ⟨2, ![16, 8]⟩ .f32) (b2 : FVec Ideal ⟨1, ![8]⟩ .f32)

/-- WHAT POINT t WRITES BACK is block t of the specification's result in heads-major order. -/
theorem flushed3_eq (c : Dev nD)
    (h3 : (V c main_v3 : S8x1024x1024.Idx → EReal) = Cert.Spec.arrP adj mask)
    (h4 : (V c main_v4 : S8x1024x1024.Idx → EReal) = Cert.Spec.arrP2 adj mask)
    (h5 : (V c main_v5 : S8x1024x1024.Idx → EReal) = Cert.Spec.arrP4 adj mask)
    (h1 : ∀ (b : Fin 8) (i : Fin 1024) (u : Fin 1), (V c main_v1 : S8x1024x1.Idx → EReal) (ix3 b i u) = Cert.Spec.msk mask b i)
    (h2 : ∀ (b : Fin 8) (u : Fin 1) (j : Fin 1024), (V c main_v2 : S8x1x1024.Idx → EReal) (ix3 b u j) = Cert.Spec.msk mask b j)
    (hw1 : (V c main_arg2 : S4x16.Idx → EReal) = w1) (hb1 : (V c main_arg3 : S16.Idx → EReal) = b1)
    (hw2 : (V c main_arg4 : S16x8.Idx → EReal) = w2) (hb2 : (V c main_arg5 : S8.Idx → EReal) = b2)
    (t : Fin cfg3.N) :
    (dat3 V c).flushed 9 t = ((cfg3.win 9).blk t).view.read (Elt Ideal) (Cert.Spec.arrOutHM adj mask w1 b1 w2 b2) := by
  show (cfg3.win 9).cut (grid3.coords t) ((dat3 V c).after 9 t) = _
  rw [after3_9, out3_9_eq]
  rw [View.canon_unit_zero hz4_3]
  simp only [View.ld_unit_zero (S := S1x512x1024) hz3_3, View.ld_unit_zero (S := S1x512x1) hz3_3,
    View.ld_unit_zero (S := S1x1x1024) hz3_3, View.ld_unit_zero (S := S4x16) hz2_3, View.ld_unit_zero (S := S16) hz1_3,
    View.ld_unit_zero (S := S16x8) hz2_3, View.ld_unit_zero (S := S8) hz1_3]
  have e5 : (iblk3 V c 5 t : Vec Ideal S4x16 .f32) = w1 := by
    rw [← hw1]; funext j; rw [eq_ix2 j]; exact iblk3_5_apply V c t _ _
  have e6 : (iblk3 V c 6 t : Vec Ideal S16 .f32) = b1 := by
    rw [← hb1]; funext j; rw [eq_ix1 j]; exact iblk3_6_apply V c t _
  have e7 : (iblk3 V c 7 t : Vec Ideal S16x8 .f32) = w2 := by
    rw [← hw2]; funext j; rw [eq_ix2 j]; exact iblk3_7_apply V c t _ _
  have e8 : (iblk3 V c 8 t : Vec Ideal S8 .f32) = b2 := by
    rw [← hb2]; funext j; rw [eq_ix1 j]; exact iblk3_8_apply V c t _
  refine funext_ix4_3 (n0 := 1) (n1 := 8) (n2 := 512) (n3 := 1024) (α := EReal) fun u o r q => ?_
  show store3 (F := Ideal) (grid3.coords t) (iblk3 V c 0 t) (iblk3 V c 1 t) (iblk3 V c 2 t) (iblk3 V c 3 t) (iblk3 V c 4 t)
      (iblk3 V c 5 t) (iblk3 V c 6 t) (iblk3 V c 7 t) (iblk3 V c 8 t) (ix4 u o r q)
    = Cert.Spec.arrOutHM adj mask w1 b1 w2 b2 (((cfg3.win 9).blk t).view.emb (ix4 u o r q))
  have hemb : ((cfg3.win 9).blk t).view.emb (ix4 u o r q) = (ix4 (batch3 t) o (row3 t r) q : S8x8x1024x1024.Idx) := by
    obtain ⟨e0, e1, e2, e3⟩ := idx3_9 t
    funext a
    apply Fin.ext
    match a with
    | ⟨0, _⟩ => show win3_9.index t (0 : Fin 4) * 1 + 1 * u.val = t.val / 2; have := u.isLt; omega
    | ⟨1, _⟩ => show win3_9.index t (1 : Fin 4) * 8 + 1 * o.val = o.val; omega
    | ⟨2, _⟩ => show win3_9.index t (2 : Fin 4) * 512 + 1 * r.val = t.val % 2 * 512 + r.val; omega
    | ⟨3, _⟩ => show win3_9.index t (3 : Fin 4) * 1024 + 1 * q.val = q.val; omega
  rw [hemb, Cert.Spec.arrOutHM_ix4, e5, e6, e7, e8]
  refine body_eq_out adj mask w1 b1 w2 b2 (grid3.coords t) (iblk3 V c 0 t) (iblk3 V c 1 t) (iblk3 V c 2 t) (iblk3 V c 3 t)
    (iblk3 V c 4 t) (batch3 t) (row3 t r) r ?_ (fun q' => ?_) (fun q' => ?_) (fun q' => ?_) ?_ (fun q' => ?_) u o q
  · show t.val % 2 * 512 + r.val = ((grid3.coords t) 1).val * 512 + r.val
    rw [coord3_1 t]
  · rw [iblk3_0_apply, h3, Cert.Spec.arrP_ix3]
  · rw [iblk3_1_apply, h4, Cert.Spec.arrP2_ix3]
  · rw [iblk3_2_apply, h5, Cert.Spec.arrP4_ix3]
  · rw [iblk3_3_apply, h1]
  · rw [iblk3_4_apply, h2]

/-- An index of the array is in point t's block iff each coordinate is in the block's range on its axis. -/
theorem mem_blk3_9 (t : Fin cfg3.N) (i : S8x8x1024x1024.Idx) :
    i ∈ ((cfg3.win 9).blk t).view.set
      ↔ ∀ a : Fin 4, win3_9.index t a * S1x8x512x1024.size a ≤ (i a).val
          ∧ (i a).val < win3_9.index t a * S1x8x512x1024.size a + S1x8x512x1024.size a := by
  show i ∈ ((View.whole main_v6).slice (win3_9.rect t)).set ↔ _
  rw [View.set_slice_whole, Rect.mem_set_unit]
  exact Iff.rfl

/-- Every index of the array is in the block of the point that holds its batch entry and its half of the rows. -/
theorem blkcover3_9 (i : S8x8x1024x1024.Idx) :
    ∃ t : Fin cfg3.N, (cfg3.win 9).flush t = true ∧ i ∈ ((cfg3.win 9).blk t).view.set := by
  have hi0 : (i 0).val < 8 := (i 0).isLt
  have hi1 : (i 1).val < 8 := (i 1).isLt
  have hi2 : (i 2).val < 1024 := (i 2).isLt
  have hi3 : (i 3).val < 1024 := (i 3).isLt
  refine ⟨⟨(i 0).val * 2 + (i 2).val / 512, by have hN := N3; omega⟩, flush3_9 _, ?_⟩
  rw [mem_blk3_9]
  obtain ⟨e0, e1, e2, e3⟩ := idx3_9 ⟨(i 0).val * 2 + (i 2).val / 512, by have hN := N3; omega⟩
  intro a
  match a with
  | ⟨0, _⟩ =>
    show win3_9.index _ (0 : Fin 4) * 1 ≤ (i 0).val ∧ (i 0).val < win3_9.index _ (0 : Fin 4) * 1 + 1
    rw [e0]; show ((i 0).val * 2 + (i 2).val / 512) / 2 * 1 ≤ (i 0).val ∧ (i 0).val < ((i 0).val * 2 + (i 2).val / 512) / 2 * 1 + 1
    omega
  | ⟨1, _⟩ =>
    show win3_9.index _ (1 : Fin 4) * 8 ≤ (i 1).val ∧ (i 1).val < win3_9.index _ (1 : Fin 4) * 8 + 8
    rw [e1]; omega
  | ⟨2, _⟩ =>
    show win3_9.index _ (2 : Fin 4) * 512 ≤ (i 2).val ∧ (i 2).val < win3_9.index _ (2 : Fin 4) * 512 + 512
    rw [e2]; show ((i 0).val * 2 + (i 2).val / 512) % 2 * 512 ≤ (i 2).val ∧ (i 2).val < ((i 0).val * 2 + (i 2).val / 512) % 2 * 512 + 512
    omega
  | ⟨3, _⟩ =>
    show win3_9.index _ (3 : Fin 4) * 1024 ≤ (i 3).val ∧ (i 3).val < win3_9.index _ (3 : Fin 4) * 1024 + 1024
    rw [e3]; omega

/-- THE ARRAY the stage leaves is the specification's result in heads-major order. -/
theorem final3 (c : Dev nD)
    (h3 : (V c main_v3 : S8x1024x1024.Idx → EReal) = Cert.Spec.arrP adj mask)
    (h4 : (V c main_v4 : S8x1024x1024.Idx → EReal) = Cert.Spec.arrP2 adj mask)
    (h5 : (V c main_v5 : S8x1024x1024.Idx → EReal) = Cert.Spec.arrP4 adj mask)
    (h1 : ∀ (b : Fin 8) (i : Fin 1024) (u : Fin 1), (V c main_v1 : S8x1024x1.Idx → EReal) (ix3 b i u) = Cert.Spec.msk mask b i)
    (h2 : ∀ (b : Fin 8) (u : Fin 1) (j : Fin 1024), (V c main_v2 : S8x1x1024.Idx → EReal) (ix3 b u j) = Cert.Spec.msk mask b j)
    (hw1 : (V c main_arg2 : S4x16.Idx → EReal) = w1) (hb1 : (V c main_arg3 : S16.Idx → EReal) = b1)
    (hw2 : (V c main_arg4 : S16x8.Idx → EReal) = w2) (hb2 : (V c main_arg5 : S8.Idx → EReal) = b2) :
    (dat3 V c).arrAt 9 cfg3.N = Cert.Spec.arrOutHM adj mask w1 b1 w2 b2 :=
  (dat3 V c).arrAt_eq_of_cover 9 (Cert.Spec.arrOutHM adj mask w1 b1 w2 b2)
    (fun t _ => flushed3_eq V adj mask w1 b1 w2 b2 c h3 h4 h5 h1 h2 hw1 hb1 hw2 hb2 t) blkcover3_9

end Cert.KernelIdeal.Val

end
-- ==== Proof.KIValue.lean ====
/-
  The value of the whole run: the result array is the specification's function of the six argument arrays.

  Walking the run's boundary contents forwards: the first host stretch leaves the mask's numbers as a column and a row;
  the row-normalising region then leaves the array P; the two product regions leave P2 and P4; the last region, which
  finds P, P2, P4, the mask's column and row and the four weight arrays as launched, leaves the heads-major output; the
  host transposition moves the channel axis to the end, so the result at (b, i, j, o) is the heads-major array at
  (b, o, i, j), the specification's output at (b, i, j, o).
-/
import proofs.«115754_j78331613544465_2_alg».proof.Proof.KIArgs
import proofs.«115754_j78331613544465_2_alg».proof.Proof.KIHost0
import proofs.«115754_j78331613544465_2_alg».proof.Proof.KIHost4
import proofs.«115754_j78331613544465_2_alg».proof.Proof.KIVal0
import proofs.«115754_j78331613544465_2_alg».proof.Proof.KIVal1
import proofs.«115754_j78331613544465_2_alg».proof.Proof.KIVal2
import proofs.«115754_j78331613544465_2_alg».proof.Proof.KIVal3

noncomputable section

namespace Cert.KernelIdeal.Val

open Idealize.ShloMosaic Idealize.ShloMosaic.TcCoe Idealize.ShloMosaic.ValueIdx Idealize.SL.Sem
open Cert.KernelIdeal

variable (m : (ℓ : Loc nD τ sig) → Buf (Elt Ideal) ℓ)

/-! ## The first three regions' arrays -/

/-- The mask's column as the row-normalising region finds it. -/
theorem V1_main_v1 (c : Dev nD) (b : Fin 8) (i : Fin 1024) (u : Fin 1) :
    (Frm.V1 m c main_v1 : S8x1024x1.Idx → EReal) (ix3 b i u)
      = Cert.Spec.msk (m ((c : Thread nD τ).loc main_arg1) : IVec ⟨2, ![8, 1024]⟩ 1) b i :=
  main_v1_apply (Frm.W0 m c) b i u

/-- The mask's row as the row-normalising region finds it. -/
theorem V1_main_v2 (c : Dev nD) (b : Fin 8) (u : Fin 1) (j : Fin 1024) :
    (Frm.V1 m c main_v2 : S8x1x1024.Idx → EReal) (ix3 b u j)
      = Cert.Spec.msk (m ((c : Thread nD τ).loc main_arg1) : IVec ⟨2, ![8, 1024]⟩ 1) b j :=
  main_v2_apply (Frm.W0 m c) b u j

/-- After the row-normalising region its output array is P of the adjacency and the mask as launched. -/
theorem arr_P (c : Dev nD) :
    (Frm.dat0 (Frm.V1 m) c).arrAt 3 cfg0.N
      = Cert.Spec.arrP (m ((c : Thread nD τ).loc main_arg0)) (m ((c : Thread nD τ).loc main_arg1)) :=
  final0 (Frm.V1 m) _ _ c (Frm.V1_main_arg0 m c) (V1_main_v1 m c) (V1_main_v2 m c)

/-- After the first product region its output array is P2. -/
theorem arr_P2 (c : Dev nD) :
    (Frm.dat1 (Frm.V2 m) c).arrAt 2 cfg1.N
      = Cert.Spec.arrP2 (m ((c : Thread nD τ).loc main_arg0)) (m ((c : Thread nD τ).loc main_arg1)) :=
  final1 (Frm.V2 m) _ _ c ((Frm.V2_main_v3 m c).trans (arr_P m c))

/-- After the second product region its output array is P4. -/
theorem arr_P4 (c : Dev nD) :
    (Frm.dat2 (Frm.V3 m) c).arrAt 2 cfg2.N
      = Cert.Spec.arrP4 (m ((c : Thread nD τ).loc main_arg0)) (m ((c : Thread nD τ).loc main_arg1)) :=
  final2 (Frm.V3 m) _ _ c ((Frm.V3_main_v4 m c).trans (arr_P2 m c))

/-! ## What the last region finds -/

theorem V4_P (c : Dev nD) :
    (Frm.V4 m c main_v3 : S8x1024x1024.Idx → EReal)
      = Cert.Spec.arrP (m ((c : Thread nD τ).loc main_arg0)) (m ((c : Thread nD τ).loc main_arg1)) :=
  (Frm.V4_main_v3 m c).trans (arr_P m c)
theorem V4_P2 (c : Dev nD) :
    (Frm.V4 m c main_v4 : S8x1024x1024.Idx → EReal)
      = Cert.Spec.arrP2 (m ((c : Thread nD τ).loc main_arg0)) (m ((c : Thread nD τ).loc main_arg1)) :=
  (Frm.V4_main_v4 m c).trans (arr_P2 m c)
theorem V4_P4 (c : Dev nD) :
    (Frm.V4 m c main_v5 : S8x1024x1024.Idx → EReal)
      = Cert.Spec.arrP4 (m ((c : Thread nD τ).loc main_arg0)) (m ((c : Thread nD τ).loc main_arg1)) :=
  (Frm.V4_main_v5 m c).trans (arr_P4 m c)
theorem V4_col (c : Dev nD) (b : Fin 8) (i : Fin 1024) (u : Fin 1) :
    (Frm.V4 m c main_v1 : S8x1024x1.Idx → EReal) (ix3 b i u)
      = Cert.Spec.msk (m ((c : Thread nD τ).loc main_arg1) : IVec ⟨2, ![8, 1024]⟩ 1) b i :=
  (congrFun (Frm.V4_main_v1 m c) (ix3 b i u)).trans (V1_main_v1 m c b i u)
theorem V4_row (c : Dev nD) (b : Fin 8) (u : Fin 1) (j : Fin 1024) :
    (Frm.V4 m c main_v2 : S8x1x1024.Idx → EReal) (ix3 b u j)
      = Cert.Spec.msk (m ((c : Thread nD τ).loc main_arg1) : IVec ⟨2, ![8, 1024]⟩ 1) b j :=
  (congrFun (Frm.V4_main_v2 m c) (ix3 b u j)).trans (V1_main_v2 m c b u j)

/-! ## The result array -/

/-- If the last region leaves the heads-major output of the six arguments as launched, the result array at the end of
    the run is the specification's function of them. -/
theorem W6_main_v7_of (c : Dev nD)
    (hout : (Frm.dat3 (Frm.V4 m) c).arrAt 9 cfg3.N
      = Cert.Spec.arrOutHM (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5))) :
    (Frm.W6 m c (Proc.devRef .tc main_v7) : S8x1024x1024x8.Idx → EReal)
      = Cert.Spec.G (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5)) := by
  funext x
  obtain ⟨b, i, j, o, rfl⟩ : ∃ (b : Fin 8) (i j : Fin 1024) (o : Fin 8), x = ix4 b i j o := ⟨x 0, x 1, x 2, x 3, eq_ix4 x⟩
  refine (main_v7_apply (Frm.W5 m c) b i j o).trans ?_
  rw [Frm.W5_main_v6, hout, Cert.Spec.arrOutHM_ix4, Cert.Spec.G_ix4]

/-- After the last region its output array is the heads-major output of the six arguments as launched. -/
theorem arr_out (c : Dev nD) :
    (Frm.dat3 (Frm.V4 m) c).arrAt 9 cfg3.N
      = Cert.Spec.arrOutHM (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5)) :=
  final3 (Frm.V4 m) _ _ _ _ _ _ c (V4_P m c) (V4_P2 m c) (V4_P4 m c) (V4_col m c) (V4_row m c)
    (Frm.V4_main_arg2 m c) (Frm.V4_main_arg3 m c) (Frm.V4_main_arg4 m c) (Frm.V4_main_arg5 m c)

/-- THE RESULT ARRAY at the end of the run is the specification's function of the six argument arrays as launched. -/
theorem W6_main_v7 (c : Dev nD) :
    (Frm.W6 m c (Proc.devRef .tc main_v7) : S8x1024x1024x8.Idx → EReal)
      = Cert.Spec.G (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5)) :=
  W6_main_v7_of m c (arr_out m c)

end Cert.KernelIdeal.Val

end
-- ==== Proof.RefIsSpec.lean ====
/-
  The reference program's result, entry by entry, is the specification's G.

  The reference is read one stage at a time at an index given by explicit coordinates (b, i, j) and, for the
  last two layers, a channel.  Every broadcast only drops or repeats a coordinate, so each stage's value at
  (b, i, j) is the next earlier stage's value at the coordinates it keeps; the row sum is the zero word plus a
  sum over the last coordinate; the two batched products are sums over the middle coordinate; the stack of four
  arrays along a new last axis picks the array its last coordinate names; and the two layers of the perceptron
  are sums over 4 and 16 channels.  No law of arithmetic beyond 0 + x = x, x * 1 = x and x * 0 = 0 is used.
-/
import proofs.«115754_j78331613544465_2_alg».proof.Proof.Gen.ReferenceIdeal.Read
import proofs.«115754_j78331613544465_2_alg».proof.Proof.Spec

noncomputable section

namespace Cert.ReferenceIdeal.RefValue

open Idealize.ShloMosaic Idealize.ShloMosaic.ValueIdx Cert.ReferenceIdeal Cert.ReferenceIdeal.Gen Cert.ReferenceIdeal.Read

variable (a0 : (⟨S8x1024x1024, .f32⟩ : BufTy).Contents (Elt Ideal)) (a1 : (⟨S8x1024, .i1⟩ : BufTy).Contents (Elt Ideal))
  (a2 : (⟨S4x16, .f32⟩ : BufTy).Contents (Elt Ideal)) (a3 : (⟨S16, .f32⟩ : BufTy).Contents (Elt Ideal))
  (a4 : (⟨S16x8, .f32⟩ : BufTy).Contents (Elt Ideal)) (a5 : (⟨S8, .f32⟩ : BufTy).Contents (Elt Ideal))

/-! ## The masked, row-normalised adjacency -/

/-- The converted mask at (b, i) is the mask bit as a number. -/
theorem mask_at (b : Fin 8) (i : Fin 1024) : val_main_v0 (F := Ideal) a1 (ix2 b i) = Cert.Spec.msk a1 b i := rfl

/-- The product of the mask's column and row broadcasts at (b, i, j) is m_i * m_j. -/
theorem pair_at (b : Fin 8) (i j : Fin 1024) :
    val_main_v5 (F := Ideal) a1 (ix3 b i j) = Cert.Spec.pair a1 b i j := by
  have e1 : idx_main_v1 (idx_main_v3 (ix3 b i j)) = ix2 b i :=
    funext fun a => Fin.ext (by match a with | ⟨0, _⟩ => rfl | ⟨1, _⟩ => rfl)
  have e2 : idx_main_v2 (idx_main_v4 (ix3 b i j)) = ix2 b j :=
    funext fun a => Fin.ext (by match a with | ⟨0, _⟩ => rfl | ⟨1, _⟩ => rfl)
  rw [val_main_v5_apply, val_main_v3_apply, val_main_v1_apply, val_main_v4_apply, val_main_v2_apply, e1, e2,
    mask_at, mask_at]
  rfl

/-- The masked adjacency at (b, i, j). -/
theorem A_at (b : Fin 8) (i j : Fin 1024) :
    val_main_v6 (F := Ideal) a0 a1 (ix3 b i j) = Cert.Spec.A a0 a1 b i j := by
  rw [val_main_v6_apply, pair_at]
  rfl

/-- The row sum at (b, i): the zero word plus the sum of the row is the row's sum. -/
theorem deg_at (b : Fin 8) (i : Fin 1024) :
    val_main_v7 (F := Ideal) a0 a1 (ix2 b i) = Cert.Spec.deg a0 a1 b i := by
  rw [val_main_v7_apply, val_main_cst_apply, Ideal.ofBits_def, Ideal.ofBits_zero_f32, zero_add]
  unfold Cert.Spec.deg
  refine Finset.sum_congr rfl fun k _ => ?_
  have e : idx_main_v7 (ix2 b i) k = ix3 b i k :=
    funext fun a => Fin.ext (by match a with | ⟨0, _⟩ => rfl | ⟨1, _⟩ => rfl | ⟨2, _⟩ => rfl)
  rw [e, A_at]

/-- The divisor at (b, i): one where the row sum is zero, the row sum elsewhere. -/
theorem den_at (b : Fin 8) (i : Fin 1024) (z : Fin 1) :
    val_main_v11 (F := Ideal) a0 a1 (ix3 b i z) = Cert.Spec.den a0 a1 b i := by
  have e8 : idx_main_v8 (ix3 b i z) = ix2 b i :=
    funext fun a => Fin.ext (by match a with | ⟨0, _⟩ => rfl | ⟨1, _⟩ => rfl)
  rw [val_main_v11_apply, val_main_v10_apply, val_main_v8_apply, val_main_v9_apply, val_main_cst_0_apply,
    val_main_call0_v1_apply, val_main_call0_v0_apply, val_main_cst_1_apply, e8, deg_at]
  rfl

/-- The row-normalised masked adjacency at (b, i, j). -/
theorem P_at (b : Fin 8) (i j : Fin 1024) :
    val_main_v13 (F := Ideal) a0 a1 (ix3 b i j) = Cert.Spec.P a0 a1 b i j := by
  have e12 : idx_main_v12 (ix3 b i j) = ix3 b i (0 : Fin 1) :=
    funext fun a => Fin.ext (by match a with | ⟨0, _⟩ => rfl | ⟨1, _⟩ => rfl | ⟨2, _⟩ => rfl)
  rw [val_main_v13_apply, val_main_v12_apply, e12, den_at, A_at]
  rfl

/-! ## Its second and fourth powers -/

/-- The batched product of the normalised adjacency with itself at (b, i, j): the sum over the middle coordinate. -/
theorem P2_at (b : Fin 8) (i j : Fin 1024) :
    val_main_v14 (F := Ideal) a0 a1 (ix3 b i j) = Cert.Spec.P2 a0 a1 b i j := by
  rw [val_main_v14_apply]
  unfold Cert.Spec.P2
  refine Finset.sum_congr rfl fun k _ => ?_
  have el : lidx_main_v14 (ix3 b i j) k = ix3 b i k :=
    funext fun a => Fin.ext (by match a with | ⟨0, _⟩ => rfl | ⟨1, _⟩ => rfl | ⟨2, _⟩ => rfl)
  have er : ridx_main_v14 (ix3 b i j) k = ix3 b k j :=
    funext fun a => Fin.ext (by match a with | ⟨0, _⟩ => rfl | ⟨1, _⟩ => rfl | ⟨2, _⟩ => rfl)
  rw [el, er, P_at, P_at]

/-- The batched product of the square with itself at (b, i, j). -/
theorem P4_at (b : Fin 8) (i j : Fin 1024) :
    val_main_v15 (F := Ideal) a0 a1 (ix3 b i j) = Cert.Spec.P4 a0 a1 b i j := by
  rw [val_main_v15_apply]
  unfold Cert.Spec.P4
  refine Finset.sum_congr rfl fun k _ => ?_
  have el : lidx_main_v15 (ix3 b i j) k = ix3 b i k :=
    funext fun a => Fin.ext (by match a with | ⟨0, _⟩ => rfl | ⟨1, _⟩ => rfl | ⟨2, _⟩ => rfl)
  have er : ridx_main_v15 (ix3 b i j) k = ix3 b k j :=
    funext fun a => Fin.ext (by match a with | ⟨0, _⟩ => rfl | ⟨1, _⟩ => rfl | ⟨2, _⟩ => rfl)
  rw [el, er, P2_at, P2_at]

/-! ## The masked identity -/

/-- Two numbers below 1024 are equal as 32-bit words exactly when they are equal. -/
theorem word_eq_iff (i j : Fin 1024) : BitVec.ofNat 32 i.val = BitVec.ofNat 32 j.val ↔ i = j := by
  constructor
  · intro h
    have h' := congrArg BitVec.toNat h
    simp only [BitVec.toNat_ofNat] at h'
    exact Fin.ext (by omega)
  · intro h; rw [h]

/-- The comparison of the row and column counters, converted: one on the diagonal, zero off it. -/
theorem eye_at (i j : Fin 1024) :
    val_main_v22 (F := Ideal) (ix2 i j) = if i = j then 1 else 0 := by
  rw [val_main_v22_apply, val_main_v21_apply, val_main_v20_apply, val_main_v17_apply, val_main_v18_apply,
    val_main_v19_apply, val_main_c_apply]
  show (((IntOp.cmpi .eq (IntOp.addi (BitVec.ofNat 32 i.val) 0#32) (BitVec.ofNat 32 j.val)).toNat : ℝ) : EReal) = _
  unfold IntOp.cmpi IntOp.addi
  rw [BitVec.add_zero]
  by_cases h : i = j
  · rw [if_pos h, h]; simp
  · rw [if_neg h]
    have hne : ¬ BitVec.ofNat 32 i.val = BitVec.ofNat 32 j.val := fun e => h ((word_eq_iff i j).mp e)
    simp [hne]

/-- The masked identity at (b, i, j): m_i times one or zero is m_i on the diagonal and zero off it. -/
theorem selfAdj_at (b : Fin 8) (i j : Fin 1024) :
    val_main_v26 (F := Ideal) a1 (ix3 b i j) = Cert.Spec.selfAdj a1 b i j := by
  have e24 : idx_main_v16 (idx_main_v24 (ix3 b i j)) = ix2 b i :=
    funext fun a => Fin.ext (by match a with | ⟨0, _⟩ => rfl | ⟨1, _⟩ => rfl)
  have e25 : idx_main_v23 (idx_main_v25 (ix3 b i j)) = ix2 i j :=
    funext fun a => Fin.ext (by match a with | ⟨0, _⟩ => rfl | ⟨1, _⟩ => rfl)
  rw [val_main_v26_apply, val_main_v24_apply, val_main_v16_apply, val_main_v25_apply, val_main_v23_apply, e24, e25,
    mask_at, eye_at, Ideal.mulf_def]
  unfold Cert.Spec.selfAdj
  by_cases h : i = j
  · rw [if_pos h, if_pos h, mul_one]
  · rw [if_neg h, if_neg h, mul_zero]

/-! ## The four arrays stacked along a new last axis -/

/-- Four arrays of one shape with a last axis of extent one, joined along that axis and read at (b, i, j, s): the
    array that s names, at (b, i, j, 0), for any four arrays. -/
theorem stack_at (y0 y1 y2 y3 : S8x1024x1024x1.Idx → EReal)
    (h : Shape.Concatenates [S8x1024x1024x1, S8x1024x1024x1, S8x1024x1024x1, S8x1024x1024x1] S8x1024x1024x4 3)
    (b : Fin 8) (i j : Fin 1024) (s : Fin 4) :
    concatenate S8x1024x1024x4 3
        [⟨S8x1024x1024x1, y0⟩, ⟨S8x1024x1024x1, y1⟩, ⟨S8x1024x1024x1, y2⟩, ⟨S8x1024x1024x1, y3⟩] h (ix4 b i j s)
      = (![y0, y1, y2, y3] s) (ix4 b i j (0 : Fin 1)) :=
  concatenate_ofFn_unit_apply (t := S8x1024x1024x4) (s₁ := S8x1024x1024x1) (3 : Fin 4) (![y0, y1, y2, y3]) h rfl rfl
    (ix4 b i j s) s rfl (ix4 b i j (0 : Fin 1))
    (fun d hd => by
      match d with
      | ⟨0, _⟩ => rfl
      | ⟨1, _⟩ => rfl
      | ⟨2, _⟩ => rfl
      | ⟨3, _⟩ => exact absurd rfl hd)

/-- The stacked value at (b, i, j, s): the masked identity, P, its square, its fourth power, for s = 0, 1, 2, 3. -/
theorem stk_at (b : Fin 8) (i j : Fin 1024) (s : Fin 4) :
    val_main_v31 (F := Ideal) a0 a1 (ix4 b i j s) = Cert.Spec.stk a0 a1 s b i j := by
  have e27 : idx_main_v27 (ix4 b i j (0 : Fin 1)) = ix3 b i j :=
    funext fun a => Fin.ext (by match a with | ⟨0, _⟩ => rfl | ⟨1, _⟩ => rfl | ⟨2, _⟩ => rfl)
  have e28 : idx_main_v28 (ix4 b i j (0 : Fin 1)) = ix3 b i j :=
    funext fun a => Fin.ext (by match a with | ⟨0, _⟩ => rfl | ⟨1, _⟩ => rfl | ⟨2, _⟩ => rfl)
  have e29 : idx_main_v29 (ix4 b i j (0 : Fin 1)) = ix3 b i j :=
    funext fun a => Fin.ext (by match a with | ⟨0, _⟩ => rfl | ⟨1, _⟩ => rfl | ⟨2, _⟩ => rfl)
  have e30 : idx_main_v30 (ix4 b i j (0 : Fin 1)) = ix3 b i j :=
    funext fun a => Fin.ext (by match a with | ⟨0, _⟩ => rfl | ⟨1, _⟩ => rfl | ⟨2, _⟩ => rfl)
  have h0 : val_main_v27 (F := Ideal) a1 (ix4 b i j (0 : Fin 1)) = Cert.Spec.selfAdj a1 b i j := by
    rw [val_main_v27_apply, e27, selfAdj_at]
  have h1 : val_main_v28 (F := Ideal) a0 a1 (ix4 b i j (0 : Fin 1)) = Cert.Spec.P a0 a1 b i j := by
    rw [val_main_v28_apply, e28, P_at]
  have h2 : val_main_v29 (F := Ideal) a0 a1 (ix4 b i j (0 : Fin 1)) = Cert.Spec.P2 a0 a1 b i j := by
    rw [val_main_v29_apply, e29, P2_at]
  have h3 : val_main_v30 (F := Ideal) a0 a1 (ix4 b i j (0 : Fin 1)) = Cert.Spec.P4 a0 a1 b i j := by
    rw [val_main_v30_apply, e30, P4_at]
  unfold val_main_v31
  generalize val_main_v27 (F := Ideal) a1 = y0 at h0 ⊢
  generalize val_main_v28 (F := Ideal) a0 a1 = y1 at h1 ⊢
  generalize val_main_v29 (F := Ideal) a0 a1 = y2 at h2 ⊢
  generalize val_main_v30 (F := Ideal) a0 a1 = y3 at h3 ⊢
  rw [stack_at]
  match s with
  | ⟨0, _⟩ => exact h0
  | ⟨1, _⟩ => exact h1
  | ⟨2, _⟩ => exact h2
  | ⟨3, _⟩ => exact h3

/-! ## The two layers of the perceptron -/

/-- Hidden unit c at (b, i, j): the contraction over the four stacked values, plus the bias, rectified at the zero word. -/
theorem hid_at (b : Fin 8) (i j : Fin 1024) (c : Fin 16) :
    val_main_v36 (F := Ideal) a0 a1 a2 a3 (ix4 b i j c) = Cert.Spec.hid a0 a1 a2 a3 c b i j := by
  have e34 : idx_main_v33 (idx_main_v34 (ix4 b i j c)) = ix1 c :=
    funext fun a => Fin.ext (by match a with | ⟨0, _⟩ => rfl)
  rw [val_main_v36_apply, val_main_v35_apply, val_main_v32_apply, val_main_v34_apply, val_main_v33_apply,
    val_main_call1_v0_apply, val_main_call1_cst_apply, e34, Ideal.ofBits_def, Ideal.ofBits_zero_f32]
  unfold Cert.Spec.hid
  refine congrArg (fun x : EReal => max (x + a3 (ix1 c)) 0) (Finset.sum_congr rfl fun k _ => ?_)
  have el : lidx_main_v32 (ix4 b i j c) k = ix4 b i j k :=
    funext fun a => Fin.ext (by match a with | ⟨0, _⟩ => rfl | ⟨1, _⟩ => rfl | ⟨2, _⟩ => rfl | ⟨3, _⟩ => rfl)
  have er : ridx_main_v32 (ix4 b i j c) k = ix2 k c :=
    funext fun a => Fin.ext (by match a with | ⟨0, _⟩ => rfl | ⟨1, _⟩ => rfl)
  rw [el, er, stk_at]

/-- Output o at (b, i, j): the contraction over the sixteen hidden units, plus the bias, times m_i * m_j. -/
theorem out_at (b : Fin 8) (i j : Fin 1024) (o : Fin 8) :
    val_main_v43 (F := Ideal) a0 a1 a2 a3 a4 a5 (ix4 b i j o) = Cert.Spec.out a0 a1 a2 a3 a4 a5 b i j o := by
  have e39 : idx_main_v38 (idx_main_v39 (ix4 b i j o)) = ix1 o :=
    funext fun a => Fin.ext (by match a with | ⟨0, _⟩ => rfl)
  have e42 : idx_main_v41 (idx_main_v42 (ix4 b i j o)) = ix3 b i j :=
    funext fun a => Fin.ext (by match a with | ⟨0, _⟩ => rfl | ⟨1, _⟩ => rfl | ⟨2, _⟩ => rfl)
  rw [val_main_v43_apply, val_main_v40_apply, val_main_v37_apply, val_main_v39_apply, val_main_v38_apply,
    val_main_v42_apply, val_main_v41_apply, e39, e42, pair_at]
  unfold Cert.Spec.out
  refine congrArg (fun x : EReal => (x + a5 (ix1 o)) * Cert.Spec.pair a1 b i j) (Finset.sum_congr rfl fun k _ => ?_)
  have el : lidx_main_v37 (ix4 b i j o) k = ix4 b i j k :=
    funext fun a => Fin.ext (by match a with | ⟨0, _⟩ => rfl | ⟨1, _⟩ => rfl | ⟨2, _⟩ => rfl | ⟨3, _⟩ => rfl)
  have er : ridx_main_v37 (ix4 b i j o) k = ix2 k o :=
    funext fun a => Fin.ext (by match a with | ⟨0, _⟩ => rfl | ⟨1, _⟩ => rfl)
  rw [el, er, hid_at]

/-! ## The result -/

/-- The reference's last stage, as a function of its six argument arrays, is the specification. -/
theorem result_eq :
    val_main_v43 (F := Ideal) a0 a1 a2 a3 a4 a5 = Cert.Spec.G a0 a1 a2 a3 a4 a5 := by
  funext x
  obtain ⟨b, i, j, o, rfl⟩ : ∃ (b : Fin 8) (i j : Fin 1024) (o : Fin 8), x = ix4 b i j o :=
    ⟨x 0, x 1, x 2, x 3, eq_ix4 x⟩
  rw [out_at, Cert.Spec.G_ix4]

open Idealize.ShloMosaic.TcCoe Idealize.SL.Sem in
/-- The same, for the term the reference's run leaves in its result buffer: the specification of the six argument
    arrays as the launch memory holds them. -/
theorem run_result_eq (m : (ℓ : Loc nD τ sig) → Buf (Elt Ideal) ℓ) (c : Dev nD) :
    Cert.ReferenceIdeal.Value.res_main_v43 (F := Ideal) m c
      = Cert.Spec.G (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) := by
  rw [val_main_v43_eq, result_eq]

end Cert.ReferenceIdeal.RefValue

end
-- ==== Proof.lean ====
/-
  The kernel and the reference compute one function of their arguments on the extended reals.

  The kernel's program is six stretches: host operations that turn the node mask into a column and a row of 0/1 numbers;
  a region that forms the masked adjacency A = adj · m_i · m_j and divides each row by its sum (by one where the sum is
  zero), giving P; two regions that square a [1024, 1024] matrix per batch entry, giving P · P and (P · P) · (P · P);
  a region that applies a two-layer perceptron, entry by entry, to the four values (masked identity, P, P², P⁴) and
  multiplies by m_i · m_j, writing heads-major; and a host transpose.  The reference computes the same quantities
  with whole-array operations.  Both results are the specification's array G: every sum the two programs form is a
  sum of the same terms, in a different order or grouping, and addition on the extended reals is commutative and
  associative, so no finiteness of the inputs is used.

  Each region is run at every grid point on the blocks of its windows; what a region leaves in its output array is
  read block by block (every block is the restriction of one whole-array function, and the blocks cover the array).
  The two squaring regions read ONE array through both of their input windows: the array's read share is split in two
  halves on entry and joined on exit.  The arguments are written by no stretch, so they end as launched: the frames.
-/
import proofs.«115754_j78331613544465_2_alg».proof.Defs
import proofs.«115754_j78331613544465_2_alg».proof.Proof.Gen.Kernel
import proofs.«115754_j78331613544465_2_alg».proof.Proof.Gen.KernelIdeal
import proofs.«115754_j78331613544465_2_alg».proof.Proof.Gen.ReferenceIdeal
import proofs.«115754_j78331613544465_2_alg».proof.Proof.Gen.Pre_finite_inputs
import proofs.«115754_j78331613544465_2_alg».proof.Proof.KArgs
import proofs.«115754_j78331613544465_2_alg».proof.Proof.KIValue
import proofs.«115754_j78331613544465_2_alg».proof.Proof.RefIsSpec
import Idealize.ShloMosaic.Adequacy
import Idealize.ShloMosaic.Init

noncomputable section

namespace Cert.Proof

open Idealize.ShloMosaic Idealize.ShloMosaic.TcCoe Idealize.SL.Sem

/-- The word-level program runs to its end and leaves its arguments as launched. -/
theorem frame_k : Cert.frame_Kernel := fun m ρ _ =>
  (θ_run Cert.Kernel.defs _ _).mono (fun r h c =>
    ⟨(h c _ (Cert.Kernel.Frm.mem_uc Cert.Kernel.main_arg0 (by decide))).trans (Cert.Kernel.Frm.W6_main_arg0 m c),
      (h c _ (Cert.Kernel.Frm.mem_uc Cert.Kernel.main_arg1 (by decide))).trans (Cert.Kernel.Frm.W6_main_arg1 m c),
      (h c _ (Cert.Kernel.Frm.mem_uc Cert.Kernel.main_arg2 (by decide))).trans (Cert.Kernel.Frm.W6_main_arg2 m c),
      (h c _ (Cert.Kernel.Frm.mem_uc Cert.Kernel.main_arg3 (by decide))).trans (Cert.Kernel.Frm.W6_main_arg3 m c),
      (h c _ (Cert.Kernel.Frm.mem_uc Cert.Kernel.main_arg4 (by decide))).trans (Cert.Kernel.Frm.W6_main_arg4 m c),
      (h c _ (Cert.Kernel.Frm.mem_uc Cert.Kernel.main_arg5 (by decide))).trans (Cert.Kernel.Frm.W6_main_arg5 m c)⟩)
    (Cert.Kernel.Frm.run_all (F := Bits) m ρ)

/-- So does its idealization. -/
theorem frame_ki : Cert.frame_KernelIdeal := fun m ρ _ =>
  (θ_run Cert.KernelIdeal.defs _ _).mono (fun r h c =>
    ⟨(h c _ (Cert.KernelIdeal.Frm.mem_uc Cert.KernelIdeal.main_arg0 (by decide))).trans (Cert.KernelIdeal.Frm.W6_main_arg0 m c),
      (h c _ (Cert.KernelIdeal.Frm.mem_uc Cert.KernelIdeal.main_arg1 (by decide))).trans (Cert.KernelIdeal.Frm.W6_main_arg1 m c),
      (h c _ (Cert.KernelIdeal.Frm.mem_uc Cert.KernelIdeal.main_arg2 (by decide))).trans (Cert.KernelIdeal.Frm.W6_main_arg2 m c),
      (h c _ (Cert.KernelIdeal.Frm.mem_uc Cert.KernelIdeal.main_arg3 (by decide))).trans (Cert.KernelIdeal.Frm.W6_main_arg3 m c),
      (h c _ (Cert.KernelIdeal.Frm.mem_uc Cert.KernelIdeal.main_arg4 (by decide))).trans (Cert.KernelIdeal.Frm.W6_main_arg4 m c),
      (h c _ (Cert.KernelIdeal.Frm.mem_uc Cert.KernelIdeal.main_arg5 (by decide))).trans (Cert.KernelIdeal.Frm.W6_main_arg5 m c)⟩)
    (Cert.KernelIdeal.Frm.run_all (F := Ideal) m ρ)

/-- The reference's run, its result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- From memories agreeing on the arguments, both idealized programs end with the specification's array of the
    arguments as their result. -/
theorem algebraic : Cert.algebraic_KernelIdeal_ReferenceIdeal := by
  intro m ρ m' ρ' _ hagree
  refine ⟨fun c => Cert.Spec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono (fun r h c =>
      ⟨(h c _ (Cert.KernelIdeal.Frm.mem_uc Cert.KernelIdeal.main_v7 (by decide))).trans (Cert.KernelIdeal.Val.W6_main_v7 m c),
        (h c _ (Cert.KernelIdeal.Frm.mem_uc Cert.KernelIdeal.main_arg0 (by decide))).trans (Cert.KernelIdeal.Frm.W6_main_arg0 m c),
      (h c _ (Cert.KernelIdeal.Frm.mem_uc Cert.KernelIdeal.main_arg1 (by decide))).trans (Cert.KernelIdeal.Frm.W6_main_arg1 m c),
      (h c _ (Cert.KernelIdeal.Frm.mem_uc Cert.KernelIdeal.main_arg2 (by decide))).trans (Cert.KernelIdeal.Frm.W6_main_arg2 m c),
      (h c _ (Cert.KernelIdeal.Frm.mem_uc Cert.KernelIdeal.main_arg3 (by decide))).trans (Cert.KernelIdeal.Frm.W6_main_arg3 m c),
      (h c _ (Cert.KernelIdeal.Frm.mem_uc Cert.KernelIdeal.main_arg4 (by decide))).trans (Cert.KernelIdeal.Frm.W6_main_arg4 m c),
      (h c _ (Cert.KernelIdeal.Frm.mem_uc Cert.KernelIdeal.main_arg5 (by decide))).trans (Cert.KernelIdeal.Frm.W6_main_arg5 m c)⟩)
      (Cert.KernelIdeal.Frm.run_all (F := Ideal) m ρ)
  · refine (θ_run Cert.ReferenceIdeal.defs _ _).mono (fun r h c => ⟨?_, (h c).2⟩)
      (Cert.ReferenceIdeal.Value.run (F := Ideal) m' ρ')
    rw [(h c).1, Cert.ReferenceIdeal.RefValue.run_result_eq, (hagree c).1, (hagree c).2.1, (hagree c).2.2.1,
      (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
